-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v195)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v195) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v267) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S1x16 : Shape := ⟨2, ![1, 16]⟩
abbrev S16 : Shape := ⟨1, ![16]⟩
abbrev S16x32 : Shape := ⟨2, ![16, 32]⟩
abbrev S32 : Shape := ⟨1, ![32]⟩
abbrev S8x32x16 : Shape := ⟨3, ![8, 32, 16]⟩
abbrev S8x16 : Shape := ⟨2, ![8, 16]⟩
abbrev S8x16x32 : Shape := ⟨3, ![8, 16, 32]⟩
abbrev S8x32 : Shape := ⟨2, ![8, 32]⟩
abbrev S32x1 : Shape := ⟨2, ![32, 1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S8x32x16 : S_.BroadcastsInDim S8x32x16 (![] : Fin 0 → Fin S8x32x16.rank)
  reducesTo_S8x32x16_S_d0_1_2 : S8x32x16.ReducesTo [0, 1, 2] S_
  bcast_S_S8x16 : S_.BroadcastsInDim S8x16 (![] : Fin 0 → Fin S8x16.rank)
  reducesTo_S8x16_S_d0_1 : S8x16.ReducesTo [0, 1] S_
  bcast_S_S8x16x32 : S_.BroadcastsInDim S8x16x32 (![] : Fin 0 → Fin S8x16x32.rank)
  reducesTo_S8x16x32_S_d0_1_2 : S8x16x32.ReducesTo [0, 1, 2] S_
  bcast_S_S8x32 : S_.BroadcastsInDim S8x32 (![] : Fin 0 → Fin S8x32.rank)
  reducesTo_S8x32_S_d0_1 : S8x32.ReducesTo [0, 1] S_
  bcast_S_S32x1 : S_.BroadcastsInDim S32x1 (![] : Fin 0 → Fin S32x1.rank)
  reducesTo_S32x1_S_d0_1 : S32x1.ReducesTo [0, 1] S_

variable [Facts]

def fn_part2 {F : FTy → Type} [FloatOps F] (main_arg8 : FVec F S8x16x32 .f32) (main_arg9 : FVec F S8x32 .f32) (main_arg10 : FVec F S32x1 .f32) (main_v33 : IVec S_ 1) : IVec S_ 1 :=
  let main_v34 : FVec F S8x16x32 .f32 := Host.absf main_arg8
  let main_cst_12 : FVec F S_ .f32 := constant S_ .f32 0x7F800000#32
  let main_v35 : FVec F S8x16x32 .f32 := broadcastInDim S8x16x32 ![] bcast_S_S8x16x32 main_cst_12
  let main_v36 : IVec S8x16x32 1 := cmpf .olt main_v34 main_v35
  let main_c_13 : IVec S_ 1 := constantI S_ 1 1#1
  let main_v37 : IVec S_ 1 := (fun x v => Host.reduce IntOp.andi x v reducesTo_S8x16x32_S_d0_1_2 h_S_) main_v36 main_c_13
  let main_v38 : IVec S_ 1 := andi main_v33 main_v37
  let main_v39 : FVec F S8x32 .f32 := Host.absf main_arg9
  let main_cst_14 : FVec F S_ .f32 := constant S_ .f32 0x7F800000#32
  let main_v40 : FVec F S8x32 .f32 := broadcastInDim S8x32 ![] bcast_S_S8x32 main_cst_14
  let main_v41 : IVec S8x32 1 := cmpf .olt main_v39 main_v40
  let main_c_15 : IVec S_ 1 := constantI S_ 1 1#1
  let main_v42 : IVec S_ 1 := (fun x v => Host.reduce IntOp.andi x v reducesTo_S8x32_S_d0_1 h_S_) main_v41 main_c_15
  let main_v43 : IVec S_ 1 := andi main_v38 main_v42
  let main_v44 : FVec F S32x1 .f32 := Host.absf main_arg10
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  main_v48

def fn_part1 {F : FTy → Type} [FloatOps F] (main_arg5 : FVec F S32 .f32) (main_arg6 : FVec F S8x32x16 .f32) (main_arg7 : FVec F S8x16 .f32) (main_arg8 : FVec F S8x16x32 .f32) (main_arg9 : FVec F S8x32 .f32) (main_arg10 : FVec F S32x1 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S8x32x16 .f32 := Host.absf main_arg6
  let main_cst_8 : FVec F S_ .f32 := constant S_ .f32 0x7F800000#32
  let main_v25 : FVec F S8x32x16 .f32 := broadcastInDim S8x32x16 ![] bcast_S_S8x32x16 main_cst_8
  let main_v26 : IVec S8x32x16 1 := cmpf .olt main_v24 main_v25
  let main_c_9 : IVec S_ 1 := constantI S_ 1 1#1
  let main_v27 : IVec S_ 1 := (fun x v => Host.reduce IntOp.andi x v reducesTo_S8x32x16_S_d0_1_2 h_S_) main_v26 main_c_9
  let main_v28 : IVec S_ 1 := andi main_v23 main_v27
  let main_v29 : FVec F S8x16 .f32 := Host.absf main_arg7
  let main_cst_10 : FVec F S_ .f32 := constant S_ .f32 0x7F800000#32
  let main_v30 : FVec F S8x16 .f32 := broadcastInDim S8x16 ![] bcast_S_S8x16 main_cst_10
  let main_v31 : IVec S8x16 1 := cmpf .olt main_v29 main_v30
  let main_c_11 : IVec S_ 1 := constantI S_ 1 1#1
  let main_v32 : IVec S_ 1 := (fun x v => Host.reduce IntOp.andi x v reducesTo_S8x16_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x1 .f32) (main_arg1 : IVec S2x1600000 32) (main_arg2 : FVec F S1x16 .f32) (main_arg3 : FVec F S16 .f32) (main_arg4 : FVec F S16x32 .f32) (main_arg5 : FVec F S32 .f32) (main_arg6 : FVec F S8x32x16 .f32) (main_arg7 : FVec F S8x16 .f32) (main_arg8 : FVec F S8x16x32 .f32) (main_arg9 : FVec F S8x32 .f32) (main_arg10 : FVec F S32x1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x16 .f32 := Host.absf main_arg2
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_arg6 main_arg7 main_arg8 main_arg9 main_arg10 main_v13 main_v16
-- ==== Kernel.lean ====
abbrev S100000x1 : Shape := ⟨2, ![100000, 1]⟩
abbrev S2x1600000 : Shape := ⟨2, ![2, 1600000]⟩
abbrev S1x16 : Shape := ⟨2, ![1, 16]⟩
abbrev S16 : Shape := ⟨1, ![16]⟩
abbrev S16x32 : Shape := ⟨2, ![16, 32]⟩
abbrev S32 : Shape := ⟨1, ![32]⟩
abbrev S8x32x16 : Shape := ⟨3, ![8, 32, 16]⟩
abbrev S8x16 : Shape := ⟨2, ![8, 16]⟩
abbrev S8x16x32 : Shape := ⟨3, ![8, 16, 32]⟩
abbrev S8x32 : Shape := ⟨2, ![8, 32]⟩
abbrev S32x1 : Shape := ⟨2, ![32, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x32 : Shape := ⟨2, ![1, 32]⟩
abbrev S100000x32 : Shape := ⟨2, ![100000, 32]⟩
abbrev S10000x1 : Shape := ⟨2, ![10000, 1]⟩
abbrev S10000x32 : Shape := ⟨2, ![10000, 32]⟩
abbrev S10000x16 : Shape := ⟨2, ![10000, 16]⟩
abbrev S1600000x32 : Shape := ⟨2, ![1600000, 32]⟩
abbrev S1x32x16 : Shape := ⟨3, ![1, 32, 16]⟩
abbrev S32x16 : Shape := ⟨2, ![32, 16]⟩
abbrev S1x16x32 : Shape := ⟨3, ![1, 16, 32]⟩

abbrev nBuf : Space → Nat
  | .hbm => 237
  | .vmem => 97
  | .smem => 0
  | _ => 0

abbrev hbmTy0_0 (i : Nat) : BufTy := match i % 128 with
  | 0 => ⟨S100000x1, .f32⟩
  | 1 => ⟨S2x1600000, .i32⟩
  | 2 => ⟨S1x16, .f32⟩
  | 3 => ⟨S16, .f32⟩
  | 4 => ⟨S16x32, .f32⟩
  | 5 => ⟨S32, .f32⟩
  | 6 => ⟨S8x32x16, .f32⟩
  | 7 => ⟨S8x16, .f32⟩
  | 8 => ⟨S8x16x32, .f32⟩
  | 9 => ⟨S8x32, .f32⟩
  | 10 => ⟨S32x1, .f32⟩
  | 11 => ⟨S1x1600000, .i32⟩
  | 12 => ⟨S1600000, .i32⟩
  | 13 => ⟨S1x1600000, .i32⟩
  | 14 => ⟨S1600000, .i32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x1, .f32⟩
  | 24 => ⟨S_, .f32⟩
  | 25 => ⟨S100000x1, .f32⟩
  | 26 => ⟨S1600000x1, .i32⟩
  | 27 => ⟨S100000x1, .f32⟩
  | 28 => ⟨S1x16, .f32⟩
  | 29 => ⟨S1x32, .f32⟩
  | 30 => ⟨S100000x32, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x32, .f32⟩
  | 40 => ⟨S_, .f32⟩
  | 41 => ⟨S100000x32, .f32⟩
  | 42 => ⟨S1600000x1, .i32⟩
  | 43 => ⟨S100000x32, .f32⟩
  | 44 => ⟨S1x32x16, .f32⟩
  | 45 => ⟨S32x16, .f32⟩
  | 46 => ⟨S1x16, .f32⟩
  | 47 => ⟨S16, .f32⟩
  | 48 => ⟨S1x16, .f32⟩
  | 49 => ⟨S1x16x32, .f32⟩
  | 50 => ⟨S16x32, .f32⟩
  | 51 => ⟨S1x32, .f32⟩
  | 52 => ⟨S32, .f32⟩
  | 53 => ⟨S1x32, .f32⟩
  | 54 => ⟨S100000x32, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x32, .f32⟩
  | 64 => ⟨S_, .f32⟩
  | 65 => ⟨S100000x32, .f32⟩
  | 66 => ⟨S1600000x1, .i32⟩
  | 67 => ⟨S100000x32, .f32⟩
  | 68 => ⟨S1x32x16, .f32⟩
  | 69 => ⟨S32x16, .f32⟩
  | 70 => ⟨S1x16, .f32⟩
  | 71 => ⟨S16, .f32⟩
  | 72 => ⟨S1x16, .f32⟩
  | 73 => ⟨S1x16x32, .f32⟩
  | 74 => ⟨S16x32, .f32⟩
  | 75 => ⟨S1x32, .f32⟩
  | 76 => ⟨S32, .f32⟩
  | 77 => ⟨S1x32, .f32⟩
  | 78 => ⟨S100000x32, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x32, .f32⟩
  | 88 => ⟨S_, .f32⟩
  | 89 => ⟨S100000x32, .f32⟩
  | 90 => ⟨S1600000x1, .i32⟩
  | 91 => ⟨S100000x32, .f32⟩
  | 92 => ⟨S1x32x16, .f32⟩
  | 93 => ⟨S32x16, .f32⟩
  | 94 => ⟨S1x16, .f32⟩
  | 95 => ⟨S16, .f32⟩
  | 96 => ⟨S1x16, .f32⟩
  | 97 => ⟨S1x16x32, .f32⟩
  | 98 => ⟨S16x32, .f32⟩
  | 99 => ⟨S1x32, .f32⟩
  | 100 => ⟨S32, .f32⟩
  | 101 => ⟨S1x32, .f32⟩
  | 102 => ⟨S100000x32, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x32, .f32⟩
  | 112 => ⟨S_, .f32⟩
  | 113 => ⟨S100000x32, .f32⟩
  | 114 => ⟨S1600000x1, .i32⟩
  | 115 => ⟨S100000x32, .f32⟩
  | 116 => ⟨S1x32x16, .f32⟩
  | 117 => ⟨S32x16, .f32⟩
  | 118 => ⟨S1x16, .f32⟩
  | 119 => ⟨S16, .f32⟩
  | 120 => ⟨S1x16, .f32⟩
  | 121 => ⟨S1x16x32, .f32⟩
  | 122 => ⟨S16x32, .f32⟩
  | 123 => ⟨S1x32, .f32⟩
  | 124 => ⟨S32, .f32⟩
  | 125 => ⟨S1x32, .f32⟩
  | 126 => ⟨S100000x32, .f32⟩
  | 127 => ⟨S_, .i32⟩
  | _ => ⟨S100000x1, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x32, .f32⟩
  | 8 => ⟨S_, .f32⟩
  | 9 => ⟨S100000x32, .f32⟩
  | 10 => ⟨S1600000x1, .i32⟩
  | 11 => ⟨S100000x32, .f32⟩
  | 12 => ⟨S1x32x16, .f32⟩
  | 13 => ⟨S32x16, .f32⟩
  | 14 => ⟨S1x16, .f32⟩
  | 15 => ⟨S16, .f32⟩
  | 16 => ⟨S1x16, .f32⟩
  | 17 => ⟨S1x16x32, .f32⟩
  | 18 => ⟨S16x32, .f32⟩
  | 19 => ⟨S1x32, .f32⟩
  | 20 => ⟨S32, .f32⟩
  | 21 => ⟨S1x32, .f32⟩
  | 22 => ⟨S100000x32, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x32, .f32⟩
  | 32 => ⟨S_, .f32⟩
  | 33 => ⟨S100000x32, .f32⟩
  | 34 => ⟨S1600000x1, .i32⟩
  | 35 => ⟨S100000x32, .f32⟩
  | 36 => ⟨S1x32x16, .f32⟩
  | 37 => ⟨S32x16, .f32⟩
  | 38 => ⟨S1x16, .f32⟩
  | 39 => ⟨S16, .f32⟩
  | 40 => ⟨S1x16, .f32⟩
  | 41 => ⟨S1x16x32, .f32⟩
  | 42 => ⟨S16x32, .f32⟩
  | 43 => ⟨S1x32, .f32⟩
  | 44 => ⟨S32, .f32⟩
  | 45 => ⟨S1x32, .f32⟩
  | 46 => ⟨S100000x32, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x32, .f32⟩
  | 56 => ⟨S_, .f32⟩
  | 57 => ⟨S100000x32, .f32⟩
  | 58 => ⟨S1600000x1, .i32⟩
  | 59 => ⟨S100000x32, .f32⟩
  | 60 => ⟨S1x32x16, .f32⟩
  | 61 => ⟨S32x16, .f32⟩
  | 62 => ⟨S1x16, .f32⟩
  | 63 => ⟨S16, .f32⟩
  | 64 => ⟨S1x16, .f32⟩
  | 65 => ⟨S1x16x32, .f32⟩
  | 66 => ⟨S16x32, .f32⟩
  | 67 => ⟨S1x32, .f32⟩
  | 68 => ⟨S32, .f32⟩
  | 69 => ⟨S1x32, .f32⟩
  | 70 => ⟨S100000x32, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x32, .f32⟩
  | 80 => ⟨S_, .f32⟩
  | 81 => ⟨S100000x32, .f32⟩
  | 82 => ⟨S1600000x1, .i32⟩
  | 83 => ⟨S100000x32, .f32⟩
  | 84 => ⟨S1x32x16, .f32⟩
  | 85 => ⟨S32x16, .f32⟩
  | 86 => ⟨S1x16, .f32⟩
  | 87 => ⟨S16, .f32⟩
  | 88 => ⟨S1x16, .f32⟩
  | 89 => ⟨S1x16x32, .f32⟩
  | 90 => ⟨S16x32, .f32⟩
  | 91 => ⟨S1x32, .f32⟩
  | 92 => ⟨S32, .f32⟩
  | 93 => ⟨S1x32, .f32⟩
  | 94 => ⟨S100000x32, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x32, .f32⟩
  | 104 => ⟨S_, .f32⟩
  | 105 => ⟨S100000x32, .f32⟩
  | 106 => ⟨S1600000x1, .i32⟩
  | 107 => ⟨S100000x32, .f32⟩
  | 108 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | .local _ .vmem, ⟨0, _⟩ => ⟨S10000x1, .f32⟩
  | .local _ .vmem, ⟨1, _⟩ => ⟨S10000x1, .f32⟩
  | .local _ .vmem, ⟨2, _⟩ => ⟨S10000x1, .f32⟩
  | .local _ .vmem, ⟨3, _⟩ => ⟨S10000x1, .f32⟩
  | .local _ .vmem, ⟨4, _⟩ => ⟨S1x16, .f32⟩
  | .local _ .vmem, ⟨5, _⟩ => ⟨S1x16, .f32⟩
  | .local _ .vmem, ⟨6, _⟩ => ⟨S16x32, .f32⟩
  | .local _ .vmem, ⟨7, _⟩ => ⟨S1x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S10000x32, .f32⟩
  | .local _ .vmem, ⟨14, _⟩ => ⟨S32x16, .f32⟩
  | .local _ .vmem, ⟨15, _⟩ => ⟨S1x16, .f32⟩
  | .local _ .vmem, ⟨16, _⟩ => ⟨S16x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x32, .f32⟩
  | .local _ .vmem, ⟨24, _⟩ => ⟨S32x16, .f32⟩
  | .local _ .vmem, ⟨25, _⟩ => ⟨S1x16, .f32⟩
  | .local _ .vmem, ⟨26, _⟩ => ⟨S16x32, .f32⟩
  | .local _ .vmem, ⟨27, _⟩ => ⟨S1x32, .f32⟩
  | .local _ .vmem, ⟨28, _⟩ => ⟨S10000x32, .f32⟩
  | .local _ .vmem, ⟨29, _⟩ => ⟨S10000x32, .f32⟩
  | .local _ .vmem, ⟨30, _⟩ => ⟨S10000x32, .f32⟩
  | .local _ .vmem, ⟨31, _⟩ => ⟨S10000x32, .f32⟩
  | .local _ .vmem, ⟨32, _⟩ => ⟨S10000x32, .f32⟩
  | .local _ .vmem, ⟨33, _⟩ => ⟨S10000x32, .f32⟩
  | .local _ .vmem, ⟨34, _⟩ => ⟨S32x16, .f32⟩
  | .local _ .vmem, ⟨35, _⟩ => ⟨S1x16, .f32⟩
  | .local _ .vmem, ⟨36, _⟩ => ⟨S16x32, .f32⟩
  | .local _ .vmem, ⟨37, _⟩ => ⟨S1x32, .f32⟩
  | .local _ .vmem, ⟨38, _⟩ => ⟨S10000x32, .f32⟩
  | .local _ .vmem, ⟨39, _⟩ => ⟨S10000x32, .f32⟩
  | .local _ .vmem, ⟨40, _⟩ => ⟨S10000x32, .f32⟩
  | .local _ .vmem, ⟨41, _⟩ => ⟨S10000x32, .f32⟩
  | .local _ .vmem, ⟨42, _⟩ => ⟨S10000x32, .f32⟩
  | .local _ .vmem, ⟨43, _⟩ => ⟨S10000x32, .f32⟩
  | .local _ .vmem, ⟨44, _⟩ => ⟨S32x16, .f32⟩
  | .local _ .vmem, ⟨45, _⟩ => ⟨S1x16, .f32⟩
  | .local _ .vmem, ⟨46, _⟩ => ⟨S16x32, .f32⟩
  | .local _ .vmem, ⟨47, _⟩ => ⟨S1x32, .f32⟩
  | .local _ .vmem, ⟨48, _⟩ => ⟨S10000x32, .f32⟩
  | .local _ .vmem, ⟨49, _⟩ => ⟨S10000x32, .f32⟩
  | .local _ .vmem, ⟨50, _⟩ => ⟨S10000x32, .f32⟩
  | .local _ .vmem, ⟨51, _⟩ => ⟨S10000x32, .f32⟩
  | .local _ .vmem, ⟨52, _⟩ => ⟨S10000x32, .f32⟩
  | .local _ .vmem, ⟨53, _⟩ => ⟨S10000x32, .f32⟩
  | .local _ .vmem, ⟨54, _⟩ => ⟨S32x16, .f32⟩
  | .local _ .vmem, ⟨55, _⟩ => ⟨S1x16, .f32⟩
  | .local _ .vmem, ⟨56, _⟩ => ⟨S16x32, .f32⟩
  | .local _ .vmem, ⟨57, _⟩ => ⟨S1x32, .f32⟩
  | .local _ .vmem, ⟨58, _⟩ => ⟨S10000x32, .f32⟩
  | .local _ .vmem, ⟨59, _⟩ => ⟨S10000x32, .f32⟩
  | .local _ .vmem, ⟨60, _⟩ => ⟨S10000x32, .f32⟩
  | .local _ .vmem, ⟨61, _⟩ => ⟨S10000x32, .f32⟩
  | .local _ .vmem, ⟨62, _⟩ => ⟨S10000x32, .f32⟩
  | .local _ .vmem, ⟨63, _⟩ => ⟨S10000x32, .f32⟩
  | .local _ .vmem, ⟨64, _⟩ => ⟨S32x16, .f32⟩
  | .local _ .vmem, ⟨65, _⟩ => ⟨S1x16, .f32⟩
  | .local _ .vmem, ⟨66, _⟩ => ⟨S16x32, .f32⟩
  | .local _ .vmem, ⟨67, _⟩ => ⟨S1x32, .f32⟩
  | .local _ .vmem, ⟨68, _⟩ => ⟨S10000x32, .f32⟩
  | .local _ .vmem, ⟨69, _⟩ => ⟨S10000x32, .f32⟩
  | .local _ .vmem, ⟨70, _⟩ => ⟨S10000x32, .f32⟩
  | .local _ .vmem, ⟨71, _⟩ => ⟨S10000x32, .f32⟩
  | .local _ .vmem, ⟨72, _⟩ => ⟨S10000x32, .f32⟩
  | .local _ .vmem, ⟨73, _⟩ => ⟨S10000x32, .f32⟩
  | .local _ .vmem, ⟨74, _⟩ => ⟨S32x16, .f32⟩
  | .local _ .vmem, ⟨75, _⟩ => ⟨S1x16, .f32⟩
  | .local _ .vmem, ⟨76, _⟩ => ⟨S16x32, .f32⟩
  | .local _ .vmem, ⟨77, _⟩ => ⟨S1x32, .f32⟩
  | .local _ .vmem, ⟨78, _⟩ => ⟨S10000x32, .f32⟩
  | .local _ .vmem, ⟨79, _⟩ => ⟨S10000x32, .f32⟩
  | .local _ .vmem, ⟨80, _⟩ => ⟨S10000x32, .f32⟩
  | .local _ .vmem, ⟨81, _⟩ => ⟨S10000x32, .f32⟩
  | .local _ .vmem, ⟨82, _⟩ => ⟨S10000x32, .f32⟩
  | .local _ .vmem, ⟨83, _⟩ => ⟨S10000x32, .f32⟩
  | .local _ .vmem, ⟨84, _⟩ => ⟨S32x16, .f32⟩
  | .local _ .vmem, ⟨85, _⟩ => ⟨S1x16, .f32⟩
  | .local _ .vmem, ⟨86, _⟩ => ⟨S16x32, .f32⟩
  | .local _ .vmem, ⟨87, _⟩ => ⟨S1x32, .f32⟩
  | .local _ .vmem, ⟨88, _⟩ => ⟨S10000x32, .f32⟩
  | .local _ .vmem, ⟨89, _⟩ => ⟨S10000x32, .f32⟩
  | .local _ .vmem, ⟨90, _⟩ => ⟨S10000x32, .f32⟩
  | .local _ .vmem, ⟨91, _⟩ => ⟨S10000x32, .f32⟩
  | .local _ .vmem, ⟨92, _⟩ => ⟨S10000x32, .f32⟩
  | .local _ .vmem, ⟨93, _⟩ => ⟨S10000x32, .f32⟩
  | .local _ .vmem, ⟨94, _⟩ => ⟨S32x1, .f32⟩
  | .local _ .vmem, ⟨95, _⟩ => ⟨S10000x1, .f32⟩
  | .local _ .vmem, ⟨96, _⟩ => ⟨S10000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | _, _ => false

abbrev semScoped : Fin 0 → Bool
  | ⟨_, h⟩ => absurd h (Nat.not_lt_zero _)

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTc nBuf bufTy 0 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_7 : Ref sig .tc := ⟨.hbm, 79, rfl⟩
abbrev main_v59 : Ref sig .tc := ⟨.hbm, 80, rfl⟩
abbrev main_v60 : Ref sig .tc := ⟨.hbm, 81, rfl⟩
abbrev main_c_8 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_9 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_10 : Ref sig .tc := ⟨.hbm, 103, rfl⟩
abbrev main_v80 : Ref sig .tc := ⟨.hbm, 104, rfl⟩
abbrev main_v81 : Ref sig .tc := ⟨.hbm, 105, rfl⟩
abbrev main_c_11 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_12 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_c_13 : Ref sig .tc := ⟨.hbm, 127, rfl⟩
abbrev main_v101 : Ref sig .tc := ⟨.hbm, 128, rfl⟩
abbrev main_v102 : Ref sig .tc := ⟨.hbm, 129, rfl⟩
abbrev main_c_14 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_15 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_c_16 : Ref sig .tc := ⟨.hbm, 151, rfl⟩
abbrev main_v122 : Ref sig .tc := ⟨.hbm, 152, rfl⟩
abbrev main_v123 : Ref sig .tc := ⟨.hbm, 153, rfl⟩
abbrev main_c_17 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_18 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_c_19 : Ref sig .tc := ⟨.hbm, 175, rfl⟩
abbrev main_v143 : Ref sig .tc := ⟨.hbm, 176, rfl⟩
abbrev main_v144 : Ref sig .tc := ⟨.hbm, 177, rfl⟩
abbrev main_c_20 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_cst_21 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_c_22 : Ref sig .tc := ⟨.hbm, 199, rfl⟩
abbrev main_v164 : Ref sig .tc := ⟨.hbm, 200, rfl⟩
abbrev main_v165 : Ref sig .tc := ⟨.hbm, 201, rfl⟩
abbrev main_c_23 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_cst_24 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_c_25 : Ref sig .tc := ⟨.hbm, 223, rfl⟩
abbrev main_v185 : Ref sig .tc := ⟨.hbm, 224, rfl⟩
abbrev main_v186 : Ref sig .tc := ⟨.hbm, 225, rfl⟩
abbrev main_c_26 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_cst_27 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg6_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg5_0 : Ref sig .tc := ⟨.vmem, 67, rfl⟩
abbrev cc6_stg6_0 : Ref sig .tc := ⟨.vmem, 68, rfl⟩
abbrev cc6_stg6_1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg1_1 : Ref sig .tc := ⟨.vmem, 73, rfl⟩
abbrev cc7_stg2_0 : Ref sig .tc := ⟨.vmem, 74, rfl⟩
abbrev cc7_stg3_0 : Ref sig .tc := ⟨.vmem, 75, rfl⟩
abbrev cc7_stg4_0 : Ref sig .tc := ⟨.vmem, 76, rfl⟩
abbrev cc7_stg5_0 : Ref sig .tc := ⟨.vmem, 77, rfl⟩
abbrev cc7_stg6_0 : Ref sig .tc := ⟨.vmem, 78, rfl⟩
abbrev cc7_stg6_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg1_1 : Ref sig .tc := ⟨.vmem, 83, rfl⟩
abbrev cc8_stg2_0 : Ref sig .tc := ⟨.vmem, 84, rfl⟩
abbrev cc8_stg3_0 : Ref sig .tc := ⟨.vmem, 85, rfl⟩
abbrev cc8_stg4_0 : Ref sig .tc := ⟨.vmem, 86, rfl⟩
abbrev cc8_stg5_0 : Ref sig .tc := ⟨.vmem, 87, rfl⟩
abbrev cc8_stg6_0 : Ref sig .tc := ⟨.vmem, 88, rfl⟩
abbrev cc8_stg6_1 : Ref sig .tc := ⟨.vmem, 89, rfl⟩
abbrev cc9_stg0_0 : Ref sig .tc := ⟨.vmem, 90, rfl⟩
abbrev cc9_stg0_1 : Ref sig .tc := ⟨.vmem, 91, rfl⟩
abbrev cc9_stg1_0 : Ref sig .tc := ⟨.vmem, 92, rfl⟩
abbrev cc9_stg1_1 : Ref sig .tc := ⟨.vmem, 93, rfl⟩
abbrev cc9_stg2_0 : Ref sig .tc := ⟨.vmem, 94, rfl⟩
abbrev cc9_stg3_0 : Ref sig .tc := ⟨.vmem, 95, rfl⟩
abbrev cc9_stg3_1 : Ref sig .tc := ⟨.vmem, 96, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem6_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem6_0 : DmaSem sig := 68
abbrev cc6_sem6_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem3_0 : DmaSem sig := 75
abbrev cc7_sem4_0 : DmaSem sig := 76
abbrev cc7_sem5_0 : DmaSem sig := 77
abbrev cc7_sem6_0 : DmaSem sig := 78
abbrev cc7_sem6_1 : DmaSem sig := 79
abbrev cc8_sem0_0 : DmaSem sig := 80
abbrev cc8_sem0_1 : DmaSem sig := 81
abbrev cc8_sem1_0 : DmaSem sig := 82
abbrev cc8_sem1_1 : DmaSem sig := 83
abbrev cc8_sem2_0 : DmaSem sig := 84
abbrev cc8_sem3_0 : DmaSem sig := 85
abbrev cc8_sem4_0 : DmaSem sig := 86
abbrev cc8_sem5_0 : DmaSem sig := 87
abbrev cc8_sem6_0 : DmaSem sig := 88
abbrev cc8_sem6_1 : DmaSem sig := 89
abbrev cc9_sem0_0 : DmaSem sig := 90
abbrev cc9_sem0_1 : DmaSem sig := 91
abbrev cc9_sem1_0 : DmaSem sig := 92
abbrev cc9_sem1_1 : DmaSem sig := 93
abbrev cc9_sem2_0 : DmaSem sig := 94
abbrev cc9_sem3_0 : DmaSem sig := 95
abbrev cc9_sem3_1 : DmaSem sig := 96

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S16x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S10000x32 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S16x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x32 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S32x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x16 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S16x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x32 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S10000x32 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S32x16 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x16 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S16x32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x32 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S10000x32 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x32 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S32x16 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x16 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S16x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x32 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S10000x32 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x32 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S32x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x1 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x1 : S_.BroadcastsInDim S100000x1 (![] : Fin 0 → Fin S100000x1.rank)
  shapeCasts_S16_S1x16 : S16.ShapeCasts S1x16
  shapeCasts_S32_S1x32 : S32.ShapeCasts S1x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x16_S1x16_0_0 : ∀ a, (![0, 0] : Fin 2 → Nat) a + S1x16.size a ≤ S1x16.size a
  h_S1x16 : 0 < S1x16.numel
  bitsLt_bf16_f32 : FTy.bits .bf16 < FTy.bits .f32
  shapeCasts_S1x16_S1x16 : S1x16.ShapeCasts S1x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x16_S10000x16 : S1x16.Broadcasts S10000x16
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  slices_S8x32x16_S1x32x16_0_0_0 : S8x32x16.Slices ![0, 0, 0] S1x32x16
  shapeCasts_S1x32x16_S32x16 : S1x32x16.ShapeCasts S32x16
  slices_S8x16_S1x16_0_0 : S8x16.Slices ![0, 0] S1x16
  shapeCasts_S1x16_S16 : S1x16.ShapeCasts S16
  slices_S8x16x32_S1x16x32_0_0_0 : S8x16x32.Slices ![0, 0, 0] S1x16x32
  shapeCasts_S1x16x32_S16x32 : S1x16x32.ShapeCasts S16x32
  slices_S8x32_S1x32_0_0 : S8x32.Slices ![0, 0] S1x32
  shapeCasts_S1x32_S32 : S1x32.ShapeCasts S32
  shapeCasts_S10000x32_S10000x32 : S10000x32.ShapeCasts S10000x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  shapeCasts_S16x32_S16x32 : S16x32.ShapeCasts S16x32
  slices_S8x32x16_S1x32x16_1_0_0 : S8x32x16.Slices ![1, 0, 0] S1x32x16
  slices_S8x16_S1x16_1_0 : S8x16.Slices ![1, 0] S1x16
  slices_S8x16x32_S1x16x32_1_0_0 : S8x16x32.Slices ![1, 0, 0] S1x16x32
  slices_S8x32_S1x32_1_0 : S8x32.Slices ![1, 0] S1x32
  slices_S8x32x16_S1x32x16_2_0_0 : S8x32x16.Slices ![2, 0, 0] S1x32x16
  slices_S8x16_S1x16_2_0 : S8x16.Slices ![2, 0] S1x16
  slices_S8x16x32_S1x16x32_2_0_0 : S8x16x32.Slices ![2, 0, 0] S1x16x32
  slices_S8x32_S1x32_2_0 : S8x32.Slices ![2, 0] S1x32
  slices_S8x32x16_S1x32x16_3_0_0 : S8x32x16.Slices ![3, 0, 0] S1x32x16
  slices_S8x16_S1x16_3_0 : S8x16.Slices ![3, 0] S1x16
  slices_S8x16x32_S1x16x32_3_0_0 : S8x16x32.Slices ![3, 0, 0] S1x16x32
  slices_S8x32_S1x32_3_0 : S8x32.Slices ![3, 0] S1x32
  slices_S8x32x16_S1x32x16_4_0_0 : S8x32x16.Slices ![4, 0, 0] S1x32x16
  slices_S8x16_S1x16_4_0 : S8x16.Slices ![4, 0] S1x16
  slices_S8x16x32_S1x16x32_4_0_0 : S8x16x32.Slices ![4, 0, 0] S1x16x32
  slices_S8x32_S1x32_4_0 : S8x32.Slices ![4, 0] S1x32
  slices_S8x32x16_S1x32x16_5_0_0 : S8x32x16.Slices ![5, 0, 0] S1x32x16
  slices_S8x16_S1x16_5_0 : S8x16.Slices ![5, 0] S1x16
  slices_S8x16x32_S1x16x32_5_0_0 : S8x16x32.Slices ![5, 0, 0] S1x16x32
  slices_S8x32_S1x32_5_0 : S8x32.Slices ![5, 0] S1x32
  slices_S8x32x16_S1x32x16_6_0_0 : S8x32x16.Slices ![6, 0, 0] S1x32x16
  slices_S8x16_S1x16_6_0 : S8x16.Slices ![6, 0] S1x16
  slices_S8x16x32_S1x16x32_6_0_0 : S8x16x32.Slices ![6, 0, 0] S1x16x32
  slices_S8x32_S1x32_6_0 : S8x32.Slices ![6, 0] S1x32
  slices_S8x32x16_S1x32x16_7_0_0 : S8x32x16.Slices ![7, 0, 0] S1x32x16
  slices_S8x16_S1x16_7_0 : S8x16.Slices ![7, 0] S1x16
  slices_S8x16x32_S1x16x32_7_0_0 : S8x16x32.Slices ![7, 0, 0] S1x16x32
  slices_S8x32_S1x32_7_0 : S8x32.Slices ![7, 0] S1x32
  inb_S32x1_S32x1_0_0 : ∀ a, (![0, 0] : Fin 2 → Nat) a + S32x1.size a ≤ S32x1.size a
  h_S32x1 : 0 < S32x1.numel
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S10000x1_S1x16_S10000x16_1_0_0_1_n_n_wf : DotDims.WF S10000x1 S1x16 S10000x16 [1] [0] [0] [1] [] []
  dot_S10000x16_S16x32_S10000x32_1_0_0_1_n_n_wf : DotDims.WF S10000x16 S16x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x16_S10000x16_1_0_0_1_n_n_wf : DotDims.WF S10000x32 S32x16 S10000x16 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S16x32.size a
  hwx0_4 : ∀ i : grid0.Coords, EltTy.bits .f32 = 32 ∨ (Rect.block (s := S16x32) S16x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x32.size a ≤ S100000x32.size a
  hwx0_6 : ∀ i : grid0.Coords, EltTy.bits .f32 = 32 ∨ (Rect.block (s := S100000x32) S10000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x32.size a ≤ S16x32.size a
  hwx1_4 : ∀ i : grid1.Coords, EltTy.bits .f32 = 32 ∨ (Rect.block (s := S16x32) S16x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x32.size a ≤ S100000x32.size a
  hwx1_6 : ∀ i : grid1.Coords, EltTy.bits .f32 = 32 ∨ (Rect.block (s := S100000x32) S10000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S100000x32.size a
  hwx2_1 : ∀ i : grid2.Coords, EltTy.bits .f32 = 32 ∨ (Rect.block (s := S100000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .f32 = 32 ∨ (Rect.block (s := S32x16) S32x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x32.size a ≤ S16x32.size a
  hwx2_4 : ∀ i : grid2.Coords, EltTy.bits .f32 = 32 ∨ (Rect.block (s := S16x32) S16x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x32.size a ≤ S100000x32.size a
  hwx2_6 : ∀ i : grid2.Coords, EltTy.bits .f32 = 32 ∨ (Rect.block (s := S100000x32) S10000x32.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S100000x32.size a
  hwx3_1 : ∀ i : grid3.Coords, EltTy.bits .f32 = 32 ∨ (Rect.block (s := S100000x32) S10000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x16.size a ≤ S32x16.size a
  hwx3_2 : ∀ i : grid3.Coords, EltTy.bits .f32 = 32 ∨ (Rect.block (s := S32x16) S32x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16x32.size a ≤ S16x32.size a
  hwx3_4 : ∀ i : grid3.Coords, EltTy.bits .f32 = 32 ∨ (Rect.block (s := S16x32) S16x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32.size a ≤ S1x32.size a
  hwx3_5 : ∀ i : grid3.Coords, EltTy.bits .f32 = 32 ∨ (Rect.block (s := S1x32) S1x32.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x32.size a ≤ S100000x32.size a
  hwx3_6 : ∀ i : grid3.Coords, EltTy.bits .f32 = 32 ∨ (Rect.block (s := S100000x32) S10000x32.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x32.size a ≤ S100000x32.size a
  hwx4_1 : ∀ i : grid4.Coords, EltTy.bits .f32 = 32 ∨ (Rect.block (s := S100000x32) S10000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x16.size a ≤ S32x16.size a
  hwx4_2 : ∀ i : grid4.Coords, EltTy.bits .f32 = 32 ∨ (Rect.block (s := S32x16) S32x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x16.size a ≤ S1x16.size a
  hwx4_3 : ∀ i : grid4.Coords, EltTy.bits .f32 = 32 ∨ (Rect.block (s := S1x16) S1x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S16x32.size a ≤ S16x32.size a
  hwx4_4 : ∀ i : grid4.Coords, EltTy.bits .f32 = 32 ∨ (Rect.block (s := S16x32) S16x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x32.size a ≤ S1x32.size a
  hwx4_5 : ∀ i : grid4.Coords, EltTy.bits .f32 = 32 ∨ (Rect.block (s := S1x32) S1x32.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S10000x32.size a ≤ S100000x32.size a
  hwx4_6 : ∀ i : grid4.Coords, EltTy.bits .f32 = 32 ∨ (Rect.block (s := S100000x32) S10000x32.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x32.size a ≤ S100000x32.size a
  hwx5_1 : ∀ i : grid5.Coords, EltTy.bits .f32 = 32 ∨ (Rect.block (s := S100000x32) S10000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x16.size a ≤ S32x16.size a
  hwx5_2 : ∀ i : grid5.Coords, EltTy.bits .f32 = 32 ∨ (Rect.block (s := S32x16) S32x16.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x16.size a ≤ S1x16.size a
  hwx5_3 : ∀ i : grid5.Coords, EltTy.bits .f32 = 32 ∨ (Rect.block (s := S1x16) S1x16.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S16x32.size a ≤ S16x32.size a
  hwx5_4 : ∀ i : grid5.Coords, EltTy.bits .f32 = 32 ∨ (Rect.block (s := S16x32) S16x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x32.size a ≤ S1x32.size a
  hwx5_5 : ∀ i : grid5.Coords, EltTy.bits .f32 = 32 ∨ (Rect.block (s := S1x32) S1x32.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x32.size a ≤ S100000x32.size a
  hwx5_6 : ∀ i : grid5.Coords, EltTy.bits .f32 = 32 ∨ (Rect.block (s := S100000x32) S10000x32.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S100000x32.size a
  hwx6_0 : ∀ i : grid6.Coords, EltTy.bits .f32 = 32 ∨ (Rect.block (s := S100000x32) S10000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x32.size a ≤ S100000x32.size a
  hwx6_1 : ∀ i : grid6.Coords, EltTy.bits .f32 = 32 ∨ (Rect.block (s := S100000x32) S10000x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32x16.size a ≤ S32x16.size a
  hwx6_2 : ∀ i : grid6.Coords, EltTy.bits .f32 = 32 ∨ (Rect.block (s := S32x16) S32x16.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x16.size a ≤ S1x16.size a
  hwx6_3 : ∀ i : grid6.Coords, EltTy.bits .f32 = 32 ∨ (Rect.block (s := S1x16) S1x16.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S16x32.size a ≤ S16x32.size a
  hwx6_4 : ∀ i : grid6.Coords, EltTy.bits .f32 = 32 ∨ (Rect.block (s := S16x32) S16x32.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x32.size a ≤ S1x32.size a
  hwx6_5 : ∀ i : grid6.Coords, EltTy.bits .f32 = 32 ∨ (Rect.block (s := S1x32) S1x32.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S10000x32.size a ≤ S100000x32.size a
  hwx6_6 : ∀ i : grid6.Coords, EltTy.bits .f32 = 32 ∨ (Rect.block (s := S100000x32) S10000x32.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x32.size a ≤ S100000x32.size a
  hwx7_0 : ∀ i : grid7.Coords, EltTy.bits .f32 = 32 ∨ (Rect.block (s := S100000x32) S10000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x32.size a ≤ S100000x32.size a
  hwx7_1 : ∀ i : grid7.Coords, EltTy.bits .f32 = 32 ∨ (Rect.block (s := S100000x32) S10000x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S32x16.size a ≤ S32x16.size a
  hwx7_2 : ∀ i : grid7.Coords, EltTy.bits .f32 = 32 ∨ (Rect.block (s := S32x16) S32x16.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x16.size a ≤ S1x16.size a
  hwx7_3 : ∀ i : grid7.Coords, EltTy.bits .f32 = 32 ∨ (Rect.block (s := S1x16) S1x16.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S16x32.size a ≤ S16x32.size a
  hwx7_4 : ∀ i : grid7.Coords, EltTy.bits .f32 = 32 ∨ (Rect.block (s := S16x32) S16x32.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x32.size a ≤ S1x32.size a
  hwx7_5 : ∀ i : grid7.Coords, EltTy.bits .f32 = 32 ∨ (Rect.block (s := S1x32) S1x32.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S10000x32.size a ≤ S100000x32.size a
  hwx7_6 : ∀ i : grid7.Coords, EltTy.bits .f32 = 32 ∨ (Rect.block (s := S100000x32) S10000x32.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x32.size a ≤ S100000x32.size a
  hwx8_0 : ∀ i : grid8.Coords, EltTy.bits .f32 = 32 ∨ (Rect.block (s := S100000x32) S10000x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x32.size a ≤ S100000x32.size a
  hwx8_1 : ∀ i : grid8.Coords, EltTy.bits .f32 = 32 ∨ (Rect.block (s := S100000x32) S10000x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S32x16.size a ≤ S32x16.size a
  hwx8_2 : ∀ i : grid8.Coords, EltTy.bits .f32 = 32 ∨ (Rect.block (s := S32x16) S32x16.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x16.size a ≤ S1x16.size a
  hwx8_3 : ∀ i : grid8.Coords, EltTy.bits .f32 = 32 ∨ (Rect.block (s := S1x16) S1x16.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S16x32.size a ≤ S16x32.size a
  hwx8_4 : ∀ i : grid8.Coords, EltTy.bits .f32 = 32 ∨ (Rect.block (s := S16x32) S16x32.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x32.size a ≤ S1x32.size a
  hwx8_5 : ∀ i : grid8.Coords, EltTy.bits .f32 = 32 ∨ (Rect.block (s := S1x32) S1x32.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S10000x32.size a ≤ S100000x32.size a
  hwx8_6 : ∀ i : grid8.Coords, EltTy.bits .f32 = 32 ∨ (Rect.block (s := S100000x32) S10000x32.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x32.size a ≤ S100000x32.size a
  hwx9_0 : ∀ i : grid9.Coords, EltTy.bits .f32 = 32 ∨ (Rect.block (s := S100000x32) S10000x32.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x32.size a ≤ S100000x32.size a
  hwx9_1 : ∀ i : grid9.Coords, EltTy.bits .f32 = 32 ∨ (Rect.block (s := S100000x32) S10000x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S32x1.size a ≤ S32x1.size a
  hwx9_2 : ∀ i : grid9.Coords, EltTy.bits .f32 = 32 ∨ (Rect.block (s := S32x1) S32x1.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x1.size a ≤ S100000x1.size a
  hwx9_3 : ∀ i : grid9.Coords, EltTy.bits .f32 = 32 ∨ (Rect.block (s := S100000x1) S10000x1.size (cc9_transform_3 i) (hinb9_3 i)).WholeWords (EltTy.packing .f32)

variable [Facts₀]

def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S10000x1_S1x16_S10000x16_1_0_0_1_n_n : DotDims S10000x1 S1x16 S10000x16 where
  lhsContracting := [1]
  rhsContracting := [0]
  lhsNonContracting := [0]
  rhsNonContracting := [1]
  lhsBatch := []
  rhsBatch := []
  wf := dot_S10000x1_S1x16_S10000x16_1_0_0_1_n_n_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S10000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S16x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S10000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S16x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S10000x32.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S32x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S16x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S1x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S10000x32.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v79) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S10000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v91) S32x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94) S1x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v96) S16x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v99) S1x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v100) S10000x32.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v100) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v110) S10000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v112) S32x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v115) S1x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v117) S16x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v120) S1x32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v121) S10000x32.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v121) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v131) S10000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v133) S32x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v136) S1x16.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v138) S16x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v141) S1x32.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v142) S10000x32.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v142) S10000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v152) S10000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v154) S32x16.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v157) S1x16.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v159) S16x32.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v162) S1x32.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v163) S10000x32.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v163) S10000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v173) S10000x32.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v175) S32x16.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v178) S1x16.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v180) S16x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v183) S1x32.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v184) S10000x32.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v184) S10000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v194) S10000x32.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_arg10) S32x1.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v195) S10000x1.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S1x16 : Shape := ⟨2, ![1, 16]⟩
abbrev S16 : Shape := ⟨1, ![16]⟩
abbrev S16x32 : Shape := ⟨2, ![16, 32]⟩
abbrev S32 : Shape := ⟨1, ![32]⟩
abbrev S8x32x16 : Shape := ⟨3, ![8, 32, 16]⟩
abbrev S8x16 : Shape := ⟨2, ![8, 16]⟩
abbrev S8x16x32 : Shape := ⟨3, ![8, 16, 32]⟩
abbrev S8x32 : Shape := ⟨2, ![8, 32]⟩
abbrev S32x1 : Shape := ⟨2, ![32, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x16 : Shape := ⟨2, ![100000, 16]⟩
abbrev S100000x32 : Shape := ⟨2, ![100000, 32]⟩
abbrev S1x32 : Shape := ⟨2, ![1, 32]⟩
abbrev S1600000x32 : Shape := ⟨2, ![1600000, 32]⟩
abbrev S1x32x16 : Shape := ⟨3, ![1, 32, 16]⟩
abbrev S32x16 : Shape := ⟨2, ![32, 16]⟩
abbrev S1x16x32 : Shape := ⟨3, ![1, 16, 32]⟩

abbrev nBuf : Space → Nat
  | .hbm => 471
  | .vmem => 0
  | .smem => 0
  | _ => 0

abbrev hbmTy0_0 (i : Nat) : BufTy := match i % 128 with
  | 0 => ⟨S100000x1, .f32⟩
  | 1 => ⟨S2x1600000, .i32⟩
  | 2 => ⟨S1x16, .f32⟩
  | 3 => ⟨S16, .f32⟩
  | 4 => ⟨S16x32, .f32⟩
  | 5 => ⟨S32, .f32⟩
  | 6 => ⟨S8x32x16, .f32⟩
  | 7 => ⟨S8x16, .f32⟩
  | 8 => ⟨S8x16x32, .f32⟩
  | 9 => ⟨S8x32, .f32⟩
  | 10 => ⟨S32x1, .f32⟩
  | 11 => ⟨S1x1600000, .i32⟩
  | 12 => ⟨S1600000, .i32⟩
  | 13 => ⟨S1x1600000, .i32⟩
  | 14 => ⟨S1600000, .i32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x1, .f32⟩
  | 24 => ⟨S_, .f32⟩
  | 25 => ⟨S100000x1, .f32⟩
  | 26 => ⟨S1600000x1, .i32⟩
  | 27 => ⟨S100000x1, .f32⟩
  | 28 => ⟨S100000x1, .f32⟩
  | 29 => ⟨S100000x16, .f32⟩
  | 30 => ⟨S1x16, .f32⟩
  | 31 => ⟨S100000x16, .f32⟩
  | 32 => ⟨S100000x16, .f32⟩
  | 33 => ⟨S_, .f32⟩
  | 34 => ⟨S_, .f32⟩
  | 35 => ⟨S100000x16, .f32⟩
  | 36 => ⟨S100000x16, .i1⟩
  | 37 => ⟨S_, .f32⟩
  | 38 => ⟨S100000x16, .f32⟩
  | 39 => ⟨S100000x16, .i1⟩
  | 40 => ⟨S_, .f32⟩
  | 41 => ⟨S_, .f32⟩
  | 42 => ⟨S100000x16, .f32⟩
  | 43 => ⟨S100000x16, .f32⟩
  | 44 => ⟨S100000x16, .f32⟩
  | 45 => ⟨S_, .f32⟩
  | 46 => ⟨S100000x16, .f32⟩
  | 47 => ⟨S100000x16, .f32⟩
  | 48 => ⟨S100000x16, .f32⟩
  | 49 => ⟨S_, .f32⟩
  | 50 => ⟨S100000x16, .f32⟩
  | 51 => ⟨S100000x16, .f32⟩
  | 52 => ⟨S100000x32, .f32⟩
  | 53 => ⟨S1x32, .f32⟩
  | 54 => ⟨S100000x32, .f32⟩
  | 55 => ⟨S100000x32, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x32, .f32⟩
  | 65 => ⟨S_, .f32⟩
  | 66 => ⟨S100000x32, .f32⟩
  | 67 => ⟨S1600000x1, .i32⟩
  | 68 => ⟨S100000x32, .f32⟩
  | 69 => ⟨S100000x32, .f32⟩
  | 70 => ⟨S1x32x16, .f32⟩
  | 71 => ⟨S32x16, .f32⟩
  | 72 => ⟨S100000x16, .f32⟩
  | 73 => ⟨S1x16, .f32⟩
  | 74 => ⟨S16, .f32⟩
  | 75 => ⟨S1x16, .f32⟩
  | 76 => ⟨S100000x16, .f32⟩
  | 77 => ⟨S100000x16, .f32⟩
  | 78 => ⟨S_, .f32⟩
  | 79 => ⟨S_, .f32⟩
  | 80 => ⟨S100000x16, .f32⟩
  | 81 => ⟨S100000x16, .i1⟩
  | 82 => ⟨S_, .f32⟩
  | 83 => ⟨S100000x16, .f32⟩
  | 84 => ⟨S100000x16, .i1⟩
  | 85 => ⟨S_, .f32⟩
  | 86 => ⟨S_, .f32⟩
  | 87 => ⟨S100000x16, .f32⟩
  | 88 => ⟨S100000x16, .f32⟩
  | 89 => ⟨S100000x16, .f32⟩
  | 90 => ⟨S_, .f32⟩
  | 91 => ⟨S100000x16, .f32⟩
  | 92 => ⟨S100000x16, .f32⟩
  | 93 => ⟨S100000x16, .f32⟩
  | 94 => ⟨S_, .f32⟩
  | 95 => ⟨S100000x16, .f32⟩
  | 96 => ⟨S100000x16, .f32⟩
  | 97 => ⟨S1x16x32, .f32⟩
  | 98 => ⟨S16x32, .f32⟩
  | 99 => ⟨S100000x32, .f32⟩
  | 100 => ⟨S1x32, .f32⟩
  | 101 => ⟨S32, .f32⟩
  | 102 => ⟨S1x32, .f32⟩
  | 103 => ⟨S100000x32, .f32⟩
  | 104 => ⟨S100000x32, .f32⟩
  | 105 => ⟨S100000x32, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x32, .f32⟩
  | 115 => ⟨S_, .f32⟩
  | 116 => ⟨S100000x32, .f32⟩
  | 117 => ⟨S1600000x1, .i32⟩
  | 118 => ⟨S100000x32, .f32⟩
  | 119 => ⟨S100000x32, .f32⟩
  | 120 => ⟨S1x32x16, .f32⟩
  | 121 => ⟨S32x16, .f32⟩
  | 122 => ⟨S100000x16, .f32⟩
  | 123 => ⟨S1x16, .f32⟩
  | 124 => ⟨S16, .f32⟩
  | 125 => ⟨S1x16, .f32⟩
  | 126 => ⟨S100000x16, .f32⟩
  | 127 => ⟨S100000x16, .f32⟩
  | _ => ⟨S100000x1, .f32⟩

abbrev hbmTy0_1 (i : Nat) : BufTy := match i % 128 with
  | 0 => ⟨S_, .f32⟩
  | 1 => ⟨S_, .f32⟩
  | 2 => ⟨S100000x16, .f32⟩
  | 3 => ⟨S100000x16, .i1⟩
  | 4 => ⟨S_, .f32⟩
  | 5 => ⟨S100000x16, .f32⟩
  | 6 => ⟨S100000x16, .i1⟩
  | 7 => ⟨S_, .f32⟩
  | 8 => ⟨S_, .f32⟩
  | 9 => ⟨S100000x16, .f32⟩
  | 10 => ⟨S100000x16, .f32⟩
  | 11 => ⟨S100000x16, .f32⟩
  | 12 => ⟨S_, .f32⟩
  | 13 => ⟨S100000x16, .f32⟩
  | 14 => ⟨S100000x16, .f32⟩
  | 15 => ⟨S100000x16, .f32⟩
  | 16 => ⟨S_, .f32⟩
  | 17 => ⟨S100000x16, .f32⟩
  | 18 => ⟨S100000x16, .f32⟩
  | 19 => ⟨S1x16x32, .f32⟩
  | 20 => ⟨S16x32, .f32⟩
  | 21 => ⟨S100000x32, .f32⟩
  | 22 => ⟨S1x32, .f32⟩
  | 23 => ⟨S32, .f32⟩
  | 24 => ⟨S1x32, .f32⟩
  | 25 => ⟨S100000x32, .f32⟩
  | 26 => ⟨S100000x32, .f32⟩
  | 27 => ⟨S100000x32, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x32, .f32⟩
  | 37 => ⟨S_, .f32⟩
  | 38 => ⟨S100000x32, .f32⟩
  | 39 => ⟨S1600000x1, .i32⟩
  | 40 => ⟨S100000x32, .f32⟩
  | 41 => ⟨S100000x32, .f32⟩
  | 42 => ⟨S1x32x16, .f32⟩
  | 43 => ⟨S32x16, .f32⟩
  | 44 => ⟨S100000x16, .f32⟩
  | 45 => ⟨S1x16, .f32⟩
  | 46 => ⟨S16, .f32⟩
  | 47 => ⟨S1x16, .f32⟩
  | 48 => ⟨S100000x16, .f32⟩
  | 49 => ⟨S100000x16, .f32⟩
  | 50 => ⟨S_, .f32⟩
  | 51 => ⟨S_, .f32⟩
  | 52 => ⟨S100000x16, .f32⟩
  | 53 => ⟨S100000x16, .i1⟩
  | 54 => ⟨S_, .f32⟩
  | 55 => ⟨S100000x16, .f32⟩
  | 56 => ⟨S100000x16, .i1⟩
  | 57 => ⟨S_, .f32⟩
  | 58 => ⟨S_, .f32⟩
  | 59 => ⟨S100000x16, .f32⟩
  | 60 => ⟨S100000x16, .f32⟩
  | 61 => ⟨S100000x16, .f32⟩
  | 62 => ⟨S_, .f32⟩
  | 63 => ⟨S100000x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S1x16x32, .f32⟩
  | 70 => ⟨S16x32, .f32⟩
  | 71 => ⟨S100000x32, .f32⟩
  | 72 => ⟨S1x32, .f32⟩
  | 73 => ⟨S32, .f32⟩
  | 74 => ⟨S1x32, .f32⟩
  | 75 => ⟨S100000x32, .f32⟩
  | 76 => ⟨S100000x32, .f32⟩
  | 77 => ⟨S100000x32, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x32, .f32⟩
  | 87 => ⟨S_, .f32⟩
  | 88 => ⟨S100000x32, .f32⟩
  | 89 => ⟨S1600000x1, .i32⟩
  | 90 => ⟨S100000x32, .f32⟩
  | 91 => ⟨S100000x32, .f32⟩
  | 92 => ⟨S1x32x16, .f32⟩
  | 93 => ⟨S32x16, .f32⟩
  | 94 => ⟨S100000x16, .f32⟩
  | 95 => ⟨S1x16, .f32⟩
  | 96 => ⟨S16, .f32⟩
  | 97 => ⟨S1x16, .f32⟩
  | 98 => ⟨S100000x16, .f32⟩
  | 99 => ⟨S100000x16, .f32⟩
  | 100 => ⟨S_, .f32⟩
  | 101 => ⟨S_, .f32⟩
  | 102 => ⟨S100000x16, .f32⟩
  | 103 => ⟨S100000x16, .i1⟩
  | 104 => ⟨S_, .f32⟩
  | 105 => ⟨S100000x16, .f32⟩
  | 106 => ⟨S100000x16, .i1⟩
  | 107 => ⟨S_, .f32⟩
  | 108 => ⟨S_, .f32⟩
  | 109 => ⟨S100000x16, .f32⟩
  | 110 => ⟨S100000x16, .f32⟩
  | 111 => ⟨S100000x16, .f32⟩
  | 112 => ⟨S_, .f32⟩
  | 113 => ⟨S100000x16, .f32⟩
  | 114 => ⟨S100000x16, .f32⟩
  | 115 => ⟨S100000x16, .f32⟩
  | 116 => ⟨S_, .f32⟩
  | 117 => ⟨S100000x16, .f32⟩
  | 118 => ⟨S100000x16, .f32⟩
  | 119 => ⟨S1x16x32, .f32⟩
  | 120 => ⟨S16x32, .f32⟩
  | 121 => ⟨S100000x32, .f32⟩
  | 122 => ⟨S1x32, .f32⟩
  | 123 => ⟨S32, .f32⟩
  | 124 => ⟨S1x32, .f32⟩
  | 125 => ⟨S100000x32, .f32⟩
  | 126 => ⟨S100000x32, .f32⟩
  | 127 => ⟨S100000x32, .f32⟩
  | _ => ⟨S100000x1, .f32⟩

abbrev hbmTy0_2 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x32, .f32⟩
  | 9 => ⟨S_, .f32⟩
  | 10 => ⟨S100000x32, .f32⟩
  | 11 => ⟨S1600000x1, .i32⟩
  | 12 => ⟨S100000x32, .f32⟩
  | 13 => ⟨S100000x32, .f32⟩
  | 14 => ⟨S1x32x16, .f32⟩
  | 15 => ⟨S32x16, .f32⟩
  | 16 => ⟨S100000x16, .f32⟩
  | 17 => ⟨S1x16, .f32⟩
  | 18 => ⟨S16, .f32⟩
  | 19 => ⟨S1x16, .f32⟩
  | 20 => ⟨S100000x16, .f32⟩
  | 21 => ⟨S100000x16, .f32⟩
  | 22 => ⟨S_, .f32⟩
  | 23 => ⟨S_, .f32⟩
  | 24 => ⟨S100000x16, .f32⟩
  | 25 => ⟨S100000x16, .i1⟩
  | 26 => ⟨S_, .f32⟩
  | 27 => ⟨S100000x16, .f32⟩
  | 28 => ⟨S100000x16, .i1⟩
  | 29 => ⟨S_, .f32⟩
  | 30 => ⟨S_, .f32⟩
  | 31 => ⟨S100000x16, .f32⟩
  | 32 => ⟨S100000x16, .f32⟩
  | 33 => ⟨S100000x16, .f32⟩
  | 34 => ⟨S_, .f32⟩
  | 35 => ⟨S100000x16, .f32⟩
  | 36 => ⟨S100000x16, .f32⟩
  | 37 => ⟨S100000x16, .f32⟩
  | 38 => ⟨S_, .f32⟩
  | 39 => ⟨S100000x16, .f32⟩
  | 40 => ⟨S100000x16, .f32⟩
  | 41 => ⟨S1x16x32, .f32⟩
  | 42 => ⟨S16x32, .f32⟩
  | 43 => ⟨S100000x32, .f32⟩
  | 44 => ⟨S1x32, .f32⟩
  | 45 => ⟨S32, .f32⟩
  | 46 => ⟨S1x32, .f32⟩
  | 47 => ⟨S100000x32, .f32⟩
  | 48 => ⟨S100000x32, .f32⟩
  | 49 => ⟨S100000x32, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x32, .f32⟩
  | 59 => ⟨S_, .f32⟩
  | 60 => ⟨S100000x32, .f32⟩
  | 61 => ⟨S1600000x1, .i32⟩
  | 62 => ⟨S100000x32, .f32⟩
  | 63 => ⟨S100000x32, .f32⟩
  | 64 => ⟨S1x32x16, .f32⟩
  | 65 => ⟨S32x16, .f32⟩
  | 66 => ⟨S100000x16, .f32⟩
  | 67 => ⟨S1x16, .f32⟩
  | 68 => ⟨S16, .f32⟩
  | 69 => ⟨S1x16, .f32⟩
  | 70 => ⟨S100000x16, .f32⟩
  | 71 => ⟨S100000x16, .f32⟩
  | 72 => ⟨S_, .f32⟩
  | 73 => ⟨S_, .f32⟩
  | 74 => ⟨S100000x16, .f32⟩
  | 75 => ⟨S100000x16, .i1⟩
  | 76 => ⟨S_, .f32⟩
  | 77 => ⟨S100000x16, .f32⟩
  | 78 => ⟨S100000x16, .i1⟩
  | 79 => ⟨S_, .f32⟩
  | 80 => ⟨S_, .f32⟩
  | 81 => ⟨S100000x16, .f32⟩
  | 82 => ⟨S100000x16, .f32⟩
  | 83 => ⟨S100000x16, .f32⟩
  | 84 => ⟨S_, .f32⟩
  | 85 => ⟨S100000x16, .f32⟩
  | 86 => ⟨S100000x16, .f32⟩
  | 87 => ⟨S100000x16, .f32⟩
  | 88 => ⟨S_, .f32⟩
  | 89 => ⟨S100000x16, .f32⟩
  | 90 => ⟨S100000x16, .f32⟩
  | 91 => ⟨S1x16x32, .f32⟩
  | 92 => ⟨S16x32, .f32⟩
  | 93 => ⟨S100000x32, .f32⟩
  | 94 => ⟨S1x32, .f32⟩
  | 95 => ⟨S32, .f32⟩
  | 96 => ⟨S1x32, .f32⟩
  | 97 => ⟨S100000x32, .f32⟩
  | 98 => ⟨S100000x32, .f32⟩
  | 99 => ⟨S100000x32, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x32, .f32⟩
  | 109 => ⟨S_, .f32⟩
  | 110 => ⟨S100000x32, .f32⟩
  | 111 => ⟨S1600000x1, .i32⟩
  | 112 => ⟨S100000x32, .f32⟩
  | 113 => ⟨S100000x32, .f32⟩
  | 114 => ⟨S1x32x16, .f32⟩
  | 115 => ⟨S32x16, .f32⟩
  | 116 => ⟨S100000x16, .f32⟩
  | 117 => ⟨S1x16, .f32⟩
  | 118 => ⟨S16, .f32⟩
  | 119 => ⟨S1x16, .f32⟩
  | 120 => ⟨S100000x16, .f32⟩
  | 121 => ⟨S100000x16, .f32⟩
  | 122 => ⟨S_, .f32⟩
  | 123 => ⟨S_, .f32⟩
  | 124 => ⟨S100000x16, .f32⟩
  | 125 => ⟨S100000x16, .i1⟩
  | 126 => ⟨S_, .f32⟩
  | 127 => ⟨S100000x16, .f32⟩
  | _ => ⟨S100000x1, .f32⟩

abbrev hbmTy0_3 (i : Nat) : BufTy := match i % 128 with
  | 0 => ⟨S100000x16, .i1⟩
  | 1 => ⟨S_, .f32⟩
  | 2 => ⟨S_, .f32⟩
  | 3 => ⟨S100000x16, .f32⟩
  | 4 => ⟨S100000x16, .f32⟩
  | 5 => ⟨S100000x16, .f32⟩
  | 6 => ⟨S_, .f32⟩
  | 7 => ⟨S100000x16, .f32⟩
  | 8 => ⟨S100000x16, .f32⟩
  | 9 => ⟨S100000x16, .f32⟩
  | 10 => ⟨S_, .f32⟩
  | 11 => ⟨S100000x16, .f32⟩
  | 12 => ⟨S100000x16, .f32⟩
  | 13 => ⟨S1x16x32, .f32⟩
  | 14 => ⟨S16x32, .f32⟩
  | 15 => ⟨S100000x32, .f32⟩
  | 16 => ⟨S1x32, .f32⟩
  | 17 => ⟨S32, .f32⟩
  | 18 => ⟨S1x32, .f32⟩
  | 19 => ⟨S100000x32, .f32⟩
  | 20 => ⟨S100000x32, .f32⟩
  | 21 => ⟨S100000x32, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x32, .f32⟩
  | 31 => ⟨S_, .f32⟩
  | 32 => ⟨S100000x32, .f32⟩
  | 33 => ⟨S1600000x1, .i32⟩
  | 34 => ⟨S100000x32, .f32⟩
  | 35 => ⟨S100000x32, .f32⟩
  | 36 => ⟨S1x32x16, .f32⟩
  | 37 => ⟨S32x16, .f32⟩
  | 38 => ⟨S100000x16, .f32⟩
  | 39 => ⟨S1x16, .f32⟩
  | 40 => ⟨S16, .f32⟩
  | 41 => ⟨S1x16, .f32⟩
  | 42 => ⟨S100000x16, .f32⟩
  | 43 => ⟨S100000x16, .f32⟩
  | 44 => ⟨S_, .f32⟩
  | 45 => ⟨S_, .f32⟩
  | 46 => ⟨S100000x16, .f32⟩
  | 47 => ⟨S100000x16, .i1⟩
  | 48 => ⟨S_, .f32⟩
  | 49 => ⟨S100000x16, .f32⟩
  | 50 => ⟨S100000x16, .i1⟩
  | 51 => ⟨S_, .f32⟩
  | 52 => ⟨S_, .f32⟩
  | 53 => ⟨S100000x16, .f32⟩
  | 54 => ⟨S100000x16, .f32⟩
  | 55 => ⟨S100000x16, .f32⟩
  | 56 => ⟨S_, .f32⟩
  | 57 => ⟨S100000x16, .f32⟩
  | 58 => ⟨S100000x16, .f32⟩
  | 59 => ⟨S100000x16, .f32⟩
  | 60 => ⟨S_, .f32⟩
  | 61 => ⟨S100000x16, .f32⟩
  | 62 => ⟨S100000x16, .f32⟩
  | 63 => ⟨S1x16x32, .f32⟩
  | 64 => ⟨S16x32, .f32⟩
  | 65 => ⟨S100000x32, .f32⟩
  | 66 => ⟨S1x32, .f32⟩
  | 67 => ⟨S32, .f32⟩
  | 68 => ⟨S1x32, .f32⟩
  | 69 => ⟨S100000x32, .f32⟩
  | 70 => ⟨S100000x32, .f32⟩
  | 71 => ⟨S100000x32, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x32, .f32⟩
  | 81 => ⟨S_, .f32⟩
  | 82 => ⟨S100000x32, .f32⟩
  | 83 => ⟨S1600000x1, .i32⟩
  | 84 => ⟨S100000x32, .f32⟩
  | 85 => ⟨S100000x32, .f32⟩
  | 86 => ⟨S100000x1, .f32⟩
  | _ => ⟨S100000x1, .f32⟩

abbrev hbmTy (i : Nat) : BufTy := match i / 128 with
  | 0 => hbmTy0_0 i
  | 1 => hbmTy0_1 i
  | 2 => hbmTy0_2 i
  | 3 => hbmTy0_3 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_cst_0 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_cst_1 : Ref sig .tc := ⟨.hbm, 40, rfl⟩
abbrev main_call0_call0_call0_v0 : Ref sig .tc := ⟨.hbm, 41, rfl⟩
abbrev main_call0_call0_call0_v1 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_v0 : Ref sig .tc := ⟨.hbm, 48, rfl⟩
abbrev main_call0_cst_0 : Ref sig .tc := ⟨.hbm, 49, rfl⟩
abbrev main_call0_v1 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_1 : Ref sig .tc := ⟨.hbm, 56, rfl⟩
abbrev main_v24 : Ref sig .tc := ⟨.hbm, 57, rfl⟩
abbrev main_v25 : Ref sig .tc := ⟨.hbm, 58, rfl⟩
abbrev main_c_2 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_3 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_call1_cst : Ref sig .tc := ⟨.hbm, 78, rfl⟩
abbrev main_call1_call0_cst : Ref sig .tc := ⟨.hbm, 79, rfl⟩
abbrev main_call1_call0_v0 : Ref sig .tc := ⟨.hbm, 80, rfl⟩
abbrev main_call1_call0_v1 : Ref sig .tc := ⟨.hbm, 81, rfl⟩
abbrev main_call1_call0_cst_0 : Ref sig .tc := ⟨.hbm, 82, rfl⟩
abbrev main_call1_call0_v2 : Ref sig .tc := ⟨.hbm, 83, rfl⟩
abbrev main_call1_call0_v3 : Ref sig .tc := ⟨.hbm, 84, rfl⟩
abbrev main_call1_call0_cst_1 : Ref sig .tc := ⟨.hbm, 85, rfl⟩
abbrev main_call1_call0_call0_v0 : Ref sig .tc := ⟨.hbm, 86, rfl⟩
abbrev main_call1_call0_call0_v1 : Ref sig .tc := ⟨.hbm, 87, rfl⟩
abbrev main_call1_call0_v4 : Ref sig .tc := ⟨.hbm, 88, rfl⟩
abbrev main_call1_call0_v5 : Ref sig .tc := ⟨.hbm, 89, rfl⟩
abbrev main_call1_call0_v6 : Ref sig .tc := ⟨.hbm, 90, rfl⟩
abbrev main_call1_call0_v7 : Ref sig .tc := ⟨.hbm, 91, rfl⟩
abbrev main_call1_call0_v8 : Ref sig .tc := ⟨.hbm, 92, rfl⟩
abbrev main_call1_v0 : Ref sig .tc := ⟨.hbm, 93, rfl⟩
abbrev main_call1_cst_0 : Ref sig .tc := ⟨.hbm, 94, rfl⟩
abbrev main_call1_v1 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_c_4 : Ref sig .tc := ⟨.hbm, 106, rfl⟩
abbrev main_v53 : Ref sig .tc := ⟨.hbm, 107, rfl⟩
abbrev main_v54 : Ref sig .tc := ⟨.hbm, 108, rfl⟩
abbrev main_c_5 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_6 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_call2_cst : Ref sig .tc := ⟨.hbm, 128, rfl⟩
abbrev main_call2_call0_cst : Ref sig .tc := ⟨.hbm, 129, rfl⟩
abbrev main_call2_call0_v0 : Ref sig .tc := ⟨.hbm, 130, rfl⟩
abbrev main_call2_call0_v1 : Ref sig .tc := ⟨.hbm, 131, rfl⟩
abbrev main_call2_call0_cst_0 : Ref sig .tc := ⟨.hbm, 132, rfl⟩
abbrev main_call2_call0_v2 : Ref sig .tc := ⟨.hbm, 133, rfl⟩
abbrev main_call2_call0_v3 : Ref sig .tc := ⟨.hbm, 134, rfl⟩
abbrev main_call2_call0_cst_1 : Ref sig .tc := ⟨.hbm, 135, rfl⟩
abbrev main_call2_call0_call0_v0 : Ref sig .tc := ⟨.hbm, 136, rfl⟩
abbrev main_call2_call0_call0_v1 : Ref sig .tc := ⟨.hbm, 137, rfl⟩
abbrev main_call2_call0_v4 : Ref sig .tc := ⟨.hbm, 138, rfl⟩
abbrev main_call2_call0_v5 : Ref sig .tc := ⟨.hbm, 139, rfl⟩
abbrev main_call2_call0_v6 : Ref sig .tc := ⟨.hbm, 140, rfl⟩
abbrev main_call2_call0_v7 : Ref sig .tc := ⟨.hbm, 141, rfl⟩
abbrev main_call2_call0_v8 : Ref sig .tc := ⟨.hbm, 142, rfl⟩
abbrev main_call2_v0 : Ref sig .tc := ⟨.hbm, 143, rfl⟩
abbrev main_call2_cst_0 : Ref sig .tc := ⟨.hbm, 144, rfl⟩
abbrev main_call2_v1 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_c_7 : Ref sig .tc := ⟨.hbm, 156, rfl⟩
abbrev main_v82 : Ref sig .tc := ⟨.hbm, 157, rfl⟩
abbrev main_v83 : Ref sig .tc := ⟨.hbm, 158, rfl⟩
abbrev main_c_8 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_cst_9 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_call3_cst : Ref sig .tc := ⟨.hbm, 178, rfl⟩
abbrev main_call3_call0_cst : Ref sig .tc := ⟨.hbm, 179, rfl⟩
abbrev main_call3_call0_v0 : Ref sig .tc := ⟨.hbm, 180, rfl⟩
abbrev main_call3_call0_v1 : Ref sig .tc := ⟨.hbm, 181, rfl⟩
abbrev main_call3_call0_cst_0 : Ref sig .tc := ⟨.hbm, 182, rfl⟩
abbrev main_call3_call0_v2 : Ref sig .tc := ⟨.hbm, 183, rfl⟩
abbrev main_call3_call0_v3 : Ref sig .tc := ⟨.hbm, 184, rfl⟩
abbrev main_call3_call0_cst_1 : Ref sig .tc := ⟨.hbm, 185, rfl⟩
abbrev main_call3_call0_call0_v0 : Ref sig .tc := ⟨.hbm, 186, rfl⟩
abbrev main_call3_call0_call0_v1 : Ref sig .tc := ⟨.hbm, 187, rfl⟩
abbrev main_call3_call0_v4 : Ref sig .tc := ⟨.hbm, 188, rfl⟩
abbrev main_call3_call0_v5 : Ref sig .tc := ⟨.hbm, 189, rfl⟩
abbrev main_call3_call0_v6 : Ref sig .tc := ⟨.hbm, 190, rfl⟩
abbrev main_call3_call0_v7 : Ref sig .tc := ⟨.hbm, 191, rfl⟩
abbrev main_call3_call0_v8 : Ref sig .tc := ⟨.hbm, 192, rfl⟩
abbrev main_call3_v0 : Ref sig .tc := ⟨.hbm, 193, rfl⟩
abbrev main_call3_cst_0 : Ref sig .tc := ⟨.hbm, 194, rfl⟩
abbrev main_call3_v1 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩
abbrev main_c_10 : Ref sig .tc := ⟨.hbm, 206, rfl⟩
abbrev main_v111 : Ref sig .tc := ⟨.hbm, 207, rfl⟩
abbrev main_v112 : Ref sig .tc := ⟨.hbm, 208, rfl⟩
abbrev main_c_11 : Ref sig .tc := ⟨.hbm, 209, rfl⟩
abbrev main_v113 : Ref sig .tc := ⟨.hbm, 210, rfl⟩
abbrev main_v114 : Ref sig .tc := ⟨.hbm, 211, rfl⟩
abbrev main_v115 : Ref sig .tc := ⟨.hbm, 212, rfl⟩
abbrev main_v116 : Ref sig .tc := ⟨.hbm, 213, rfl⟩
abbrev main_v117 : Ref sig .tc := ⟨.hbm, 214, rfl⟩
abbrev main_cst_12 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_call4_cst : Ref sig .tc := ⟨.hbm, 228, rfl⟩
abbrev main_call4_call0_cst : Ref sig .tc := ⟨.hbm, 229, rfl⟩
abbrev main_call4_call0_v0 : Ref sig .tc := ⟨.hbm, 230, rfl⟩
abbrev main_call4_call0_v1 : Ref sig .tc := ⟨.hbm, 231, rfl⟩
abbrev main_call4_call0_cst_0 : Ref sig .tc := ⟨.hbm, 232, rfl⟩
abbrev main_call4_call0_v2 : Ref sig .tc := ⟨.hbm, 233, rfl⟩
abbrev main_call4_call0_v3 : Ref sig .tc := ⟨.hbm, 234, rfl⟩
abbrev main_call4_call0_cst_1 : Ref sig .tc := ⟨.hbm, 235, rfl⟩
abbrev main_call4_call0_call0_v0 : Ref sig .tc := ⟨.hbm, 236, rfl⟩
abbrev main_call4_call0_call0_v1 : Ref sig .tc := ⟨.hbm, 237, rfl⟩
abbrev main_call4_call0_v4 : Ref sig .tc := ⟨.hbm, 238, rfl⟩
abbrev main_call4_call0_v5 : Ref sig .tc := ⟨.hbm, 239, rfl⟩
abbrev main_call4_call0_v6 : Ref sig .tc := ⟨.hbm, 240, rfl⟩
abbrev main_call4_call0_v7 : Ref sig .tc := ⟨.hbm, 241, rfl⟩
abbrev main_call4_call0_v8 : Ref sig .tc := ⟨.hbm, 242, rfl⟩
abbrev main_call4_v0 : Ref sig .tc := ⟨.hbm, 243, rfl⟩
abbrev main_call4_cst_0 : Ref sig .tc := ⟨.hbm, 244, rfl⟩
abbrev main_call4_v1 : Ref sig .tc := ⟨.hbm, 245, rfl⟩
abbrev main_v130 : Ref sig .tc := ⟨.hbm, 246, rfl⟩
abbrev main_v131 : Ref sig .tc := ⟨.hbm, 247, rfl⟩
abbrev main_v132 : Ref sig .tc := ⟨.hbm, 248, rfl⟩
abbrev main_v133 : Ref sig .tc := ⟨.hbm, 249, rfl⟩
abbrev main_v134 : Ref sig .tc := ⟨.hbm, 250, rfl⟩
abbrev main_v135 : Ref sig .tc := ⟨.hbm, 251, rfl⟩
abbrev main_v136 : Ref sig .tc := ⟨.hbm, 252, rfl⟩
abbrev main_v137 : Ref sig .tc := ⟨.hbm, 253, rfl⟩
abbrev main_v138 : Ref sig .tc := ⟨.hbm, 254, rfl⟩
abbrev main_v139 : Ref sig .tc := ⟨.hbm, 255, rfl⟩
abbrev main_c_13 : Ref sig .tc := ⟨.hbm, 256, rfl⟩
abbrev main_v140 : Ref sig .tc := ⟨.hbm, 257, rfl⟩
abbrev main_v141 : Ref sig .tc := ⟨.hbm, 258, rfl⟩
abbrev main_c_14 : Ref sig .tc := ⟨.hbm, 259, rfl⟩
abbrev main_v142 : Ref sig .tc := ⟨.hbm, 260, rfl⟩
abbrev main_v143 : Ref sig .tc := ⟨.hbm, 261, rfl⟩
abbrev main_v144 : Ref sig .tc := ⟨.hbm, 262, rfl⟩
abbrev main_v145 : Ref sig .tc := ⟨.hbm, 263, rfl⟩
abbrev main_v146 : Ref sig .tc := ⟨.hbm, 264, rfl⟩
abbrev main_cst_15 : Ref sig .tc := ⟨.hbm, 265, rfl⟩
abbrev main_v147 : Ref sig .tc := ⟨.hbm, 266, rfl⟩
abbrev main_v148 : Ref sig .tc := ⟨.hbm, 267, rfl⟩
abbrev main_v149 : Ref sig .tc := ⟨.hbm, 268, rfl⟩
abbrev main_v150 : Ref sig .tc := ⟨.hbm, 269, rfl⟩
abbrev main_v151 : Ref sig .tc := ⟨.hbm, 270, rfl⟩
abbrev main_v152 : Ref sig .tc := ⟨.hbm, 271, rfl⟩
abbrev main_v153 : Ref sig .tc := ⟨.hbm, 272, rfl⟩
abbrev main_v154 : Ref sig .tc := ⟨.hbm, 273, rfl⟩
abbrev main_v155 : Ref sig .tc := ⟨.hbm, 274, rfl⟩
abbrev main_v156 : Ref sig .tc := ⟨.hbm, 275, rfl⟩
abbrev main_v157 : Ref sig .tc := ⟨.hbm, 276, rfl⟩
abbrev main_v158 : Ref sig .tc := ⟨.hbm, 277, rfl⟩
abbrev main_call5_cst : Ref sig .tc := ⟨.hbm, 278, rfl⟩
abbrev main_call5_call0_cst : Ref sig .tc := ⟨.hbm, 279, rfl⟩
abbrev main_call5_call0_v0 : Ref sig .tc := ⟨.hbm, 280, rfl⟩
abbrev main_call5_call0_v1 : Ref sig .tc := ⟨.hbm, 281, rfl⟩
abbrev main_call5_call0_cst_0 : Ref sig .tc := ⟨.hbm, 282, rfl⟩
abbrev main_call5_call0_v2 : Ref sig .tc := ⟨.hbm, 283, rfl⟩
abbrev main_call5_call0_v3 : Ref sig .tc := ⟨.hbm, 284, rfl⟩
abbrev main_call5_call0_cst_1 : Ref sig .tc := ⟨.hbm, 285, rfl⟩
abbrev main_call5_call0_call0_v0 : Ref sig .tc := ⟨.hbm, 286, rfl⟩
abbrev main_call5_call0_call0_v1 : Ref sig .tc := ⟨.hbm, 287, rfl⟩
abbrev main_call5_call0_v4 : Ref sig .tc := ⟨.hbm, 288, rfl⟩
abbrev main_call5_call0_v5 : Ref sig .tc := ⟨.hbm, 289, rfl⟩
abbrev main_call5_call0_v6 : Ref sig .tc := ⟨.hbm, 290, rfl⟩
abbrev main_call5_call0_v7 : Ref sig .tc := ⟨.hbm, 291, rfl⟩
abbrev main_call5_call0_v8 : Ref sig .tc := ⟨.hbm, 292, rfl⟩
abbrev main_call5_v0 : Ref sig .tc := ⟨.hbm, 293, rfl⟩
abbrev main_call5_cst_0 : Ref sig .tc := ⟨.hbm, 294, rfl⟩
abbrev main_call5_v1 : Ref sig .tc := ⟨.hbm, 295, rfl⟩
abbrev main_v159 : Ref sig .tc := ⟨.hbm, 296, rfl⟩
abbrev main_v160 : Ref sig .tc := ⟨.hbm, 297, rfl⟩
abbrev main_v161 : Ref sig .tc := ⟨.hbm, 298, rfl⟩
abbrev main_v162 : Ref sig .tc := ⟨.hbm, 299, rfl⟩
abbrev main_v163 : Ref sig .tc := ⟨.hbm, 300, rfl⟩
abbrev main_v164 : Ref sig .tc := ⟨.hbm, 301, rfl⟩
abbrev main_v165 : Ref sig .tc := ⟨.hbm, 302, rfl⟩
abbrev main_v166 : Ref sig .tc := ⟨.hbm, 303, rfl⟩
abbrev main_v167 : Ref sig .tc := ⟨.hbm, 304, rfl⟩
abbrev main_v168 : Ref sig .tc := ⟨.hbm, 305, rfl⟩
abbrev main_c_16 : Ref sig .tc := ⟨.hbm, 306, rfl⟩
abbrev main_v169 : Ref sig .tc := ⟨.hbm, 307, rfl⟩
abbrev main_v170 : Ref sig .tc := ⟨.hbm, 308, rfl⟩
abbrev main_c_17 : Ref sig .tc := ⟨.hbm, 309, rfl⟩
abbrev main_v171 : Ref sig .tc := ⟨.hbm, 310, rfl⟩
abbrev main_v172 : Ref sig .tc := ⟨.hbm, 311, rfl⟩
abbrev main_v173 : Ref sig .tc := ⟨.hbm, 312, rfl⟩
abbrev main_v174 : Ref sig .tc := ⟨.hbm, 313, rfl⟩
abbrev main_v175 : Ref sig .tc := ⟨.hbm, 314, rfl⟩
abbrev main_cst_18 : Ref sig .tc := ⟨.hbm, 315, rfl⟩
abbrev main_v176 : Ref sig .tc := ⟨.hbm, 316, rfl⟩
abbrev main_v177 : Ref sig .tc := ⟨.hbm, 317, rfl⟩
abbrev main_v178 : Ref sig .tc := ⟨.hbm, 318, rfl⟩
abbrev main_v179 : Ref sig .tc := ⟨.hbm, 319, rfl⟩
abbrev main_v180 : Ref sig .tc := ⟨.hbm, 320, rfl⟩
abbrev main_v181 : Ref sig .tc := ⟨.hbm, 321, rfl⟩
abbrev main_v182 : Ref sig .tc := ⟨.hbm, 322, rfl⟩
abbrev main_v183 : Ref sig .tc := ⟨.hbm, 323, rfl⟩
abbrev main_v184 : Ref sig .tc := ⟨.hbm, 324, rfl⟩
abbrev main_v185 : Ref sig .tc := ⟨.hbm, 325, rfl⟩
abbrev main_v186 : Ref sig .tc := ⟨.hbm, 326, rfl⟩
abbrev main_v187 : Ref sig .tc := ⟨.hbm, 327, rfl⟩
abbrev main_call6_cst : Ref sig .tc := ⟨.hbm, 328, rfl⟩
abbrev main_call6_call0_cst : Ref sig .tc := ⟨.hbm, 329, rfl⟩
abbrev main_call6_call0_v0 : Ref sig .tc := ⟨.hbm, 330, rfl⟩
abbrev main_call6_call0_v1 : Ref sig .tc := ⟨.hbm, 331, rfl⟩
abbrev main_call6_call0_cst_0 : Ref sig .tc := ⟨.hbm, 332, rfl⟩
abbrev main_call6_call0_v2 : Ref sig .tc := ⟨.hbm, 333, rfl⟩
abbrev main_call6_call0_v3 : Ref sig .tc := ⟨.hbm, 334, rfl⟩
abbrev main_call6_call0_cst_1 : Ref sig .tc := ⟨.hbm, 335, rfl⟩
abbrev main_call6_call0_call0_v0 : Ref sig .tc := ⟨.hbm, 336, rfl⟩
abbrev main_call6_call0_call0_v1 : Ref sig .tc := ⟨.hbm, 337, rfl⟩
abbrev main_call6_call0_v4 : Ref sig .tc := ⟨.hbm, 338, rfl⟩
abbrev main_call6_call0_v5 : Ref sig .tc := ⟨.hbm, 339, rfl⟩
abbrev main_call6_call0_v6 : Ref sig .tc := ⟨.hbm, 340, rfl⟩
abbrev main_call6_call0_v7 : Ref sig .tc := ⟨.hbm, 341, rfl⟩
abbrev main_call6_call0_v8 : Ref sig .tc := ⟨.hbm, 342, rfl⟩
abbrev main_call6_v0 : Ref sig .tc := ⟨.hbm, 343, rfl⟩
abbrev main_call6_cst_0 : Ref sig .tc := ⟨.hbm, 344, rfl⟩
abbrev main_call6_v1 : Ref sig .tc := ⟨.hbm, 345, rfl⟩
abbrev main_v188 : Ref sig .tc := ⟨.hbm, 346, rfl⟩
abbrev main_v189 : Ref sig .tc := ⟨.hbm, 347, rfl⟩
abbrev main_v190 : Ref sig .tc := ⟨.hbm, 348, rfl⟩
abbrev main_v191 : Ref sig .tc := ⟨.hbm, 349, rfl⟩
abbrev main_v192 : Ref sig .tc := ⟨.hbm, 350, rfl⟩
abbrev main_v193 : Ref sig .tc := ⟨.hbm, 351, rfl⟩
abbrev main_v194 : Ref sig .tc := ⟨.hbm, 352, rfl⟩
abbrev main_v195 : Ref sig .tc := ⟨.hbm, 353, rfl⟩
abbrev main_v196 : Ref sig .tc := ⟨.hbm, 354, rfl⟩
abbrev main_v197 : Ref sig .tc := ⟨.hbm, 355, rfl⟩
abbrev main_c_19 : Ref sig .tc := ⟨.hbm, 356, rfl⟩
abbrev main_v198 : Ref sig .tc := ⟨.hbm, 357, rfl⟩
abbrev main_v199 : Ref sig .tc := ⟨.hbm, 358, rfl⟩
abbrev main_c_20 : Ref sig .tc := ⟨.hbm, 359, rfl⟩
abbrev main_v200 : Ref sig .tc := ⟨.hbm, 360, rfl⟩
abbrev main_v201 : Ref sig .tc := ⟨.hbm, 361, rfl⟩
abbrev main_v202 : Ref sig .tc := ⟨.hbm, 362, rfl⟩
abbrev main_v203 : Ref sig .tc := ⟨.hbm, 363, rfl⟩
abbrev main_v204 : Ref sig .tc := ⟨.hbm, 364, rfl⟩
abbrev main_cst_21 : Ref sig .tc := ⟨.hbm, 365, rfl⟩
abbrev main_v205 : Ref sig .tc := ⟨.hbm, 366, rfl⟩
abbrev main_v206 : Ref sig .tc := ⟨.hbm, 367, rfl⟩
abbrev main_v207 : Ref sig .tc := ⟨.hbm, 368, rfl⟩
abbrev main_v208 : Ref sig .tc := ⟨.hbm, 369, rfl⟩
abbrev main_v209 : Ref sig .tc := ⟨.hbm, 370, rfl⟩
abbrev main_v210 : Ref sig .tc := ⟨.hbm, 371, rfl⟩
abbrev main_v211 : Ref sig .tc := ⟨.hbm, 372, rfl⟩
abbrev main_v212 : Ref sig .tc := ⟨.hbm, 373, rfl⟩
abbrev main_v213 : Ref sig .tc := ⟨.hbm, 374, rfl⟩
abbrev main_v214 : Ref sig .tc := ⟨.hbm, 375, rfl⟩
abbrev main_v215 : Ref sig .tc := ⟨.hbm, 376, rfl⟩
abbrev main_v216 : Ref sig .tc := ⟨.hbm, 377, rfl⟩
abbrev main_call7_cst : Ref sig .tc := ⟨.hbm, 378, rfl⟩
abbrev main_call7_call0_cst : Ref sig .tc := ⟨.hbm, 379, rfl⟩
abbrev main_call7_call0_v0 : Ref sig .tc := ⟨.hbm, 380, rfl⟩
abbrev main_call7_call0_v1 : Ref sig .tc := ⟨.hbm, 381, rfl⟩
abbrev main_call7_call0_cst_0 : Ref sig .tc := ⟨.hbm, 382, rfl⟩
abbrev main_call7_call0_v2 : Ref sig .tc := ⟨.hbm, 383, rfl⟩
abbrev main_call7_call0_v3 : Ref sig .tc := ⟨.hbm, 384, rfl⟩
abbrev main_call7_call0_cst_1 : Ref sig .tc := ⟨.hbm, 385, rfl⟩
abbrev main_call7_call0_call0_v0 : Ref sig .tc := ⟨.hbm, 386, rfl⟩
abbrev main_call7_call0_call0_v1 : Ref sig .tc := ⟨.hbm, 387, rfl⟩
abbrev main_call7_call0_v4 : Ref sig .tc := ⟨.hbm, 388, rfl⟩
abbrev main_call7_call0_v5 : Ref sig .tc := ⟨.hbm, 389, rfl⟩
abbrev main_call7_call0_v6 : Ref sig .tc := ⟨.hbm, 390, rfl⟩
abbrev main_call7_call0_v7 : Ref sig .tc := ⟨.hbm, 391, rfl⟩
abbrev main_call7_call0_v8 : Ref sig .tc := ⟨.hbm, 392, rfl⟩
abbrev main_call7_v0 : Ref sig .tc := ⟨.hbm, 393, rfl⟩
abbrev main_call7_cst_0 : Ref sig .tc := ⟨.hbm, 394, rfl⟩
abbrev main_call7_v1 : Ref sig .tc := ⟨.hbm, 395, rfl⟩
abbrev main_v217 : Ref sig .tc := ⟨.hbm, 396, rfl⟩
abbrev main_v218 : Ref sig .tc := ⟨.hbm, 397, rfl⟩
abbrev main_v219 : Ref sig .tc := ⟨.hbm, 398, rfl⟩
abbrev main_v220 : Ref sig .tc := ⟨.hbm, 399, rfl⟩
abbrev main_v221 : Ref sig .tc := ⟨.hbm, 400, rfl⟩
abbrev main_v222 : Ref sig .tc := ⟨.hbm, 401, rfl⟩
abbrev main_v223 : Ref sig .tc := ⟨.hbm, 402, rfl⟩
abbrev main_v224 : Ref sig .tc := ⟨.hbm, 403, rfl⟩
abbrev main_v225 : Ref sig .tc := ⟨.hbm, 404, rfl⟩
abbrev main_v226 : Ref sig .tc := ⟨.hbm, 405, rfl⟩
abbrev main_c_22 : Ref sig .tc := ⟨.hbm, 406, rfl⟩
abbrev main_v227 : Ref sig .tc := ⟨.hbm, 407, rfl⟩
abbrev main_v228 : Ref sig .tc := ⟨.hbm, 408, rfl⟩
abbrev main_c_23 : Ref sig .tc := ⟨.hbm, 409, rfl⟩
abbrev main_v229 : Ref sig .tc := ⟨.hbm, 410, rfl⟩
abbrev main_v230 : Ref sig .tc := ⟨.hbm, 411, rfl⟩
abbrev main_v231 : Ref sig .tc := ⟨.hbm, 412, rfl⟩
abbrev main_v232 : Ref sig .tc := ⟨.hbm, 413, rfl⟩
abbrev main_v233 : Ref sig .tc := ⟨.hbm, 414, rfl⟩
abbrev main_cst_24 : Ref sig .tc := ⟨.hbm, 415, rfl⟩
abbrev main_v234 : Ref sig .tc := ⟨.hbm, 416, rfl⟩
abbrev main_v235 : Ref sig .tc := ⟨.hbm, 417, rfl⟩
abbrev main_v236 : Ref sig .tc := ⟨.hbm, 418, rfl⟩
abbrev main_v237 : Ref sig .tc := ⟨.hbm, 419, rfl⟩
abbrev main_v238 : Ref sig .tc := ⟨.hbm, 420, rfl⟩
abbrev main_v239 : Ref sig .tc := ⟨.hbm, 421, rfl⟩
abbrev main_v240 : Ref sig .tc := ⟨.hbm, 422, rfl⟩
abbrev main_v241 : Ref sig .tc := ⟨.hbm, 423, rfl⟩
abbrev main_v242 : Ref sig .tc := ⟨.hbm, 424, rfl⟩
abbrev main_v243 : Ref sig .tc := ⟨.hbm, 425, rfl⟩
abbrev main_v244 : Ref sig .tc := ⟨.hbm, 426, rfl⟩
abbrev main_v245 : Ref sig .tc := ⟨.hbm, 427, rfl⟩
abbrev main_call8_cst : Ref sig .tc := ⟨.hbm, 428, rfl⟩
abbrev main_call8_call0_cst : Ref sig .tc := ⟨.hbm, 429, rfl⟩
abbrev main_call8_call0_v0 : Ref sig .tc := ⟨.hbm, 430, rfl⟩
abbrev main_call8_call0_v1 : Ref sig .tc := ⟨.hbm, 431, rfl⟩
abbrev main_call8_call0_cst_0 : Ref sig .tc := ⟨.hbm, 432, rfl⟩
abbrev main_call8_call0_v2 : Ref sig .tc := ⟨.hbm, 433, rfl⟩
abbrev main_call8_call0_v3 : Ref sig .tc := ⟨.hbm, 434, rfl⟩
abbrev main_call8_call0_cst_1 : Ref sig .tc := ⟨.hbm, 435, rfl⟩
abbrev main_call8_call0_call0_v0 : Ref sig .tc := ⟨.hbm, 436, rfl⟩
abbrev main_call8_call0_call0_v1 : Ref sig .tc := ⟨.hbm, 437, rfl⟩
abbrev main_call8_call0_v4 : Ref sig .tc := ⟨.hbm, 438, rfl⟩
abbrev main_call8_call0_v5 : Ref sig .tc := ⟨.hbm, 439, rfl⟩
abbrev main_call8_call0_v6 : Ref sig .tc := ⟨.hbm, 440, rfl⟩
abbrev main_call8_call0_v7 : Ref sig .tc := ⟨.hbm, 441, rfl⟩
abbrev main_call8_call0_v8 : Ref sig .tc := ⟨.hbm, 442, rfl⟩
abbrev main_call8_v0 : Ref sig .tc := ⟨.hbm, 443, rfl⟩
abbrev main_call8_cst_0 : Ref sig .tc := ⟨.hbm, 444, rfl⟩
abbrev main_call8_v1 : Ref sig .tc := ⟨.hbm, 445, rfl⟩
abbrev main_v246 : Ref sig .tc := ⟨.hbm, 446, rfl⟩
abbrev main_v247 : Ref sig .tc := ⟨.hbm, 447, rfl⟩
abbrev main_v248 : Ref sig .tc := ⟨.hbm, 448, rfl⟩
abbrev main_v249 : Ref sig .tc := ⟨.hbm, 449, rfl⟩
abbrev main_v250 : Ref sig .tc := ⟨.hbm, 450, rfl⟩
abbrev main_v251 : Ref sig .tc := ⟨.hbm, 451, rfl⟩
abbrev main_v252 : Ref sig .tc := ⟨.hbm, 452, rfl⟩
abbrev main_v253 : Ref sig .tc := ⟨.hbm, 453, rfl⟩
abbrev main_v254 : Ref sig .tc := ⟨.hbm, 454, rfl⟩
abbrev main_v255 : Ref sig .tc := ⟨.hbm, 455, rfl⟩
abbrev main_c_25 : Ref sig .tc := ⟨.hbm, 456, rfl⟩
abbrev main_v256 : Ref sig .tc := ⟨.hbm, 457, rfl⟩
abbrev main_v257 : Ref sig .tc := ⟨.hbm, 458, rfl⟩
abbrev main_c_26 : Ref sig .tc := ⟨.hbm, 459, rfl⟩
abbrev main_v258 : Ref sig .tc := ⟨.hbm, 460, rfl⟩
abbrev main_v259 : Ref sig .tc := ⟨.hbm, 461, rfl⟩
abbrev main_v260 : Ref sig .tc := ⟨.hbm, 462, rfl⟩
abbrev main_v261 : Ref sig .tc := ⟨.hbm, 463, rfl⟩
abbrev main_v262 : Ref sig .tc := ⟨.hbm, 464, rfl⟩
abbrev main_cst_27 : Ref sig .tc := ⟨.hbm, 465, rfl⟩
abbrev main_v263 : Ref sig .tc := ⟨.hbm, 466, rfl⟩
abbrev main_v264 : Ref sig .tc := ⟨.hbm, 467, rfl⟩
abbrev main_v265 : Ref sig .tc := ⟨.hbm, 468, rfl⟩
abbrev main_v266 : Ref sig .tc := ⟨.hbm, 469, rfl⟩
abbrev main_v267 : Ref sig .tc := ⟨.hbm, 470, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x1 : S_.BroadcastsInDim S100000x1 (![] : Fin 0 → Fin S100000x1.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  slices_S8x32x16_S1x32x16_0_0_0 : S8x32x16.Slices ![0, 0, 0] S1x32x16
  shapeCasts_S1x32x16_S32x16 : S1x32x16.ShapeCasts S32x16
  slices_S8x16_S1x16_0_0 : S8x16.Slices ![0, 0] S1x16
  shapeCasts_S1x16_S16 : S1x16.ShapeCasts S16
  slices_S8x16x32_S1x16x32_0_0_0 : S8x16x32.Slices ![0, 0, 0] S1x16x32
  shapeCasts_S1x16x32_S16x32 : S1x16x32.ShapeCasts S16x32
  slices_S8x32_S1x32_0_0 : S8x32.Slices ![0, 0] S1x32
  shapeCasts_S1x32_S32 : S1x32.ShapeCasts S32
  slices_S8x32x16_S1x32x16_1_0_0 : S8x32x16.Slices ![1, 0, 0] S1x32x16
  slices_S8x16_S1x16_1_0 : S8x16.Slices ![1, 0] S1x16
  slices_S8x16x32_S1x16x32_1_0_0 : S8x16x32.Slices ![1, 0, 0] S1x16x32
  slices_S8x32_S1x32_1_0 : S8x32.Slices ![1, 0] S1x32
  slices_S8x32x16_S1x32x16_2_0_0 : S8x32x16.Slices ![2, 0, 0] S1x32x16
  slices_S8x16_S1x16_2_0 : S8x16.Slices ![2, 0] S1x16
  slices_S8x16x32_S1x16x32_2_0_0 : S8x16x32.Slices ![2, 0, 0] S1x16x32
  slices_S8x32_S1x32_2_0 : S8x32.Slices ![2, 0] S1x32
  slices_S8x32x16_S1x32x16_3_0_0 : S8x32x16.Slices ![3, 0, 0] S1x32x16
  slices_S8x16_S1x16_3_0 : S8x16.Slices ![3, 0] S1x16
  slices_S8x16x32_S1x16x32_3_0_0 : S8x16x32.Slices ![3, 0, 0] S1x16x32
  slices_S8x32_S1x32_3_0 : S8x32.Slices ![3, 0] S1x32
  slices_S8x32x16_S1x32x16_4_0_0 : S8x32x16.Slices ![4, 0, 0] S1x32x16
  slices_S8x16_S1x16_4_0 : S8x16.Slices ![4, 0] S1x16
  slices_S8x16x32_S1x16x32_4_0_0 : S8x16x32.Slices ![4, 0, 0] S1x16x32
  slices_S8x32_S1x32_4_0 : S8x32.Slices ![4, 0] S1x32
  slices_S8x32x16_S1x32x16_5_0_0 : S8x32x16.Slices ![5, 0, 0] S1x32x16
  slices_S8x16_S1x16_5_0 : S8x16.Slices ![5, 0] S1x16
  slices_S8x16x32_S1x16x32_5_0_0 : S8x16x32.Slices ![5, 0, 0] S1x16x32
  slices_S8x32_S1x32_5_0 : S8x32.Slices ![5, 0] S1x32
  slices_S8x32x16_S1x32x16_6_0_0 : S8x32x16.Slices ![6, 0, 0] S1x32x16
  slices_S8x16_S1x16_6_0 : S8x16.Slices ![6, 0] S1x16
  slices_S8x16x32_S1x16x32_6_0_0 : S8x16x32.Slices ![6, 0, 0] S1x16x32
  slices_S8x32_S1x32_6_0 : S8x32.Slices ![6, 0] S1x32
  slices_S8x32x16_S1x32x16_7_0_0 : S8x32x16.Slices ![7, 0, 0] S1x32x16
  slices_S8x16_S1x16_7_0 : S8x16.Slices ![7, 0] S1x16
  slices_S8x16x32_S1x16x32_7_0_0 : S8x16x32.Slices ![7, 0, 0] S1x16x32
  slices_S8x32_S1x32_7_0 : S8x32.Slices ![7, 0] S1x32
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S100000x1_S1x16_S100000x16_1_0_0_1_n_n_wf : DotDims.WF S100000x1 S1x16 S100000x16 [1] [0] [0] [1] [] []
  dot_S100000x16_S16x32_S100000x32_1_0_0_1_n_n_wf : DotDims.WF S100000x16 S16x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x16_S100000x16_1_0_0_1_n_n_wf : DotDims.WF S100000x32 S32x16 S100000x16 [1] [0] [0] [1] [] []
  dot_S100000x32_S32x1_S100000x1_1_0_0_1_n_n_wf : DotDims.WF S100000x32 S32x1 S100000x1 [1] [0] [0] [1] [] []

variable [Facts₀]

def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KRun.lean ====
/-
  The kernel program's run with its final memory named: every weakly fair execution of @main terminates, nothing
  faulting, and every buffer that no scope owns ends at the fold W20 of the program's host operations and regions over
  the launch memory.  (The frame theorem projects this same post onto the argument arrays; here it is kept whole, so
  that the result buffer can be read off the fold.)
-/
import proofs.«175125_j35716948034103_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with every unscoped buffer at the fold's final contents. -/
theorem run_W20 : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

/-- A buffer of the TensorCore that no scope owns is among the unscoped references. -/
theorem mem_uc' (b : Ref sig .tc) (h : ¬ (Proc.devRef .tc b : DevRef τ sig).isScoped) : Proc.devRef .tc b ∈ Pipeline.ucRefs τ sig :=
  Gen.mem_uc b h

end Cert.KernelIdeal.Run

end
-- ==== Proof.Spec.lean ====
/-
  The network both programs compute, index by index on the extended reals.

  A graph layer takes node features h (one row per node), the neighbour sums a (one row per node: the sum of the
  rows of h over the edges arriving at the node), and a two-layer perceptron.  Row r of the result depends on row r
  of h and of a only:

    hidden(r, k) = selu( Σ_c (h(r,c) + a(r,c)) · w1(c,k) + b1(k) )
    out(r, j)    = Σ_k hidden(r,k) · w2(k,j) + b2(j)            (+ h(r,j) when the layer is residual)

  and the last layer is the plain product  out(r, j) = Σ_c (h(r,c) + a(r,c)) · w(c,j).
  selu(x) = λ · (x if x > 0 else α · (eˣ − 1)) with the two constants kept as their float words.
  The network is the composition of ten such layers; the neighbour sums are a parameter (both programs form them by
  the same gather and scatter-add, which is never opened).
-/
import Idealize.ShloMosaic.Lib.ValueIdx
import Idealize.ShloMosaic.PureOps.Ideal.Laws

noncomputable section

open scoped BigOperators

namespace Gin

open Idealize.ShloMosaic Idealize.ShloMosaic.ValueIdx

/-- A matrix of extended reals with literal extents. -/
abbrev Arr2 (a b : ℕ) : Type := (⟨2, ![a, b]⟩ : Shape).Idx → EReal

/-- The number of nodes. -/
abbrev NN : ℕ := 100000

/-- The scaled exponential linear unit, with the comparison and the choice as the programs spell them. -/
def selu (x : EReal) : EReal :=
  Ideal.ofBits .f32 0x3F867D5F#32 *
    Scalar.select (Ideal.cmp .ogt x (Ideal.ofBits .f32 0x00000000#32)) x
      (Ideal.ofBits .f32 0x3FD62D7D#32 * (Ideal.exp x - Ideal.ofBits .f32 0x3F800000#32))

/-- Entry (r, k) of the hidden layer. -/
def hid {C : ℕ} (h a : Arr2 NN C) (w1 : Arr2 C 16) (b1 : Fin 16 → EReal) (r : Fin NN) (k : Fin 16) : EReal :=
  selu ((∑ c : Fin C, (h (ix2 r c) + a (ix2 r c)) * w1 (ix2 c k)) + b1 k)

/-- Entry (r, j) of the perceptron's output (no residual). -/
def mlpAt {C : ℕ} (h a : Arr2 NN C) (w1 : Arr2 C 16) (b1 : Fin 16 → EReal) (w2 : Arr2 16 32) (b2 : Fin 32 → EReal)
    (r : Fin NN) (j : Fin 32) : EReal :=
  (∑ k : Fin 16, hid h a w1 b1 r k * w2 (ix2 k j)) + b2 j

/-- The first layer: one input feature, no residual. -/
def mlp0 (h a : Arr2 NN 1) (w1 : Arr2 1 16) (b1 : Fin 16 → EReal) (w2 : Arr2 16 32) (b2 : Fin 32 → EReal) : Arr2 NN 32 :=
  fun i => mlpAt h a w1 b1 w2 b2 (i 0) (i 1)

/-- A middle layer: thirty-two features in and out, with the residual. -/
def mlpMid (h a : Arr2 NN 32) (w1 : Arr2 32 16) (b1 : Fin 16 → EReal) (w2 : Arr2 16 32) (b2 : Fin 32 → EReal) : Arr2 NN 32 :=
  fun i => mlpAt h a w1 b1 w2 b2 (i 0) (i 1) + h (ix2 (i 0) (i 1))

/-- The last layer: a plain product with a 32 × 1 matrix. -/
def fin (h a : Arr2 NN 32) (w : Arr2 32 1) : Arr2 NN 1 :=
  fun i => ∑ c : Fin 32, (h (ix2 (i 0) c) + a (ix2 (i 0) c)) * w (ix2 c (i 1))

end Gin

end
-- ==== Proof.KDefs.lean ====
/-
  The kernel program's host operations between its regions, as whole-array terms in the program's own spelling: the
  source and destination node of every edge, the neighbour sums (rows gathered at the wrapped source nodes,
  scatter-added at the destination nodes into zeros), block k of each stacked weight array with its leading unit axis
  dropped, and a bias vector laid as a one-row matrix (the form in which a region's window reads it).
-/
import proofs.«175125_j35716948034103_1_alg».proof.KernelIdeal
import Idealize.ShloMosaic.Lib.ValueIdx
import proofs.«175125_j35716948034103_1_alg».proof.Proof.Spec

noncomputable section

namespace Cert.KernelIdeal.Layers

open Idealize.ShloMosaic Cert.KernelIdeal Cert.KernelIdeal.Facts₀ Cert.KernelIdeal.Facts

variable [Cert.KernelIdeal.Facts]
variable {F : FTy → Type} [FloatOps F]

/-- Row `k` of the edge array as a vector of node numbers (k = 0: sources). -/
def srcR (ei : IVec S2x1600000 32) : IVec S1600000 32 :=
  shapeCast S1600000 (extractStridedSlice S1x1600000 ![0, 0] ei slices_S2x1600000_S1x1600000_0_0) shapeCasts_S1x1600000_S1600000
/-- Row 1 of the edge array: destinations. -/
def dstR (ei : IVec S2x1600000 32) : IVec S1600000 32 :=
  shapeCast S1600000 (extractStridedSlice S1x1600000 ![1, 0] ei slices_S2x1600000_S1x1600000_1_0) shapeCasts_S1x1600000_S1600000

/-- The source nodes with a negative number wrapped by the node count, as a column of gather indices. -/
def srcCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)
/-- The destination nodes as a column of scatter indices. -/
def dstCol (dst : IVec S1600000 32) : IVec S1600000x1 32 :=
  broadcastInDim S1600000x1 ![0] bcast_S1600000_S1600000x1_0 dst

/-- Neighbour sums of one-feature rows. -/
def agg1 (h : FVec F S100000x1 .f32) (src dst : IVec S1600000 32) : FVec F S100000x1 .f32 :=
  Host.scatterAdd scatter_S100000x1_S1600000x1_S1600000x1_1_0_0_1
    (broadcastInDim S100000x1 ![] bcast_S_S100000x1 (constant S_ .f32 0x00000000#32)) (dstCol dst)
    (Host.gather gather_S100000x1_S1600000x1_S1600000x1_1_0_n_n_0_1_11 h (srcCol src))
/-- Neighbour sums of thirty-two-feature rows. -/
def agg32 (h : FVec F S100000x32 .f32) (src dst : IVec S1600000 32) : FVec F S100000x32 .f32 :=
  Host.scatterAdd scatter_S100000x32_S1600000x1_S1600000x32_1_0_0_1
    (broadcastInDim S100000x32 ![] bcast_S_S100000x32 (constant S_ .f32 0x00000000#32)) (dstCol dst)
    (Host.gather gather_S100000x32_S1600000x1_S1600000x32_1_0_n_n_0_1_132 h (srcCol src))

/-! ## The middle layers' weights: block k of each stacked array, its leading unit axis dropped -/

/-- Block k of the stacked first weights, a 32 × 16 matrix. -/
def w1s (W : FVec F S8x32x16 .f32) : Fin 8 → FVec F S32x16 .f32
  | 0 => shapeCast S32x16 (extractStridedSlice S1x32x16 ![0, 0, 0] W slices_S8x32x16_S1x32x16_0_0_0) shapeCasts_S1x32x16_S32x16
  | 1 => shapeCast S32x16 (extractStridedSlice S1x32x16 ![1, 0, 0] W slices_S8x32x16_S1x32x16_1_0_0) shapeCasts_S1x32x16_S32x16
  | 2 => shapeCast S32x16 (extractStridedSlice S1x32x16 ![2, 0, 0] W slices_S8x32x16_S1x32x16_2_0_0) shapeCasts_S1x32x16_S32x16
  | 3 => shapeCast S32x16 (extractStridedSlice S1x32x16 ![3, 0, 0] W slices_S8x32x16_S1x32x16_3_0_0) shapeCasts_S1x32x16_S32x16
  | 4 => shapeCast S32x16 (extractStridedSlice S1x32x16 ![4, 0, 0] W slices_S8x32x16_S1x32x16_4_0_0) shapeCasts_S1x32x16_S32x16
  | 5 => shapeCast S32x16 (extractStridedSlice S1x32x16 ![5, 0, 0] W slices_S8x32x16_S1x32x16_5_0_0) shapeCasts_S1x32x16_S32x16
  | 6 => shapeCast S32x16 (extractStridedSlice S1x32x16 ![6, 0, 0] W slices_S8x32x16_S1x32x16_6_0_0) shapeCasts_S1x32x16_S32x16
  | 7 => shapeCast S32x16 (extractStridedSlice S1x32x16 ![7, 0, 0] W slices_S8x32x16_S1x32x16_7_0_0) shapeCasts_S1x32x16_S32x16
  | ⟨_ + 8, h⟩ => absurd h (Nat.not_lt.2 (Nat.le_add_left _ _))

/-- Row k of the stacked first biases, a vector of 16. -/
def b1s (W : FVec F S8x16 .f32) : Fin 8 → FVec F S16 .f32
  | 0 => shapeCast S16 (extractStridedSlice S1x16 ![0, 0] W slices_S8x16_S1x16_0_0) shapeCasts_S1x16_S16
  | 1 => shapeCast S16 (extractStridedSlice S1x16 ![1, 0] W slices_S8x16_S1x16_1_0) shapeCasts_S1x16_S16
  | 2 => shapeCast S16 (extractStridedSlice S1x16 ![2, 0] W slices_S8x16_S1x16_2_0) shapeCasts_S1x16_S16
  | 3 => shapeCast S16 (extractStridedSlice S1x16 ![3, 0] W slices_S8x16_S1x16_3_0) shapeCasts_S1x16_S16
  | 4 => shapeCast S16 (extractStridedSlice S1x16 ![4, 0] W slices_S8x16_S1x16_4_0) shapeCasts_S1x16_S16
  | 5 => shapeCast S16 (extractStridedSlice S1x16 ![5, 0] W slices_S8x16_S1x16_5_0) shapeCasts_S1x16_S16
  | 6 => shapeCast S16 (extractStridedSlice S1x16 ![6, 0] W slices_S8x16_S1x16_6_0) shapeCasts_S1x16_S16
  | 7 => shapeCast S16 (extractStridedSlice S1x16 ![7, 0] W slices_S8x16_S1x16_7_0) shapeCasts_S1x16_S16
  | ⟨_ + 8, h⟩ => absurd h (Nat.not_lt.2 (Nat.le_add_left _ _))

/-- Block k of the stacked second weights, a 16 × 32 matrix. -/
def w2s (W : FVec F S8x16x32 .f32) : Fin 8 → FVec F S16x32 .f32
  | 0 => shapeCast S16x32 (extractStridedSlice S1x16x32 ![0, 0, 0] W slices_S8x16x32_S1x16x32_0_0_0) shapeCasts_S1x16x32_S16x32
  | 1 => shapeCast S16x32 (extractStridedSlice S1x16x32 ![1, 0, 0] W slices_S8x16x32_S1x16x32_1_0_0) shapeCasts_S1x16x32_S16x32
  | 2 => shapeCast S16x32 (extractStridedSlice S1x16x32 ![2, 0, 0] W slices_S8x16x32_S1x16x32_2_0_0) shapeCasts_S1x16x32_S16x32
  | 3 => shapeCast S16x32 (extractStridedSlice S1x16x32 ![3, 0, 0] W slices_S8x16x32_S1x16x32_3_0_0) shapeCasts_S1x16x32_S16x32
  | 4 => shapeCast S16x32 (extractStridedSlice S1x16x32 ![4, 0, 0] W slices_S8x16x32_S1x16x32_4_0_0) shapeCasts_S1x16x32_S16x32
  | 5 => shapeCast S16x32 (extractStridedSlice S1x16x32 ![5, 0, 0] W slices_S8x16x32_S1x16x32_5_0_0) shapeCasts_S1x16x32_S16x32
  | 6 => shapeCast S16x32 (extractStridedSlice S1x16x32 ![6, 0, 0] W slices_S8x16x32_S1x16x32_6_0_0) shapeCasts_S1x16x32_S16x32
  | 7 => shapeCast S16x32 (extractStridedSlice S1x16x32 ![7, 0, 0] W slices_S8x16x32_S1x16x32_7_0_0) shapeCasts_S1x16x32_S16x32
  | ⟨_ + 8, h⟩ => absurd h (Nat.not_lt.2 (Nat.le_add_left _ _))

/-- Row k of the stacked second biases, a vector of 32. -/
def b2s (W : FVec F S8x32 .f32) : Fin 8 → FVec F S32 .f32
  | 0 => shapeCast S32 (extractStridedSlice S1x32 ![0, 0] W slices_S8x32_S1x32_0_0) shapeCasts_S1x32_S32
  | 1 => shapeCast S32 (extractStridedSlice S1x32 ![1, 0] W slices_S8x32_S1x32_1_0) shapeCasts_S1x32_S32
  | 2 => shapeCast S32 (extractStridedSlice S1x32 ![2, 0] W slices_S8x32_S1x32_2_0) shapeCasts_S1x32_S32
  | 3 => shapeCast S32 (extractStridedSlice S1x32 ![3, 0] W slices_S8x32_S1x32_3_0) shapeCasts_S1x32_S32
  | 4 => shapeCast S32 (extractStridedSlice S1x32 ![4, 0] W slices_S8x32_S1x32_4_0) shapeCasts_S1x32_S32
  | 5 => shapeCast S32 (extractStridedSlice S1x32 ![5, 0] W slices_S8x32_S1x32_5_0) shapeCasts_S1x32_S32
  | 6 => shapeCast S32 (extractStridedSlice S1x32 ![6, 0] W slices_S8x32_S1x32_6_0) shapeCasts_S1x32_S32
  | 7 => shapeCast S32 (extractStridedSlice S1x32 ![7, 0] W slices_S8x32_S1x32_7_0) shapeCasts_S1x32_S32
  | ⟨_ + 8, h⟩ => absurd h (Nat.not_lt.2 (Nat.le_add_left _ _))

/-- A bias vector of 16 laid as a 1 × 16 row, read along the row. -/
def row16 (b : FVec F S16 .f32) : Fin 16 → F .f32 :=
  fun k => shapeCast S1x16 b shapeCasts_S16_S1x16 (Idealize.ShloMosaic.ValueIdx.ix2 (0 : Fin 1) k)
/-- A bias vector of 32 laid as a 1 × 32 row, read along the row. -/
def row32 (b : FVec F S32 .f32) : Fin 32 → F .f32 :=
  fun j => shapeCast S1x32 b shapeCasts_S32_S1x32 (Idealize.ShloMosaic.ValueIdx.ix2 (0 : Fin 1) j)

/-! ## The kernel program's result as a composition of the specification's layers

At the ideal values: each region's output is the specification's layer of the previous region's output, its neighbour
sums, block k of the stacked weights and the two bias rows. -/

/-- Middle layer k of the kernel program applied to the features h. -/
def layerG (ei : IVec S2x1600000 32) (W1 : FVec Ideal S8x32x16 .f32) (B1 : FVec Ideal S8x16 .f32)
    (W2 : FVec Ideal S8x16x32 .f32) (B2 : FVec Ideal S8x32 .f32) (k : Fin 8) (h : FVec Ideal S100000x32 .f32) :
    FVec Ideal S100000x32 .f32 :=
  Gin.mlpMid h (agg32 h (srcR ei) (dstR ei)) (w1s W1 k) (row16 (b1s B1 k)) (w2s W2 k) (row32 (b2s B2 k))

/-- The features after the first layer and the eight middle layers. -/
def featsG (x : FVec Ideal S100000x1 .f32) (ei : IVec S2x1600000 32) (w10 : FVec Ideal S1x16 .f32) (b10 : FVec Ideal S16 .f32)
    (w20 : FVec Ideal S16x32 .f32) (b20 : FVec Ideal S32 .f32) (W1 : FVec Ideal S8x32x16 .f32) (B1 : FVec Ideal S8x16 .f32)
    (W2 : FVec Ideal S8x16x32 .f32) (B2 : FVec Ideal S8x32 .f32) : FVec Ideal S100000x32 .f32 :=
  layerG ei W1 B1 W2 B2 7 (layerG ei W1 B1 W2 B2 6 (layerG ei W1 B1 W2 B2 5 (layerG ei W1 B1 W2 B2 4
    (layerG ei W1 B1 W2 B2 3 (layerG ei W1 B1 W2 B2 2 (layerG ei W1 B1 W2 B2 1 (layerG ei W1 B1 W2 B2 0
      (Gin.mlp0 x (agg1 x (srcR ei) (dstR ei)) w10 (row16 b10) w20 (row32 b20)))))))))

/-- The kernel program's result as a function of its eleven argument arrays. -/
def kOut (x : FVec Ideal S100000x1 .f32) (ei : IVec S2x1600000 32) (w10 : FVec Ideal S1x16 .f32) (b10 : FVec Ideal S16 .f32)
    (w20 : FVec Ideal S16x32 .f32) (b20 : FVec Ideal S32 .f32) (W1 : FVec Ideal S8x32x16 .f32) (B1 : FVec Ideal S8x16 .f32)
    (W2 : FVec Ideal S8x16x32 .f32) (B2 : FVec Ideal S8x32 .f32) (wl : FVec Ideal S32x1 .f32) : FVec Ideal S100000x1 .f32 :=
  Gin.fin (featsG x ei w10 b10 w20 b20 W1 B1 W2 B2)
    (agg32 (featsG x ei w10 b10 w20 b20 W1 B1 W2 B2) (srcR ei) (dstR ei)) wl

end Cert.KernelIdeal.Layers

end
-- ==== Proof.KStretch.lean ====
/-
  What each stretch of host operations between two regions leaves in the buffers the next region's windows read, from
  ANY contents R of the buffers when the stretch starts: the neighbour sums of the previous region's output, block k
  of each stacked weight array, the two bias rows; and the buffers it keeps — the previous output, the two edge
  vectors, the argument arrays.  Stretch 0 also forms the edge vectors and the first layer's bias rows.
-/
import proofs.«175125_j35716948034103_1_alg».proof.Proof.Gen.KernelIdeal.Launch
import proofs.«175125_j35716948034103_1_alg».proof.Proof.KDefs
import Idealize.ShloMosaic.Lib.StableHlo.Run

noncomputable section

namespace Cert.KernelIdeal.Stretch

open Idealize.ShloMosaic Idealize.ShloMosaic.TcCoe Idealize.SL.Sem Idealize.ShloMosaic.StableHlo
open Cert.KernelIdeal Cert.KernelIdeal.Gen

variable [Cert.KernelIdeal.Facts]
variable {F : FTy → Type} [FloatOps F]
variable (R : Valuation τ sig (Elt F))

/-! ## Stretch 0: before the first region -/

theorem s0_src : after hostOps0 R (Proc.devRef .tc main_v1) = Layers.srcR (R (Proc.devRef .tc main_arg1)) := by after_results_simp; rfl
theorem s0_dst : after hostOps0 R (Proc.devRef .tc main_v3) = Layers.dstR (R (Proc.devRef .tc main_arg1)) := by after_results_simp; rfl
theorem s0_agg : after hostOps0 R (Proc.devRef .tc main_v13)
    = Layers.agg1 (R (Proc.devRef .tc main_arg0)) (Layers.srcR (R (Proc.devRef .tc main_arg1))) (Layers.dstR (R (Proc.devRef .tc main_arg1))) := by after_results_simp; rfl
theorem s0_b1 : after hostOps0 R (Proc.devRef .tc main_v14) = shapeCast S1x16 (R (Proc.devRef .tc main_arg3)) Facts₀.shapeCasts_S16_S1x16 := by after_results_simp; rfl
theorem s0_b2 : after hostOps0 R (Proc.devRef .tc main_v15) = shapeCast S1x32 (R (Proc.devRef .tc main_arg5)) Facts₀.shapeCasts_S32_S1x32 := by after_results_simp; rfl
theorem s0_keep_a0 : after hostOps0 R (Proc.devRef .tc main_arg0) = R (Proc.devRef .tc main_arg0) := by after_results_simp
theorem s0_keep_a2 : after hostOps0 R (Proc.devRef .tc main_arg2) = R (Proc.devRef .tc main_arg2) := by after_results_simp
theorem s0_keep_a4 : after hostOps0 R (Proc.devRef .tc main_arg4) = R (Proc.devRef .tc main_arg4) := by after_results_simp
theorem s0_keep_a6 : after hostOps0 R (Proc.devRef .tc main_arg6) = R (Proc.devRef .tc main_arg6) := by after_results_simp
theorem s0_keep_a7 : after hostOps0 R (Proc.devRef .tc main_arg7) = R (Proc.devRef .tc main_arg7) := by after_results_simp
theorem s0_keep_a8 : after hostOps0 R (Proc.devRef .tc main_arg8) = R (Proc.devRef .tc main_arg8) := by after_results_simp
theorem s0_keep_a9 : after hostOps0 R (Proc.devRef .tc main_arg9) = R (Proc.devRef .tc main_arg9) := by after_results_simp
theorem s0_keep_a10 : after hostOps0 R (Proc.devRef .tc main_arg10) = R (Proc.devRef .tc main_arg10) := by after_results_simp

/-! ## Stretch 1: between regions 0 and 1 -/

theorem s1_prev : after hostOps1 R (Proc.devRef .tc main_v16) = R (Proc.devRef .tc main_v16) := by after_results_simp
theorem s1_agg : after hostOps1 R (Proc.devRef .tc main_v26) = Layers.agg32 (R (Proc.devRef .tc main_v16)) (R (Proc.devRef .tc main_v1)) (R (Proc.devRef .tc main_v3)) := by after_results_simp; rfl
theorem s1_w1 : after hostOps1 R (Proc.devRef .tc main_v28) = Layers.w1s (R (Proc.devRef .tc main_arg6)) 0 := by after_results_simp; rfl
theorem s1_b1 : after hostOps1 R (Proc.devRef .tc main_v31) = shapeCast S1x16 (Layers.b1s (R (Proc.devRef .tc main_arg7)) 0) Facts₀.shapeCasts_S16_S1x16 := by after_results_simp; rfl
theorem s1_w2 : after hostOps1 R (Proc.devRef .tc main_v33) = Layers.w2s (R (Proc.devRef .tc main_arg8)) 0 := by after_results_simp; rfl
theorem s1_b2 : after hostOps1 R (Proc.devRef .tc main_v36) = shapeCast S1x32 (Layers.b2s (R (Proc.devRef .tc main_arg9)) 0) Facts₀.shapeCasts_S32_S1x32 := by after_results_simp; rfl
theorem s1_keep_v1 : after hostOps1 R (Proc.devRef .tc main_v1) = R (Proc.devRef .tc main_v1) := by after_results_simp
theorem s1_keep_v3 : after hostOps1 R (Proc.devRef .tc main_v3) = R (Proc.devRef .tc main_v3) := by after_results_simp
theorem s1_keep_a6 : after hostOps1 R (Proc.devRef .tc main_arg6) = R (Proc.devRef .tc main_arg6) := by after_results_simp
theorem s1_keep_a7 : after hostOps1 R (Proc.devRef .tc main_arg7) = R (Proc.devRef .tc main_arg7) := by after_results_simp
theorem s1_keep_a8 : after hostOps1 R (Proc.devRef .tc main_arg8) = R (Proc.devRef .tc main_arg8) := by after_results_simp
theorem s1_keep_a9 : after hostOps1 R (Proc.devRef .tc main_arg9) = R (Proc.devRef .tc main_arg9) := by after_results_simp
theorem s1_keep_a10 : after hostOps1 R (Proc.devRef .tc main_arg10) = R (Proc.devRef .tc main_arg10) := by after_results_simp

/-! ## Stretch 2: between regions 1 and 2 -/

theorem s2_prev : after hostOps2 R (Proc.devRef .tc main_v37) = R (Proc.devRef .tc main_v37) := by after_results_simp
theorem s2_agg : after hostOps2 R (Proc.devRef .tc main_v47) = Layers.agg32 (R (Proc.devRef .tc main_v37)) (R (Proc.devRef .tc main_v1)) (R (Proc.devRef .tc main_v3)) := by after_results_simp; rfl
theorem s2_w1 : after hostOps2 R (Proc.devRef .tc main_v49) = Layers.w1s (R (Proc.devRef .tc main_arg6)) 1 := by after_results_simp; rfl
theorem s2_b1 : after hostOps2 R (Proc.devRef .tc main_v52) = shapeCast S1x16 (Layers.b1s (R (Proc.devRef .tc main_arg7)) 1) Facts₀.shapeCasts_S16_S1x16 := by after_results_simp; rfl
theorem s2_w2 : after hostOps2 R (Proc.devRef .tc main_v54) = Layers.w2s (R (Proc.devRef .tc main_arg8)) 1 := by after_results_simp; rfl
theorem s2_b2 : after hostOps2 R (Proc.devRef .tc main_v57) = shapeCast S1x32 (Layers.b2s (R (Proc.devRef .tc main_arg9)) 1) Facts₀.shapeCasts_S32_S1x32 := by after_results_simp; rfl
theorem s2_keep_v1 : after hostOps2 R (Proc.devRef .tc main_v1) = R (Proc.devRef .tc main_v1) := by after_results_simp
theorem s2_keep_v3 : after hostOps2 R (Proc.devRef .tc main_v3) = R (Proc.devRef .tc main_v3) := by after_results_simp
theorem s2_keep_a6 : after hostOps2 R (Proc.devRef .tc main_arg6) = R (Proc.devRef .tc main_arg6) := by after_results_simp
theorem s2_keep_a7 : after hostOps2 R (Proc.devRef .tc main_arg7) = R (Proc.devRef .tc main_arg7) := by after_results_simp
theorem s2_keep_a8 : after hostOps2 R (Proc.devRef .tc main_arg8) = R (Proc.devRef .tc main_arg8) := by after_results_simp
theorem s2_keep_a9 : after hostOps2 R (Proc.devRef .tc main_arg9) = R (Proc.devRef .tc main_arg9) := by after_results_simp
theorem s2_keep_a10 : after hostOps2 R (Proc.devRef .tc main_arg10) = R (Proc.devRef .tc main_arg10) := by after_results_simp

/-! ## Stretch 3: between regions 2 and 3 -/

theorem s3_prev : after hostOps3 R (Proc.devRef .tc main_v58) = R (Proc.devRef .tc main_v58) := by after_results_simp
theorem s3_agg : after hostOps3 R (Proc.devRef .tc main_v68) = Layers.agg32 (R (Proc.devRef .tc main_v58)) (R (Proc.devRef .tc main_v1)) (R (Proc.devRef .tc main_v3)) := by after_results_simp; rfl
theorem s3_w1 : after hostOps3 R (Proc.devRef .tc main_v70) = Layers.w1s (R (Proc.devRef .tc main_arg6)) 2 := by after_results_simp; rfl
theorem s3_b1 : after hostOps3 R (Proc.devRef .tc main_v73) = shapeCast S1x16 (Layers.b1s (R (Proc.devRef .tc main_arg7)) 2) Facts₀.shapeCasts_S16_S1x16 := by after_results_simp; rfl
theorem s3_w2 : after hostOps3 R (Proc.devRef .tc main_v75) = Layers.w2s (R (Proc.devRef .tc main_arg8)) 2 := by after_results_simp; rfl
theorem s3_b2 : after hostOps3 R (Proc.devRef .tc main_v78) = shapeCast S1x32 (Layers.b2s (R (Proc.devRef .tc main_arg9)) 2) Facts₀.shapeCasts_S32_S1x32 := by after_results_simp; rfl
theorem s3_keep_v1 : after hostOps3 R (Proc.devRef .tc main_v1) = R (Proc.devRef .tc main_v1) := by after_results_simp
theorem s3_keep_v3 : after hostOps3 R (Proc.devRef .tc main_v3) = R (Proc.devRef .tc main_v3) := by after_results_simp
theorem s3_keep_a6 : after hostOps3 R (Proc.devRef .tc main_arg6) = R (Proc.devRef .tc main_arg6) := by after_results_simp
theorem s3_keep_a7 : after hostOps3 R (Proc.devRef .tc main_arg7) = R (Proc.devRef .tc main_arg7) := by after_results_simp
theorem s3_keep_a8 : after hostOps3 R (Proc.devRef .tc main_arg8) = R (Proc.devRef .tc main_arg8) := by after_results_simp
theorem s3_keep_a9 : after hostOps3 R (Proc.devRef .tc main_arg9) = R (Proc.devRef .tc main_arg9) := by after_results_simp
theorem s3_keep_a10 : after hostOps3 R (Proc.devRef .tc main_arg10) = R (Proc.devRef .tc main_arg10) := by after_results_simp

/-! ## Stretch 4: between regions 3 and 4 -/

theorem s4_prev : after hostOps4 R (Proc.devRef .tc main_v79) = R (Proc.devRef .tc main_v79) := by after_results_simp
theorem s4_agg : after hostOps4 R (Proc.devRef .tc main_v89) = Layers.agg32 (R (Proc.devRef .tc main_v79)) (R (Proc.devRef .tc main_v1)) (R (Proc.devRef .tc main_v3)) := by after_results_simp; rfl
theorem s4_w1 : after hostOps4 R (Proc.devRef .tc main_v91) = Layers.w1s (R (Proc.devRef .tc main_arg6)) 3 := by after_results_simp; rfl
theorem s4_b1 : after hostOps4 R (Proc.devRef .tc main_v94) = shapeCast S1x16 (Layers.b1s (R (Proc.devRef .tc main_arg7)) 3) Facts₀.shapeCasts_S16_S1x16 := by after_results_simp; rfl
theorem s4_w2 : after hostOps4 R (Proc.devRef .tc main_v96) = Layers.w2s (R (Proc.devRef .tc main_arg8)) 3 := by after_results_simp; rfl
theorem s4_b2 : after hostOps4 R (Proc.devRef .tc main_v99) = shapeCast S1x32 (Layers.b2s (R (Proc.devRef .tc main_arg9)) 3) Facts₀.shapeCasts_S32_S1x32 := by after_results_simp; rfl
theorem s4_keep_v1 : after hostOps4 R (Proc.devRef .tc main_v1) = R (Proc.devRef .tc main_v1) := by after_results_simp
theorem s4_keep_v3 : after hostOps4 R (Proc.devRef .tc main_v3) = R (Proc.devRef .tc main_v3) := by after_results_simp
theorem s4_keep_a6 : after hostOps4 R (Proc.devRef .tc main_arg6) = R (Proc.devRef .tc main_arg6) := by after_results_simp
theorem s4_keep_a7 : after hostOps4 R (Proc.devRef .tc main_arg7) = R (Proc.devRef .tc main_arg7) := by after_results_simp
theorem s4_keep_a8 : after hostOps4 R (Proc.devRef .tc main_arg8) = R (Proc.devRef .tc main_arg8) := by after_results_simp
theorem s4_keep_a9 : after hostOps4 R (Proc.devRef .tc main_arg9) = R (Proc.devRef .tc main_arg9) := by after_results_simp
theorem s4_keep_a10 : after hostOps4 R (Proc.devRef .tc main_arg10) = R (Proc.devRef .tc main_arg10) := by after_results_simp

/-! ## Stretch 5: between regions 4 and 5 -/

theorem s5_prev : after hostOps5 R (Proc.devRef .tc main_v100) = R (Proc.devRef .tc main_v100) := by after_results_simp
theorem s5_agg : after hostOps5 R (Proc.devRef .tc main_v110) = Layers.agg32 (R (Proc.devRef .tc main_v100)) (R (Proc.devRef .tc main_v1)) (R (Proc.devRef .tc main_v3)) := by after_results_simp; rfl
theorem s5_w1 : after hostOps5 R (Proc.devRef .tc main_v112) = Layers.w1s (R (Proc.devRef .tc main_arg6)) 4 := by after_results_simp; rfl
theorem s5_b1 : after hostOps5 R (Proc.devRef .tc main_v115) = shapeCast S1x16 (Layers.b1s (R (Proc.devRef .tc main_arg7)) 4) Facts₀.shapeCasts_S16_S1x16 := by after_results_simp; rfl
theorem s5_w2 : after hostOps5 R (Proc.devRef .tc main_v117) = Layers.w2s (R (Proc.devRef .tc main_arg8)) 4 := by after_results_simp; rfl
theorem s5_b2 : after hostOps5 R (Proc.devRef .tc main_v120) = shapeCast S1x32 (Layers.b2s (R (Proc.devRef .tc main_arg9)) 4) Facts₀.shapeCasts_S32_S1x32 := by after_results_simp; rfl
theorem s5_keep_v1 : after hostOps5 R (Proc.devRef .tc main_v1) = R (Proc.devRef .tc main_v1) := by after_results_simp
theorem s5_keep_v3 : after hostOps5 R (Proc.devRef .tc main_v3) = R (Proc.devRef .tc main_v3) := by after_results_simp
theorem s5_keep_a6 : after hostOps5 R (Proc.devRef .tc main_arg6) = R (Proc.devRef .tc main_arg6) := by after_results_simp
theorem s5_keep_a7 : after hostOps5 R (Proc.devRef .tc main_arg7) = R (Proc.devRef .tc main_arg7) := by after_results_simp
theorem s5_keep_a8 : after hostOps5 R (Proc.devRef .tc main_arg8) = R (Proc.devRef .tc main_arg8) := by after_results_simp
theorem s5_keep_a9 : after hostOps5 R (Proc.devRef .tc main_arg9) = R (Proc.devRef .tc main_arg9) := by after_results_simp
theorem s5_keep_a10 : after hostOps5 R (Proc.devRef .tc main_arg10) = R (Proc.devRef .tc main_arg10) := by after_results_simp

/-! ## Stretch 6: between regions 5 and 6 -/

theorem s6_prev : after hostOps6 R (Proc.devRef .tc main_v121) = R (Proc.devRef .tc main_v121) := by after_results_simp
theorem s6_agg : after hostOps6 R (Proc.devRef .tc main_v131) = Layers.agg32 (R (Proc.devRef .tc main_v121)) (R (Proc.devRef .tc main_v1)) (R (Proc.devRef .tc main_v3)) := by after_results_simp; rfl
theorem s6_w1 : after hostOps6 R (Proc.devRef .tc main_v133) = Layers.w1s (R (Proc.devRef .tc main_arg6)) 5 := by after_results_simp; rfl
theorem s6_b1 : after hostOps6 R (Proc.devRef .tc main_v136) = shapeCast S1x16 (Layers.b1s (R (Proc.devRef .tc main_arg7)) 5) Facts₀.shapeCasts_S16_S1x16 := by after_results_simp; rfl
theorem s6_w2 : after hostOps6 R (Proc.devRef .tc main_v138) = Layers.w2s (R (Proc.devRef .tc main_arg8)) 5 := by after_results_simp; rfl
theorem s6_b2 : after hostOps6 R (Proc.devRef .tc main_v141) = shapeCast S1x32 (Layers.b2s (R (Proc.devRef .tc main_arg9)) 5) Facts₀.shapeCasts_S32_S1x32 := by after_results_simp; rfl
theorem s6_keep_v1 : after hostOps6 R (Proc.devRef .tc main_v1) = R (Proc.devRef .tc main_v1) := by after_results_simp
theorem s6_keep_v3 : after hostOps6 R (Proc.devRef .tc main_v3) = R (Proc.devRef .tc main_v3) := by after_results_simp
theorem s6_keep_a6 : after hostOps6 R (Proc.devRef .tc main_arg6) = R (Proc.devRef .tc main_arg6) := by after_results_simp
theorem s6_keep_a7 : after hostOps6 R (Proc.devRef .tc main_arg7) = R (Proc.devRef .tc main_arg7) := by after_results_simp
theorem s6_keep_a8 : after hostOps6 R (Proc.devRef .tc main_arg8) = R (Proc.devRef .tc main_arg8) := by after_results_simp
theorem s6_keep_a9 : after hostOps6 R (Proc.devRef .tc main_arg9) = R (Proc.devRef .tc main_arg9) := by after_results_simp
theorem s6_keep_a10 : after hostOps6 R (Proc.devRef .tc main_arg10) = R (Proc.devRef .tc main_arg10) := by after_results_simp

/-! ## Stretch 7: between regions 6 and 7 -/

theorem s7_prev : after hostOps7 R (Proc.devRef .tc main_v142) = R (Proc.devRef .tc main_v142) := by after_results_simp
theorem s7_agg : after hostOps7 R (Proc.devRef .tc main_v152) = Layers.agg32 (R (Proc.devRef .tc main_v142)) (R (Proc.devRef .tc main_v1)) (R (Proc.devRef .tc main_v3)) := by after_results_simp; rfl
theorem s7_w1 : after hostOps7 R (Proc.devRef .tc main_v154) = Layers.w1s (R (Proc.devRef .tc main_arg6)) 6 := by after_results_simp; rfl
theorem s7_b1 : after hostOps7 R (Proc.devRef .tc main_v157) = shapeCast S1x16 (Layers.b1s (R (Proc.devRef .tc main_arg7)) 6) Facts₀.shapeCasts_S16_S1x16 := by after_results_simp; rfl
theorem s7_w2 : after hostOps7 R (Proc.devRef .tc main_v159) = Layers.w2s (R (Proc.devRef .tc main_arg8)) 6 := by after_results_simp; rfl
theorem s7_b2 : after hostOps7 R (Proc.devRef .tc main_v162) = shapeCast S1x32 (Layers.b2s (R (Proc.devRef .tc main_arg9)) 6) Facts₀.shapeCasts_S32_S1x32 := by after_results_simp; rfl
theorem s7_keep_v1 : after hostOps7 R (Proc.devRef .tc main_v1) = R (Proc.devRef .tc main_v1) := by after_results_simp
theorem s7_keep_v3 : after hostOps7 R (Proc.devRef .tc main_v3) = R (Proc.devRef .tc main_v3) := by after_results_simp
theorem s7_keep_a6 : after hostOps7 R (Proc.devRef .tc main_arg6) = R (Proc.devRef .tc main_arg6) := by after_results_simp
theorem s7_keep_a7 : after hostOps7 R (Proc.devRef .tc main_arg7) = R (Proc.devRef .tc main_arg7) := by after_results_simp
theorem s7_keep_a8 : after hostOps7 R (Proc.devRef .tc main_arg8) = R (Proc.devRef .tc main_arg8) := by after_results_simp
theorem s7_keep_a9 : after hostOps7 R (Proc.devRef .tc main_arg9) = R (Proc.devRef .tc main_arg9) := by after_results_simp
theorem s7_keep_a10 : after hostOps7 R (Proc.devRef .tc main_arg10) = R (Proc.devRef .tc main_arg10) := by after_results_simp

/-! ## Stretch 8: between regions 7 and 8 -/

theorem s8_prev : after hostOps8 R (Proc.devRef .tc main_v163) = R (Proc.devRef .tc main_v163) := by after_results_simp
theorem s8_agg : after hostOps8 R (Proc.devRef .tc main_v173) = Layers.agg32 (R (Proc.devRef .tc main_v163)) (R (Proc.devRef .tc main_v1)) (R (Proc.devRef .tc main_v3)) := by after_results_simp; rfl
theorem s8_w1 : after hostOps8 R (Proc.devRef .tc main_v175) = Layers.w1s (R (Proc.devRef .tc main_arg6)) 7 := by after_results_simp; rfl
theorem s8_b1 : after hostOps8 R (Proc.devRef .tc main_v178) = shapeCast S1x16 (Layers.b1s (R (Proc.devRef .tc main_arg7)) 7) Facts₀.shapeCasts_S16_S1x16 := by after_results_simp; rfl
theorem s8_w2 : after hostOps8 R (Proc.devRef .tc main_v180) = Layers.w2s (R (Proc.devRef .tc main_arg8)) 7 := by after_results_simp; rfl
theorem s8_b2 : after hostOps8 R (Proc.devRef .tc main_v183) = shapeCast S1x32 (Layers.b2s (R (Proc.devRef .tc main_arg9)) 7) Facts₀.shapeCasts_S32_S1x32 := by after_results_simp; rfl
theorem s8_keep_v1 : after hostOps8 R (Proc.devRef .tc main_v1) = R (Proc.devRef .tc main_v1) := by after_results_simp
theorem s8_keep_v3 : after hostOps8 R (Proc.devRef .tc main_v3) = R (Proc.devRef .tc main_v3) := by after_results_simp
theorem s8_keep_a6 : after hostOps8 R (Proc.devRef .tc main_arg6) = R (Proc.devRef .tc main_arg6) := by after_results_simp
theorem s8_keep_a7 : after hostOps8 R (Proc.devRef .tc main_arg7) = R (Proc.devRef .tc main_arg7) := by after_results_simp
theorem s8_keep_a8 : after hostOps8 R (Proc.devRef .tc main_arg8) = R (Proc.devRef .tc main_arg8) := by after_results_simp
theorem s8_keep_a9 : after hostOps8 R (Proc.devRef .tc main_arg9) = R (Proc.devRef .tc main_arg9) := by after_results_simp
theorem s8_keep_a10 : after hostOps8 R (Proc.devRef .tc main_arg10) = R (Proc.devRef .tc main_arg10) := by after_results_simp

/-! ## Stretch 9: before the last region -/

theorem s9_prev : after hostOps9 R (Proc.devRef .tc main_v184) = R (Proc.devRef .tc main_v184) := by after_results_simp
theorem s9_agg : after hostOps9 R (Proc.devRef .tc main_v194) = Layers.agg32 (R (Proc.devRef .tc main_v184)) (R (Proc.devRef .tc main_v1)) (R (Proc.devRef .tc main_v3)) := by after_results_simp; rfl
theorem s9_keep_a10 : after hostOps9 R (Proc.devRef .tc main_arg10) = R (Proc.devRef .tc main_arg10) := by after_results_simp

end Cert.KernelIdeal.Stretch

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.KPayload.lean ====
/-
  The arithmetic of one block, read entry by entry.

  Every layer's body works on a block of 10000 rows: it adds the features and the neighbour sums, multiplies by the
  first weight matrix, adds the first bias row down the rows, applies the scaled exponential linear unit, multiplies
  by the second weight matrix, adds the second bias row, and (in the middle layers) adds the features back.  At the
  ideal values the roundings to the narrow format are the identity and a product accumulated into zeros is the plain
  matrix product, so entry (p, j) of the block is the perceptron of row p of the two input blocks.  The last layer is
  the single product with a one-column matrix.
-/
import proofs.«175125_j35716948034103_1_alg».proof.Proof.Gen.KernelIdeal.Skeleton
import proofs.«175125_j35716948034103_1_alg».proof.Proof.Spec
import proofs.«175125_j35716948034103_1_alg».proof.Proof.LibPlainMatmul
import Idealize.ShloMosaic.Lib.ValueIdx
import Idealize.ShloMosaic.Lib.ValueLayout
import Idealize.ShloMosaic.Lib.Pipeline.Value

noncomputable section

open scoped BigOperators

namespace Cert.KernelIdeal.GinRegions

open Cert.KernelIdeal Cert.KernelIdeal.Facts₀ Cert.KernelIdeal.Facts Idealize.ShloMosaic Idealize.ShloMosaic.ValueIdx

/-- The activation of a block of pre-activations, entry by entry: the scaled exponential linear unit. -/
theorem act_apply (z : FVec Ideal S10000x16 .f32) (p : Fin 10000) (k : Fin 16) :
    mulf (broadcast S10000x16 (Scalar.ofBits (F := Ideal) .f32 0x3F867D5F#32))
        (select (cmpf .ogt z (broadcast S10000x16 (Scalar.ofBits (F := Ideal) .f32 0x00000000#32))) z
          (mulf (broadcast S10000x16 (Scalar.ofBits (F := Ideal) .f32 0x3FD62D7D#32))
            (subf (exp z) (broadcast S10000x16 (Scalar.ofBits (F := Ideal) .f32 0x3F800000#32))))) (ix2 p k)
      = Gin.selu (z (ix2 p k)) := rfl

/-- Entry (p, k) of the first product plus its bias row, thirty-two input features. -/
theorem pre32_apply (s : FVec Ideal S10000x32 .f32) (w1 : Vec Ideal S32x16 .f32) (b1 : Vec Ideal S1x16 .f32)
    (p : Fin 10000) (k : Fin 16) :
    addf (matmul dot_S10000x32_S32x16_S10000x16_1_0_0_1_n_n none (truncf .bf16 s bitsLt_bf16_f32)
          (truncf .bf16 w1 bitsLt_bf16_f32) (constant (F := Ideal) S10000x16 .f32 0x00000000#32))
        (broadcastTo S10000x16 b1 broadcasts_S1x16_S10000x16) (ix2 p k)
      = (∑ c : Fin 32, s (ix2 p c) * w1 (ix2 c k)) + b1 (ix2 (0 : Fin 1) k) := by
  refine (addf_apply _ _ _).trans ?_
  refine congrArg₂ (· + ·) ?_ ?_
  · exact PlainMatmul.matmul_zero_apply dot_S10000x32_S32x16_S10000x16_1_0_0_1_n_n rfl rfl rfl rfl rfl rfl none
      (truncf .bf16 s bitsLt_bf16_f32) (truncf .bf16 w1 bitsLt_bf16_f32) p k
  · exact broadcastTo_1b_ab_apply b1 broadcasts_S1x16_S10000x16 p k

/-- Entry (p, k) of the first product plus its bias row, one input feature. -/
theorem pre1_apply (s : FVec Ideal S10000x1 .f32) (w1 : Vec Ideal S1x16 .f32) (b1 : Vec Ideal S1x16 .f32)
    (p : Fin 10000) (k : Fin 16) :
    addf (matmul dot_S10000x1_S1x16_S10000x16_1_0_0_1_n_n none (truncf .bf16 s bitsLt_bf16_f32)
          (truncf .bf16 w1 bitsLt_bf16_f32) (constant (F := Ideal) S10000x16 .f32 0x00000000#32))
        (broadcastTo S10000x16 b1 broadcasts_S1x16_S10000x16) (ix2 p k)
      = (∑ c : Fin 1, s (ix2 p c) * w1 (ix2 c k)) + b1 (ix2 (0 : Fin 1) k) := by
  refine (addf_apply _ _ _).trans ?_
  refine congrArg₂ (· + ·) ?_ ?_
  · exact PlainMatmul.matmul_zero_apply dot_S10000x1_S1x16_S10000x16_1_0_0_1_n_n rfl rfl rfl rfl rfl rfl none
      (truncf .bf16 s bitsLt_bf16_f32) (truncf .bf16 w1 bitsLt_bf16_f32) p k
  · exact broadcastTo_1b_ab_apply b1 broadcasts_S1x16_S10000x16 p k

/-- Entry (p, j) of the second product plus its bias row. -/
theorem out_apply (a : FVec Ideal S10000x16 .f32) (w2 : Vec Ideal S16x32 .f32) (b2 : Vec Ideal S1x32 .f32)
    (p : Fin 10000) (j : Fin 32) :
    addf (matmul dot_S10000x16_S16x32_S10000x32_1_0_0_1_n_n none (truncf .bf16 a bitsLt_bf16_f32)
          (truncf .bf16 w2 bitsLt_bf16_f32) (constant (F := Ideal) S10000x32 .f32 0x00000000#32))
        (broadcastTo S10000x32 b2 broadcasts_S1x32_S10000x32) (ix2 p j)
      = (∑ k : Fin 16, a (ix2 p k) * w2 (ix2 k j)) + b2 (ix2 (0 : Fin 1) j) := by
  refine (addf_apply _ _ _).trans ?_
  refine congrArg₂ (· + ·) ?_ ?_
  · exact PlainMatmul.matmul_zero_apply dot_S10000x16_S16x32_S10000x32_1_0_0_1_n_n rfl rfl rfl rfl rfl rfl none
      (truncf .bf16 a bitsLt_bf16_f32) (truncf .bf16 w2 bitsLt_bf16_f32) p j
  · exact broadcastTo_1b_ab_apply b2 broadcasts_S1x32_S10000x32 p j

/-- A middle layer's block at entry (p, j): the perceptron of row p of the feature and neighbour-sum blocks, plus
    the feature itself. -/
theorem k1_pay1_apply (x0 x1 : Vec Ideal S10000x32 .f32) (x2 : Vec Ideal S32x16 .f32) (x3 : Vec Ideal S1x16 .f32)
    (x4 : Vec Ideal S16x32 .f32) (x5 : Vec Ideal S1x32 .f32) (p : Fin 10000) (j : Fin 32) :
    Gen.k1_pay1 (F := Ideal) x0 x1 x2 x3 x4 x5 (ix2 p j)
      = (∑ k : Fin 16, Gin.selu ((∑ c : Fin 32, (x0 (ix2 p c) + x1 (ix2 p c)) * x2 (ix2 c k)) + x3 (ix2 (0 : Fin 1) k))
            * x4 (ix2 k j)) + x5 (ix2 (0 : Fin 1) j) + x0 (ix2 p j) := by
  unfold Gen.k1_pay1
  simp only [shapeCast_self]
  refine (addf_apply _ _ _).trans ?_
  refine congrArg (· + x0 (ix2 p j)) ?_
  refine (out_apply _ x4 x5 p j).trans ?_
  refine congrArg (· + x5 (ix2 (0 : Fin 1) j)) ?_
  refine Finset.sum_congr rfl fun k _ => ?_
  refine congrArg (· * x4 (ix2 k j)) ?_
  refine (act_apply _ p k).trans ?_
  refine congrArg Gin.selu ?_
  exact pre32_apply (addf x0 x1) x2 x3 p k

/-- The first layer's block at entry (p, j): the perceptron of row p of the one-feature blocks, no residual. -/
theorem k0_pay1_apply (x0 x1 : Vec Ideal S10000x1 .f32) (x2 : Vec Ideal S1x16 .f32) (x3 : Vec Ideal S1x16 .f32)
    (x4 : Vec Ideal S16x32 .f32) (x5 : Vec Ideal S1x32 .f32) (p : Fin 10000) (j : Fin 32) :
    Gen.k0_pay1 (F := Ideal) x0 x1 x2 x3 x4 x5 (ix2 p j)
      = (∑ k : Fin 16, Gin.selu ((∑ c : Fin 1, (x0 (ix2 p c) + x1 (ix2 p c)) * x2 (ix2 c k)) + x3 (ix2 (0 : Fin 1) k))
            * x4 (ix2 k j)) + x5 (ix2 (0 : Fin 1) j) := by
  unfold Gen.k0_pay1
  simp only [shapeCast_self]
  refine (out_apply _ x4 x5 p j).trans ?_
  refine congrArg (· + x5 (ix2 (0 : Fin 1) j)) ?_
  refine Finset.sum_congr rfl fun k _ => ?_
  refine congrArg (· * x4 (ix2 k j)) ?_
  refine (act_apply _ p k).trans ?_
  refine congrArg Gin.selu ?_
  exact pre1_apply (addf x0 x1) x2 x3 p k

/-- The last layer's block at entry (p, j): row p of the summed blocks times the one-column matrix. -/
theorem k9_pay1_apply (x0 x1 : Vec Ideal S10000x32 .f32) (x2 : Vec Ideal S32x1 .f32) (p : Fin 10000) (j : Fin 1) :
    Gen.k9_pay1 (F := Ideal) x0 x1 x2 (ix2 p j)
      = ∑ c : Fin 32, (x0 (ix2 p c) + x1 (ix2 p c)) * x2 (ix2 c j) := by
  unfold Gen.k9_pay1
  simp only [shapeCast_self]
  exact PlainMatmul.matmul_zero_apply dot_S10000x32_S32x1_S10000x1_1_0_0_1_n_n rfl rfl rfl rfl rfl rfl none
    (truncf .bf16 (addf x0 x1) bitsLt_bf16_f32) (truncf .bf16 x2 bitsLt_bf16_f32) p j

/-- The middle layers share one body. -/
theorem k2_pay1_eq : @Gen.k2_pay1 = @Gen.k1_pay1 := rfl
theorem k3_pay1_eq : @Gen.k3_pay1 = @Gen.k1_pay1 := rfl
theorem k4_pay1_eq : @Gen.k4_pay1 = @Gen.k1_pay1 := rfl
theorem k5_pay1_eq : @Gen.k5_pay1 = @Gen.k1_pay1 := rfl
theorem k6_pay1_eq : @Gen.k6_pay1 = @Gen.k1_pay1 := rfl
theorem k7_pay1_eq : @Gen.k7_pay1 = @Gen.k1_pay1 := rfl
theorem k8_pay1_eq : @Gen.k8_pay1 = @Gen.k1_pay1 := rfl

/-- The other middle layers' blocks at an entry: the same body, so the same reading. -/
theorem k2_pay1_apply (x0 x1 : Vec Ideal S10000x32 .f32) (x2 : Vec Ideal S32x16 .f32) (x3 : Vec Ideal S1x16 .f32)
    (x4 : Vec Ideal S16x32 .f32) (x5 : Vec Ideal S1x32 .f32) (p : Fin 10000) (j : Fin 32) :
    Gen.k2_pay1 (F := Ideal) x0 x1 x2 x3 x4 x5 (ix2 p j)
      = (∑ k : Fin 16, Gin.selu ((∑ c : Fin 32, (x0 (ix2 p c) + x1 (ix2 p c)) * x2 (ix2 c k)) + x3 (ix2 (0 : Fin 1) k))
            * x4 (ix2 k j)) + x5 (ix2 (0 : Fin 1) j) + x0 (ix2 p j) :=
  k1_pay1_apply x0 x1 x2 x3 x4 x5 p j
theorem k3_pay1_apply (x0 x1 : Vec Ideal S10000x32 .f32) (x2 : Vec Ideal S32x16 .f32) (x3 : Vec Ideal S1x16 .f32)
    (x4 : Vec Ideal S16x32 .f32) (x5 : Vec Ideal S1x32 .f32) (p : Fin 10000) (j : Fin 32) :
    Gen.k3_pay1 (F := Ideal) x0 x1 x2 x3 x4 x5 (ix2 p j)
      = (∑ k : Fin 16, Gin.selu ((∑ c : Fin 32, (x0 (ix2 p c) + x1 (ix2 p c)) * x2 (ix2 c k)) + x3 (ix2 (0 : Fin 1) k))
            * x4 (ix2 k j)) + x5 (ix2 (0 : Fin 1) j) + x0 (ix2 p j) :=
  k1_pay1_apply x0 x1 x2 x3 x4 x5 p j
theorem k4_pay1_apply (x0 x1 : Vec Ideal S10000x32 .f32) (x2 : Vec Ideal S32x16 .f32) (x3 : Vec Ideal S1x16 .f32)
    (x4 : Vec Ideal S16x32 .f32) (x5 : Vec Ideal S1x32 .f32) (p : Fin 10000) (j : Fin 32) :
    Gen.k4_pay1 (F := Ideal) x0 x1 x2 x3 x4 x5 (ix2 p j)
      = (∑ k : Fin 16, Gin.selu ((∑ c : Fin 32, (x0 (ix2 p c) + x1 (ix2 p c)) * x2 (ix2 c k)) + x3 (ix2 (0 : Fin 1) k))
            * x4 (ix2 k j)) + x5 (ix2 (0 : Fin 1) j) + x0 (ix2 p j) :=
  k1_pay1_apply x0 x1 x2 x3 x4 x5 p j
theorem k5_pay1_apply (x0 x1 : Vec Ideal S10000x32 .f32) (x2 : Vec Ideal S32x16 .f32) (x3 : Vec Ideal S1x16 .f32)
    (x4 : Vec Ideal S16x32 .f32) (x5 : Vec Ideal S1x32 .f32) (p : Fin 10000) (j : Fin 32) :
    Gen.k5_pay1 (F := Ideal) x0 x1 x2 x3 x4 x5 (ix2 p j)
      = (∑ k : Fin 16, Gin.selu ((∑ c : Fin 32, (x0 (ix2 p c) + x1 (ix2 p c)) * x2 (ix2 c k)) + x3 (ix2 (0 : Fin 1) k))
            * x4 (ix2 k j)) + x5 (ix2 (0 : Fin 1) j) + x0 (ix2 p j) :=
  k1_pay1_apply x0 x1 x2 x3 x4 x5 p j
theorem k6_pay1_apply (x0 x1 : Vec Ideal S10000x32 .f32) (x2 : Vec Ideal S32x16 .f32) (x3 : Vec Ideal S1x16 .f32)
    (x4 : Vec Ideal S16x32 .f32) (x5 : Vec Ideal S1x32 .f32) (p : Fin 10000) (j : Fin 32) :
    Gen.k6_pay1 (F := Ideal) x0 x1 x2 x3 x4 x5 (ix2 p j)
      = (∑ k : Fin 16, Gin.selu ((∑ c : Fin 32, (x0 (ix2 p c) + x1 (ix2 p c)) * x2 (ix2 c k)) + x3 (ix2 (0 : Fin 1) k))
            * x4 (ix2 k j)) + x5 (ix2 (0 : Fin 1) j) + x0 (ix2 p j) :=
  k1_pay1_apply x0 x1 x2 x3 x4 x5 p j
theorem k7_pay1_apply (x0 x1 : Vec Ideal S10000x32 .f32) (x2 : Vec Ideal S32x16 .f32) (x3 : Vec Ideal S1x16 .f32)
    (x4 : Vec Ideal S16x32 .f32) (x5 : Vec Ideal S1x32 .f32) (p : Fin 10000) (j : Fin 32) :
    Gen.k7_pay1 (F := Ideal) x0 x1 x2 x3 x4 x5 (ix2 p j)
      = (∑ k : Fin 16, Gin.selu ((∑ c : Fin 32, (x0 (ix2 p c) + x1 (ix2 p c)) * x2 (ix2 c k)) + x3 (ix2 (0 : Fin 1) k))
            * x4 (ix2 k j)) + x5 (ix2 (0 : Fin 1) j) + x0 (ix2 p j) :=
  k1_pay1_apply x0 x1 x2 x3 x4 x5 p j
theorem k8_pay1_apply (x0 x1 : Vec Ideal S10000x32 .f32) (x2 : Vec Ideal S32x16 .f32) (x3 : Vec Ideal S1x16 .f32)
    (x4 : Vec Ideal S16x32 .f32) (x5 : Vec Ideal S1x32 .f32) (p : Fin 10000) (j : Fin 32) :
    Gen.k8_pay1 (F := Ideal) x0 x1 x2 x3 x4 x5 (ix2 p j)
      = (∑ k : Fin 16, Gin.selu ((∑ c : Fin 32, (x0 (ix2 p c) + x1 (ix2 p c)) * x2 (ix2 c k)) + x3 (ix2 (0 : Fin 1) k))
            * x4 (ix2 k j)) + x5 (ix2 (0 : Fin 1) j) + x0 (ix2 p j) :=
  k1_pay1_apply x0 x1 x2 x3 x4 x5 p j

end Cert.KernelIdeal.GinRegions

end
-- ==== Proof.KRegion0.lean ====
/-
  The first layer's region: its whole output array, index by index.

  The region walks ten grid points; point t holds rows 10000·t … 10000·t + 9999 of the one-column features and
  neighbour sums, the whole of the two weight matrices and the two bias rows, and writes rows 10000·t … of the output.
  Entry (p, j) of a block is the perceptron of row p of the two input blocks, so what point t writes back is block t
  of the layer function of the whole arrays; the ten blocks cover all 100000 rows (row r lies in block r / 10000), so
  the output array is the layer function.
-/
import proofs.«175125_j35716948034103_1_alg».proof.Proof.Gen.KernelIdeal.Frame
import proofs.«175125_j35716948034103_1_alg».proof.Proof.KPayload
import Idealize.ShloMosaic.Lib.Pipeline.Value

set_option maxRecDepth 16384

noncomputable section

open scoped BigOperators

namespace Cert.KernelIdeal.GinRegions

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace R0

theorem zero_offsets : (![0, 0] : Fin 2 → Nat) = fun _ => 0 := funext fun a => by fin_cases a <;> rfl

/-- The block index of every window at grid point t: the row windows sit at block t, the others at block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of block t is row 10000·t + p of the array. -/
def row (t : Fin cfg0.N) (p : Fin 10000) : Fin 100000 :=
  ⟨10000 * t.val + p.val, by have ht : t.val < 10 := (show cfg0.N = 10 from N_0) ▸ t.isLt; have := p.isLt; omega⟩

/-- The feature block at point t is rows 10000·t … of the feature array. -/
theorem feat_block (c : Dev nD) (t : Fin cfg0.N) (p : Fin 10000) (q : Fin 1) :
    (iblk0 V c 0 t : Vec Ideal S10000x1 .f32) (ix2 p q)
      = (V c (Pipeline.arrRef spec0 0) : Gin.Arr2 100000 1) (ix2 (row t p) q) := by
  obtain ⟨e0, e1, -⟩ := block_index t
  show V c (Pipeline.arrRef spec0 0) (((cfg0.win 0).blk t).view.emb (ix2 p q)) = _
  refine congrArg (V c (Pipeline.arrRef spec0 0)) (funext fun a => Fin.ext ?_)
  match a with
  | ⟨0, _⟩ => show win0_0.index t (0 : Fin 2) * 10000 + 1 * p.val = 10000 * t.val + p.val; omega
  | ⟨1, _⟩ => show win0_0.index t (1 : Fin 2) * 1 + 1 * q.val = q.val; omega

/-- The neighbour-sum block at point t is rows 10000·t … of the neighbour-sum array. -/
theorem nbr_block (c : Dev nD) (t : Fin cfg0.N) (p : Fin 10000) (q : Fin 1) :
    (iblk0 V c 1 t : Vec Ideal S10000x1 .f32) (ix2 p q)
      = (V c (Pipeline.arrRef spec0 1) : Gin.Arr2 100000 1) (ix2 (row t p) q) := by
  obtain ⟨-, -, e0, e1, -⟩ := block_index t
  show V c (Pipeline.arrRef spec0 1) (((cfg0.win 1).blk t).view.emb (ix2 p q)) = _
  refine congrArg (V c (Pipeline.arrRef spec0 1)) (funext fun a => Fin.ext ?_)
  match a with
  | ⟨0, _⟩ => show win0_1.index t (0 : Fin 2) * 10000 + 1 * p.val = 10000 * t.val + p.val; omega
  | ⟨1, _⟩ => show win0_1.index t (1 : Fin 2) * 1 + 1 * q.val = q.val; omega

/-- The first weight matrix is held whole at every point. -/
theorem w1_block (c : Dev nD) (t : Fin cfg0.N) :
    (iblk0 V c 2 t : Vec Ideal S1x16 .f32) = (V c (Pipeline.arrRef spec0 2) : Gin.Arr2 1 16) := by
  obtain ⟨-, -, -, -, e0, e1, -⟩ := block_index t
  funext y
  show V c (Pipeline.arrRef spec0 2) (((cfg0.win 2).blk t).view.emb y) = _
  refine congrArg (V c (Pipeline.arrRef spec0 2)) (funext fun a => Fin.ext ?_)
  match a with
  | ⟨0, _⟩ => show win0_2.index t (0 : Fin 2) * 1 + 1 * (y 0).val = (y 0).val; omega
  | ⟨1, _⟩ => show win0_2.index t (1 : Fin 2) * 16 + 1 * (y 1).val = (y 1).val; omega

/-- The first bias row is held whole at every point. -/
theorem b1_block (c : Dev nD) (t : Fin cfg0.N) :
    (iblk0 V c 3 t : Vec Ideal S1x16 .f32) = (V c (Pipeline.arrRef spec0 3) : Gin.Arr2 1 16) := by
  obtain ⟨-, -, -, -, -, -, e0, e1, -⟩ := block_index t
  funext y
  show V c (Pipeline.arrRef spec0 3) (((cfg0.win 3).blk t).view.emb y) = _
  refine congrArg (V c (Pipeline.arrRef spec0 3)) (funext fun a => Fin.ext ?_)
  match a with
  | ⟨0, _⟩ => show win0_3.index t (0 : Fin 2) * 1 + 1 * (y 0).val = (y 0).val; omega
  | ⟨1, _⟩ => show win0_3.index t (1 : Fin 2) * 16 + 1 * (y 1).val = (y 1).val; omega

/-- The second weight matrix is held whole at every point. -/
theorem w2_block (c : Dev nD) (t : Fin cfg0.N) :
    (iblk0 V c 4 t : Vec Ideal S16x32 .f32) = (V c (Pipeline.arrRef spec0 4) : Gin.Arr2 16 32) := by
  obtain ⟨-, -, -, -, -, -, -, -, e0, e1, -⟩ := block_index t
  funext y
  show V c (Pipeline.arrRef spec0 4) (((cfg0.win 4).blk t).view.emb y) = _
  refine congrArg (V c (Pipeline.arrRef spec0 4)) (funext fun a => Fin.ext ?_)
  match a with
  | ⟨0, _⟩ => show win0_4.index t (0 : Fin 2) * 16 + 1 * (y 0).val = (y 0).val; omega
  | ⟨1, _⟩ => show win0_4.index t (1 : Fin 2) * 32 + 1 * (y 1).val = (y 1).val; omega

/-- The second bias row is held whole at every point. -/
theorem b2_block (c : Dev nD) (t : Fin cfg0.N) :
    (iblk0 V c 5 t : Vec Ideal S1x32 .f32) = (V c (Pipeline.arrRef spec0 5) : Gin.Arr2 1 32) := by
  obtain ⟨-, -, -, -, -, -, -, -, -, -, e0, e1, -⟩ := block_index t
  funext y
  show V c (Pipeline.arrRef spec0 5) (((cfg0.win 5).blk t).view.emb y) = _
  refine congrArg (V c (Pipeline.arrRef spec0 5)) (funext fun a => Fin.ext ?_)
  match a with
  | ⟨0, _⟩ => show win0_5.index t (0 : Fin 2) * 1 + 1 * (y 0).val = (y 0).val; omega
  | ⟨1, _⟩ => show win0_5.index t (1 : Fin 2) * 32 + 1 * (y 1).val = (y 1).val; omega

/-- Entry (p, j) of the output block at point t sits at row 10000·t + p of the output array. -/
theorem out_index (t : Fin cfg0.N) (p : Fin 10000) (j : Fin 32) :
    ((cfg0.win 6).blk t).view.emb (ix2 p j) = ix2 (row t p) j := by
  obtain ⟨-, -, -, -, -, -, -, -, -, -, -, -, e0, e1⟩ := block_index t
  refine funext fun a => Fin.ext ?_
  match a with
  | ⟨0, _⟩ => show win0_6.index t (0 : Fin 2) * 10000 + 1 * p.val = 10000 * t.val + p.val; omega
  | ⟨1, _⟩ => show win0_6.index t (1 : Fin 2) * 32 + 1 * j.val = j.val; omega

/-- The layer function of the arrays as the region finds them. -/
abbrev layer (c : Dev nD) : Gin.Arr2 100000 32 :=
  Gin.mlp0 (V c (Pipeline.arrRef spec0 0)) (V c (Pipeline.arrRef spec0 1)) (V c (Pipeline.arrRef spec0 2))
    (fun k => V c (Pipeline.arrRef spec0 3) (ix2 (0 : Fin 1) k)) (V c (Pipeline.arrRef spec0 4))
    (fun j => V c (Pipeline.arrRef spec0 5) (ix2 (0 : Fin 1) j))

/-- What point t writes back is block t of the layer function. -/
theorem flushed_eq (c : Dev nD) (t : Fin cfg0.N) :
    (dat0 (F := Ideal) V c).flushed 6 t = ((cfg0.win 6).blk t).view.read (Elt Ideal) (layer V c) := by
  show (cfg0.win 6).cut (grid0.coords t) ((dat0 V c).after 6 t) = _
  rw [after0_6]
  unfold out0_6
  rw [View.canon_unit_zero zero_offsets]
  simp only [View.ld_unit_zero (S := S10000x1) zero_offsets,
    View.ld_unit_zero (S := S1x16) zero_offsets, View.ld_unit_zero (S := S16x32) zero_offsets,
    View.ld_unit_zero (S := S1x32) zero_offsets]
  funext y
  obtain ⟨p, j, rfl⟩ : ∃ (p : Fin 10000) (j : Fin 32), y = ix2 p j := ⟨y 0, y 1, eq_ix2 y⟩
  show k0_pay1 (F := Ideal) (iblk0 V c 0 t) (iblk0 V c 1 t) (iblk0 V c 2 t) (iblk0 V c 3 t) (iblk0 V c 4 t) (iblk0 V c 5 t) (ix2 p j)
    = layer V c (((cfg0.win 6).blk t).view.emb (ix2 p j))
  rw [out_index t p j]
  refine (k0_pay1_apply (iblk0 V c 0 t) (iblk0 V c 1 t) (iblk0 V c 2 t) (iblk0 V c 3 t) (iblk0 V c 4 t) (iblk0 V c 5 t) p j).trans ?_
  rw [w1_block V c t, b1_block V c t, w2_block V c t, b2_block V c t]
  simp only [feat_block V c t, nbr_block V c t]
  rfl

/-- A row of the output array lies in point t's block iff it lies in the block's range on each axis. -/
theorem mem_blk (t : Fin cfg0.N) (i : S100000x32.Idx) :
    i ∈ ((cfg0.win 6).blk t).view.set ↔ ∀ a : Fin 2, win0_6.index t a * S10000x32.size a ≤ (i a).val ∧ (i a).val < win0_6.index t a * S10000x32.size a + S10000x32.size a := by
  show i ∈ ((View.whole main_v16).slice (win0_6.rect t)).set ↔ _
  rw [View.set_slice_whole, Rect.mem_set_unit]
  exact Iff.rfl

/-- Every index of the output array is in some point's block: row r lies in block r / 10000. -/
theorem cover (i : S100000x32.Idx) :
    ∃ t : Fin cfg0.N, (cfg0.win 6).flush t = true ∧ i ∈ ((cfg0.win 6).blk t).view.set := by
  have hi0 : (i 0).val < 100000 := (i 0).isLt
  have hi1 : (i 1).val < 32 := (i 1).isLt
  have hN : cfg0.N = 10 := N_0
  refine ⟨⟨(i 0).val / 10000, by rw [hN]; omega⟩, flush0_6 _, ?_⟩
  rw [mem_blk]
  obtain ⟨-, -, -, -, -, -, -, -, -, -, -, -, e0, e1⟩ := block_index ⟨(i 0).val / 10000, by rw [hN]; omega⟩
  intro a
  match a with
  | ⟨0, _⟩ =>
    show win0_6.index _ (0 : Fin 2) * 10000 ≤ (i 0).val ∧ (i 0).val < win0_6.index _ (0 : Fin 2) * 10000 + 10000
    rw [e0]; show (i 0).val / 10000 * 10000 ≤ (i 0).val ∧ (i 0).val < (i 0).val / 10000 * 10000 + 10000; omega
  | ⟨1, _⟩ =>
    show win0_6.index _ (1 : Fin 2) * 32 ≤ (i 1).val ∧ (i 1).val < win0_6.index _ (1 : Fin 2) * 32 + 32
    rw [e1]; omega

end R0

/-- The region's output array is the first-layer function of the arrays the region finds. -/
theorem region0 (c : Dev nD) : (Gen.dat0 (F := Ideal) V c).arrAt 6 cfg0.N
    = Gin.mlp0 (V c (Pipeline.arrRef spec0 0)) (V c (Pipeline.arrRef spec0 1)) (V c (Pipeline.arrRef spec0 2))
        (fun k => V c (Pipeline.arrRef spec0 3) (ix2 (0 : Fin 1) k)) (V c (Pipeline.arrRef spec0 4))
        (fun j => V c (Pipeline.arrRef spec0 5) (ix2 (0 : Fin 1) j)) :=
  (Gen.dat0 (F := Ideal) V c).arrAt_eq_of_cover 6 (R0.layer V c) (fun t _ => R0.flushed_eq V c t) R0.cover

end Cert.KernelIdeal.GinRegions

end
-- ==== Proof.KRegion1.lean ====
/-
  A middle layer's region: its whole output array, index by index.

  The region walks ten grid points; point t holds rows 10000·t … 10000·t + 9999 of the features and of the neighbour
  sums, the whole of the two weight matrices and the two bias rows, and writes rows 10000·t … of the output.  Since
  entry (p, j) of a block is the perceptron of row p of the two input blocks plus the feature, what point t writes
  back is block t of the layer function of the whole arrays; the ten blocks cover all 100000 rows (row r lies in
  block r / 10000), so the output array is the layer function.
-/
import proofs.«175125_j35716948034103_1_alg».proof.Proof.Gen.KernelIdeal.Frame
import proofs.«175125_j35716948034103_1_alg».proof.Proof.KPayload
import Idealize.ShloMosaic.Lib.Pipeline.Value

set_option maxRecDepth 16384

noncomputable section

open scoped BigOperators

namespace Cert.KernelIdeal.GinRegions

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace R1

theorem zero_offsets : (![0, 0] : Fin 2 → Nat) = fun _ => 0 := funext fun a => by fin_cases a <;> rfl

/-- The block index of every window at grid point t: the row windows sit at block t, the others at block 0. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of block t is row 10000·t + p of the array. -/
def row (t : Fin cfg1.N) (p : Fin 10000) : Fin 100000 :=
  ⟨10000 * t.val + p.val, by have ht : t.val < 10 := (show cfg1.N = 10 from N_1) ▸ t.isLt; have := p.isLt; omega⟩

/-- The feature block at point t is rows 10000·t … of the feature array. -/
theorem feat_block (c : Dev nD) (t : Fin cfg1.N) (p : Fin 10000) (q : Fin 32) :
    (iblk1 V c 0 t : Vec Ideal S10000x32 .f32) (ix2 p q)
      = (V c (Pipeline.arrRef spec1 0) : Gin.Arr2 100000 32) (ix2 (row t p) q) := by
  obtain ⟨e0, e1, -⟩ := block_index t
  show V c (Pipeline.arrRef spec1 0) (((cfg1.win 0).blk t).view.emb (ix2 p q)) = _
  refine congrArg (V c (Pipeline.arrRef spec1 0)) (funext fun a => Fin.ext ?_)
  match a with
  | ⟨0, _⟩ => show win1_0.index t (0 : Fin 2) * 10000 + 1 * p.val = 10000 * t.val + p.val; omega
  | ⟨1, _⟩ => show win1_0.index t (1 : Fin 2) * 32 + 1 * q.val = q.val; omega

/-- The neighbour-sum block at point t is rows 10000·t … of the neighbour-sum array. -/
theorem nbr_block (c : Dev nD) (t : Fin cfg1.N) (p : Fin 10000) (q : Fin 32) :
    (iblk1 V c 1 t : Vec Ideal S10000x32 .f32) (ix2 p q)
      = (V c (Pipeline.arrRef spec1 1) : Gin.Arr2 100000 32) (ix2 (row t p) q) := by
  obtain ⟨-, -, e0, e1, -⟩ := block_index t
  show V c (Pipeline.arrRef spec1 1) (((cfg1.win 1).blk t).view.emb (ix2 p q)) = _
  refine congrArg (V c (Pipeline.arrRef spec1 1)) (funext fun a => Fin.ext ?_)
  match a with
  | ⟨0, _⟩ => show win1_1.index t (0 : Fin 2) * 10000 + 1 * p.val = 10000 * t.val + p.val; omega
  | ⟨1, _⟩ => show win1_1.index t (1 : Fin 2) * 32 + 1 * q.val = q.val; omega

/-- The first weight matrix is held whole at every point. -/
theorem w1_block (c : Dev nD) (t : Fin cfg1.N) :
    (iblk1 V c 2 t : Vec Ideal S32x16 .f32) = (V c (Pipeline.arrRef spec1 2) : Gin.Arr2 32 16) := by
  obtain ⟨-, -, -, -, e0, e1, -⟩ := block_index t
  funext y
  show V c (Pipeline.arrRef spec1 2) (((cfg1.win 2).blk t).view.emb y) = _
  refine congrArg (V c (Pipeline.arrRef spec1 2)) (funext fun a => Fin.ext ?_)
  match a with
  | ⟨0, _⟩ => show win1_2.index t (0 : Fin 2) * 32 + 1 * (y 0).val = (y 0).val; omega
  | ⟨1, _⟩ => show win1_2.index t (1 : Fin 2) * 16 + 1 * (y 1).val = (y 1).val; omega

/-- The first bias row is held whole at every point. -/
theorem b1_block (c : Dev nD) (t : Fin cfg1.N) :
    (iblk1 V c 3 t : Vec Ideal S1x16 .f32) = (V c (Pipeline.arrRef spec1 3) : Gin.Arr2 1 16) := by
  obtain ⟨-, -, -, -, -, -, e0, e1, -⟩ := block_index t
  funext y
  show V c (Pipeline.arrRef spec1 3) (((cfg1.win 3).blk t).view.emb y) = _
  refine congrArg (V c (Pipeline.arrRef spec1 3)) (funext fun a => Fin.ext ?_)
  match a with
  | ⟨0, _⟩ => show win1_3.index t (0 : Fin 2) * 1 + 1 * (y 0).val = (y 0).val; omega
  | ⟨1, _⟩ => show win1_3.index t (1 : Fin 2) * 16 + 1 * (y 1).val = (y 1).val; omega

/-- The second weight matrix is held whole at every point. -/
theorem w2_block (c : Dev nD) (t : Fin cfg1.N) :
    (iblk1 V c 4 t : Vec Ideal S16x32 .f32) = (V c (Pipeline.arrRef spec1 4) : Gin.Arr2 16 32) := by
  obtain ⟨-, -, -, -, -, -, -, -, e0, e1, -⟩ := block_index t
  funext y
  show V c (Pipeline.arrRef spec1 4) (((cfg1.win 4).blk t).view.emb y) = _
  refine congrArg (V c (Pipeline.arrRef spec1 4)) (funext fun a => Fin.ext ?_)
  match a with
  | ⟨0, _⟩ => show win1_4.index t (0 : Fin 2) * 16 + 1 * (y 0).val = (y 0).val; omega
  | ⟨1, _⟩ => show win1_4.index t (1 : Fin 2) * 32 + 1 * (y 1).val = (y 1).val; omega

/-- The second bias row is held whole at every point. -/
theorem b2_block (c : Dev nD) (t : Fin cfg1.N) :
    (iblk1 V c 5 t : Vec Ideal S1x32 .f32) = (V c (Pipeline.arrRef spec1 5) : Gin.Arr2 1 32) := by
  obtain ⟨-, -, -, -, -, -, -, -, -, -, e0, e1, -⟩ := block_index t
  funext y
  show V c (Pipeline.arrRef spec1 5) (((cfg1.win 5).blk t).view.emb y) = _
  refine congrArg (V c (Pipeline.arrRef spec1 5)) (funext fun a => Fin.ext ?_)
  match a with
  | ⟨0, _⟩ => show win1_5.index t (0 : Fin 2) * 1 + 1 * (y 0).val = (y 0).val; omega
  | ⟨1, _⟩ => show win1_5.index t (1 : Fin 2) * 32 + 1 * (y 1).val = (y 1).val; omega

/-- Entry (p, j) of the output block at point t sits at row 10000·t + p of the output array. -/
theorem out_index (t : Fin cfg1.N) (p : Fin 10000) (j : Fin 32) :
    ((cfg1.win 6).blk t).view.emb (ix2 p j) = ix2 (row t p) j := by
  obtain ⟨-, -, -, -, -, -, -, -, -, -, -, -, e0, e1⟩ := block_index t
  refine funext fun a => Fin.ext ?_
  match a with
  | ⟨0, _⟩ => show win1_6.index t (0 : Fin 2) * 10000 + 1 * p.val = 10000 * t.val + p.val; omega
  | ⟨1, _⟩ => show win1_6.index t (1 : Fin 2) * 32 + 1 * j.val = j.val; omega

/-- The layer function of the arrays as the region finds them. -/
abbrev layer (c : Dev nD) : Gin.Arr2 100000 32 :=
  Gin.mlpMid (V c (Pipeline.arrRef spec1 0)) (V c (Pipeline.arrRef spec1 1)) (V c (Pipeline.arrRef spec1 2))
    (fun k => V c (Pipeline.arrRef spec1 3) (ix2 (0 : Fin 1) k)) (V c (Pipeline.arrRef spec1 4))
    (fun j => V c (Pipeline.arrRef spec1 5) (ix2 (0 : Fin 1) j))

/-- What point t writes back is block t of the layer function. -/
theorem flushed_eq (c : Dev nD) (t : Fin cfg1.N) :
    (dat1 (F := Ideal) V c).flushed 6 t = ((cfg1.win 6).blk t).view.read (Elt Ideal) (layer V c) := by
  show (cfg1.win 6).cut (grid1.coords t) ((dat1 V c).after 6 t) = _
  rw [after1_6]
  unfold out1_6
  rw [View.canon_unit_zero zero_offsets]
  simp only [View.ld_unit_zero (S := S10000x32) zero_offsets, View.ld_unit_zero (S := S32x16) zero_offsets,
    View.ld_unit_zero (S := S1x16) zero_offsets, View.ld_unit_zero (S := S16x32) zero_offsets,
    View.ld_unit_zero (S := S1x32) zero_offsets]
  funext y
  obtain ⟨p, j, rfl⟩ : ∃ (p : Fin 10000) (j : Fin 32), y = ix2 p j := ⟨y 0, y 1, eq_ix2 y⟩
  show k1_pay1 (F := Ideal) (iblk1 V c 0 t) (iblk1 V c 1 t) (iblk1 V c 2 t) (iblk1 V c 3 t) (iblk1 V c 4 t) (iblk1 V c 5 t) (ix2 p j)
    = layer V c (((cfg1.win 6).blk t).view.emb (ix2 p j))
  rw [out_index t p j]
  refine (k1_pay1_apply (iblk1 V c 0 t) (iblk1 V c 1 t) (iblk1 V c 2 t) (iblk1 V c 3 t) (iblk1 V c 4 t) (iblk1 V c 5 t) p j).trans ?_
  rw [w1_block V c t, b1_block V c t, w2_block V c t, b2_block V c t]
  simp only [feat_block V c t, nbr_block V c t]
  rfl

/-- A row of the output array lies in point t's block iff it lies in the block's range on each axis. -/
theorem mem_blk (t : Fin cfg1.N) (i : S100000x32.Idx) :
    i ∈ ((cfg1.win 6).blk t).view.set ↔ ∀ a : Fin 2, win1_6.index t a * S10000x32.size a ≤ (i a).val ∧ (i a).val < win1_6.index t a * S10000x32.size a + S10000x32.size a := by
  show i ∈ ((View.whole main_v37).slice (win1_6.rect t)).set ↔ _
  rw [View.set_slice_whole, Rect.mem_set_unit]
  exact Iff.rfl

/-- Every index of the output array is in some point's block: row r lies in block r / 10000. -/
theorem cover (i : S100000x32.Idx) :
    ∃ t : Fin cfg1.N, (cfg1.win 6).flush t = true ∧ i ∈ ((cfg1.win 6).blk t).view.set := by
  have hi0 : (i 0).val < 100000 := (i 0).isLt
  have hi1 : (i 1).val < 32 := (i 1).isLt
  have hN : cfg1.N = 10 := N_1
  refine ⟨⟨(i 0).val / 10000, by rw [hN]; omega⟩, flush1_6 _, ?_⟩
  rw [mem_blk]
  obtain ⟨-, -, -, -, -, -, -, -, -, -, -, -, e0, e1⟩ := block_index ⟨(i 0).val / 10000, by rw [hN]; omega⟩
  intro a
  match a with
  | ⟨0, _⟩ =>
    show win1_6.index _ (0 : Fin 2) * 10000 ≤ (i 0).val ∧ (i 0).val < win1_6.index _ (0 : Fin 2) * 10000 + 10000
    rw [e0]; show (i 0).val / 10000 * 10000 ≤ (i 0).val ∧ (i 0).val < (i 0).val / 10000 * 10000 + 10000; omega
  | ⟨1, _⟩ =>
    show win1_6.index _ (1 : Fin 2) * 32 ≤ (i 1).val ∧ (i 1).val < win1_6.index _ (1 : Fin 2) * 32 + 32
    rw [e1]; omega

end R1

/-- The region's output array is the middle-layer function of the arrays the region finds. -/
theorem region1 (c : Dev nD) : (Gen.dat1 (F := Ideal) V c).arrAt 6 cfg1.N
    = Gin.mlpMid (V c (Pipeline.arrRef spec1 0)) (V c (Pipeline.arrRef spec1 1)) (V c (Pipeline.arrRef spec1 2))
        (fun k => V c (Pipeline.arrRef spec1 3) (ix2 (0 : Fin 1) k)) (V c (Pipeline.arrRef spec1 4))
        (fun j => V c (Pipeline.arrRef spec1 5) (ix2 (0 : Fin 1) j)) :=
  (Gen.dat1 (F := Ideal) V c).arrAt_eq_of_cover 6 (R1.layer V c) (fun t _ => R1.flushed_eq V c t) R1.cover

end Cert.KernelIdeal.GinRegions

end
-- ==== Proof.KRegion2.lean ====
/-
  A middle layer's region: its whole output array, index by index.

  The region walks ten grid points; point t holds rows 10000·t … 10000·t + 9999 of the features and of the neighbour
  sums, the whole of the two weight matrices and the two bias rows, and writes rows 10000·t … of the output.  Since
  entry (p, j) of a block is the perceptron of row p of the two input blocks plus the feature, what point t writes
  back is block t of the layer function of the whole arrays; the ten blocks cover all 100000 rows (row r lies in
  block r / 10000), so the output array is the layer function.
-/
import proofs.«175125_j35716948034103_1_alg».proof.Proof.Gen.KernelIdeal.Frame
import proofs.«175125_j35716948034103_1_alg».proof.Proof.KPayload
import Idealize.ShloMosaic.Lib.Pipeline.Value

set_option maxRecDepth 16384

noncomputable section

open scoped BigOperators

namespace Cert.KernelIdeal.GinRegions

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace R2

theorem zero_offsets : (![0, 0] : Fin 2 → Nat) = fun _ => 0 := funext fun a => by fin_cases a <;> rfl

/-- The block index of every window at grid point t: the row windows sit at block t, the others at block 0. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of block t is row 10000·t + p of the array. -/
def row (t : Fin cfg2.N) (p : Fin 10000) : Fin 100000 :=
  ⟨10000 * t.val + p.val, by have ht : t.val < 10 := (show cfg2.N = 10 from N_2) ▸ t.isLt; have := p.isLt; omega⟩

/-- The feature block at point t is rows 10000·t … of the feature array. -/
theorem feat_block (c : Dev nD) (t : Fin cfg2.N) (p : Fin 10000) (q : Fin 32) :
    (iblk2 V c 0 t : Vec Ideal S10000x32 .f32) (ix2 p q)
      = (V c (Pipeline.arrRef spec2 0) : Gin.Arr2 100000 32) (ix2 (row t p) q) := by
  obtain ⟨e0, e1, -⟩ := block_index t
  show V c (Pipeline.arrRef spec2 0) (((cfg2.win 0).blk t).view.emb (ix2 p q)) = _
  refine congrArg (V c (Pipeline.arrRef spec2 0)) (funext fun a => Fin.ext ?_)
  match a with
  | ⟨0, _⟩ => show win2_0.index t (0 : Fin 2) * 10000 + 1 * p.val = 10000 * t.val + p.val; omega
  | ⟨1, _⟩ => show win2_0.index t (1 : Fin 2) * 32 + 1 * q.val = q.val; omega

/-- The neighbour-sum block at point t is rows 10000·t … of the neighbour-sum array. -/
theorem nbr_block (c : Dev nD) (t : Fin cfg2.N) (p : Fin 10000) (q : Fin 32) :
    (iblk2 V c 1 t : Vec Ideal S10000x32 .f32) (ix2 p q)
      = (V c (Pipeline.arrRef spec2 1) : Gin.Arr2 100000 32) (ix2 (row t p) q) := by
  obtain ⟨-, -, e0, e1, -⟩ := block_index t
  show V c (Pipeline.arrRef spec2 1) (((cfg2.win 1).blk t).view.emb (ix2 p q)) = _
  refine congrArg (V c (Pipeline.arrRef spec2 1)) (funext fun a => Fin.ext ?_)
  match a with
  | ⟨0, _⟩ => show win2_1.index t (0 : Fin 2) * 10000 + 1 * p.val = 10000 * t.val + p.val; omega
  | ⟨1, _⟩ => show win2_1.index t (1 : Fin 2) * 32 + 1 * q.val = q.val; omega

/-- The first weight matrix is held whole at every point. -/
theorem w1_block (c : Dev nD) (t : Fin cfg2.N) :
    (iblk2 V c 2 t : Vec Ideal S32x16 .f32) = (V c (Pipeline.arrRef spec2 2) : Gin.Arr2 32 16) := by
  obtain ⟨-, -, -, -, e0, e1, -⟩ := block_index t
  funext y
  show V c (Pipeline.arrRef spec2 2) (((cfg2.win 2).blk t).view.emb y) = _
  refine congrArg (V c (Pipeline.arrRef spec2 2)) (funext fun a => Fin.ext ?_)
  match a with
  | ⟨0, _⟩ => show win2_2.index t (0 : Fin 2) * 32 + 1 * (y 0).val = (y 0).val; omega
  | ⟨1, _⟩ => show win2_2.index t (1 : Fin 2) * 16 + 1 * (y 1).val = (y 1).val; omega

/-- The first bias row is held whole at every point. -/
theorem b1_block (c : Dev nD) (t : Fin cfg2.N) :
    (iblk2 V c 3 t : Vec Ideal S1x16 .f32) = (V c (Pipeline.arrRef spec2 3) : Gin.Arr2 1 16) := by
  obtain ⟨-, -, -, -, -, -, e0, e1, -⟩ := block_index t
  funext y
  show V c (Pipeline.arrRef spec2 3) (((cfg2.win 3).blk t).view.emb y) = _
  refine congrArg (V c (Pipeline.arrRef spec2 3)) (funext fun a => Fin.ext ?_)
  match a with
  | ⟨0, _⟩ => show win2_3.index t (0 : Fin 2) * 1 + 1 * (y 0).val = (y 0).val; omega
  | ⟨1, _⟩ => show win2_3.index t (1 : Fin 2) * 16 + 1 * (y 1).val = (y 1).val; omega

/-- The second weight matrix is held whole at every point. -/
theorem w2_block (c : Dev nD) (t : Fin cfg2.N) :
    (iblk2 V c 4 t : Vec Ideal S16x32 .f32) = (V c (Pipeline.arrRef spec2 4) : Gin.Arr2 16 32) := by
  obtain ⟨-, -, -, -, -, -, -, -, e0, e1, -⟩ := block_index t
  funext y
  show V c (Pipeline.arrRef spec2 4) (((cfg2.win 4).blk t).view.emb y) = _
  refine congrArg (V c (Pipeline.arrRef spec2 4)) (funext fun a => Fin.ext ?_)
  match a with
  | ⟨0, _⟩ => show win2_4.index t (0 : Fin 2) * 16 + 1 * (y 0).val = (y 0).val; omega
  | ⟨1, _⟩ => show win2_4.index t (1 : Fin 2) * 32 + 1 * (y 1).val = (y 1).val; omega

/-- The second bias row is held whole at every point. -/
theorem b2_block (c : Dev nD) (t : Fin cfg2.N) :
    (iblk2 V c 5 t : Vec Ideal S1x32 .f32) = (V c (Pipeline.arrRef spec2 5) : Gin.Arr2 1 32) := by
  obtain ⟨-, -, -, -, -, -, -, -, -, -, e0, e1, -⟩ := block_index t
  funext y
  show V c (Pipeline.arrRef spec2 5) (((cfg2.win 5).blk t).view.emb y) = _
  refine congrArg (V c (Pipeline.arrRef spec2 5)) (funext fun a => Fin.ext ?_)
  match a with
  | ⟨0, _⟩ => show win2_5.index t (0 : Fin 2) * 1 + 1 * (y 0).val = (y 0).val; omega
  | ⟨1, _⟩ => show win2_5.index t (1 : Fin 2) * 32 + 1 * (y 1).val = (y 1).val; omega

/-- Entry (p, j) of the output block at point t sits at row 10000·t + p of the output array. -/
theorem out_index (t : Fin cfg2.N) (p : Fin 10000) (j : Fin 32) :
    ((cfg2.win 6).blk t).view.emb (ix2 p j) = ix2 (row t p) j := by
  obtain ⟨-, -, -, -, -, -, -, -, -, -, -, -, e0, e1⟩ := block_index t
  refine funext fun a => Fin.ext ?_
  match a with
  | ⟨0, _⟩ => show win2_6.index t (0 : Fin 2) * 10000 + 1 * p.val = 10000 * t.val + p.val; omega
  | ⟨1, _⟩ => show win2_6.index t (1 : Fin 2) * 32 + 1 * j.val = j.val; omega

/-- The layer function of the arrays as the region finds them. -/
abbrev layer (c : Dev nD) : Gin.Arr2 100000 32 :=
  Gin.mlpMid (V c (Pipeline.arrRef spec2 0)) (V c (Pipeline.arrRef spec2 1)) (V c (Pipeline.arrRef spec2 2))
    (fun k => V c (Pipeline.arrRef spec2 3) (ix2 (0 : Fin 1) k)) (V c (Pipeline.arrRef spec2 4))
    (fun j => V c (Pipeline.arrRef spec2 5) (ix2 (0 : Fin 1) j))

/-- What point t writes back is block t of the layer function. -/
theorem flushed_eq (c : Dev nD) (t : Fin cfg2.N) :
    (dat2 (F := Ideal) V c).flushed 6 t = ((cfg2.win 6).blk t).view.read (Elt Ideal) (layer V c) := by
  show (cfg2.win 6).cut (grid2.coords t) ((dat2 V c).after 6 t) = _
  rw [after2_6]
  unfold out2_6
  rw [View.canon_unit_zero zero_offsets]
  simp only [View.ld_unit_zero (S := S10000x32) zero_offsets, View.ld_unit_zero (S := S32x16) zero_offsets,
    View.ld_unit_zero (S := S1x16) zero_offsets, View.ld_unit_zero (S := S16x32) zero_offsets,
    View.ld_unit_zero (S := S1x32) zero_offsets]
  funext y
  obtain ⟨p, j, rfl⟩ : ∃ (p : Fin 10000) (j : Fin 32), y = ix2 p j := ⟨y 0, y 1, eq_ix2 y⟩
  show k2_pay1 (F := Ideal) (iblk2 V c 0 t) (iblk2 V c 1 t) (iblk2 V c 2 t) (iblk2 V c 3 t) (iblk2 V c 4 t) (iblk2 V c 5 t) (ix2 p j)
    = layer V c (((cfg2.win 6).blk t).view.emb (ix2 p j))
  rw [out_index t p j]
  refine (k2_pay1_apply (iblk2 V c 0 t) (iblk2 V c 1 t) (iblk2 V c 2 t) (iblk2 V c 3 t) (iblk2 V c 4 t) (iblk2 V c 5 t) p j).trans ?_
  rw [w1_block V c t, b1_block V c t, w2_block V c t, b2_block V c t]
  simp only [feat_block V c t, nbr_block V c t]
  rfl

/-- A row of the output array lies in point t's block iff it lies in the block's range on each axis. -/
theorem mem_blk (t : Fin cfg2.N) (i : S100000x32.Idx) :
    i ∈ ((cfg2.win 6).blk t).view.set ↔ ∀ a : Fin 2, win2_6.index t a * S10000x32.size a ≤ (i a).val ∧ (i a).val < win2_6.index t a * S10000x32.size a + S10000x32.size a := by
  show i ∈ ((View.whole main_v58).slice (win2_6.rect t)).set ↔ _
  rw [View.set_slice_whole, Rect.mem_set_unit]
  exact Iff.rfl

/-- Every index of the output array is in some point's block: row r lies in block r / 10000. -/
theorem cover (i : S100000x32.Idx) :
    ∃ t : Fin cfg2.N, (cfg2.win 6).flush t = true ∧ i ∈ ((cfg2.win 6).blk t).view.set := by
  have hi0 : (i 0).val < 100000 := (i 0).isLt
  have hi1 : (i 1).val < 32 := (i 1).isLt
  have hN : cfg2.N = 10 := N_2
  refine ⟨⟨(i 0).val / 10000, by rw [hN]; omega⟩, flush2_6 _, ?_⟩
  rw [mem_blk]
  obtain ⟨-, -, -, -, -, -, -, -, -, -, -, -, e0, e1⟩ := block_index ⟨(i 0).val / 10000, by rw [hN]; omega⟩
  intro a
  match a with
  | ⟨0, _⟩ =>
    show win2_6.index _ (0 : Fin 2) * 10000 ≤ (i 0).val ∧ (i 0).val < win2_6.index _ (0 : Fin 2) * 10000 + 10000
    rw [e0]; show (i 0).val / 10000 * 10000 ≤ (i 0).val ∧ (i 0).val < (i 0).val / 10000 * 10000 + 10000; omega
  | ⟨1, _⟩ =>
    show win2_6.index _ (1 : Fin 2) * 32 ≤ (i 1).val ∧ (i 1).val < win2_6.index _ (1 : Fin 2) * 32 + 32
    rw [e1]; omega

end R2

/-- The region's output array is the middle-layer function of the arrays the region finds. -/
theorem region2 (c : Dev nD) : (Gen.dat2 (F := Ideal) V c).arrAt 6 cfg2.N
    = Gin.mlpMid (V c (Pipeline.arrRef spec2 0)) (V c (Pipeline.arrRef spec2 1)) (V c (Pipeline.arrRef spec2 2))
        (fun k => V c (Pipeline.arrRef spec2 3) (ix2 (0 : Fin 1) k)) (V c (Pipeline.arrRef spec2 4))
        (fun j => V c (Pipeline.arrRef spec2 5) (ix2 (0 : Fin 1) j)) :=
  (Gen.dat2 (F := Ideal) V c).arrAt_eq_of_cover 6 (R2.layer V c) (fun t _ => R2.flushed_eq V c t) R2.cover

end Cert.KernelIdeal.GinRegions

end
-- ==== Proof.KRegion3.lean ====
/-
  A middle layer's region: its whole output array, index by index.

  The region walks ten grid points; point t holds rows 10000·t … 10000·t + 9999 of the features and of the neighbour
  sums, the whole of the two weight matrices and the two bias rows, and writes rows 10000·t … of the output.  Since
  entry (p, j) of a block is the perceptron of row p of the two input blocks plus the feature, what point t writes
  back is block t of the layer function of the whole arrays; the ten blocks cover all 100000 rows (row r lies in
  block r / 10000), so the output array is the layer function.
-/
import proofs.«175125_j35716948034103_1_alg».proof.Proof.Gen.KernelIdeal.Frame
import proofs.«175125_j35716948034103_1_alg».proof.Proof.KPayload
import Idealize.ShloMosaic.Lib.Pipeline.Value

set_option maxRecDepth 16384

noncomputable section

open scoped BigOperators

namespace Cert.KernelIdeal.GinRegions

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace R3

theorem zero_offsets : (![0, 0] : Fin 2 → Nat) = fun _ => 0 := funext fun a => by fin_cases a <;> rfl

/-- The block index of every window at grid point t: the row windows sit at block t, the others at block 0. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row p of block t is row 10000·t + p of the array. -/
def row (t : Fin cfg3.N) (p : Fin 10000) : Fin 100000 :=
  ⟨10000 * t.val + p.val, by have ht : t.val < 10 := (show cfg3.N = 10 from N_3) ▸ t.isLt; have := p.isLt; omega⟩

/-- The feature block at point t is rows 10000·t … of the feature array. -/
theorem feat_block (c : Dev nD) (t : Fin cfg3.N) (p : Fin 10000) (q : Fin 32) :
    (iblk3 V c 0 t : Vec Ideal S10000x32 .f32) (ix2 p q)
      = (V c (Pipeline.arrRef spec3 0) : Gin.Arr2 100000 32) (ix2 (row t p) q) := by
  obtain ⟨e0, e1, -⟩ := block_index t
  show V c (Pipeline.arrRef spec3 0) (((cfg3.win 0).blk t).view.emb (ix2 p q)) = _
  refine congrArg (V c (Pipeline.arrRef spec3 0)) (funext fun a => Fin.ext ?_)
  match a with
  | ⟨0, _⟩ => show win3_0.index t (0 : Fin 2) * 10000 + 1 * p.val = 10000 * t.val + p.val; omega
  | ⟨1, _⟩ => show win3_0.index t (1 : Fin 2) * 32 + 1 * q.val = q.val; omega

/-- The neighbour-sum block at point t is rows 10000·t … of the neighbour-sum array. -/
theorem nbr_block (c : Dev nD) (t : Fin cfg3.N) (p : Fin 10000) (q : Fin 32) :
    (iblk3 V c 1 t : Vec Ideal S10000x32 .f32) (ix2 p q)
      = (V c (Pipeline.arrRef spec3 1) : Gin.Arr2 100000 32) (ix2 (row t p) q) := by
  obtain ⟨-, -, e0, e1, -⟩ := block_index t
  show V c (Pipeline.arrRef spec3 1) (((cfg3.win 1).blk t).view.emb (ix2 p q)) = _
  refine congrArg (V c (Pipeline.arrRef spec3 1)) (funext fun a => Fin.ext ?_)
  match a with
  | ⟨0, _⟩ => show win3_1.index t (0 : Fin 2) * 10000 + 1 * p.val = 10000 * t.val + p.val; omega
  | ⟨1, _⟩ => show win3_1.index t (1 : Fin 2) * 32 + 1 * q.val = q.val; omega

/-- The first weight matrix is held whole at every point. -/
theorem w1_block (c : Dev nD) (t : Fin cfg3.N) :
    (iblk3 V c 2 t : Vec Ideal S32x16 .f32) = (V c (Pipeline.arrRef spec3 2) : Gin.Arr2 32 16) := by
  obtain ⟨-, -, -, -, e0, e1, -⟩ := block_index t
  funext y
  show V c (Pipeline.arrRef spec3 2) (((cfg3.win 2).blk t).view.emb y) = _
  refine congrArg (V c (Pipeline.arrRef spec3 2)) (funext fun a => Fin.ext ?_)
  match a with
  | ⟨0, _⟩ => show win3_2.index t (0 : Fin 2) * 32 + 1 * (y 0).val = (y 0).val; omega
  | ⟨1, _⟩ => show win3_2.index t (1 : Fin 2) * 16 + 1 * (y 1).val = (y 1).val; omega

/-- The first bias row is held whole at every point. -/
theorem b1_block (c : Dev nD) (t : Fin cfg3.N) :
    (iblk3 V c 3 t : Vec Ideal S1x16 .f32) = (V c (Pipeline.arrRef spec3 3) : Gin.Arr2 1 16) := by
  obtain ⟨-, -, -, -, -, -, e0, e1, -⟩ := block_index t
  funext y
  show V c (Pipeline.arrRef spec3 3) (((cfg3.win 3).blk t).view.emb y) = _
  refine congrArg (V c (Pipeline.arrRef spec3 3)) (funext fun a => Fin.ext ?_)
  match a with
  | ⟨0, _⟩ => show win3_3.index t (0 : Fin 2) * 1 + 1 * (y 0).val = (y 0).val; omega
  | ⟨1, _⟩ => show win3_3.index t (1 : Fin 2) * 16 + 1 * (y 1).val = (y 1).val; omega

/-- The second weight matrix is held whole at every point. -/
theorem w2_block (c : Dev nD) (t : Fin cfg3.N) :
    (iblk3 V c 4 t : Vec Ideal S16x32 .f32) = (V c (Pipeline.arrRef spec3 4) : Gin.Arr2 16 32) := by
  obtain ⟨-, -, -, -, -, -, -, -, e0, e1, -⟩ := block_index t
  funext y
  show V c (Pipeline.arrRef spec3 4) (((cfg3.win 4).blk t).view.emb y) = _
  refine congrArg (V c (Pipeline.arrRef spec3 4)) (funext fun a => Fin.ext ?_)
  match a with
  | ⟨0, _⟩ => show win3_4.index t (0 : Fin 2) * 16 + 1 * (y 0).val = (y 0).val; omega
  | ⟨1, _⟩ => show win3_4.index t (1 : Fin 2) * 32 + 1 * (y 1).val = (y 1).val; omega

/-- The second bias row is held whole at every point. -/
theorem b2_block (c : Dev nD) (t : Fin cfg3.N) :
    (iblk3 V c 5 t : Vec Ideal S1x32 .f32) = (V c (Pipeline.arrRef spec3 5) : Gin.Arr2 1 32) := by
  obtain ⟨-, -, -, -, -, -, -, -, -, -, e0, e1, -⟩ := block_index t
  funext y
  show V c (Pipeline.arrRef spec3 5) (((cfg3.win 5).blk t).view.emb y) = _
  refine congrArg (V c (Pipeline.arrRef spec3 5)) (funext fun a => Fin.ext ?_)
  match a with
  | ⟨0, _⟩ => show win3_5.index t (0 : Fin 2) * 1 + 1 * (y 0).val = (y 0).val; omega
  | ⟨1, _⟩ => show win3_5.index t (1 : Fin 2) * 32 + 1 * (y 1).val = (y 1).val; omega

/-- Entry (p, j) of the output block at point t sits at row 10000·t + p of the output array. -/
theorem out_index (t : Fin cfg3.N) (p : Fin 10000) (j : Fin 32) :
    ((cfg3.win 6).blk t).view.emb (ix2 p j) = ix2 (row t p) j := by
  obtain ⟨-, -, -, -, -, -, -, -, -, -, -, -, e0, e1⟩ := block_index t
  refine funext fun a => Fin.ext ?_
  match a with
  | ⟨0, _⟩ => show win3_6.index t (0 : Fin 2) * 10000 + 1 * p.val = 10000 * t.val + p.val; omega
  | ⟨1, _⟩ => show win3_6.index t (1 : Fin 2) * 32 + 1 * j.val = j.val; omega

/-- The layer function of the arrays as the region finds them. -/
abbrev layer (c : Dev nD) : Gin.Arr2 100000 32 :=
  Gin.mlpMid (V c (Pipeline.arrRef spec3 0)) (V c (Pipeline.arrRef spec3 1)) (V c (Pipeline.arrRef spec3 2))
    (fun k => V c (Pipeline.arrRef spec3 3) (ix2 (0 : Fin 1) k)) (V c (Pipeline.arrRef spec3 4))
    (fun j => V c (Pipeline.arrRef spec3 5) (ix2 (0 : Fin 1) j))

/-- What point t writes back is block t of the layer function. -/
theorem flushed_eq (c : Dev nD) (t : Fin cfg3.N) :
    (dat3 (F := Ideal) V c).flushed 6 t = ((cfg3.win 6).blk t).view.read (Elt Ideal) (layer V c) := by
  show (cfg3.win 6).cut (grid3.coords t) ((dat3 V c).after 6 t) = _
  rw [after3_6]
  unfold out3_6
  rw [View.canon_unit_zero zero_offsets]
  simp only [View.ld_unit_zero (S := S10000x32) zero_offsets, View.ld_unit_zero (S := S32x16) zero_offsets,
    View.ld_unit_zero (S := S1x16) zero_offsets, View.ld_unit_zero (S := S16x32) zero_offsets,
    View.ld_unit_zero (S := S1x32) zero_offsets]
  funext y
  obtain ⟨p, j, rfl⟩ : ∃ (p : Fin 10000) (j : Fin 32), y = ix2 p j := ⟨y 0, y 1, eq_ix2 y⟩
  show k3_pay1 (F := Ideal) (iblk3 V c 0 t) (iblk3 V c 1 t) (iblk3 V c 2 t) (iblk3 V c 3 t) (iblk3 V c 4 t) (iblk3 V c 5 t) (ix2 p j)
    = layer V c (((cfg3.win 6).blk t).view.emb (ix2 p j))
  rw [out_index t p j]
  refine (k3_pay1_apply (iblk3 V c 0 t) (iblk3 V c 1 t) (iblk3 V c 2 t) (iblk3 V c 3 t) (iblk3 V c 4 t) (iblk3 V c 5 t) p j).trans ?_
  rw [w1_block V c t, b1_block V c t, w2_block V c t, b2_block V c t]
  simp only [feat_block V c t, nbr_block V c t]
  rfl

/-- A row of the output array lies in point t's block iff it lies in the block's range on each axis. -/
theorem mem_blk (t : Fin cfg3.N) (i : S100000x32.Idx) :
    i ∈ ((cfg3.win 6).blk t).view.set ↔ ∀ a : Fin 2, win3_6.index t a * S10000x32.size a ≤ (i a).val ∧ (i a).val < win3_6.index t a * S10000x32.size a + S10000x32.size a := by
  show i ∈ ((View.whole main_v79).slice (win3_6.rect t)).set ↔ _
  rw [View.set_slice_whole, Rect.mem_set_unit]
  exact Iff.rfl

/-- Every index of the output array is in some point's block: row r lies in block r / 10000. -/
theorem cover (i : S100000x32.Idx) :
    ∃ t : Fin cfg3.N, (cfg3.win 6).flush t = true ∧ i ∈ ((cfg3.win 6).blk t).view.set := by
  have hi0 : (i 0).val < 100000 := (i 0).isLt
  have hi1 : (i 1).val < 32 := (i 1).isLt
  have hN : cfg3.N = 10 := N_3
  refine ⟨⟨(i 0).val / 10000, by rw [hN]; omega⟩, flush3_6 _, ?_⟩
  rw [mem_blk]
  obtain ⟨-, -, -, -, -, -, -, -, -, -, -, -, e0, e1⟩ := block_index ⟨(i 0).val / 10000, by rw [hN]; omega⟩
  intro a
  match a with
  | ⟨0, _⟩ =>
    show win3_6.index _ (0 : Fin 2) * 10000 ≤ (i 0).val ∧ (i 0).val < win3_6.index _ (0 : Fin 2) * 10000 + 10000
    rw [e0]; show (i 0).val / 10000 * 10000 ≤ (i 0).val ∧ (i 0).val < (i 0).val / 10000 * 10000 + 10000; omega
  | ⟨1, _⟩ =>
    show win3_6.index _ (1 : Fin 2) * 32 ≤ (i 1).val ∧ (i 1).val < win3_6.index _ (1 : Fin 2) * 32 + 32
    rw [e1]; omega

end R3

/-- The region's output array is the middle-layer function of the arrays the region finds. -/
theorem region3 (c : Dev nD) : (Gen.dat3 (F := Ideal) V c).arrAt 6 cfg3.N
    = Gin.mlpMid (V c (Pipeline.arrRef spec3 0)) (V c (Pipeline.arrRef spec3 1)) (V c (Pipeline.arrRef spec3 2))
        (fun k => V c (Pipeline.arrRef spec3 3) (ix2 (0 : Fin 1) k)) (V c (Pipeline.arrRef spec3 4))
        (fun j => V c (Pipeline.arrRef spec3 5) (ix2 (0 : Fin 1) j)) :=
  (Gen.dat3 (F := Ideal) V c).arrAt_eq_of_cover 6 (R3.layer V c) (fun t _ => R3.flushed_eq V c t) R3.cover

end Cert.KernelIdeal.GinRegions

end
-- ==== Proof.KRegion4.lean ====
/-
  A middle layer's region: its whole output array, index by index.

  The region walks ten grid points; point t holds rows 10000·t … 10000·t + 9999 of the features and of the neighbour
  sums, the whole of the two weight matrices and the two bias rows, and writes rows 10000·t … of the output.  Since
  entry (p, j) of a block is the perceptron of row p of the two input blocks plus the feature, what point t writes
  back is block t of the layer function of the whole arrays; the ten blocks cover all 100000 rows (row r lies in
  block r / 10000), so the output array is the layer function.
-/
import proofs.«175125_j35716948034103_1_alg».proof.Proof.Gen.KernelIdeal.Frame
import proofs.«175125_j35716948034103_1_alg».proof.Proof.KPayload
import Idealize.ShloMosaic.Lib.Pipeline.Value

set_option maxRecDepth 16384

noncomputable section

open scoped BigOperators

namespace Cert.KernelIdeal.GinRegions

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace R4

theorem zero_offsets : (![0, 0] : Fin 2 → Nat) = fun _ => 0 := funext fun a => by fin_cases a <;> rfl

/-- The block index of every window at grid point t: the row windows sit at block t, the others at block 0. -/
theorem block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row p of block t is row 10000·t + p of the array. -/
def row (t : Fin cfg4.N) (p : Fin 10000) : Fin 100000 :=
  ⟨10000 * t.val + p.val, by have ht : t.val < 10 := (show cfg4.N = 10 from N_4) ▸ t.isLt; have := p.isLt; omega⟩

/-- The feature block at point t is rows 10000·t … of the feature array. -/
theorem feat_block (c : Dev nD) (t : Fin cfg4.N) (p : Fin 10000) (q : Fin 32) :
    (iblk4 V c 0 t : Vec Ideal S10000x32 .f32) (ix2 p q)
      = (V c (Pipeline.arrRef spec4 0) : Gin.Arr2 100000 32) (ix2 (row t p) q) := by
  obtain ⟨e0, e1, -⟩ := block_index t
  show V c (Pipeline.arrRef spec4 0) (((cfg4.win 0).blk t).view.emb (ix2 p q)) = _
  refine congrArg (V c (Pipeline.arrRef spec4 0)) (funext fun a => Fin.ext ?_)
  match a with
  | ⟨0, _⟩ => show win4_0.index t (0 : Fin 2) * 10000 + 1 * p.val = 10000 * t.val + p.val; omega
  | ⟨1, _⟩ => show win4_0.index t (1 : Fin 2) * 32 + 1 * q.val = q.val; omega

/-- The neighbour-sum block at point t is rows 10000·t … of the neighbour-sum array. -/
theorem nbr_block (c : Dev nD) (t : Fin cfg4.N) (p : Fin 10000) (q : Fin 32) :
    (iblk4 V c 1 t : Vec Ideal S10000x32 .f32) (ix2 p q)
      = (V c (Pipeline.arrRef spec4 1) : Gin.Arr2 100000 32) (ix2 (row t p) q) := by
  obtain ⟨-, -, e0, e1, -⟩ := block_index t
  show V c (Pipeline.arrRef spec4 1) (((cfg4.win 1).blk t).view.emb (ix2 p q)) = _
  refine congrArg (V c (Pipeline.arrRef spec4 1)) (funext fun a => Fin.ext ?_)
  match a with
  | ⟨0, _⟩ => show win4_1.index t (0 : Fin 2) * 10000 + 1 * p.val = 10000 * t.val + p.val; omega
  | ⟨1, _⟩ => show win4_1.index t (1 : Fin 2) * 32 + 1 * q.val = q.val; omega

/-- The first weight matrix is held whole at every point. -/
theorem w1_block (c : Dev nD) (t : Fin cfg4.N) :
    (iblk4 V c 2 t : Vec Ideal S32x16 .f32) = (V c (Pipeline.arrRef spec4 2) : Gin.Arr2 32 16) := by
  obtain ⟨-, -, -, -, e0, e1, -⟩ := block_index t
  funext y
  show V c (Pipeline.arrRef spec4 2) (((cfg4.win 2).blk t).view.emb y) = _
  refine congrArg (V c (Pipeline.arrRef spec4 2)) (funext fun a => Fin.ext ?_)
  match a with
  | ⟨0, _⟩ => show win4_2.index t (0 : Fin 2) * 32 + 1 * (y 0).val = (y 0).val; omega
  | ⟨1, _⟩ => show win4_2.index t (1 : Fin 2) * 16 + 1 * (y 1).val = (y 1).val; omega

/-- The first bias row is held whole at every point. -/
theorem b1_block (c : Dev nD) (t : Fin cfg4.N) :
    (iblk4 V c 3 t : Vec Ideal S1x16 .f32) = (V c (Pipeline.arrRef spec4 3) : Gin.Arr2 1 16) := by
  obtain ⟨-, -, -, -, -, -, e0, e1, -⟩ := block_index t
  funext y
  show V c (Pipeline.arrRef spec4 3) (((cfg4.win 3).blk t).view.emb y) = _
  refine congrArg (V c (Pipeline.arrRef spec4 3)) (funext fun a => Fin.ext ?_)
  match a with
  | ⟨0, _⟩ => show win4_3.index t (0 : Fin 2) * 1 + 1 * (y 0).val = (y 0).val; omega
  | ⟨1, _⟩ => show win4_3.index t (1 : Fin 2) * 16 + 1 * (y 1).val = (y 1).val; omega

/-- The second weight matrix is held whole at every point. -/
theorem w2_block (c : Dev nD) (t : Fin cfg4.N) :
    (iblk4 V c 4 t : Vec Ideal S16x32 .f32) = (V c (Pipeline.arrRef spec4 4) : Gin.Arr2 16 32) := by
  obtain ⟨-, -, -, -, -, -, -, -, e0, e1, -⟩ := block_index t
  funext y
  show V c (Pipeline.arrRef spec4 4) (((cfg4.win 4).blk t).view.emb y) = _
  refine congrArg (V c (Pipeline.arrRef spec4 4)) (funext fun a => Fin.ext ?_)
  match a with
  | ⟨0, _⟩ => show win4_4.index t (0 : Fin 2) * 16 + 1 * (y 0).val = (y 0).val; omega
  | ⟨1, _⟩ => show win4_4.index t (1 : Fin 2) * 32 + 1 * (y 1).val = (y 1).val; omega

/-- The second bias row is held whole at every point. -/
theorem b2_block (c : Dev nD) (t : Fin cfg4.N) :
    (iblk4 V c 5 t : Vec Ideal S1x32 .f32) = (V c (Pipeline.arrRef spec4 5) : Gin.Arr2 1 32) := by
  obtain ⟨-, -, -, -, -, -, -, -, -, -, e0, e1, -⟩ := block_index t
  funext y
  show V c (Pipeline.arrRef spec4 5) (((cfg4.win 5).blk t).view.emb y) = _
  refine congrArg (V c (Pipeline.arrRef spec4 5)) (funext fun a => Fin.ext ?_)
  match a with
  | ⟨0, _⟩ => show win4_5.index t (0 : Fin 2) * 1 + 1 * (y 0).val = (y 0).val; omega
  | ⟨1, _⟩ => show win4_5.index t (1 : Fin 2) * 32 + 1 * (y 1).val = (y 1).val; omega

/-- Entry (p, j) of the output block at point t sits at row 10000·t + p of the output array. -/
theorem out_index (t : Fin cfg4.N) (p : Fin 10000) (j : Fin 32) :
    ((cfg4.win 6).blk t).view.emb (ix2 p j) = ix2 (row t p) j := by
  obtain ⟨-, -, -, -, -, -, -, -, -, -, -, -, e0, e1⟩ := block_index t
  refine funext fun a => Fin.ext ?_
  match a with
  | ⟨0, _⟩ => show win4_6.index t (0 : Fin 2) * 10000 + 1 * p.val = 10000 * t.val + p.val; omega
  | ⟨1, _⟩ => show win4_6.index t (1 : Fin 2) * 32 + 1 * j.val = j.val; omega

/-- The layer function of the arrays as the region finds them. -/
abbrev layer (c : Dev nD) : Gin.Arr2 100000 32 :=
  Gin.mlpMid (V c (Pipeline.arrRef spec4 0)) (V c (Pipeline.arrRef spec4 1)) (V c (Pipeline.arrRef spec4 2))
    (fun k => V c (Pipeline.arrRef spec4 3) (ix2 (0 : Fin 1) k)) (V c (Pipeline.arrRef spec4 4))
    (fun j => V c (Pipeline.arrRef spec4 5) (ix2 (0 : Fin 1) j))

/-- What point t writes back is block t of the layer function. -/
theorem flushed_eq (c : Dev nD) (t : Fin cfg4.N) :
    (dat4 (F := Ideal) V c).flushed 6 t = ((cfg4.win 6).blk t).view.read (Elt Ideal) (layer V c) := by
  show (cfg4.win 6).cut (grid4.coords t) ((dat4 V c).after 6 t) = _
  rw [after4_6]
  unfold out4_6
  rw [View.canon_unit_zero zero_offsets]
  simp only [View.ld_unit_zero (S := S10000x32) zero_offsets, View.ld_unit_zero (S := S32x16) zero_offsets,
    View.ld_unit_zero (S := S1x16) zero_offsets, View.ld_unit_zero (S := S16x32) zero_offsets,
    View.ld_unit_zero (S := S1x32) zero_offsets]
  funext y
  obtain ⟨p, j, rfl⟩ : ∃ (p : Fin 10000) (j : Fin 32), y = ix2 p j := ⟨y 0, y 1, eq_ix2 y⟩
  show k4_pay1 (F := Ideal) (iblk4 V c 0 t) (iblk4 V c 1 t) (iblk4 V c 2 t) (iblk4 V c 3 t) (iblk4 V c 4 t) (iblk4 V c 5 t) (ix2 p j)
    = layer V c (((cfg4.win 6).blk t).view.emb (ix2 p j))
  rw [out_index t p j]
  refine (k4_pay1_apply (iblk4 V c 0 t) (iblk4 V c 1 t) (iblk4 V c 2 t) (iblk4 V c 3 t) (iblk4 V c 4 t) (iblk4 V c 5 t) p j).trans ?_
  rw [w1_block V c t, b1_block V c t, w2_block V c t, b2_block V c t]
  simp only [feat_block V c t, nbr_block V c t]
  rfl

/-- A row of the output array lies in point t's block iff it lies in the block's range on each axis. -/
theorem mem_blk (t : Fin cfg4.N) (i : S100000x32.Idx) :
    i ∈ ((cfg4.win 6).blk t).view.set ↔ ∀ a : Fin 2, win4_6.index t a * S10000x32.size a ≤ (i a).val ∧ (i a).val < win4_6.index t a * S10000x32.size a + S10000x32.size a := by
  show i ∈ ((View.whole main_v100).slice (win4_6.rect t)).set ↔ _
  rw [View.set_slice_whole, Rect.mem_set_unit]
  exact Iff.rfl

/-- Every index of the output array is in some point's block: row r lies in block r / 10000. -/
theorem cover (i : S100000x32.Idx) :
    ∃ t : Fin cfg4.N, (cfg4.win 6).flush t = true ∧ i ∈ ((cfg4.win 6).blk t).view.set := by
  have hi0 : (i 0).val < 100000 := (i 0).isLt
  have hi1 : (i 1).val < 32 := (i 1).isLt
  have hN : cfg4.N = 10 := N_4
  refine ⟨⟨(i 0).val / 10000, by rw [hN]; omega⟩, flush4_6 _, ?_⟩
  rw [mem_blk]
  obtain ⟨-, -, -, -, -, -, -, -, -, -, -, -, e0, e1⟩ := block_index ⟨(i 0).val / 10000, by rw [hN]; omega⟩
  intro a
  match a with
  | ⟨0, _⟩ =>
    show win4_6.index _ (0 : Fin 2) * 10000 ≤ (i 0).val ∧ (i 0).val < win4_6.index _ (0 : Fin 2) * 10000 + 10000
    rw [e0]; show (i 0).val / 10000 * 10000 ≤ (i 0).val ∧ (i 0).val < (i 0).val / 10000 * 10000 + 10000; omega
  | ⟨1, _⟩ =>
    show win4_6.index _ (1 : Fin 2) * 32 ≤ (i 1).val ∧ (i 1).val < win4_6.index _ (1 : Fin 2) * 32 + 32
    rw [e1]; omega

end R4

/-- The region's output array is the middle-layer function of the arrays the region finds. -/
theorem region4 (c : Dev nD) : (Gen.dat4 (F := Ideal) V c).arrAt 6 cfg4.N
    = Gin.mlpMid (V c (Pipeline.arrRef spec4 0)) (V c (Pipeline.arrRef spec4 1)) (V c (Pipeline.arrRef spec4 2))
        (fun k => V c (Pipeline.arrRef spec4 3) (ix2 (0 : Fin 1) k)) (V c (Pipeline.arrRef spec4 4))
        (fun j => V c (Pipeline.arrRef spec4 5) (ix2 (0 : Fin 1) j)) :=
  (Gen.dat4 (F := Ideal) V c).arrAt_eq_of_cover 6 (R4.layer V c) (fun t _ => R4.flushed_eq V c t) R4.cover

end Cert.KernelIdeal.GinRegions

end
-- ==== Proof.KRegion5.lean ====
/-
  A middle layer's region: its whole output array, index by index.

  The region walks ten grid points; point t holds rows 10000·t … 10000·t + 9999 of the features and of the neighbour
  sums, the whole of the two weight matrices and the two bias rows, and writes rows 10000·t … of the output.  Since
  entry (p, j) of a block is the perceptron of row p of the two input blocks plus the feature, what point t writes
  back is block t of the layer function of the whole arrays; the ten blocks cover all 100000 rows (row r lies in
  block r / 10000), so the output array is the layer function.
-/
import proofs.«175125_j35716948034103_1_alg».proof.Proof.Gen.KernelIdeal.Frame
import proofs.«175125_j35716948034103_1_alg».proof.Proof.KPayload
import Idealize.ShloMosaic.Lib.Pipeline.Value

set_option maxRecDepth 16384

noncomputable section

open scoped BigOperators

namespace Cert.KernelIdeal.GinRegions

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace R5

theorem zero_offsets : (![0, 0] : Fin 2 → Nat) = fun _ => 0 := funext fun a => by fin_cases a <;> rfl

/-- The block index of every window at grid point t: the row windows sit at block t, the others at block 0. -/
theorem block_index : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Row p of block t is row 10000·t + p of the array. -/
def row (t : Fin cfg5.N) (p : Fin 10000) : Fin 100000 :=
  ⟨10000 * t.val + p.val, by have ht : t.val < 10 := (show cfg5.N = 10 from N_5) ▸ t.isLt; have := p.isLt; omega⟩

/-- The feature block at point t is rows 10000·t … of the feature array. -/
theorem feat_block (c : Dev nD) (t : Fin cfg5.N) (p : Fin 10000) (q : Fin 32) :
    (iblk5 V c 0 t : Vec Ideal S10000x32 .f32) (ix2 p q)
      = (V c (Pipeline.arrRef spec5 0) : Gin.Arr2 100000 32) (ix2 (row t p) q) := by
  obtain ⟨e0, e1, -⟩ := block_index t
  show V c (Pipeline.arrRef spec5 0) (((cfg5.win 0).blk t).view.emb (ix2 p q)) = _
  refine congrArg (V c (Pipeline.arrRef spec5 0)) (funext fun a => Fin.ext ?_)
  match a with
  | ⟨0, _⟩ => show win5_0.index t (0 : Fin 2) * 10000 + 1 * p.val = 10000 * t.val + p.val; omega
  | ⟨1, _⟩ => show win5_0.index t (1 : Fin 2) * 32 + 1 * q.val = q.val; omega

/-- The neighbour-sum block at point t is rows 10000·t … of the neighbour-sum array. -/
theorem nbr_block (c : Dev nD) (t : Fin cfg5.N) (p : Fin 10000) (q : Fin 32) :
    (iblk5 V c 1 t : Vec Ideal S10000x32 .f32) (ix2 p q)
      = (V c (Pipeline.arrRef spec5 1) : Gin.Arr2 100000 32) (ix2 (row t p) q) := by
  obtain ⟨-, -, e0, e1, -⟩ := block_index t
  show V c (Pipeline.arrRef spec5 1) (((cfg5.win 1).blk t).view.emb (ix2 p q)) = _
  refine congrArg (V c (Pipeline.arrRef spec5 1)) (funext fun a => Fin.ext ?_)
  match a with
  | ⟨0, _⟩ => show win5_1.index t (0 : Fin 2) * 10000 + 1 * p.val = 10000 * t.val + p.val; omega
  | ⟨1, _⟩ => show win5_1.index t (1 : Fin 2) * 32 + 1 * q.val = q.val; omega

/-- The first weight matrix is held whole at every point. -/
theorem w1_block (c : Dev nD) (t : Fin cfg5.N) :
    (iblk5 V c 2 t : Vec Ideal S32x16 .f32) = (V c (Pipeline.arrRef spec5 2) : Gin.Arr2 32 16) := by
  obtain ⟨-, -, -, -, e0, e1, -⟩ := block_index t
  funext y
  show V c (Pipeline.arrRef spec5 2) (((cfg5.win 2).blk t).view.emb y) = _
  refine congrArg (V c (Pipeline.arrRef spec5 2)) (funext fun a => Fin.ext ?_)
  match a with
  | ⟨0, _⟩ => show win5_2.index t (0 : Fin 2) * 32 + 1 * (y 0).val = (y 0).val; omega
  | ⟨1, _⟩ => show win5_2.index t (1 : Fin 2) * 16 + 1 * (y 1).val = (y 1).val; omega

/-- The first bias row is held whole at every point. -/
theorem b1_block (c : Dev nD) (t : Fin cfg5.N) :
    (iblk5 V c 3 t : Vec Ideal S1x16 .f32) = (V c (Pipeline.arrRef spec5 3) : Gin.Arr2 1 16) := by
  obtain ⟨-, -, -, -, -, -, e0, e1, -⟩ := block_index t
  funext y
  show V c (Pipeline.arrRef spec5 3) (((cfg5.win 3).blk t).view.emb y) = _
  refine congrArg (V c (Pipeline.arrRef spec5 3)) (funext fun a => Fin.ext ?_)
  match a with
  | ⟨0, _⟩ => show win5_3.index t (0 : Fin 2) * 1 + 1 * (y 0).val = (y 0).val; omega
  | ⟨1, _⟩ => show win5_3.index t (1 : Fin 2) * 16 + 1 * (y 1).val = (y 1).val; omega

/-- The second weight matrix is held whole at every point. -/
theorem w2_block (c : Dev nD) (t : Fin cfg5.N) :
    (iblk5 V c 4 t : Vec Ideal S16x32 .f32) = (V c (Pipeline.arrRef spec5 4) : Gin.Arr2 16 32) := by
  obtain ⟨-, -, -, -, -, -, -, -, e0, e1, -⟩ := block_index t
  funext y
  show V c (Pipeline.arrRef spec5 4) (((cfg5.win 4).blk t).view.emb y) = _
  refine congrArg (V c (Pipeline.arrRef spec5 4)) (funext fun a => Fin.ext ?_)
  match a with
  | ⟨0, _⟩ => show win5_4.index t (0 : Fin 2) * 16 + 1 * (y 0).val = (y 0).val; omega
  | ⟨1, _⟩ => show win5_4.index t (1 : Fin 2) * 32 + 1 * (y 1).val = (y 1).val; omega

/-- The second bias row is held whole at every point. -/
theorem b2_block (c : Dev nD) (t : Fin cfg5.N) :
    (iblk5 V c 5 t : Vec Ideal S1x32 .f32) = (V c (Pipeline.arrRef spec5 5) : Gin.Arr2 1 32) := by
  obtain ⟨-, -, -, -, -, -, -, -, -, -, e0, e1, -⟩ := block_index t
  funext y
  show V c (Pipeline.arrRef spec5 5) (((cfg5.win 5).blk t).view.emb y) = _
  refine congrArg (V c (Pipeline.arrRef spec5 5)) (funext fun a => Fin.ext ?_)
  match a with
  | ⟨0, _⟩ => show win5_5.index t (0 : Fin 2) * 1 + 1 * (y 0).val = (y 0).val; omega
  | ⟨1, _⟩ => show win5_5.index t (1 : Fin 2) * 32 + 1 * (y 1).val = (y 1).val; omega

/-- Entry (p, j) of the output block at point t sits at row 10000·t + p of the output array. -/
theorem out_index (t : Fin cfg5.N) (p : Fin 10000) (j : Fin 32) :
    ((cfg5.win 6).blk t).view.emb (ix2 p j) = ix2 (row t p) j := by
  obtain ⟨-, -, -, -, -, -, -, -, -, -, -, -, e0, e1⟩ := block_index t
  refine funext fun a => Fin.ext ?_
  match a with
  | ⟨0, _⟩ => show win5_6.index t (0 : Fin 2) * 10000 + 1 * p.val = 10000 * t.val + p.val; omega
  | ⟨1, _⟩ => show win5_6.index t (1 : Fin 2) * 32 + 1 * j.val = j.val; omega

/-- The layer function of the arrays as the region finds them. -/
abbrev layer (c : Dev nD) : Gin.Arr2 100000 32 :=
  Gin.mlpMid (V c (Pipeline.arrRef spec5 0)) (V c (Pipeline.arrRef spec5 1)) (V c (Pipeline.arrRef spec5 2))
    (fun k => V c (Pipeline.arrRef spec5 3) (ix2 (0 : Fin 1) k)) (V c (Pipeline.arrRef spec5 4))
    (fun j => V c (Pipeline.arrRef spec5 5) (ix2 (0 : Fin 1) j))

/-- What point t writes back is block t of the layer function. -/
theorem flushed_eq (c : Dev nD) (t : Fin cfg5.N) :
    (dat5 (F := Ideal) V c).flushed 6 t = ((cfg5.win 6).blk t).view.read (Elt Ideal) (layer V c) := by
  show (cfg5.win 6).cut (grid5.coords t) ((dat5 V c).after 6 t) = _
  rw [after5_6]
  unfold out5_6
  rw [View.canon_unit_zero zero_offsets]
  simp only [View.ld_unit_zero (S := S10000x32) zero_offsets, View.ld_unit_zero (S := S32x16) zero_offsets,
    View.ld_unit_zero (S := S1x16) zero_offsets, View.ld_unit_zero (S := S16x32) zero_offsets,
    View.ld_unit_zero (S := S1x32) zero_offsets]
  funext y
  obtain ⟨p, j, rfl⟩ : ∃ (p : Fin 10000) (j : Fin 32), y = ix2 p j := ⟨y 0, y 1, eq_ix2 y⟩
  show k5_pay1 (F := Ideal) (iblk5 V c 0 t) (iblk5 V c 1 t) (iblk5 V c 2 t) (iblk5 V c 3 t) (iblk5 V c 4 t) (iblk5 V c 5 t) (ix2 p j)
    = layer V c (((cfg5.win 6).blk t).view.emb (ix2 p j))
  rw [out_index t p j]
  refine (k5_pay1_apply (iblk5 V c 0 t) (iblk5 V c 1 t) (iblk5 V c 2 t) (iblk5 V c 3 t) (iblk5 V c 4 t) (iblk5 V c 5 t) p j).trans ?_
  rw [w1_block V c t, b1_block V c t, w2_block V c t, b2_block V c t]
  simp only [feat_block V c t, nbr_block V c t]
  rfl

/-- A row of the output array lies in point t's block iff it lies in the block's range on each axis. -/
theorem mem_blk (t : Fin cfg5.N) (i : S100000x32.Idx) :
    i ∈ ((cfg5.win 6).blk t).view.set ↔ ∀ a : Fin 2, win5_6.index t a * S10000x32.size a ≤ (i a).val ∧ (i a).val < win5_6.index t a * S10000x32.size a + S10000x32.size a := by
  show i ∈ ((View.whole main_v121).slice (win5_6.rect t)).set ↔ _
  rw [View.set_slice_whole, Rect.mem_set_unit]
  exact Iff.rfl

/-- Every index of the output array is in some point's block: row r lies in block r / 10000. -/
theorem cover (i : S100000x32.Idx) :
    ∃ t : Fin cfg5.N, (cfg5.win 6).flush t = true ∧ i ∈ ((cfg5.win 6).blk t).view.set := by
  have hi0 : (i 0).val < 100000 := (i 0).isLt
  have hi1 : (i 1).val < 32 := (i 1).isLt
  have hN : cfg5.N = 10 := N_5
  refine ⟨⟨(i 0).val / 10000, by rw [hN]; omega⟩, flush5_6 _, ?_⟩
  rw [mem_blk]
  obtain ⟨-, -, -, -, -, -, -, -, -, -, -, -, e0, e1⟩ := block_index ⟨(i 0).val / 10000, by rw [hN]; omega⟩
  intro a
  match a with
  | ⟨0, _⟩ =>
    show win5_6.index _ (0 : Fin 2) * 10000 ≤ (i 0).val ∧ (i 0).val < win5_6.index _ (0 : Fin 2) * 10000 + 10000
    rw [e0]; show (i 0).val / 10000 * 10000 ≤ (i 0).val ∧ (i 0).val < (i 0).val / 10000 * 10000 + 10000; omega
  | ⟨1, _⟩ =>
    show win5_6.index _ (1 : Fin 2) * 32 ≤ (i 1).val ∧ (i 1).val < win5_6.index _ (1 : Fin 2) * 32 + 32
    rw [e1]; omega

end R5

/-- The region's output array is the middle-layer function of the arrays the region finds. -/
theorem region5 (c : Dev nD) : (Gen.dat5 (F := Ideal) V c).arrAt 6 cfg5.N
    = Gin.mlpMid (V c (Pipeline.arrRef spec5 0)) (V c (Pipeline.arrRef spec5 1)) (V c (Pipeline.arrRef spec5 2))
        (fun k => V c (Pipeline.arrRef spec5 3) (ix2 (0 : Fin 1) k)) (V c (Pipeline.arrRef spec5 4))
        (fun j => V c (Pipeline.arrRef spec5 5) (ix2 (0 : Fin 1) j)) :=
  (Gen.dat5 (F := Ideal) V c).arrAt_eq_of_cover 6 (R5.layer V c) (fun t _ => R5.flushed_eq V c t) R5.cover

end Cert.KernelIdeal.GinRegions

end
-- ==== Proof.KRegion6.lean ====
/-
  A middle layer's region: its whole output array, index by index.

  The region walks ten grid points; point t holds rows 10000·t … 10000·t + 9999 of the features and of the neighbour
  sums, the whole of the two weight matrices and the two bias rows, and writes rows 10000·t … of the output.  Since
  entry (p, j) of a block is the perceptron of row p of the two input blocks plus the feature, what point t writes
  back is block t of the layer function of the whole arrays; the ten blocks cover all 100000 rows (row r lies in
  block r / 10000), so the output array is the layer function.
-/
import proofs.«175125_j35716948034103_1_alg».proof.Proof.Gen.KernelIdeal.Frame
import proofs.«175125_j35716948034103_1_alg».proof.Proof.KPayload
import Idealize.ShloMosaic.Lib.Pipeline.Value

set_option maxRecDepth 16384

noncomputable section

open scoped BigOperators

namespace Cert.KernelIdeal.GinRegions

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace R6

theorem zero_offsets : (![0, 0] : Fin 2 → Nat) = fun _ => 0 := funext fun a => by fin_cases a <;> rfl

/-- The block index of every window at grid point t: the row windows sit at block t, the others at block 0. -/
theorem block_index : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- Row p of block t is row 10000·t + p of the array. -/
def row (t : Fin cfg6.N) (p : Fin 10000) : Fin 100000 :=
  ⟨10000 * t.val + p.val, by have ht : t.val < 10 := (show cfg6.N = 10 from N_6) ▸ t.isLt; have := p.isLt; omega⟩

/-- The feature block at point t is rows 10000·t … of the feature array. -/
theorem feat_block (c : Dev nD) (t : Fin cfg6.N) (p : Fin 10000) (q : Fin 32) :
    (iblk6 V c 0 t : Vec Ideal S10000x32 .f32) (ix2 p q)
      = (V c (Pipeline.arrRef spec6 0) : Gin.Arr2 100000 32) (ix2 (row t p) q) := by
  obtain ⟨e0, e1, -⟩ := block_index t
  show V c (Pipeline.arrRef spec6 0) (((cfg6.win 0).blk t).view.emb (ix2 p q)) = _
  refine congrArg (V c (Pipeline.arrRef spec6 0)) (funext fun a => Fin.ext ?_)
  match a with
  | ⟨0, _⟩ => show win6_0.index t (0 : Fin 2) * 10000 + 1 * p.val = 10000 * t.val + p.val; omega
  | ⟨1, _⟩ => show win6_0.index t (1 : Fin 2) * 32 + 1 * q.val = q.val; omega

/-- The neighbour-sum block at point t is rows 10000·t … of the neighbour-sum array. -/
theorem nbr_block (c : Dev nD) (t : Fin cfg6.N) (p : Fin 10000) (q : Fin 32) :
    (iblk6 V c 1 t : Vec Ideal S10000x32 .f32) (ix2 p q)
      = (V c (Pipeline.arrRef spec6 1) : Gin.Arr2 100000 32) (ix2 (row t p) q) := by
  obtain ⟨-, -, e0, e1, -⟩ := block_index t
  show V c (Pipeline.arrRef spec6 1) (((cfg6.win 1).blk t).view.emb (ix2 p q)) = _
  refine congrArg (V c (Pipeline.arrRef spec6 1)) (funext fun a => Fin.ext ?_)
  match a with
  | ⟨0, _⟩ => show win6_1.index t (0 : Fin 2) * 10000 + 1 * p.val = 10000 * t.val + p.val; omega
  | ⟨1, _⟩ => show win6_1.index t (1 : Fin 2) * 32 + 1 * q.val = q.val; omega

/-- The first weight matrix is held whole at every point. -/
theorem w1_block (c : Dev nD) (t : Fin cfg6.N) :
    (iblk6 V c 2 t : Vec Ideal S32x16 .f32) = (V c (Pipeline.arrRef spec6 2) : Gin.Arr2 32 16) := by
  obtain ⟨-, -, -, -, e0, e1, -⟩ := block_index t
  funext y
  show V c (Pipeline.arrRef spec6 2) (((cfg6.win 2).blk t).view.emb y) = _
  refine congrArg (V c (Pipeline.arrRef spec6 2)) (funext fun a => Fin.ext ?_)
  match a with
  | ⟨0, _⟩ => show win6_2.index t (0 : Fin 2) * 32 + 1 * (y 0).val = (y 0).val; omega
  | ⟨1, _⟩ => show win6_2.index t (1 : Fin 2) * 16 + 1 * (y 1).val = (y 1).val; omega

/-- The first bias row is held whole at every point. -/
theorem b1_block (c : Dev nD) (t : Fin cfg6.N) :
    (iblk6 V c 3 t : Vec Ideal S1x16 .f32) = (V c (Pipeline.arrRef spec6 3) : Gin.Arr2 1 16) := by
  obtain ⟨-, -, -, -, -, -, e0, e1, -⟩ := block_index t
  funext y
  show V c (Pipeline.arrRef spec6 3) (((cfg6.win 3).blk t).view.emb y) = _
  refine congrArg (V c (Pipeline.arrRef spec6 3)) (funext fun a => Fin.ext ?_)
  match a with
  | ⟨0, _⟩ => show win6_3.index t (0 : Fin 2) * 1 + 1 * (y 0).val = (y 0).val; omega
  | ⟨1, _⟩ => show win6_3.index t (1 : Fin 2) * 16 + 1 * (y 1).val = (y 1).val; omega

/-- The second weight matrix is held whole at every point. -/
theorem w2_block (c : Dev nD) (t : Fin cfg6.N) :
    (iblk6 V c 4 t : Vec Ideal S16x32 .f32) = (V c (Pipeline.arrRef spec6 4) : Gin.Arr2 16 32) := by
  obtain ⟨-, -, -, -, -, -, -, -, e0, e1, -⟩ := block_index t
  funext y
  show V c (Pipeline.arrRef spec6 4) (((cfg6.win 4).blk t).view.emb y) = _
  refine congrArg (V c (Pipeline.arrRef spec6 4)) (funext fun a => Fin.ext ?_)
  match a with
  | ⟨0, _⟩ => show win6_4.index t (0 : Fin 2) * 16 + 1 * (y 0).val = (y 0).val; omega
  | ⟨1, _⟩ => show win6_4.index t (1 : Fin 2) * 32 + 1 * (y 1).val = (y 1).val; omega

/-- The second bias row is held whole at every point. -/
theorem b2_block (c : Dev nD) (t : Fin cfg6.N) :
    (iblk6 V c 5 t : Vec Ideal S1x32 .f32) = (V c (Pipeline.arrRef spec6 5) : Gin.Arr2 1 32) := by
  obtain ⟨-, -, -, -, -, -, -, -, -, -, e0, e1, -⟩ := block_index t
  funext y
  show V c (Pipeline.arrRef spec6 5) (((cfg6.win 5).blk t).view.emb y) = _
  refine congrArg (V c (Pipeline.arrRef spec6 5)) (funext fun a => Fin.ext ?_)
  match a with
  | ⟨0, _⟩ => show win6_5.index t (0 : Fin 2) * 1 + 1 * (y 0).val = (y 0).val; omega
  | ⟨1, _⟩ => show win6_5.index t (1 : Fin 2) * 32 + 1 * (y 1).val = (y 1).val; omega

/-- Entry (p, j) of the output block at point t sits at row 10000·t + p of the output array. -/
theorem out_index (t : Fin cfg6.N) (p : Fin 10000) (j : Fin 32) :
    ((cfg6.win 6).blk t).view.emb (ix2 p j) = ix2 (row t p) j := by
  obtain ⟨-, -, -, -, -, -, -, -, -, -, -, -, e0, e1⟩ := block_index t
  refine funext fun a => Fin.ext ?_
  match a with
  | ⟨0, _⟩ => show win6_6.index t (0 : Fin 2) * 10000 + 1 * p.val = 10000 * t.val + p.val; omega
  | ⟨1, _⟩ => show win6_6.index t (1 : Fin 2) * 32 + 1 * j.val = j.val; omega

/-- The layer function of the arrays as the region finds them. -/
abbrev layer (c : Dev nD) : Gin.Arr2 100000 32 :=
  Gin.mlpMid (V c (Pipeline.arrRef spec6 0)) (V c (Pipeline.arrRef spec6 1)) (V c (Pipeline.arrRef spec6 2))
    (fun k => V c (Pipeline.arrRef spec6 3) (ix2 (0 : Fin 1) k)) (V c (Pipeline.arrRef spec6 4))
    (fun j => V c (Pipeline.arrRef spec6 5) (ix2 (0 : Fin 1) j))

/-- What point t writes back is block t of the layer function. -/
theorem flushed_eq (c : Dev nD) (t : Fin cfg6.N) :
    (dat6 (F := Ideal) V c).flushed 6 t = ((cfg6.win 6).blk t).view.read (Elt Ideal) (layer V c) := by
  show (cfg6.win 6).cut (grid6.coords t) ((dat6 V c).after 6 t) = _
  rw [after6_6]
  unfold out6_6
  rw [View.canon_unit_zero zero_offsets]
  simp only [View.ld_unit_zero (S := S10000x32) zero_offsets, View.ld_unit_zero (S := S32x16) zero_offsets,
    View.ld_unit_zero (S := S1x16) zero_offsets, View.ld_unit_zero (S := S16x32) zero_offsets,
    View.ld_unit_zero (S := S1x32) zero_offsets]
  funext y
  obtain ⟨p, j, rfl⟩ : ∃ (p : Fin 10000) (j : Fin 32), y = ix2 p j := ⟨y 0, y 1, eq_ix2 y⟩
  show k6_pay1 (F := Ideal) (iblk6 V c 0 t) (iblk6 V c 1 t) (iblk6 V c 2 t) (iblk6 V c 3 t) (iblk6 V c 4 t) (iblk6 V c 5 t) (ix2 p j)
    = layer V c (((cfg6.win 6).blk t).view.emb (ix2 p j))
  rw [out_index t p j]
  refine (k6_pay1_apply (iblk6 V c 0 t) (iblk6 V c 1 t) (iblk6 V c 2 t) (iblk6 V c 3 t) (iblk6 V c 4 t) (iblk6 V c 5 t) p j).trans ?_
  rw [w1_block V c t, b1_block V c t, w2_block V c t, b2_block V c t]
  simp only [feat_block V c t, nbr_block V c t]
  rfl

/-- A row of the output array lies in point t's block iff it lies in the block's range on each axis. -/
theorem mem_blk (t : Fin cfg6.N) (i : S100000x32.Idx) :
    i ∈ ((cfg6.win 6).blk t).view.set ↔ ∀ a : Fin 2, win6_6.index t a * S10000x32.size a ≤ (i a).val ∧ (i a).val < win6_6.index t a * S10000x32.size a + S10000x32.size a := by
  show i ∈ ((View.whole main_v142).slice (win6_6.rect t)).set ↔ _
  rw [View.set_slice_whole, Rect.mem_set_unit]
  exact Iff.rfl

/-- Every index of the output array is in some point's block: row r lies in block r / 10000. -/
theorem cover (i : S100000x32.Idx) :
    ∃ t : Fin cfg6.N, (cfg6.win 6).flush t = true ∧ i ∈ ((cfg6.win 6).blk t).view.set := by
  have hi0 : (i 0).val < 100000 := (i 0).isLt
  have hi1 : (i 1).val < 32 := (i 1).isLt
  have hN : cfg6.N = 10 := N_6
  refine ⟨⟨(i 0).val / 10000, by rw [hN]; omega⟩, flush6_6 _, ?_⟩
  rw [mem_blk]
  obtain ⟨-, -, -, -, -, -, -, -, -, -, -, -, e0, e1⟩ := block_index ⟨(i 0).val / 10000, by rw [hN]; omega⟩
  intro a
  match a with
  | ⟨0, _⟩ =>
    show win6_6.index _ (0 : Fin 2) * 10000 ≤ (i 0).val ∧ (i 0).val < win6_6.index _ (0 : Fin 2) * 10000 + 10000
    rw [e0]; show (i 0).val / 10000 * 10000 ≤ (i 0).val ∧ (i 0).val < (i 0).val / 10000 * 10000 + 10000; omega
  | ⟨1, _⟩ =>
    show win6_6.index _ (1 : Fin 2) * 32 ≤ (i 1).val ∧ (i 1).val < win6_6.index _ (1 : Fin 2) * 32 + 32
    rw [e1]; omega

end R6

/-- The region's output array is the middle-layer function of the arrays the region finds. -/
theorem region6 (c : Dev nD) : (Gen.dat6 (F := Ideal) V c).arrAt 6 cfg6.N
    = Gin.mlpMid (V c (Pipeline.arrRef spec6 0)) (V c (Pipeline.arrRef spec6 1)) (V c (Pipeline.arrRef spec6 2))
        (fun k => V c (Pipeline.arrRef spec6 3) (ix2 (0 : Fin 1) k)) (V c (Pipeline.arrRef spec6 4))
        (fun j => V c (Pipeline.arrRef spec6 5) (ix2 (0 : Fin 1) j)) :=
  (Gen.dat6 (F := Ideal) V c).arrAt_eq_of_cover 6 (R6.layer V c) (fun t _ => R6.flushed_eq V c t) R6.cover

end Cert.KernelIdeal.GinRegions

end
-- ==== Proof.KRegion7.lean ====
/-
  A middle layer's region: its whole output array, index by index.

  The region walks ten grid points; point t holds rows 10000·t … 10000·t + 9999 of the features and of the neighbour
  sums, the whole of the two weight matrices and the two bias rows, and writes rows 10000·t … of the output.  Since
  entry (p, j) of a block is the perceptron of row p of the two input blocks plus the feature, what point t writes
  back is block t of the layer function of the whole arrays; the ten blocks cover all 100000 rows (row r lies in
  block r / 10000), so the output array is the layer function.
-/
import proofs.«175125_j35716948034103_1_alg».proof.Proof.Gen.KernelIdeal.Frame
import proofs.«175125_j35716948034103_1_alg».proof.Proof.KPayload
import Idealize.ShloMosaic.Lib.Pipeline.Value

set_option maxRecDepth 16384

noncomputable section

open scoped BigOperators

namespace Cert.KernelIdeal.GinRegions

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace R7

theorem zero_offsets : (![0, 0] : Fin 2 → Nat) = fun _ => 0 := funext fun a => by fin_cases a <;> rfl

/-- The block index of every window at grid point t: the row windows sit at block t, the others at block 0. -/
theorem block_index : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- Row p of block t is row 10000·t + p of the array. -/
def row (t : Fin cfg7.N) (p : Fin 10000) : Fin 100000 :=
  ⟨10000 * t.val + p.val, by have ht : t.val < 10 := (show cfg7.N = 10 from N_7) ▸ t.isLt; have := p.isLt; omega⟩

/-- The feature block at point t is rows 10000·t … of the feature array. -/
theorem feat_block (c : Dev nD) (t : Fin cfg7.N) (p : Fin 10000) (q : Fin 32) :
    (iblk7 V c 0 t : Vec Ideal S10000x32 .f32) (ix2 p q)
      = (V c (Pipeline.arrRef spec7 0) : Gin.Arr2 100000 32) (ix2 (row t p) q) := by
  obtain ⟨e0, e1, -⟩ := block_index t
  show V c (Pipeline.arrRef spec7 0) (((cfg7.win 0).blk t).view.emb (ix2 p q)) = _
  refine congrArg (V c (Pipeline.arrRef spec7 0)) (funext fun a => Fin.ext ?_)
  match a with
  | ⟨0, _⟩ => show win7_0.index t (0 : Fin 2) * 10000 + 1 * p.val = 10000 * t.val + p.val; omega
  | ⟨1, _⟩ => show win7_0.index t (1 : Fin 2) * 32 + 1 * q.val = q.val; omega

/-- The neighbour-sum block at point t is rows 10000·t … of the neighbour-sum array. -/
theorem nbr_block (c : Dev nD) (t : Fin cfg7.N) (p : Fin 10000) (q : Fin 32) :
    (iblk7 V c 1 t : Vec Ideal S10000x32 .f32) (ix2 p q)
      = (V c (Pipeline.arrRef spec7 1) : Gin.Arr2 100000 32) (ix2 (row t p) q) := by
  obtain ⟨-, -, e0, e1, -⟩ := block_index t
  show V c (Pipeline.arrRef spec7 1) (((cfg7.win 1).blk t).view.emb (ix2 p q)) = _
  refine congrArg (V c (Pipeline.arrRef spec7 1)) (funext fun a => Fin.ext ?_)
  match a with
  | ⟨0, _⟩ => show win7_1.index t (0 : Fin 2) * 10000 + 1 * p.val = 10000 * t.val + p.val; omega
  | ⟨1, _⟩ => show win7_1.index t (1 : Fin 2) * 32 + 1 * q.val = q.val; omega

/-- The first weight matrix is held whole at every point. -/
theorem w1_block (c : Dev nD) (t : Fin cfg7.N) :
    (iblk7 V c 2 t : Vec Ideal S32x16 .f32) = (V c (Pipeline.arrRef spec7 2) : Gin.Arr2 32 16) := by
  obtain ⟨-, -, -, -, e0, e1, -⟩ := block_index t
  funext y
  show V c (Pipeline.arrRef spec7 2) (((cfg7.win 2).blk t).view.emb y) = _
  refine congrArg (V c (Pipeline.arrRef spec7 2)) (funext fun a => Fin.ext ?_)
  match a with
  | ⟨0, _⟩ => show win7_2.index t (0 : Fin 2) * 32 + 1 * (y 0).val = (y 0).val; omega
  | ⟨1, _⟩ => show win7_2.index t (1 : Fin 2) * 16 + 1 * (y 1).val = (y 1).val; omega

/-- The first bias row is held whole at every point. -/
theorem b1_block (c : Dev nD) (t : Fin cfg7.N) :
    (iblk7 V c 3 t : Vec Ideal S1x16 .f32) = (V c (Pipeline.arrRef spec7 3) : Gin.Arr2 1 16) := by
  obtain ⟨-, -, -, -, -, -, e0, e1, -⟩ := block_index t
  funext y
  show V c (Pipeline.arrRef spec7 3) (((cfg7.win 3).blk t).view.emb y) = _
  refine congrArg (V c (Pipeline.arrRef spec7 3)) (funext fun a => Fin.ext ?_)
  match a with
  | ⟨0, _⟩ => show win7_3.index t (0 : Fin 2) * 1 + 1 * (y 0).val = (y 0).val; omega
  | ⟨1, _⟩ => show win7_3.index t (1 : Fin 2) * 16 + 1 * (y 1).val = (y 1).val; omega

/-- The second weight matrix is held whole at every point. -/
theorem w2_block (c : Dev nD) (t : Fin cfg7.N) :
    (iblk7 V c 4 t : Vec Ideal S16x32 .f32) = (V c (Pipeline.arrRef spec7 4) : Gin.Arr2 16 32) := by
  obtain ⟨-, -, -, -, -, -, -, -, e0, e1, -⟩ := block_index t
  funext y
  show V c (Pipeline.arrRef spec7 4) (((cfg7.win 4).blk t).view.emb y) = _
  refine congrArg (V c (Pipeline.arrRef spec7 4)) (funext fun a => Fin.ext ?_)
  match a with
  | ⟨0, _⟩ => show win7_4.index t (0 : Fin 2) * 16 + 1 * (y 0).val = (y 0).val; omega
  | ⟨1, _⟩ => show win7_4.index t (1 : Fin 2) * 32 + 1 * (y 1).val = (y 1).val; omega

/-- The second bias row is held whole at every point. -/
theorem b2_block (c : Dev nD) (t : Fin cfg7.N) :
    (iblk7 V c 5 t : Vec Ideal S1x32 .f32) = (V c (Pipeline.arrRef spec7 5) : Gin.Arr2 1 32) := by
  obtain ⟨-, -, -, -, -, -, -, -, -, -, e0, e1, -⟩ := block_index t
  funext y
  show V c (Pipeline.arrRef spec7 5) (((cfg7.win 5).blk t).view.emb y) = _
  refine congrArg (V c (Pipeline.arrRef spec7 5)) (funext fun a => Fin.ext ?_)
  match a with
  | ⟨0, _⟩ => show win7_5.index t (0 : Fin 2) * 1 + 1 * (y 0).val = (y 0).val; omega
  | ⟨1, _⟩ => show win7_5.index t (1 : Fin 2) * 32 + 1 * (y 1).val = (y 1).val; omega

/-- Entry (p, j) of the output block at point t sits at row 10000·t + p of the output array. -/
theorem out_index (t : Fin cfg7.N) (p : Fin 10000) (j : Fin 32) :
    ((cfg7.win 6).blk t).view.emb (ix2 p j) = ix2 (row t p) j := by
  obtain ⟨-, -, -, -, -, -, -, -, -, -, -, -, e0, e1⟩ := block_index t
  refine funext fun a => Fin.ext ?_
  match a with
  | ⟨0, _⟩ => show win7_6.index t (0 : Fin 2) * 10000 + 1 * p.val = 10000 * t.val + p.val; omega
  | ⟨1, _⟩ => show win7_6.index t (1 : Fin 2) * 32 + 1 * j.val = j.val; omega

/-- The layer function of the arrays as the region finds them. -/
abbrev layer (c : Dev nD) : Gin.Arr2 100000 32 :=
  Gin.mlpMid (V c (Pipeline.arrRef spec7 0)) (V c (Pipeline.arrRef spec7 1)) (V c (Pipeline.arrRef spec7 2))
    (fun k => V c (Pipeline.arrRef spec7 3) (ix2 (0 : Fin 1) k)) (V c (Pipeline.arrRef spec7 4))
    (fun j => V c (Pipeline.arrRef spec7 5) (ix2 (0 : Fin 1) j))

/-- What point t writes back is block t of the layer function. -/
theorem flushed_eq (c : Dev nD) (t : Fin cfg7.N) :
    (dat7 (F := Ideal) V c).flushed 6 t = ((cfg7.win 6).blk t).view.read (Elt Ideal) (layer V c) := by
  show (cfg7.win 6).cut (grid7.coords t) ((dat7 V c).after 6 t) = _
  rw [after7_6]
  unfold out7_6
  rw [View.canon_unit_zero zero_offsets]
  simp only [View.ld_unit_zero (S := S10000x32) zero_offsets, View.ld_unit_zero (S := S32x16) zero_offsets,
    View.ld_unit_zero (S := S1x16) zero_offsets, View.ld_unit_zero (S := S16x32) zero_offsets,
    View.ld_unit_zero (S := S1x32) zero_offsets]
  funext y
  obtain ⟨p, j, rfl⟩ : ∃ (p : Fin 10000) (j : Fin 32), y = ix2 p j := ⟨y 0, y 1, eq_ix2 y⟩
  show k7_pay1 (F := Ideal) (iblk7 V c 0 t) (iblk7 V c 1 t) (iblk7 V c 2 t) (iblk7 V c 3 t) (iblk7 V c 4 t) (iblk7 V c 5 t) (ix2 p j)
    = layer V c (((cfg7.win 6).blk t).view.emb (ix2 p j))
  rw [out_index t p j]
  refine (k7_pay1_apply (iblk7 V c 0 t) (iblk7 V c 1 t) (iblk7 V c 2 t) (iblk7 V c 3 t) (iblk7 V c 4 t) (iblk7 V c 5 t) p j).trans ?_
  rw [w1_block V c t, b1_block V c t, w2_block V c t, b2_block V c t]
  simp only [feat_block V c t, nbr_block V c t]
  rfl

/-- A row of the output array lies in point t's block iff it lies in the block's range on each axis. -/
theorem mem_blk (t : Fin cfg7.N) (i : S100000x32.Idx) :
    i ∈ ((cfg7.win 6).blk t).view.set ↔ ∀ a : Fin 2, win7_6.index t a * S10000x32.size a ≤ (i a).val ∧ (i a).val < win7_6.index t a * S10000x32.size a + S10000x32.size a := by
  show i ∈ ((View.whole main_v163).slice (win7_6.rect t)).set ↔ _
  rw [View.set_slice_whole, Rect.mem_set_unit]
  exact Iff.rfl

/-- Every index of the output array is in some point's block: row r lies in block r / 10000. -/
theorem cover (i : S100000x32.Idx) :
    ∃ t : Fin cfg7.N, (cfg7.win 6).flush t = true ∧ i ∈ ((cfg7.win 6).blk t).view.set := by
  have hi0 : (i 0).val < 100000 := (i 0).isLt
  have hi1 : (i 1).val < 32 := (i 1).isLt
  have hN : cfg7.N = 10 := N_7
  refine ⟨⟨(i 0).val / 10000, by rw [hN]; omega⟩, flush7_6 _, ?_⟩
  rw [mem_blk]
  obtain ⟨-, -, -, -, -, -, -, -, -, -, -, -, e0, e1⟩ := block_index ⟨(i 0).val / 10000, by rw [hN]; omega⟩
  intro a
  match a with
  | ⟨0, _⟩ =>
    show win7_6.index _ (0 : Fin 2) * 10000 ≤ (i 0).val ∧ (i 0).val < win7_6.index _ (0 : Fin 2) * 10000 + 10000
    rw [e0]; show (i 0).val / 10000 * 10000 ≤ (i 0).val ∧ (i 0).val < (i 0).val / 10000 * 10000 + 10000; omega
  | ⟨1, _⟩ =>
    show win7_6.index _ (1 : Fin 2) * 32 ≤ (i 1).val ∧ (i 1).val < win7_6.index _ (1 : Fin 2) * 32 + 32
    rw [e1]; omega

end R7

/-- The region's output array is the middle-layer function of the arrays the region finds. -/
theorem region7 (c : Dev nD) : (Gen.dat7 (F := Ideal) V c).arrAt 6 cfg7.N
    = Gin.mlpMid (V c (Pipeline.arrRef spec7 0)) (V c (Pipeline.arrRef spec7 1)) (V c (Pipeline.arrRef spec7 2))
        (fun k => V c (Pipeline.arrRef spec7 3) (ix2 (0 : Fin 1) k)) (V c (Pipeline.arrRef spec7 4))
        (fun j => V c (Pipeline.arrRef spec7 5) (ix2 (0 : Fin 1) j)) :=
  (Gen.dat7 (F := Ideal) V c).arrAt_eq_of_cover 6 (R7.layer V c) (fun t _ => R7.flushed_eq V c t) R7.cover

end Cert.KernelIdeal.GinRegions

end
-- ==== Proof.KRegion8.lean ====
/-
  A middle layer's region: its whole output array, index by index.

  The region walks ten grid points; point t holds rows 10000·t … 10000·t + 9999 of the features and of the neighbour
  sums, the whole of the two weight matrices and the two bias rows, and writes rows 10000·t … of the output.  Since
  entry (p, j) of a block is the perceptron of row p of the two input blocks plus the feature, what point t writes
  back is block t of the layer function of the whole arrays; the ten blocks cover all 100000 rows (row r lies in
  block r / 10000), so the output array is the layer function.
-/
import proofs.«175125_j35716948034103_1_alg».proof.Proof.Gen.KernelIdeal.Frame
import proofs.«175125_j35716948034103_1_alg».proof.Proof.KPayload
import Idealize.ShloMosaic.Lib.Pipeline.Value

set_option maxRecDepth 16384

noncomputable section

open scoped BigOperators

namespace Cert.KernelIdeal.GinRegions

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace R8

theorem zero_offsets : (![0, 0] : Fin 2 → Nat) = fun _ => 0 := funext fun a => by fin_cases a <;> rfl

/-- The block index of every window at grid point t: the row windows sit at block t, the others at block 0. -/
theorem block_index : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

/-- Row p of block t is row 10000·t + p of the array. -/
def row (t : Fin cfg8.N) (p : Fin 10000) : Fin 100000 :=
  ⟨10000 * t.val + p.val, by have ht : t.val < 10 := (show cfg8.N = 10 from N_8) ▸ t.isLt; have := p.isLt; omega⟩

/-- The feature block at point t is rows 10000·t … of the feature array. -/
theorem feat_block (c : Dev nD) (t : Fin cfg8.N) (p : Fin 10000) (q : Fin 32) :
    (iblk8 V c 0 t : Vec Ideal S10000x32 .f32) (ix2 p q)
      = (V c (Pipeline.arrRef spec8 0) : Gin.Arr2 100000 32) (ix2 (row t p) q) := by
  obtain ⟨e0, e1, -⟩ := block_index t
  show V c (Pipeline.arrRef spec8 0) (((cfg8.win 0).blk t).view.emb (ix2 p q)) = _
  refine congrArg (V c (Pipeline.arrRef spec8 0)) (funext fun a => Fin.ext ?_)
  match a with
  | ⟨0, _⟩ => show win8_0.index t (0 : Fin 2) * 10000 + 1 * p.val = 10000 * t.val + p.val; omega
  | ⟨1, _⟩ => show win8_0.index t (1 : Fin 2) * 32 + 1 * q.val = q.val; omega

/-- The neighbour-sum block at point t is rows 10000·t … of the neighbour-sum array. -/
theorem nbr_block (c : Dev nD) (t : Fin cfg8.N) (p : Fin 10000) (q : Fin 32) :
    (iblk8 V c 1 t : Vec Ideal S10000x32 .f32) (ix2 p q)
      = (V c (Pipeline.arrRef spec8 1) : Gin.Arr2 100000 32) (ix2 (row t p) q) := by
  obtain ⟨-, -, e0, e1, -⟩ := block_index t
  show V c (Pipeline.arrRef spec8 1) (((cfg8.win 1).blk t).view.emb (ix2 p q)) = _
  refine congrArg (V c (Pipeline.arrRef spec8 1)) (funext fun a => Fin.ext ?_)
  match a with
  | ⟨0, _⟩ => show win8_1.index t (0 : Fin 2) * 10000 + 1 * p.val = 10000 * t.val + p.val; omega
  | ⟨1, _⟩ => show win8_1.index t (1 : Fin 2) * 32 + 1 * q.val = q.val; omega

/-- The first weight matrix is held whole at every point. -/
theorem w1_block (c : Dev nD) (t : Fin cfg8.N) :
    (iblk8 V c 2 t : Vec Ideal S32x16 .f32) = (V c (Pipeline.arrRef spec8 2) : Gin.Arr2 32 16) := by
  obtain ⟨-, -, -, -, e0, e1, -⟩ := block_index t
  funext y
  show V c (Pipeline.arrRef spec8 2) (((cfg8.win 2).blk t).view.emb y) = _
  refine congrArg (V c (Pipeline.arrRef spec8 2)) (funext fun a => Fin.ext ?_)
  match a with
  | ⟨0, _⟩ => show win8_2.index t (0 : Fin 2) * 32 + 1 * (y 0).val = (y 0).val; omega
  | ⟨1, _⟩ => show win8_2.index t (1 : Fin 2) * 16 + 1 * (y 1).val = (y 1).val; omega

/-- The first bias row is held whole at every point. -/
theorem b1_block (c : Dev nD) (t : Fin cfg8.N) :
    (iblk8 V c 3 t : Vec Ideal S1x16 .f32) = (V c (Pipeline.arrRef spec8 3) : Gin.Arr2 1 16) := by
  obtain ⟨-, -, -, -, -, -, e0, e1, -⟩ := block_index t
  funext y
  show V c (Pipeline.arrRef spec8 3) (((cfg8.win 3).blk t).view.emb y) = _
  refine congrArg (V c (Pipeline.arrRef spec8 3)) (funext fun a => Fin.ext ?_)
  match a with
  | ⟨0, _⟩ => show win8_3.index t (0 : Fin 2) * 1 + 1 * (y 0).val = (y 0).val; omega
  | ⟨1, _⟩ => show win8_3.index t (1 : Fin 2) * 16 + 1 * (y 1).val = (y 1).val; omega

/-- The second weight matrix is held whole at every point. -/
theorem w2_block (c : Dev nD) (t : Fin cfg8.N) :
    (iblk8 V c 4 t : Vec Ideal S16x32 .f32) = (V c (Pipeline.arrRef spec8 4) : Gin.Arr2 16 32) := by
  obtain ⟨-, -, -, -, -, -, -, -, e0, e1, -⟩ := block_index t
  funext y
  show V c (Pipeline.arrRef spec8 4) (((cfg8.win 4).blk t).view.emb y) = _
  refine congrArg (V c (Pipeline.arrRef spec8 4)) (funext fun a => Fin.ext ?_)
  match a with
  | ⟨0, _⟩ => show win8_4.index t (0 : Fin 2) * 16 + 1 * (y 0).val = (y 0).val; omega
  | ⟨1, _⟩ => show win8_4.index t (1 : Fin 2) * 32 + 1 * (y 1).val = (y 1).val; omega

/-- The second bias row is held whole at every point. -/
theorem b2_block (c : Dev nD) (t : Fin cfg8.N) :
    (iblk8 V c 5 t : Vec Ideal S1x32 .f32) = (V c (Pipeline.arrRef spec8 5) : Gin.Arr2 1 32) := by
  obtain ⟨-, -, -, -, -, -, -, -, -, -, e0, e1, -⟩ := block_index t
  funext y
  show V c (Pipeline.arrRef spec8 5) (((cfg8.win 5).blk t).view.emb y) = _
  refine congrArg (V c (Pipeline.arrRef spec8 5)) (funext fun a => Fin.ext ?_)
  match a with
  | ⟨0, _⟩ => show win8_5.index t (0 : Fin 2) * 1 + 1 * (y 0).val = (y 0).val; omega
  | ⟨1, _⟩ => show win8_5.index t (1 : Fin 2) * 32 + 1 * (y 1).val = (y 1).val; omega

/-- Entry (p, j) of the output block at point t sits at row 10000·t + p of the output array. -/
theorem out_index (t : Fin cfg8.N) (p : Fin 10000) (j : Fin 32) :
    ((cfg8.win 6).blk t).view.emb (ix2 p j) = ix2 (row t p) j := by
  obtain ⟨-, -, -, -, -, -, -, -, -, -, -, -, e0, e1⟩ := block_index t
  refine funext fun a => Fin.ext ?_
  match a with
  | ⟨0, _⟩ => show win8_6.index t (0 : Fin 2) * 10000 + 1 * p.val = 10000 * t.val + p.val; omega
  | ⟨1, _⟩ => show win8_6.index t (1 : Fin 2) * 32 + 1 * j.val = j.val; omega

/-- The layer function of the arrays as the region finds them. -/
abbrev layer (c : Dev nD) : Gin.Arr2 100000 32 :=
  Gin.mlpMid (V c (Pipeline.arrRef spec8 0)) (V c (Pipeline.arrRef spec8 1)) (V c (Pipeline.arrRef spec8 2))
    (fun k => V c (Pipeline.arrRef spec8 3) (ix2 (0 : Fin 1) k)) (V c (Pipeline.arrRef spec8 4))
    (fun j => V c (Pipeline.arrRef spec8 5) (ix2 (0 : Fin 1) j))

/-- What point t writes back is block t of the layer function. -/
theorem flushed_eq (c : Dev nD) (t : Fin cfg8.N) :
    (dat8 (F := Ideal) V c).flushed 6 t = ((cfg8.win 6).blk t).view.read (Elt Ideal) (layer V c) := by
  show (cfg8.win 6).cut (grid8.coords t) ((dat8 V c).after 6 t) = _
  rw [after8_6]
  unfold out8_6
  rw [View.canon_unit_zero zero_offsets]
  simp only [View.ld_unit_zero (S := S10000x32) zero_offsets, View.ld_unit_zero (S := S32x16) zero_offsets,
    View.ld_unit_zero (S := S1x16) zero_offsets, View.ld_unit_zero (S := S16x32) zero_offsets,
    View.ld_unit_zero (S := S1x32) zero_offsets]
  funext y
  obtain ⟨p, j, rfl⟩ : ∃ (p : Fin 10000) (j : Fin 32), y = ix2 p j := ⟨y 0, y 1, eq_ix2 y⟩
  show k8_pay1 (F := Ideal) (iblk8 V c 0 t) (iblk8 V c 1 t) (iblk8 V c 2 t) (iblk8 V c 3 t) (iblk8 V c 4 t) (iblk8 V c 5 t) (ix2 p j)
    = layer V c (((cfg8.win 6).blk t).view.emb (ix2 p j))
  rw [out_index t p j]
  refine (k8_pay1_apply (iblk8 V c 0 t) (iblk8 V c 1 t) (iblk8 V c 2 t) (iblk8 V c 3 t) (iblk8 V c 4 t) (iblk8 V c 5 t) p j).trans ?_
  rw [w1_block V c t, b1_block V c t, w2_block V c t, b2_block V c t]
  simp only [feat_block V c t, nbr_block V c t]
  rfl

/-- A row of the output array lies in point t's block iff it lies in the block's range on each axis. -/
theorem mem_blk (t : Fin cfg8.N) (i : S100000x32.Idx) :
    i ∈ ((cfg8.win 6).blk t).view.set ↔ ∀ a : Fin 2, win8_6.index t a * S10000x32.size a ≤ (i a).val ∧ (i a).val < win8_6.index t a * S10000x32.size a + S10000x32.size a := by
  show i ∈ ((View.whole main_v184).slice (win8_6.rect t)).set ↔ _
  rw [View.set_slice_whole, Rect.mem_set_unit]
  exact Iff.rfl

/-- Every index of the output array is in some point's block: row r lies in block r / 10000. -/
theorem cover (i : S100000x32.Idx) :
    ∃ t : Fin cfg8.N, (cfg8.win 6).flush t = true ∧ i ∈ ((cfg8.win 6).blk t).view.set := by
  have hi0 : (i 0).val < 100000 := (i 0).isLt
  have hi1 : (i 1).val < 32 := (i 1).isLt
  have hN : cfg8.N = 10 := N_8
  refine ⟨⟨(i 0).val / 10000, by rw [hN]; omega⟩, flush8_6 _, ?_⟩
  rw [mem_blk]
  obtain ⟨-, -, -, -, -, -, -, -, -, -, -, -, e0, e1⟩ := block_index ⟨(i 0).val / 10000, by rw [hN]; omega⟩
  intro a
  match a with
  | ⟨0, _⟩ =>
    show win8_6.index _ (0 : Fin 2) * 10000 ≤ (i 0).val ∧ (i 0).val < win8_6.index _ (0 : Fin 2) * 10000 + 10000
    rw [e0]; show (i 0).val / 10000 * 10000 ≤ (i 0).val ∧ (i 0).val < (i 0).val / 10000 * 10000 + 10000; omega
  | ⟨1, _⟩ =>
    show win8_6.index _ (1 : Fin 2) * 32 ≤ (i 1).val ∧ (i 1).val < win8_6.index _ (1 : Fin 2) * 32 + 32
    rw [e1]; omega

end R8

/-- The region's output array is the middle-layer function of the arrays the region finds. -/
theorem region8 (c : Dev nD) : (Gen.dat8 (F := Ideal) V c).arrAt 6 cfg8.N
    = Gin.mlpMid (V c (Pipeline.arrRef spec8 0)) (V c (Pipeline.arrRef spec8 1)) (V c (Pipeline.arrRef spec8 2))
        (fun k => V c (Pipeline.arrRef spec8 3) (ix2 (0 : Fin 1) k)) (V c (Pipeline.arrRef spec8 4))
        (fun j => V c (Pipeline.arrRef spec8 5) (ix2 (0 : Fin 1) j)) :=
  (Gen.dat8 (F := Ideal) V c).arrAt_eq_of_cover 6 (R8.layer V c) (fun t _ => R8.flushed_eq V c t) R8.cover

end Cert.KernelIdeal.GinRegions

end
-- ==== Proof.KRegion9.lean ====
/-
  The last layer's region: its whole output array, index by index.

  The region walks ten grid points; point t holds rows 10000·t … 10000·t + 9999 of the features and of the neighbour
  sums and the whole one-column weight matrix, and writes rows 10000·t … of the one-column output.  Entry (p, j) of a
  block is row p of the summed input blocks times the matrix, so what point t writes back is block t of the product
  of the whole arrays; the ten blocks cover all 100000 rows (row r lies in block r / 10000), so the output array is
  that product.
-/
import proofs.«175125_j35716948034103_1_alg».proof.Proof.Gen.KernelIdeal.Frame
import proofs.«175125_j35716948034103_1_alg».proof.Proof.KPayload
import Idealize.ShloMosaic.Lib.Pipeline.Value

set_option maxRecDepth 16384

noncomputable section

open scoped BigOperators

namespace Cert.KernelIdeal.GinRegions

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace R9

theorem zero_offsets : (![0, 0] : Fin 2 → Nat) = fun _ => 0 := funext fun a => by fin_cases a <;> rfl

/-- The block index of every window at grid point t: the row windows sit at block t, the others at block 0. -/
theorem block_index : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- Row p of block t is row 10000·t + p of the array. -/
def row (t : Fin cfg9.N) (p : Fin 10000) : Fin 100000 :=
  ⟨10000 * t.val + p.val, by have ht : t.val < 10 := (show cfg9.N = 10 from N_9) ▸ t.isLt; have := p.isLt; omega⟩

/-- The feature block at point t is rows 10000·t … of the feature array. -/
theorem feat_block (c : Dev nD) (t : Fin cfg9.N) (p : Fin 10000) (q : Fin 32) :
    (iblk9 V c 0 t : Vec Ideal S10000x32 .f32) (ix2 p q)
      = (V c (Pipeline.arrRef spec9 0) : Gin.Arr2 100000 32) (ix2 (row t p) q) := by
  obtain ⟨e0, e1, -⟩ := block_index t
  show V c (Pipeline.arrRef spec9 0) (((cfg9.win 0).blk t).view.emb (ix2 p q)) = _
  refine congrArg (V c (Pipeline.arrRef spec9 0)) (funext fun a => Fin.ext ?_)
  match a with
  | ⟨0, _⟩ => show win9_0.index t (0 : Fin 2) * 10000 + 1 * p.val = 10000 * t.val + p.val; omega
  | ⟨1, _⟩ => show win9_0.index t (1 : Fin 2) * 32 + 1 * q.val = q.val; omega

/-- The neighbour-sum block at point t is rows 10000·t … of the neighbour-sum array. -/
theorem nbr_block (c : Dev nD) (t : Fin cfg9.N) (p : Fin 10000) (q : Fin 32) :
    (iblk9 V c 1 t : Vec Ideal S10000x32 .f32) (ix2 p q)
      = (V c (Pipeline.arrRef spec9 1) : Gin.Arr2 100000 32) (ix2 (row t p) q) := by
  obtain ⟨-, -, e0, e1, -⟩ := block_index t
  show V c (Pipeline.arrRef spec9 1) (((cfg9.win 1).blk t).view.emb (ix2 p q)) = _
  refine congrArg (V c (Pipeline.arrRef spec9 1)) (funext fun a => Fin.ext ?_)
  match a with
  | ⟨0, _⟩ => show win9_1.index t (0 : Fin 2) * 10000 + 1 * p.val = 10000 * t.val + p.val; omega
  | ⟨1, _⟩ => show win9_1.index t (1 : Fin 2) * 32 + 1 * q.val = q.val; omega

/-- The weight matrix is held whole at every point. -/
theorem w_block (c : Dev nD) (t : Fin cfg9.N) :
    (iblk9 V c 2 t : Vec Ideal S32x1 .f32) = (V c (Pipeline.arrRef spec9 2) : Gin.Arr2 32 1) := by
  obtain ⟨-, -, -, -, e0, e1, -⟩ := block_index t
  funext y
  show V c (Pipeline.arrRef spec9 2) (((cfg9.win 2).blk t).view.emb y) = _
  refine congrArg (V c (Pipeline.arrRef spec9 2)) (funext fun a => Fin.ext ?_)
  match a with
  | ⟨0, _⟩ => show win9_2.index t (0 : Fin 2) * 32 + 1 * (y 0).val = (y 0).val; omega
  | ⟨1, _⟩ => show win9_2.index t (1 : Fin 2) * 1 + 1 * (y 1).val = (y 1).val; omega

/-- Entry (p, j) of the output block at point t sits at row 10000·t + p of the output array. -/
theorem out_index (t : Fin cfg9.N) (p : Fin 10000) (j : Fin 1) :
    ((cfg9.win 3).blk t).view.emb (ix2 p j) = ix2 (row t p) j := by
  obtain ⟨-, -, -, -, -, -, e0, e1⟩ := block_index t
  refine funext fun a => Fin.ext ?_
  match a with
  | ⟨0, _⟩ => show win9_3.index t (0 : Fin 2) * 10000 + 1 * p.val = 10000 * t.val + p.val; omega
  | ⟨1, _⟩ => show win9_3.index t (1 : Fin 2) * 1 + 1 * j.val = j.val; omega

/-- The layer function of the arrays as the region finds them. -/
abbrev layer (c : Dev nD) : Gin.Arr2 100000 1 :=
  Gin.fin (V c (Pipeline.arrRef spec9 0)) (V c (Pipeline.arrRef spec9 1)) (V c (Pipeline.arrRef spec9 2))

/-- What point t writes back is block t of the layer function. -/
theorem flushed_eq (c : Dev nD) (t : Fin cfg9.N) :
    (dat9 (F := Ideal) V c).flushed 3 t = ((cfg9.win 3).blk t).view.read (Elt Ideal) (layer V c) := by
  show (cfg9.win 3).cut (grid9.coords t) ((dat9 V c).after 3 t) = _
  rw [after9_3]
  unfold out9_3
  rw [View.canon_unit_zero zero_offsets]
  simp only [View.ld_unit_zero (S := S10000x32) zero_offsets, View.ld_unit_zero (S := S32x1) zero_offsets]
  funext y
  obtain ⟨p, j, rfl⟩ : ∃ (p : Fin 10000) (j : Fin 1), y = ix2 p j := ⟨y 0, y 1, eq_ix2 y⟩
  show k9_pay1 (F := Ideal) (iblk9 V c 0 t) (iblk9 V c 1 t) (iblk9 V c 2 t) (ix2 p j)
    = layer V c (((cfg9.win 3).blk t).view.emb (ix2 p j))
  rw [out_index t p j]
  refine (k9_pay1_apply (iblk9 V c 0 t) (iblk9 V c 1 t) (iblk9 V c 2 t) p j).trans ?_
  rw [w_block V c t]
  simp only [feat_block V c t, nbr_block V c t]
  rfl

/-- A row of the output array lies in point t's block iff it lies in the block's range on each axis. -/
theorem mem_blk (t : Fin cfg9.N) (i : S100000x1.Idx) :
    i ∈ ((cfg9.win 3).blk t).view.set ↔ ∀ a : Fin 2, win9_3.index t a * S10000x1.size a ≤ (i a).val ∧ (i a).val < win9_3.index t a * S10000x1.size a + S10000x1.size a := by
  show i ∈ ((View.whole main_v195).slice (win9_3.rect t)).set ↔ _
  rw [View.set_slice_whole, Rect.mem_set_unit]
  exact Iff.rfl

/-- Every index of the output array is in some point's block: row r lies in block r / 10000. -/
theorem cover (i : S100000x1.Idx) :
    ∃ t : Fin cfg9.N, (cfg9.win 3).flush t = true ∧ i ∈ ((cfg9.win 3).blk t).view.set := by
  have hi0 : (i 0).val < 100000 := (i 0).isLt
  have hi1 : (i 1).val < 1 := (i 1).isLt
  have hN : cfg9.N = 10 := N_9
  refine ⟨⟨(i 0).val / 10000, by rw [hN]; omega⟩, flush9_3 _, ?_⟩
  rw [mem_blk]
  obtain ⟨-, -, -, -, -, -, e0, e1⟩ := block_index ⟨(i 0).val / 10000, by rw [hN]; omega⟩
  intro a
  match a with
  | ⟨0, _⟩ =>
    show win9_3.index _ (0 : Fin 2) * 10000 ≤ (i 0).val ∧ (i 0).val < win9_3.index _ (0 : Fin 2) * 10000 + 10000
    rw [e0]; show (i 0).val / 10000 * 10000 ≤ (i 0).val ∧ (i 0).val < (i 0).val / 10000 * 10000 + 10000; omega
  | ⟨1, _⟩ =>
    show win9_3.index _ (1 : Fin 2) * 1 ≤ (i 1).val ∧ (i 1).val < win9_3.index _ (1 : Fin 2) * 1 + 1
    rw [e1]; omega

end R9

/-- The region's output array is the last-layer product of the arrays the region finds. -/
theorem region9 (c : Dev nD) : (Gen.dat9 (F := Ideal) V c).arrAt 3 cfg9.N
    = Gin.fin (V c (Pipeline.arrRef spec9 0)) (V c (Pipeline.arrRef spec9 1)) (V c (Pipeline.arrRef spec9 2)) :=
  (Gen.dat9 (F := Ideal) V c).arrAt_eq_of_cover 3 (R9.layer V c) (fun t _ => R9.flushed_eq V c t) R9.cover

end Cert.KernelIdeal.GinRegions

end
-- ==== Proof.KChain.lean ====
/-
  The kernel program's result buffer read off the fold of its host operations and regions over the launch memory.

  The fold's contents at the boundary after region K are W(2K+2).  By induction along the program: the two edge
  vectors and the stacked weight arrays are carried unchanged from the launch to every boundary (no region has them
  among its output arrays and no stretch writes them); region K's output array is the specification's layer K of
  region K-1's output, of its neighbour sums and of block K-1 of the stacked weights, because the region's input
  windows read exactly those buffers and the stretch before it leaves exactly those values there.  The last region's
  output is then the whole network of the launch contents of the eleven arguments.
-/
import proofs.«175125_j35716948034103_1_alg».proof.Proof.Gen.KernelIdeal.Frame
import proofs.«175125_j35716948034103_1_alg».proof.Proof.KStretch
import proofs.«175125_j35716948034103_1_alg».proof.Proof.KRegion0
import proofs.«175125_j35716948034103_1_alg».proof.Proof.KRegion1
import proofs.«175125_j35716948034103_1_alg».proof.Proof.KRegion2
import proofs.«175125_j35716948034103_1_alg».proof.Proof.KRegion3
import proofs.«175125_j35716948034103_1_alg».proof.Proof.KRegion4
import proofs.«175125_j35716948034103_1_alg».proof.Proof.KRegion5
import proofs.«175125_j35716948034103_1_alg».proof.Proof.KRegion6
import proofs.«175125_j35716948034103_1_alg».proof.Proof.KRegion7
import proofs.«175125_j35716948034103_1_alg».proof.Proof.KRegion8
import proofs.«175125_j35716948034103_1_alg».proof.Proof.KRegion9

set_option maxRecDepth 16384

noncomputable section

namespace Cert.KernelIdeal.Chain

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (ρ : Dev nD → PrngReg) (c : Dev nD)

/-- The launch contents of an argument array on core c. -/
abbrev arg (b : Ref sig .tc) : Buf (Elt Ideal) ((c : Thread nD τ).loc b) := m ((c : Thread nD τ).loc b)

/-! ## The features after each region, as layers of the launch contents -/

/-- After region 0. -/
def f0 : FVec Ideal S100000x32 .f32 :=
  Gin.mlp0 (arg m c main_arg0) (Layers.agg1 (F := Ideal) (arg m c main_arg0) (Layers.srcR (arg m c main_arg1)) (Layers.dstR (arg m c main_arg1)))
    (arg m c main_arg2) (Layers.row16 (F := Ideal) (arg m c main_arg3)) (arg m c main_arg4) (Layers.row32 (F := Ideal) (arg m c main_arg5))
/-- After region 1. -/
def f1 : FVec Ideal S100000x32 .f32 :=
  Layers.layerG (arg m c main_arg1) (arg m c main_arg6) (arg m c main_arg7) (arg m c main_arg8) (arg m c main_arg9) 0 (f0 m c)
/-- After region 2. -/
def f2 : FVec Ideal S100000x32 .f32 :=
  Layers.layerG (arg m c main_arg1) (arg m c main_arg6) (arg m c main_arg7) (arg m c main_arg8) (arg m c main_arg9) 1 (f1 m c)
/-- After region 3. -/
def f3 : FVec Ideal S100000x32 .f32 :=
  Layers.layerG (arg m c main_arg1) (arg m c main_arg6) (arg m c main_arg7) (arg m c main_arg8) (arg m c main_arg9) 2 (f2 m c)
/-- After region 4. -/
def f4 : FVec Ideal S100000x32 .f32 :=
  Layers.layerG (arg m c main_arg1) (arg m c main_arg6) (arg m c main_arg7) (arg m c main_arg8) (arg m c main_arg9) 3 (f3 m c)
/-- After region 5. -/
def f5 : FVec Ideal S100000x32 .f32 :=
  Layers.layerG (arg m c main_arg1) (arg m c main_arg6) (arg m c main_arg7) (arg m c main_arg8) (arg m c main_arg9) 4 (f4 m c)
/-- After region 6. -/
def f6 : FVec Ideal S100000x32 .f32 :=
  Layers.layerG (arg m c main_arg1) (arg m c main_arg6) (arg m c main_arg7) (arg m c main_arg8) (arg m c main_arg9) 5 (f5 m c)
/-- After region 7. -/
def f7 : FVec Ideal S100000x32 .f32 :=
  Layers.layerG (arg m c main_arg1) (arg m c main_arg6) (arg m c main_arg7) (arg m c main_arg8) (arg m c main_arg9) 6 (f6 m c)
/-- After region 8. -/
def f8 : FVec Ideal S100000x32 .f32 :=
  Layers.layerG (arg m c main_arg1) (arg m c main_arg6) (arg m c main_arg7) (arg m c main_arg8) (arg m c main_arg9) 7 (f7 m c)

/-! ## What is carried from the launch to the boundary after each region -/

theorem c1_v1 : W2 m ρ c (Proc.devRef .tc main_v1) = Layers.srcR (arg m c main_arg1) := (W2_of_ne m ρ c main_v1 (by decide)).trans (Stretch.s0_src _)
theorem c1_v3 : W2 m ρ c (Proc.devRef .tc main_v3) = Layers.dstR (arg m c main_arg1) := (W2_of_ne m ρ c main_v3 (by decide)).trans (Stretch.s0_dst _)
theorem c1_a6 : W2 m ρ c (Proc.devRef .tc main_arg6) = arg m c main_arg6 := (W2_of_ne m ρ c main_arg6 (by decide)).trans (Stretch.s0_keep_a6 _)
theorem c1_a7 : W2 m ρ c (Proc.devRef .tc main_arg7) = arg m c main_arg7 := (W2_of_ne m ρ c main_arg7 (by decide)).trans (Stretch.s0_keep_a7 _)
theorem c1_a8 : W2 m ρ c (Proc.devRef .tc main_arg8) = arg m c main_arg8 := (W2_of_ne m ρ c main_arg8 (by decide)).trans (Stretch.s0_keep_a8 _)
theorem c1_a9 : W2 m ρ c (Proc.devRef .tc main_arg9) = arg m c main_arg9 := (W2_of_ne m ρ c main_arg9 (by decide)).trans (Stretch.s0_keep_a9 _)
theorem c1_a10 : W2 m ρ c (Proc.devRef .tc main_arg10) = arg m c main_arg10 := (W2_of_ne m ρ c main_arg10 (by decide)).trans (Stretch.s0_keep_a10 _)

theorem c2_v1 : W4 m ρ c (Proc.devRef .tc main_v1) = Layers.srcR (arg m c main_arg1) := (W4_of_ne m ρ c main_v1 (by decide)).trans ((Stretch.s1_keep_v1 _).trans (c1_v1 m ρ c))
theorem c2_v3 : W4 m ρ c (Proc.devRef .tc main_v3) = Layers.dstR (arg m c main_arg1) := (W4_of_ne m ρ c main_v3 (by decide)).trans ((Stretch.s1_keep_v3 _).trans (c1_v3 m ρ c))
theorem c2_a6 : W4 m ρ c (Proc.devRef .tc main_arg6) = arg m c main_arg6 := (W4_of_ne m ρ c main_arg6 (by decide)).trans ((Stretch.s1_keep_a6 _).trans (c1_a6 m ρ c))
theorem c2_a7 : W4 m ρ c (Proc.devRef .tc main_arg7) = arg m c main_arg7 := (W4_of_ne m ρ c main_arg7 (by decide)).trans ((Stretch.s1_keep_a7 _).trans (c1_a7 m ρ c))
theorem c2_a8 : W4 m ρ c (Proc.devRef .tc main_arg8) = arg m c main_arg8 := (W4_of_ne m ρ c main_arg8 (by decide)).trans ((Stretch.s1_keep_a8 _).trans (c1_a8 m ρ c))
theorem c2_a9 : W4 m ρ c (Proc.devRef .tc main_arg9) = arg m c main_arg9 := (W4_of_ne m ρ c main_arg9 (by decide)).trans ((Stretch.s1_keep_a9 _).trans (c1_a9 m ρ c))
theorem c2_a10 : W4 m ρ c (Proc.devRef .tc main_arg10) = arg m c main_arg10 := (W4_of_ne m ρ c main_arg10 (by decide)).trans ((Stretch.s1_keep_a10 _).trans (c1_a10 m ρ c))

theorem c3_v1 : W6 m ρ c (Proc.devRef .tc main_v1) = Layers.srcR (arg m c main_arg1) := (W6_of_ne m ρ c main_v1 (by decide)).trans ((Stretch.s2_keep_v1 _).trans (c2_v1 m ρ c))
theorem c3_v3 : W6 m ρ c (Proc.devRef .tc main_v3) = Layers.dstR (arg m c main_arg1) := (W6_of_ne m ρ c main_v3 (by decide)).trans ((Stretch.s2_keep_v3 _).trans (c2_v3 m ρ c))
theorem c3_a6 : W6 m ρ c (Proc.devRef .tc main_arg6) = arg m c main_arg6 := (W6_of_ne m ρ c main_arg6 (by decide)).trans ((Stretch.s2_keep_a6 _).trans (c2_a6 m ρ c))
theorem c3_a7 : W6 m ρ c (Proc.devRef .tc main_arg7) = arg m c main_arg7 := (W6_of_ne m ρ c main_arg7 (by decide)).trans ((Stretch.s2_keep_a7 _).trans (c2_a7 m ρ c))
theorem c3_a8 : W6 m ρ c (Proc.devRef .tc main_arg8) = arg m c main_arg8 := (W6_of_ne m ρ c main_arg8 (by decide)).trans ((Stretch.s2_keep_a8 _).trans (c2_a8 m ρ c))
theorem c3_a9 : W6 m ρ c (Proc.devRef .tc main_arg9) = arg m c main_arg9 := (W6_of_ne m ρ c main_arg9 (by decide)).trans ((Stretch.s2_keep_a9 _).trans (c2_a9 m ρ c))
theorem c3_a10 : W6 m ρ c (Proc.devRef .tc main_arg10) = arg m c main_arg10 := (W6_of_ne m ρ c main_arg10 (by decide)).trans ((Stretch.s2_keep_a10 _).trans (c2_a10 m ρ c))

theorem c4_v1 : W8 m ρ c (Proc.devRef .tc main_v1) = Layers.srcR (arg m c main_arg1) := (W8_of_ne m ρ c main_v1 (by decide)).trans ((Stretch.s3_keep_v1 _).trans (c3_v1 m ρ c))
theorem c4_v3 : W8 m ρ c (Proc.devRef .tc main_v3) = Layers.dstR (arg m c main_arg1) := (W8_of_ne m ρ c main_v3 (by decide)).trans ((Stretch.s3_keep_v3 _).trans (c3_v3 m ρ c))
theorem c4_a6 : W8 m ρ c (Proc.devRef .tc main_arg6) = arg m c main_arg6 := (W8_of_ne m ρ c main_arg6 (by decide)).trans ((Stretch.s3_keep_a6 _).trans (c3_a6 m ρ c))
theorem c4_a7 : W8 m ρ c (Proc.devRef .tc main_arg7) = arg m c main_arg7 := (W8_of_ne m ρ c main_arg7 (by decide)).trans ((Stretch.s3_keep_a7 _).trans (c3_a7 m ρ c))
theorem c4_a8 : W8 m ρ c (Proc.devRef .tc main_arg8) = arg m c main_arg8 := (W8_of_ne m ρ c main_arg8 (by decide)).trans ((Stretch.s3_keep_a8 _).trans (c3_a8 m ρ c))
theorem c4_a9 : W8 m ρ c (Proc.devRef .tc main_arg9) = arg m c main_arg9 := (W8_of_ne m ρ c main_arg9 (by decide)).trans ((Stretch.s3_keep_a9 _).trans (c3_a9 m ρ c))
theorem c4_a10 : W8 m ρ c (Proc.devRef .tc main_arg10) = arg m c main_arg10 := (W8_of_ne m ρ c main_arg10 (by decide)).trans ((Stretch.s3_keep_a10 _).trans (c3_a10 m ρ c))

theorem c5_v1 : W10 m ρ c (Proc.devRef .tc main_v1) = Layers.srcR (arg m c main_arg1) := (W10_of_ne m ρ c main_v1 (by decide)).trans ((Stretch.s4_keep_v1 _).trans (c4_v1 m ρ c))
theorem c5_v3 : W10 m ρ c (Proc.devRef .tc main_v3) = Layers.dstR (arg m c main_arg1) := (W10_of_ne m ρ c main_v3 (by decide)).trans ((Stretch.s4_keep_v3 _).trans (c4_v3 m ρ c))
theorem c5_a6 : W10 m ρ c (Proc.devRef .tc main_arg6) = arg m c main_arg6 := (W10_of_ne m ρ c main_arg6 (by decide)).trans ((Stretch.s4_keep_a6 _).trans (c4_a6 m ρ c))
theorem c5_a7 : W10 m ρ c (Proc.devRef .tc main_arg7) = arg m c main_arg7 := (W10_of_ne m ρ c main_arg7 (by decide)).trans ((Stretch.s4_keep_a7 _).trans (c4_a7 m ρ c))
theorem c5_a8 : W10 m ρ c (Proc.devRef .tc main_arg8) = arg m c main_arg8 := (W10_of_ne m ρ c main_arg8 (by decide)).trans ((Stretch.s4_keep_a8 _).trans (c4_a8 m ρ c))
theorem c5_a9 : W10 m ρ c (Proc.devRef .tc main_arg9) = arg m c main_arg9 := (W10_of_ne m ρ c main_arg9 (by decide)).trans ((Stretch.s4_keep_a9 _).trans (c4_a9 m ρ c))
theorem c5_a10 : W10 m ρ c (Proc.devRef .tc main_arg10) = arg m c main_arg10 := (W10_of_ne m ρ c main_arg10 (by decide)).trans ((Stretch.s4_keep_a10 _).trans (c4_a10 m ρ c))

theorem c6_v1 : W12 m ρ c (Proc.devRef .tc main_v1) = Layers.srcR (arg m c main_arg1) := (W12_of_ne m ρ c main_v1 (by decide)).trans ((Stretch.s5_keep_v1 _).trans (c5_v1 m ρ c))
theorem c6_v3 : W12 m ρ c (Proc.devRef .tc main_v3) = Layers.dstR (arg m c main_arg1) := (W12_of_ne m ρ c main_v3 (by decide)).trans ((Stretch.s5_keep_v3 _).trans (c5_v3 m ρ c))
theorem c6_a6 : W12 m ρ c (Proc.devRef .tc main_arg6) = arg m c main_arg6 := (W12_of_ne m ρ c main_arg6 (by decide)).trans ((Stretch.s5_keep_a6 _).trans (c5_a6 m ρ c))
theorem c6_a7 : W12 m ρ c (Proc.devRef .tc main_arg7) = arg m c main_arg7 := (W12_of_ne m ρ c main_arg7 (by decide)).trans ((Stretch.s5_keep_a7 _).trans (c5_a7 m ρ c))
theorem c6_a8 : W12 m ρ c (Proc.devRef .tc main_arg8) = arg m c main_arg8 := (W12_of_ne m ρ c main_arg8 (by decide)).trans ((Stretch.s5_keep_a8 _).trans (c5_a8 m ρ c))
theorem c6_a9 : W12 m ρ c (Proc.devRef .tc main_arg9) = arg m c main_arg9 := (W12_of_ne m ρ c main_arg9 (by decide)).trans ((Stretch.s5_keep_a9 _).trans (c5_a9 m ρ c))
theorem c6_a10 : W12 m ρ c (Proc.devRef .tc main_arg10) = arg m c main_arg10 := (W12_of_ne m ρ c main_arg10 (by decide)).trans ((Stretch.s5_keep_a10 _).trans (c5_a10 m ρ c))

theorem c7_v1 : W14 m ρ c (Proc.devRef .tc main_v1) = Layers.srcR (arg m c main_arg1) := (W14_of_ne m ρ c main_v1 (by decide)).trans ((Stretch.s6_keep_v1 _).trans (c6_v1 m ρ c))
theorem c7_v3 : W14 m ρ c (Proc.devRef .tc main_v3) = Layers.dstR (arg m c main_arg1) := (W14_of_ne m ρ c main_v3 (by decide)).trans ((Stretch.s6_keep_v3 _).trans (c6_v3 m ρ c))
theorem c7_a6 : W14 m ρ c (Proc.devRef .tc main_arg6) = arg m c main_arg6 := (W14_of_ne m ρ c main_arg6 (by decide)).trans ((Stretch.s6_keep_a6 _).trans (c6_a6 m ρ c))
theorem c7_a7 : W14 m ρ c (Proc.devRef .tc main_arg7) = arg m c main_arg7 := (W14_of_ne m ρ c main_arg7 (by decide)).trans ((Stretch.s6_keep_a7 _).trans (c6_a7 m ρ c))
theorem c7_a8 : W14 m ρ c (Proc.devRef .tc main_arg8) = arg m c main_arg8 := (W14_of_ne m ρ c main_arg8 (by decide)).trans ((Stretch.s6_keep_a8 _).trans (c6_a8 m ρ c))
theorem c7_a9 : W14 m ρ c (Proc.devRef .tc main_arg9) = arg m c main_arg9 := (W14_of_ne m ρ c main_arg9 (by decide)).trans ((Stretch.s6_keep_a9 _).trans (c6_a9 m ρ c))
theorem c7_a10 : W14 m ρ c (Proc.devRef .tc main_arg10) = arg m c main_arg10 := (W14_of_ne m ρ c main_arg10 (by decide)).trans ((Stretch.s6_keep_a10 _).trans (c6_a10 m ρ c))

theorem c8_v1 : W16 m ρ c (Proc.devRef .tc main_v1) = Layers.srcR (arg m c main_arg1) := (W16_of_ne m ρ c main_v1 (by decide)).trans ((Stretch.s7_keep_v1 _).trans (c7_v1 m ρ c))
theorem c8_v3 : W16 m ρ c (Proc.devRef .tc main_v3) = Layers.dstR (arg m c main_arg1) := (W16_of_ne m ρ c main_v3 (by decide)).trans ((Stretch.s7_keep_v3 _).trans (c7_v3 m ρ c))
theorem c8_a6 : W16 m ρ c (Proc.devRef .tc main_arg6) = arg m c main_arg6 := (W16_of_ne m ρ c main_arg6 (by decide)).trans ((Stretch.s7_keep_a6 _).trans (c7_a6 m ρ c))
theorem c8_a7 : W16 m ρ c (Proc.devRef .tc main_arg7) = arg m c main_arg7 := (W16_of_ne m ρ c main_arg7 (by decide)).trans ((Stretch.s7_keep_a7 _).trans (c7_a7 m ρ c))
theorem c8_a8 : W16 m ρ c (Proc.devRef .tc main_arg8) = arg m c main_arg8 := (W16_of_ne m ρ c main_arg8 (by decide)).trans ((Stretch.s7_keep_a8 _).trans (c7_a8 m ρ c))
theorem c8_a9 : W16 m ρ c (Proc.devRef .tc main_arg9) = arg m c main_arg9 := (W16_of_ne m ρ c main_arg9 (by decide)).trans ((Stretch.s7_keep_a9 _).trans (c7_a9 m ρ c))
theorem c8_a10 : W16 m ρ c (Proc.devRef .tc main_arg10) = arg m c main_arg10 := (W16_of_ne m ρ c main_arg10 (by decide)).trans ((Stretch.s7_keep_a10 _).trans (c7_a10 m ρ c))

theorem c9_v1 : W18 m ρ c (Proc.devRef .tc main_v1) = Layers.srcR (arg m c main_arg1) := (W18_of_ne m ρ c main_v1 (by decide)).trans ((Stretch.s8_keep_v1 _).trans (c8_v1 m ρ c))
theorem c9_v3 : W18 m ρ c (Proc.devRef .tc main_v3) = Layers.dstR (arg m c main_arg1) := (W18_of_ne m ρ c main_v3 (by decide)).trans ((Stretch.s8_keep_v3 _).trans (c8_v3 m ρ c))
theorem c9_a6 : W18 m ρ c (Proc.devRef .tc main_arg6) = arg m c main_arg6 := (W18_of_ne m ρ c main_arg6 (by decide)).trans ((Stretch.s8_keep_a6 _).trans (c8_a6 m ρ c))
theorem c9_a7 : W18 m ρ c (Proc.devRef .tc main_arg7) = arg m c main_arg7 := (W18_of_ne m ρ c main_arg7 (by decide)).trans ((Stretch.s8_keep_a7 _).trans (c8_a7 m ρ c))
theorem c9_a8 : W18 m ρ c (Proc.devRef .tc main_arg8) = arg m c main_arg8 := (W18_of_ne m ρ c main_arg8 (by decide)).trans ((Stretch.s8_keep_a8 _).trans (c8_a8 m ρ c))
theorem c9_a9 : W18 m ρ c (Proc.devRef .tc main_arg9) = arg m c main_arg9 := (W18_of_ne m ρ c main_arg9 (by decide)).trans ((Stretch.s8_keep_a9 _).trans (c8_a9 m ρ c))
theorem c9_a10 : W18 m ρ c (Proc.devRef .tc main_arg10) = arg m c main_arg10 := (W18_of_ne m ρ c main_arg10 (by decide)).trans ((Stretch.s8_keep_a10 _).trans (c8_a10 m ρ c))

/-! ## Each region's output array -/

/-- Region 0's output: the first layer of the launch contents. -/
theorem out0 : W2 m ρ c (Proc.devRef .tc main_v16) = f0 m c := by
  refine (W2_arr m ρ c 6).trans ((GinRegions.region0 (V1 m ρ) c).trans ?_)
  show Gin.mlp0 (after hostOps0 (W0 m ρ c) (Proc.devRef .tc main_arg0)) (after hostOps0 (W0 m ρ c) (Proc.devRef .tc main_v13))
      (after hostOps0 (W0 m ρ c) (Proc.devRef .tc main_arg2)) (fun k => after hostOps0 (W0 m ρ c) (Proc.devRef .tc main_v14) (ix2 (0 : Fin 1) k))
      (after hostOps0 (W0 m ρ c) (Proc.devRef .tc main_arg4)) (fun j => after hostOps0 (W0 m ρ c) (Proc.devRef .tc main_v15) (ix2 (0 : Fin 1) j)) = _
  rw [Stretch.s0_keep_a0, Stretch.s0_agg, Stretch.s0_keep_a2, Stretch.s0_b1, Stretch.s0_keep_a4, Stretch.s0_b2]
  rfl

/-- Region 1's output: middle layer 0 of region 0's output. -/
theorem out1 : W4 m ρ c (Proc.devRef .tc main_v37) = f1 m c := by
  refine (W4_arr m ρ c 6).trans ((GinRegions.region1 (V3 m ρ) c).trans ?_)
  show Gin.mlpMid (after hostOps1 (W2 m ρ c) (Proc.devRef .tc main_v16)) (after hostOps1 (W2 m ρ c) (Proc.devRef .tc main_v26))
      (after hostOps1 (W2 m ρ c) (Proc.devRef .tc main_v28)) (fun k => after hostOps1 (W2 m ρ c) (Proc.devRef .tc main_v31) (ix2 (0 : Fin 1) k))
      (after hostOps1 (W2 m ρ c) (Proc.devRef .tc main_v33)) (fun j => after hostOps1 (W2 m ρ c) (Proc.devRef .tc main_v36) (ix2 (0 : Fin 1) j)) = _
  rw [Stretch.s1_prev, Stretch.s1_agg, Stretch.s1_w1, Stretch.s1_b1, Stretch.s1_w2, Stretch.s1_b2,
    out0 m ρ c, c1_v1 m ρ c, c1_v3 m ρ c, c1_a6 m ρ c, c1_a7 m ρ c, c1_a8 m ρ c, c1_a9 m ρ c]
  rfl

/-- Region 2's output: middle layer 1 of region 1's output. -/
theorem out2 : W6 m ρ c (Proc.devRef .tc main_v58) = f2 m c := by
  refine (W6_arr m ρ c 6).trans ((GinRegions.region2 (V5 m ρ) c).trans ?_)
  show Gin.mlpMid (after hostOps2 (W4 m ρ c) (Proc.devRef .tc main_v37)) (after hostOps2 (W4 m ρ c) (Proc.devRef .tc main_v47))
      (after hostOps2 (W4 m ρ c) (Proc.devRef .tc main_v49)) (fun k => after hostOps2 (W4 m ρ c) (Proc.devRef .tc main_v52) (ix2 (0 : Fin 1) k))
      (after hostOps2 (W4 m ρ c) (Proc.devRef .tc main_v54)) (fun j => after hostOps2 (W4 m ρ c) (Proc.devRef .tc main_v57) (ix2 (0 : Fin 1) j)) = _
  rw [Stretch.s2_prev, Stretch.s2_agg, Stretch.s2_w1, Stretch.s2_b1, Stretch.s2_w2, Stretch.s2_b2,
    out1 m ρ c, c2_v1 m ρ c, c2_v3 m ρ c, c2_a6 m ρ c, c2_a7 m ρ c, c2_a8 m ρ c, c2_a9 m ρ c]
  rfl

/-- Region 3's output: middle layer 2 of region 2's output. -/
theorem out3 : W8 m ρ c (Proc.devRef .tc main_v79) = f3 m c := by
  refine (W8_arr m ρ c 6).trans ((GinRegions.region3 (V7 m ρ) c).trans ?_)
  show Gin.mlpMid (after hostOps3 (W6 m ρ c) (Proc.devRef .tc main_v58)) (after hostOps3 (W6 m ρ c) (Proc.devRef .tc main_v68))
      (after hostOps3 (W6 m ρ c) (Proc.devRef .tc main_v70)) (fun k => after hostOps3 (W6 m ρ c) (Proc.devRef .tc main_v73) (ix2 (0 : Fin 1) k))
      (after hostOps3 (W6 m ρ c) (Proc.devRef .tc main_v75)) (fun j => after hostOps3 (W6 m ρ c) (Proc.devRef .tc main_v78) (ix2 (0 : Fin 1) j)) = _
  rw [Stretch.s3_prev, Stretch.s3_agg, Stretch.s3_w1, Stretch.s3_b1, Stretch.s3_w2, Stretch.s3_b2,
    out2 m ρ c, c3_v1 m ρ c, c3_v3 m ρ c, c3_a6 m ρ c, c3_a7 m ρ c, c3_a8 m ρ c, c3_a9 m ρ c]
  rfl

/-- Region 4's output: middle layer 3 of region 3's output. -/
theorem out4 : W10 m ρ c (Proc.devRef .tc main_v100) = f4 m c := by
  refine (W10_arr m ρ c 6).trans ((GinRegions.region4 (V9 m ρ) c).trans ?_)
  show Gin.mlpMid (after hostOps4 (W8 m ρ c) (Proc.devRef .tc main_v79)) (after hostOps4 (W8 m ρ c) (Proc.devRef .tc main_v89))
      (after hostOps4 (W8 m ρ c) (Proc.devRef .tc main_v91)) (fun k => after hostOps4 (W8 m ρ c) (Proc.devRef .tc main_v94) (ix2 (0 : Fin 1) k))
      (after hostOps4 (W8 m ρ c) (Proc.devRef .tc main_v96)) (fun j => after hostOps4 (W8 m ρ c) (Proc.devRef .tc main_v99) (ix2 (0 : Fin 1) j)) = _
  rw [Stretch.s4_prev, Stretch.s4_agg, Stretch.s4_w1, Stretch.s4_b1, Stretch.s4_w2, Stretch.s4_b2,
    out3 m ρ c, c4_v1 m ρ c, c4_v3 m ρ c, c4_a6 m ρ c, c4_a7 m ρ c, c4_a8 m ρ c, c4_a9 m ρ c]
  rfl

/-- Region 5's output: middle layer 4 of region 4's output. -/
theorem out5 : W12 m ρ c (Proc.devRef .tc main_v121) = f5 m c := by
  refine (W12_arr m ρ c 6).trans ((GinRegions.region5 (V11 m ρ) c).trans ?_)
  show Gin.mlpMid (after hostOps5 (W10 m ρ c) (Proc.devRef .tc main_v100)) (after hostOps5 (W10 m ρ c) (Proc.devRef .tc main_v110))
      (after hostOps5 (W10 m ρ c) (Proc.devRef .tc main_v112)) (fun k => after hostOps5 (W10 m ρ c) (Proc.devRef .tc main_v115) (ix2 (0 : Fin 1) k))
      (after hostOps5 (W10 m ρ c) (Proc.devRef .tc main_v117)) (fun j => after hostOps5 (W10 m ρ c) (Proc.devRef .tc main_v120) (ix2 (0 : Fin 1) j)) = _
  rw [Stretch.s5_prev, Stretch.s5_agg, Stretch.s5_w1, Stretch.s5_b1, Stretch.s5_w2, Stretch.s5_b2,
    out4 m ρ c, c5_v1 m ρ c, c5_v3 m ρ c, c5_a6 m ρ c, c5_a7 m ρ c, c5_a8 m ρ c, c5_a9 m ρ c]
  rfl

/-- Region 6's output: middle layer 5 of region 5's output. -/
theorem out6 : W14 m ρ c (Proc.devRef .tc main_v142) = f6 m c := by
  refine (W14_arr m ρ c 6).trans ((GinRegions.region6 (V13 m ρ) c).trans ?_)
  show Gin.mlpMid (after hostOps6 (W12 m ρ c) (Proc.devRef .tc main_v121)) (after hostOps6 (W12 m ρ c) (Proc.devRef .tc main_v131))
      (after hostOps6 (W12 m ρ c) (Proc.devRef .tc main_v133)) (fun k => after hostOps6 (W12 m ρ c) (Proc.devRef .tc main_v136) (ix2 (0 : Fin 1) k))
      (after hostOps6 (W12 m ρ c) (Proc.devRef .tc main_v138)) (fun j => after hostOps6 (W12 m ρ c) (Proc.devRef .tc main_v141) (ix2 (0 : Fin 1) j)) = _
  rw [Stretch.s6_prev, Stretch.s6_agg, Stretch.s6_w1, Stretch.s6_b1, Stretch.s6_w2, Stretch.s6_b2,
    out5 m ρ c, c6_v1 m ρ c, c6_v3 m ρ c, c6_a6 m ρ c, c6_a7 m ρ c, c6_a8 m ρ c, c6_a9 m ρ c]
  rfl

/-- Region 7's output: middle layer 6 of region 6's output. -/
theorem out7 : W16 m ρ c (Proc.devRef .tc main_v163) = f7 m c := by
  refine (W16_arr m ρ c 6).trans ((GinRegions.region7 (V15 m ρ) c).trans ?_)
  show Gin.mlpMid (after hostOps7 (W14 m ρ c) (Proc.devRef .tc main_v142)) (after hostOps7 (W14 m ρ c) (Proc.devRef .tc main_v152))
      (after hostOps7 (W14 m ρ c) (Proc.devRef .tc main_v154)) (fun k => after hostOps7 (W14 m ρ c) (Proc.devRef .tc main_v157) (ix2 (0 : Fin 1) k))
      (after hostOps7 (W14 m ρ c) (Proc.devRef .tc main_v159)) (fun j => after hostOps7 (W14 m ρ c) (Proc.devRef .tc main_v162) (ix2 (0 : Fin 1) j)) = _
  rw [Stretch.s7_prev, Stretch.s7_agg, Stretch.s7_w1, Stretch.s7_b1, Stretch.s7_w2, Stretch.s7_b2,
    out6 m ρ c, c7_v1 m ρ c, c7_v3 m ρ c, c7_a6 m ρ c, c7_a7 m ρ c, c7_a8 m ρ c, c7_a9 m ρ c]
  rfl

/-- Region 8's output: middle layer 7 of region 7's output. -/
theorem out8 : W18 m ρ c (Proc.devRef .tc main_v184) = f8 m c := by
  refine (W18_arr m ρ c 6).trans ((GinRegions.region8 (V17 m ρ) c).trans ?_)
  show Gin.mlpMid (after hostOps8 (W16 m ρ c) (Proc.devRef .tc main_v163)) (after hostOps8 (W16 m ρ c) (Proc.devRef .tc main_v173))
      (after hostOps8 (W16 m ρ c) (Proc.devRef .tc main_v175)) (fun k => after hostOps8 (W16 m ρ c) (Proc.devRef .tc main_v178) (ix2 (0 : Fin 1) k))
      (after hostOps8 (W16 m ρ c) (Proc.devRef .tc main_v180)) (fun j => after hostOps8 (W16 m ρ c) (Proc.devRef .tc main_v183) (ix2 (0 : Fin 1) j)) = _
  rw [Stretch.s8_prev, Stretch.s8_agg, Stretch.s8_w1, Stretch.s8_b1, Stretch.s8_w2, Stretch.s8_b2,
    out7 m ρ c, c8_v1 m ρ c, c8_v3 m ρ c, c8_a6 m ρ c, c8_a7 m ρ c, c8_a8 m ρ c, c8_a9 m ρ c]
  rfl

/-- The last region's output: the whole network of the launch contents of the eleven arguments. -/
theorem out9 : W20 m ρ c (Proc.devRef .tc main_v195)
    = Layers.kOut (arg m c main_arg0) (arg m c main_arg1) (arg m c main_arg2) (arg m c main_arg3) (arg m c main_arg4)
        (arg m c main_arg5) (arg m c main_arg6) (arg m c main_arg7) (arg m c main_arg8) (arg m c main_arg9) (arg m c main_arg10) := by
  refine (W20_arr m ρ c 3).trans ((GinRegions.region9 (V19 m ρ) c).trans ?_)
  show Gin.fin (after hostOps9 (W18 m ρ c) (Proc.devRef .tc main_v184)) (after hostOps9 (W18 m ρ c) (Proc.devRef .tc main_v194))
      (after hostOps9 (W18 m ρ c) (Proc.devRef .tc main_arg10)) = _
  rw [Stretch.s9_prev, Stretch.s9_agg, Stretch.s9_keep_a10, out8 m ρ c, c9_v1 m ρ c, c9_v3 m ρ c, c9_a10 m ρ c]
  rfl

end Cert.KernelIdeal.Chain

end
-- ==== Proof.KValue.lean ====
/-
  The kernel program's run with its result: every weakly fair execution of @main at the ideal values terminates,
  nothing faulting, with the result buffer at the whole network of the launch contents of the eleven arguments (the
  composition of the specification's ten layers) and every argument array as launched.
-/
import proofs.«175125_j35716948034103_1_alg».proof.Proof.KRun
import proofs.«175125_j35716948034103_1_alg».proof.Proof.KChain

noncomputable section

namespace Cert.KernelIdeal.Value

open Idealize.ShloMosaic Idealize.ShloMosaic.TcCoe Idealize.SL.Sem
open Cert.KernelIdeal Cert.KernelIdeal.Gen

/-- The run of the idealized kernel program with its result named. -/
theorem value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v195)
          = Layers.kOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
      ⟨(h c _ (mem_uc main_v195 (by decide))).trans (Chain.out9 m ρ c),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c)⟩)
    (Run.run_W20 m ρ)

end Cert.KernelIdeal.Value

end
-- ==== Proof.RefDefs.lean ====
/-
  The reference program's layers as whole-array terms: each definition is the composition of the host operations the
  reference applies, in its own order and spelling, so that the run's result at a layer's last buffer is one of these
  terms applied to the previous layer's result and to the argument arrays.

  * the source and destination node of every edge (rows 0 and 1 of the edge array, each reshaped to a vector);
  * the neighbour sum: rows of the features gathered at the (wrapped) source nodes and scatter-added at the
    destination nodes into zeros;
  * selu, with the library's elu inlined (the inner select keeps the argument of the exponential at 0 where the
    outer select takes the positive branch);
  * a perceptron layer  selu((h + a)·w1 + b1)·w2 + b2  (with the residual + h for the middle layers), the bias
    vectors laid as a row and repeated down the rows;
  * the last layer (h + a)·w.
-/
import proofs.«175125_j35716948034103_1_alg».proof.ReferenceIdeal

noncomputable section

namespace Cert.ReferenceIdeal.Layers

open Idealize.ShloMosaic Cert.ReferenceIdeal Cert.ReferenceIdeal.Facts₀ Cert.ReferenceIdeal.Facts

variable [Cert.ReferenceIdeal.Facts]
variable {F : FTy → Type} [FloatOps F]

/-- Row `k` of the edge array as a vector of node numbers (k = 0: sources). -/
def srcR (ei : IVec S2x1600000 32) : IVec S1600000 32 :=
  shapeCast S1600000 (extractStridedSlice S1x1600000 ![0, 0] ei slices_S2x1600000_S1x1600000_0_0) shapeCasts_S1x1600000_S1600000
/-- Row 1 of the edge array: destinations. -/
def dstR (ei : IVec S2x1600000 32) : IVec S1600000 32 :=
  shapeCast S1600000 (extractStridedSlice S1x1600000 ![1, 0] ei slices_S2x1600000_S1x1600000_1_0) shapeCasts_S1x1600000_S1600000

/-- The source nodes with a negative number wrapped by the node count, as a column of gather indices. -/
def srcCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)
/-- The destination nodes as a column of scatter indices. -/
def dstCol (dst : IVec S1600000 32) : IVec S1600000x1 32 :=
  broadcastInDim S1600000x1 ![0] bcast_S1600000_S1600000x1_0 dst

/-- Neighbour sums of one-feature rows. -/
def agg1 (h : FVec F S100000x1 .f32) (src dst : IVec S1600000 32) : FVec F S100000x1 .f32 :=
  Host.scatterAdd scatter_S100000x1_S1600000x1_S1600000x1_1_0_0_1
    (broadcastInDim S100000x1 ![] bcast_S_S100000x1 (constant S_ .f32 0x00000000#32)) (dstCol dst)
    (Host.gather gather_S100000x1_S1600000x1_S1600000x1_1_0_n_n_0_1_11 h (srcCol src))
/-- Neighbour sums of thirty-two-feature rows. -/
def agg32 (h : FVec F S100000x32 .f32) (src dst : IVec S1600000 32) : FVec F S100000x32 .f32 :=
  Host.scatterAdd scatter_S100000x32_S1600000x1_S1600000x32_1_0_0_1
    (broadcastInDim S100000x32 ![] bcast_S_S100000x32 (constant S_ .f32 0x00000000#32)) (dstCol dst)
    (Host.gather gather_S100000x32_S1600000x1_S1600000x32_1_0_n_n_0_1_132 h (srcCol src))

/-- A scalar repeated over the hidden layer's shape. -/
abbrev splat16 (x : FVec F S_ .f32) : FVec F S100000x16 .f32 := broadcastInDim S100000x16 ![] bcast_S_S100000x16 x

/-- selu as the reference spells it (elu and its two selects inlined). -/
def seluR (x : FVec F S100000x16 .f32) : FVec F S100000x16 .f32 :=
  mulf (splat16 (constant S_ .f32 0x3F867D5F#32))
    (select (cmpf .ogt x (splat16 (constant S_ .f32 0x00000000#32))) x
      (mulf (splat16 (id (constant S_ .f32 0x3FD62D7D#32)))
        (Host.expm1 (select (cmpf .ogt x (splat16 (constant S_ .f32 0x00000000#32)))
          (splat16 (id (constant S_ .f32 0x00000000#32))) x))))

/-- A bias vector of 16 laid as a row and repeated down the rows. -/
abbrev bias16 (b : FVec F S16 .f32) : FVec F S100000x16 .f32 :=
  broadcastInDim S100000x16 ![0, 1] bcast_S1x16_S100000x16_0_1 (broadcastInDim S1x16 ![1] bcast_S16_S1x16_1 b)
/-- A bias vector of 32 laid as a row and repeated down the rows. -/
abbrev bias32 (b : FVec F S32 .f32) : FVec F S100000x32 .f32 :=
  broadcastInDim S100000x32 ![0, 1] bcast_S1x32_S100000x32_0_1 (broadcastInDim S1x32 ![1] bcast_S32_S1x32_1 b)

/-- The first layer: h is x, a its neighbour sums. -/
def dense0 (h a : FVec F S100000x1 .f32) (w1 : FVec F S1x16 .f32) (b1 : FVec F S16 .f32) (w2 : FVec F S16x32 .f32)
    (b2 : FVec F S32 .f32) : FVec F S100000x32 .f32 :=
  addf (Host.dotGeneral dot_S100000x16_S16x32_S100000x32_1_0_0_1_n_n none
      (seluR (addf (Host.dotGeneral dot_S100000x1_S1x16_S100000x16_1_0_0_1_n_n none (addf h a) w1) (bias16 b1))) w2) (bias32 b2)

/-- A middle layer, with the residual. -/
def denseMid (h a : FVec F S100000x32 .f32) (w1 : FVec F S32x16 .f32) (b1 : FVec F S16 .f32) (w2 : FVec F S16x32 .f32)
    (b2 : FVec F S32 .f32) : FVec F S100000x32 .f32 :=
  addf (addf (Host.dotGeneral dot_S100000x16_S16x32_S100000x32_1_0_0_1_n_n none
      (seluR (addf (Host.dotGeneral dot_S100000x32_S32x16_S100000x16_1_0_0_1_n_n none (addf h a) w1) (bias16 b1))) w2) (bias32 b2)) h

/-- The last layer. -/
def denseFin (h a : FVec F S100000x32 .f32) (w : FVec F S32x1 .f32) : FVec F S100000x1 .f32 :=
  Host.dotGeneral dot_S100000x32_S32x1_S100000x1_1_0_0_1_n_n none (addf h a) w

/-! ## The middle layers' weights: block k of each stacked array, its leading unit axis dropped -/

/-- Block k of the stacked first weights, a 32 × 16 matrix. -/
def w1s (W : FVec F S8x32x16 .f32) : Fin 8 → FVec F S32x16 .f32
  | 0 => shapeCast S32x16 (extractStridedSlice S1x32x16 ![0, 0, 0] W slices_S8x32x16_S1x32x16_0_0_0) shapeCasts_S1x32x16_S32x16
  | 1 => shapeCast S32x16 (extractStridedSlice S1x32x16 ![1, 0, 0] W slices_S8x32x16_S1x32x16_1_0_0) shapeCasts_S1x32x16_S32x16
  | 2 => shapeCast S32x16 (extractStridedSlice S1x32x16 ![2, 0, 0] W slices_S8x32x16_S1x32x16_2_0_0) shapeCasts_S1x32x16_S32x16
  | 3 => shapeCast S32x16 (extractStridedSlice S1x32x16 ![3, 0, 0] W slices_S8x32x16_S1x32x16_3_0_0) shapeCasts_S1x32x16_S32x16
  | 4 => shapeCast S32x16 (extractStridedSlice S1x32x16 ![4, 0, 0] W slices_S8x32x16_S1x32x16_4_0_0) shapeCasts_S1x32x16_S32x16
  | 5 => shapeCast S32x16 (extractStridedSlice S1x32x16 ![5, 0, 0] W slices_S8x32x16_S1x32x16_5_0_0) shapeCasts_S1x32x16_S32x16
  | 6 => shapeCast S32x16 (extractStridedSlice S1x32x16 ![6, 0, 0] W slices_S8x32x16_S1x32x16_6_0_0) shapeCasts_S1x32x16_S32x16
  | 7 => shapeCast S32x16 (extractStridedSlice S1x32x16 ![7, 0, 0] W slices_S8x32x16_S1x32x16_7_0_0) shapeCasts_S1x32x16_S32x16
  | ⟨_ + 8, h⟩ => absurd h (Nat.not_lt.2 (Nat.le_add_left _ _))

/-- Row k of the stacked first biases, a vector of 16. -/
def b1s (W : FVec F S8x16 .f32) : Fin 8 → FVec F S16 .f32
  | 0 => shapeCast S16 (extractStridedSlice S1x16 ![0, 0] W slices_S8x16_S1x16_0_0) shapeCasts_S1x16_S16
  | 1 => shapeCast S16 (extractStridedSlice S1x16 ![1, 0] W slices_S8x16_S1x16_1_0) shapeCasts_S1x16_S16
  | 2 => shapeCast S16 (extractStridedSlice S1x16 ![2, 0] W slices_S8x16_S1x16_2_0) shapeCasts_S1x16_S16
  | 3 => shapeCast S16 (extractStridedSlice S1x16 ![3, 0] W slices_S8x16_S1x16_3_0) shapeCasts_S1x16_S16
  | 4 => shapeCast S16 (extractStridedSlice S1x16 ![4, 0] W slices_S8x16_S1x16_4_0) shapeCasts_S1x16_S16
  | 5 => shapeCast S16 (extractStridedSlice S1x16 ![5, 0] W slices_S8x16_S1x16_5_0) shapeCasts_S1x16_S16
  | 6 => shapeCast S16 (extractStridedSlice S1x16 ![6, 0] W slices_S8x16_S1x16_6_0) shapeCasts_S1x16_S16
  | 7 => shapeCast S16 (extractStridedSlice S1x16 ![7, 0] W slices_S8x16_S1x16_7_0) shapeCasts_S1x16_S16
  | ⟨_ + 8, h⟩ => absurd h (Nat.not_lt.2 (Nat.le_add_left _ _))

/-- Block k of the stacked second weights, a 16 × 32 matrix. -/
def w2s (W : FVec F S8x16x32 .f32) : Fin 8 → FVec F S16x32 .f32
  | 0 => shapeCast S16x32 (extractStridedSlice S1x16x32 ![0, 0, 0] W slices_S8x16x32_S1x16x32_0_0_0) shapeCasts_S1x16x32_S16x32
  | 1 => shapeCast S16x32 (extractStridedSlice S1x16x32 ![1, 0, 0] W slices_S8x16x32_S1x16x32_1_0_0) shapeCasts_S1x16x32_S16x32
  | 2 => shapeCast S16x32 (extractStridedSlice S1x16x32 ![2, 0, 0] W slices_S8x16x32_S1x16x32_2_0_0) shapeCasts_S1x16x32_S16x32
  | 3 => shapeCast S16x32 (extractStridedSlice S1x16x32 ![3, 0, 0] W slices_S8x16x32_S1x16x32_3_0_0) shapeCasts_S1x16x32_S16x32
  | 4 => shapeCast S16x32 (extractStridedSlice S1x16x32 ![4, 0, 0] W slices_S8x16x32_S1x16x32_4_0_0) shapeCasts_S1x16x32_S16x32
  | 5 => shapeCast S16x32 (extractStridedSlice S1x16x32 ![5, 0, 0] W slices_S8x16x32_S1x16x32_5_0_0) shapeCasts_S1x16x32_S16x32
  | 6 => shapeCast S16x32 (extractStridedSlice S1x16x32 ![6, 0, 0] W slices_S8x16x32_S1x16x32_6_0_0) shapeCasts_S1x16x32_S16x32
  | 7 => shapeCast S16x32 (extractStridedSlice S1x16x32 ![7, 0, 0] W slices_S8x16x32_S1x16x32_7_0_0) shapeCasts_S1x16x32_S16x32
  | ⟨_ + 8, h⟩ => absurd h (Nat.not_lt.2 (Nat.le_add_left _ _))

/-- Row k of the stacked second biases, a vector of 32. -/
def b2s (W : FVec F S8x32 .f32) : Fin 8 → FVec F S32 .f32
  | 0 => shapeCast S32 (extractStridedSlice S1x32 ![0, 0] W slices_S8x32_S1x32_0_0) shapeCasts_S1x32_S32
  | 1 => shapeCast S32 (extractStridedSlice S1x32 ![1, 0] W slices_S8x32_S1x32_1_0) shapeCasts_S1x32_S32
  | 2 => shapeCast S32 (extractStridedSlice S1x32 ![2, 0] W slices_S8x32_S1x32_2_0) shapeCasts_S1x32_S32
  | 3 => shapeCast S32 (extractStridedSlice S1x32 ![3, 0] W slices_S8x32_S1x32_3_0) shapeCasts_S1x32_S32
  | 4 => shapeCast S32 (extractStridedSlice S1x32 ![4, 0] W slices_S8x32_S1x32_4_0) shapeCasts_S1x32_S32
  | 5 => shapeCast S32 (extractStridedSlice S1x32 ![5, 0] W slices_S8x32_S1x32_5_0) shapeCasts_S1x32_S32
  | 6 => shapeCast S32 (extractStridedSlice S1x32 ![6, 0] W slices_S8x32_S1x32_6_0) shapeCasts_S1x32_S32
  | 7 => shapeCast S32 (extractStridedSlice S1x32 ![7, 0] W slices_S8x32_S1x32_7_0) shapeCasts_S1x32_S32
  | ⟨_ + 8, h⟩ => absurd h (Nat.not_lt.2 (Nat.le_add_left _ _))

/-- Middle layer k applied to the features h. -/
def layer (ei : IVec S2x1600000 32) (W1 : FVec F S8x32x16 .f32) (B1 : FVec F S8x16 .f32) (W2 : FVec F S8x16x32 .f32)
    (B2 : FVec F S8x32 .f32) (k : Fin 8) (h : FVec F S100000x32 .f32) : FVec F S100000x32 .f32 :=
  denseMid h (agg32 h (srcR ei) (dstR ei)) (w1s W1 k) (b1s B1 k) (w2s W2 k) (b2s B2 k)

/-- The features after the first layer and the eight middle layers. -/
def feats (x : FVec F S100000x1 .f32) (ei : IVec S2x1600000 32) (w10 : FVec F S1x16 .f32) (b10 : FVec F S16 .f32)
    (w20 : FVec F S16x32 .f32) (b20 : FVec F S32 .f32) (W1 : FVec F S8x32x16 .f32) (B1 : FVec F S8x16 .f32)
    (W2 : FVec F S8x16x32 .f32) (B2 : FVec F S8x32 .f32) : FVec F S100000x32 .f32 :=
  layer ei W1 B1 W2 B2 7 (layer ei W1 B1 W2 B2 6 (layer ei W1 B1 W2 B2 5 (layer ei W1 B1 W2 B2 4
    (layer ei W1 B1 W2 B2 3 (layer ei W1 B1 W2 B2 2 (layer ei W1 B1 W2 B2 1 (layer ei W1 B1 W2 B2 0
      (dense0 x (agg1 x (srcR ei) (dstR ei)) w10 b10 w20 b20))))))))

/-- The reference's result as a function of its eleven argument arrays. -/
def refOut (x : FVec F S100000x1 .f32) (ei : IVec S2x1600000 32) (w10 : FVec F S1x16 .f32) (b10 : FVec F S16 .f32)
    (w20 : FVec F S16x32 .f32) (b20 : FVec F S32 .f32) (W1 : FVec F S8x32x16 .f32) (B1 : FVec F S8x16 .f32)
    (W2 : FVec F S8x16x32 .f32) (B2 : FVec F S8x32 .f32) (wl : FVec F S32x1 .f32) : FVec F S100000x1 .f32 :=
  denseFin (feats x ei w10 b10 w20 b20 W1 B1 W2 B2)
    (agg32 (feats x ei w10 b10 w20 b20 W1 B1 W2 B2) (srcR ei) (dstR ei)) wl

end Cert.ReferenceIdeal.Layers

end
-- ==== Proof.RefRun.Ops.lean ====
/-
  The reference program's operations as ten lists, one per layer of the network: the first layer, the eight middle
  layers, the last layer.  Each list holds the layer's host operations in program order, the three nested activation
  functions (selu, the elu inside it, and the two selects inside that) written out operation by operation at each of
  their nine uses over that use's own buffers.  Every operation writes one buffer from the contents of its operand
  buffers; beside each list: every buffer it touches is a TensorCore buffer, and no operation leaves a result
  undetermined.
-/
import proofs.«175125_j35716948034103_1_alg».proof.Proof.RefDefs
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts]
variable {F : FTy → Type} [FloatOps F]

/-- The first layer: the source and destination vectors of the edges, the neighbour sums of the one-feature rows, and the perceptron without residual; its last operation writes the first layer's features. (45 operations, in program order.) -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x1_S1600000x1_S1600000x1_1_0_n_n_0_1_11 x i) : (⟨S100000x1, .f32⟩ : BufTy).Contents (Elt F) → (⟨S1600000x1, .i32⟩ : BufTy).Contents (Elt F) → (⟨S1600000x1, .f32⟩ : BufTy).Contents (Elt F)),
    StableHlo.nullary main_cst (constant S_ .f32 0x00000000#32),
    StableHlo.unary main_cst main_v11 (broadcastInDim S100000x1 ![] bcast_S_S100000x1 : (⟨S_, .f32⟩ : BufTy).Contents (Elt F) → (⟨S100000x1, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.binary main_arg0 main_v13 main_v14 (addf : (⟨S100000x1, .f32⟩ : BufTy).Contents (Elt F) → (⟨S100000x1, .f32⟩ : BufTy).Contents (Elt F) → (⟨S100000x1, .f32⟩ : BufTy).Contents (Elt F)),
    StableHlo.binary main_v14 main_arg2 main_v15 ((fun l r => Host.dotGeneral dot_S100000x1_S1x16_S100000x16_1_0_0_1_n_n none l r) : (⟨S100000x1, .f32⟩ : BufTy).Contents (Elt F) → (⟨S1x16, .f32⟩ : BufTy).Contents (Elt F) → (⟨S100000x16, .f32⟩ : BufTy).Contents (Elt F)),
    StableHlo.unary main_arg3 main_v16 (broadcastInDim S1x16 ![1] bcast_S16_S1x16_1 : (⟨S16, .f32⟩ : BufTy).Contents (Elt F) → (⟨S1x16, .f32⟩ : BufTy).Contents (Elt F)),
    StableHlo.unary main_v16 main_v17 (broadcastInDim S100000x16 ![0, 1] bcast_S1x16_S100000x16_0_1 : (⟨S1x16, .f32⟩ : BufTy).Contents (Elt F) → (⟨S100000x16, .f32⟩ : BufTy).Contents (Elt F)),
    StableHlo.binary main_v15 main_v17 main_v18 (addf : (⟨S100000x16, .f32⟩ : BufTy).Contents (Elt F) → (⟨S100000x16, .f32⟩ : BufTy).Contents (Elt F) → (⟨S100000x16, .f32⟩ : BufTy).Contents (Elt F)),
    TRef.nullary main_call0.cst (constant S_ .f32 0x3FD62D7D#32),
    TRef.nullary main_call0.call0.cst (constant S_ .f32 0x00000000#32),
    TRef.unary main_call0.call0.cst main_call0.call0.v0 (broadcastInDim S100000x16 ![] bcast_S_S100000x16),
    TRef.binary (.of main_v18) main_call0.call0.v0 main_call0.call0.v1 (cmpf .ogt),
    TRef.nullary main_call0.call0.cst_0 (constant S_ .f32 0x00000000#32),
    TRef.unary main_call0.call0.cst_0 main_call0.call0.v2 (broadcastInDim S100000x16 ![] bcast_S_S100000x16),
    TRef.binary (.of main_v18) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S100000x16 ![] bcast_S_S100000x16),
    TRef.ternary main_call0.call0.v3 main_call0.call0.call0.v1 (.of main_v18) main_call0.call0.call0.v2 select,
    TRef.unary main_call0.call0.call0.v2 main_call0.call0.v5 Host.expm1,
    TRef.unary main_call0.cst main_call0.call0.v6 id,
    TRef.unary main_call0.call0.v6 main_call0.call0.v7 (broadcastInDim S100000x16 ![] bcast_S_S100000x16),
    TRef.binary main_call0.call0.v7 main_call0.call0.v5 main_call0.call0.v8 mulf,
    TRef.ternary main_call0.call0.v1 (.of main_v18) main_call0.call0.v8 main_call0.call0.call1.v0 select,
    TRef.nullary main_call0.cst_0 (constant S_ .f32 0x3F867D5F#32),
    TRef.unary main_call0.cst_0 main_call0.v1 (broadcastInDim S100000x16 ![] bcast_S_S100000x16),
    TRef.binary main_call0.v1 main_call0.call0.call1.v0 main_call0.v2 mulf,
    StableHlo.binary main_v19 main_arg4 main_v20 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg5 main_v21 (broadcastInDim S1x32 ![1] bcast_S32_S1x32_1 : (⟨S32, .f32⟩ : BufTy).Contents (Elt F) → (⟨S1x32, .f32⟩ : BufTy).Contents (Elt F)),
    StableHlo.unary main_v21 main_v22 (broadcastInDim S100000x32 ![0, 1] bcast_S1x32_S100000x32_0_1 : (⟨S1x32, .f32⟩ : BufTy).Contents (Elt F) → (⟨S100000x32, .f32⟩ : BufTy).Contents (Elt F)),
    StableHlo.binary main_v20 main_v22 main_v23 (addf : (⟨S100000x32, .f32⟩ : BufTy).Contents (Elt F) → (⟨S100000x32, .f32⟩ : BufTy).Contents (Elt F) → (⟨S100000x32, .f32⟩ : BufTy).Contents (Elt F)) ]

/-- Middle layer 1: the neighbour sums of the previous features, the perceptron over block 0 of the stacked weights, and the residual sum. (50 operations, in program order.) -/
abbrev ops1 : List (HloOp τ sig (Elt F)) :=
  [ StableHlo.nullary main_c_1 (constantI S_ 32 0#32),
    StableHlo.unary main_c_1 main_v24 (broadcastInDim S1600000 ![] bcast_S_S1600000 : (⟨S_, .i32⟩ : BufTy).Contents (Elt F) → (⟨S1600000, .i32⟩ : BufTy).Contents (Elt F)),
    StableHlo.binary main_v1 main_v24 main_v25 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v26 (broadcastInDim S1600000 ![] bcast_S_S1600000 : (⟨S_, .i32⟩ : BufTy).Contents (Elt F) → (⟨S1600000, .i32⟩ : BufTy).Contents (Elt F)),
    StableHlo.binary main_v1 main_v26 main_v27 (addi : (⟨S1600000, .i32⟩ : BufTy).Contents (Elt F) → (⟨S1600000, .i32⟩ : BufTy).Contents (Elt F) → (⟨S1600000, .i32⟩ : BufTy).Contents (Elt F)),
    StableHlo.ternary main_v25 main_v27 main_v1 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v28 main_v29 (broadcastInDim S1600000x1 ![0] bcast_S1600000_S1600000x1_0 : (⟨S1600000, .i32⟩ : BufTy).Contents (Elt F) → (⟨S1600000x1, .i32⟩ : BufTy).Contents (Elt F)),
    StableHlo.binary main_v23 main_v29 main_v30 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_3 (constant S_ .f32 0x00000000#32),
    StableHlo.unary main_cst_3 main_v31 (broadcastInDim S100000x32 ![] bcast_S_S100000x32 : (⟨S_, .f32⟩ : BufTy).Contents (Elt F) → (⟨S100000x32, .f32⟩ : BufTy).Contents (Elt F)),
    StableHlo.unary main_v3 main_v32 (broadcastInDim S1600000x1 ![0] bcast_S1600000_S1600000x1_0 : (⟨S1600000, .i32⟩ : BufTy).Contents (Elt F) → (⟨S1600000x1, .i32⟩ : BufTy).Contents (Elt F)),
    StableHlo.ternary main_v31 main_v32 main_v30 main_v33 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v23 main_v33 main_v34 (addf : (⟨S100000x32, .f32⟩ : BufTy).Contents (Elt F) → (⟨S100000x32, .f32⟩ : BufTy).Contents (Elt F) → (⟨S100000x32, .f32⟩ : BufTy).Contents (Elt F)),
    StableHlo.unary main_arg6 main_v35 ((extractStridedSlice S1x32x16 ![0, 0, 0] · slices_S8x32x16_S1x32x16_0_0_0) : (⟨S8x32x16, .f32⟩ : BufTy).Contents (Elt F) → (⟨S1x32x16, .f32⟩ : BufTy).Contents (Elt F)),
    StableHlo.reshape main_v35 main_v36 rfl shapeCasts_S1x32x16_S32x16,
    StableHlo.binary main_v34 main_v36 main_v37 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg7 main_v38 ((extractStridedSlice S1x16 ![0, 0] · slices_S8x16_S1x16_0_0) : (⟨S8x16, .f32⟩ : BufTy).Contents (Elt F) → (⟨S1x16, .f32⟩ : BufTy).Contents (Elt F)),
    StableHlo.reshape main_v38 main_v39 rfl shapeCasts_S1x16_S16,
    StableHlo.unary main_v39 main_v40 (broadcastInDim S1x16 ![1] bcast_S16_S1x16_1 : (⟨S16, .f32⟩ : BufTy).Contents (Elt F) → (⟨S1x16, .f32⟩ : BufTy).Contents (Elt F)),
    StableHlo.unary main_v40 main_v41 (broadcastInDim S100000x16 ![0, 1] bcast_S1x16_S100000x16_0_1 : (⟨S1x16, .f32⟩ : BufTy).Contents (Elt F) → (⟨S100000x16, .f32⟩ : BufTy).Contents (Elt F)),
    StableHlo.binary main_v37 main_v41 main_v42 (addf : (⟨S100000x16, .f32⟩ : BufTy).Contents (Elt F) → (⟨S100000x16, .f32⟩ : BufTy).Contents (Elt F) → (⟨S100000x16, .f32⟩ : BufTy).Contents (Elt F)),
    TRef.nullary main_call1.cst (constant S_ .f32 0x3FD62D7D#32),
    TRef.nullary main_call1.call0.cst (constant S_ .f32 0x00000000#32),
    TRef.unary main_call1.call0.cst main_call1.call0.v0 (broadcastInDim S100000x16 ![] bcast_S_S100000x16),
    TRef.binary (.of main_v42) main_call1.call0.v0 main_call1.call0.v1 (cmpf .ogt),
    TRef.nullary main_call1.call0.cst_0 (constant S_ .f32 0x00000000#32),
    TRef.unary main_call1.call0.cst_0 main_call1.call0.v2 (broadcastInDim S100000x16 ![] bcast_S_S100000x16),
    TRef.binary (.of main_v42) main_call1.call0.v2 main_call1.call0.v3 (cmpf .ogt),
    TRef.nullary main_call1.call0.cst_1 (constant S_ .f32 0x00000000#32),
    TRef.unary main_call1.call0.cst_1 main_call1.call0.call0.v0 id,
    TRef.unary main_call1.call0.call0.v0 main_call1.call0.call0.v1 (broadcastInDim S100000x16 ![] bcast_S_S100000x16),
    TRef.ternary main_call1.call0.v3 main_call1.call0.call0.v1 (.of main_v42) main_call1.call0.call0.v2 select,
    TRef.unary main_call1.call0.call0.v2 main_call1.call0.v5 Host.expm1,
    TRef.unary main_call1.cst main_call1.call0.v6 id,
    TRef.unary main_call1.call0.v6 main_call1.call0.v7 (broadcastInDim S100000x16 ![] bcast_S_S100000x16),
    TRef.binary main_call1.call0.v7 main_call1.call0.v5 main_call1.call0.v8 mulf,
    TRef.ternary main_call1.call0.v1 (.of main_v42) main_call1.call0.v8 main_call1.call0.call1.v0 select,
    TRef.nullary main_call1.cst_0 (constant S_ .f32 0x3F867D5F#32),
    TRef.unary main_call1.cst_0 main_call1.v1 (broadcastInDim S100000x16 ![] bcast_S_S100000x16),
    TRef.binary main_call1.v1 main_call1.call0.call1.v0 main_call1.v2 mulf,
    StableHlo.unary main_arg8 main_v44 ((extractStridedSlice S1x16x32 ![0, 0, 0] · slices_S8x16x32_S1x16x32_0_0_0) : (⟨S8x16x32, .f32⟩ : BufTy).Contents (Elt F) → (⟨S1x16x32, .f32⟩ : BufTy).Contents (Elt F)),
    StableHlo.reshape main_v44 main_v45 rfl shapeCasts_S1x16x32_S16x32,
    StableHlo.binary main_v43 main_v45 main_v46 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v47 ((extractStridedSlice S1x32 ![0, 0] · slices_S8x32_S1x32_0_0) : (⟨S8x32, .f32⟩ : BufTy).Contents (Elt F) → (⟨S1x32, .f32⟩ : BufTy).Contents (Elt F)),
    StableHlo.reshape main_v47 main_v48 rfl shapeCasts_S1x32_S32,
    StableHlo.unary main_v48 main_v49 (broadcastInDim S1x32 ![1] bcast_S32_S1x32_1 : (⟨S32, .f32⟩ : BufTy).Contents (Elt F) → (⟨S1x32, .f32⟩ : BufTy).Contents (Elt F)),
    StableHlo.unary main_v49 main_v50 (broadcastInDim S100000x32 ![0, 1] bcast_S1x32_S100000x32_0_1 : (⟨S1x32, .f32⟩ : BufTy).Contents (Elt F) → (⟨S100000x32, .f32⟩ : BufTy).Contents (Elt F)),
    StableHlo.binary main_v46 main_v50 main_v51 (addf : (⟨S100000x32, .f32⟩ : BufTy).Contents (Elt F) → (⟨S100000x32, .f32⟩ : BufTy).Contents (Elt F) → (⟨S100000x32, .f32⟩ : BufTy).Contents (Elt F)),
    StableHlo.binary main_v51 main_v23 main_v52 (addf : (⟨S100000x32, .f32⟩ : BufTy).Contents (Elt F) → (⟨S100000x32, .f32⟩ : BufTy).Contents (Elt F) → (⟨S100000x32, .f32⟩ : BufTy).Contents (Elt F)) ]

/-- Middle layer 2: the neighbour sums of the previous features, the perceptron over block 1 of the stacked weights, and the residual sum. (50 operations, in program order.) -/
abbrev ops2 : List (HloOp τ sig (Elt F)) :=
  [ StableHlo.nullary main_c_4 (constantI S_ 32 0#32),
    StableHlo.unary main_c_4 main_v53 (broadcastInDim S1600000 ![] bcast_S_S1600000 : (⟨S_, .i32⟩ : BufTy).Contents (Elt F) → (⟨S1600000, .i32⟩ : BufTy).Contents (Elt F)),
    StableHlo.binary main_v1 main_v53 main_v54 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v55 (broadcastInDim S1600000 ![] bcast_S_S1600000 : (⟨S_, .i32⟩ : BufTy).Contents (Elt F) → (⟨S1600000, .i32⟩ : BufTy).Contents (Elt F)),
    StableHlo.binary main_v1 main_v55 main_v56 (addi : (⟨S1600000, .i32⟩ : BufTy).Contents (Elt F) → (⟨S1600000, .i32⟩ : BufTy).Contents (Elt F) → (⟨S1600000, .i32⟩ : BufTy).Contents (Elt F)),
    StableHlo.ternary main_v54 main_v56 main_v1 main_v57 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v57 main_v58 (broadcastInDim S1600000x1 ![0] bcast_S1600000_S1600000x1_0 : (⟨S1600000, .i32⟩ : BufTy).Contents (Elt F) → (⟨S1600000x1, .i32⟩ : BufTy).Contents (Elt F)),
    StableHlo.binary main_v52 main_v58 main_v59 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_6 (constant S_ .f32 0x00000000#32),
    StableHlo.unary main_cst_6 main_v60 (broadcastInDim S100000x32 ![] bcast_S_S100000x32 : (⟨S_, .f32⟩ : BufTy).Contents (Elt F) → (⟨S100000x32, .f32⟩ : BufTy).Contents (Elt F)),
    StableHlo.unary main_v3 main_v61 (broadcastInDim S1600000x1 ![0] bcast_S1600000_S1600000x1_0 : (⟨S1600000, .i32⟩ : BufTy).Contents (Elt F) → (⟨S1600000x1, .i32⟩ : BufTy).Contents (Elt F)),
    StableHlo.ternary main_v60 main_v61 main_v59 main_v62 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v52 main_v62 main_v63 (addf : (⟨S100000x32, .f32⟩ : BufTy).Contents (Elt F) → (⟨S100000x32, .f32⟩ : BufTy).Contents (Elt F) → (⟨S100000x32, .f32⟩ : BufTy).Contents (Elt F)),
    StableHlo.unary main_arg6 main_v64 ((extractStridedSlice S1x32x16 ![1, 0, 0] · slices_S8x32x16_S1x32x16_1_0_0) : (⟨S8x32x16, .f32⟩ : BufTy).Contents (Elt F) → (⟨S1x32x16, .f32⟩ : BufTy).Contents (Elt F)),
    StableHlo.reshape main_v64 main_v65 rfl shapeCasts_S1x32x16_S32x16,
    StableHlo.binary main_v63 main_v65 main_v66 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg7 main_v67 ((extractStridedSlice S1x16 ![1, 0] · slices_S8x16_S1x16_1_0) : (⟨S8x16, .f32⟩ : BufTy).Contents (Elt F) → (⟨S1x16, .f32⟩ : BufTy).Contents (Elt F)),
    StableHlo.reshape main_v67 main_v68 rfl shapeCasts_S1x16_S16,
    StableHlo.unary main_v68 main_v69 (broadcastInDim S1x16 ![1] bcast_S16_S1x16_1 : (⟨S16, .f32⟩ : BufTy).Contents (Elt F) → (⟨S1x16, .f32⟩ : BufTy).Contents (Elt F)),
    StableHlo.unary main_v69 main_v70 (broadcastInDim S100000x16 ![0, 1] bcast_S1x16_S100000x16_0_1 : (⟨S1x16, .f32⟩ : BufTy).Contents (Elt F) → (⟨S100000x16, .f32⟩ : BufTy).Contents (Elt F)),
    StableHlo.binary main_v66 main_v70 main_v71 (addf : (⟨S100000x16, .f32⟩ : BufTy).Contents (Elt F) → (⟨S100000x16, .f32⟩ : BufTy).Contents (Elt F) → (⟨S100000x16, .f32⟩ : BufTy).Contents (Elt F)),
    TRef.nullary main_call2.cst (constant S_ .f32 0x3FD62D7D#32),
    TRef.nullary main_call2.call0.cst (constant S_ .f32 0x00000000#32),
    TRef.unary main_call2.call0.cst main_call2.call0.v0 (broadcastInDim S100000x16 ![] bcast_S_S100000x16),
    TRef.binary (.of main_v71) main_call2.call0.v0 main_call2.call0.v1 (cmpf .ogt),
    TRef.nullary main_call2.call0.cst_0 (constant S_ .f32 0x00000000#32),
    TRef.unary main_call2.call0.cst_0 main_call2.call0.v2 (broadcastInDim S100000x16 ![] bcast_S_S100000x16),
    TRef.binary (.of main_v71) main_call2.call0.v2 main_call2.call0.v3 (cmpf .ogt),
    TRef.nullary main_call2.call0.cst_1 (constant S_ .f32 0x00000000#32),
    TRef.unary main_call2.call0.cst_1 main_call2.call0.call0.v0 id,
    TRef.unary main_call2.call0.call0.v0 main_call2.call0.call0.v1 (broadcastInDim S100000x16 ![] bcast_S_S100000x16),
    TRef.ternary main_call2.call0.v3 main_call2.call0.call0.v1 (.of main_v71) main_call2.call0.call0.v2 select,
    TRef.unary main_call2.call0.call0.v2 main_call2.call0.v5 Host.expm1,
    TRef.unary main_call2.cst main_call2.call0.v6 id,
    TRef.unary main_call2.call0.v6 main_call2.call0.v7 (broadcastInDim S100000x16 ![] bcast_S_S100000x16),
    TRef.binary main_call2.call0.v7 main_call2.call0.v5 main_call2.call0.v8 mulf,
    TRef.ternary main_call2.call0.v1 (.of main_v71) main_call2.call0.v8 main_call2.call0.call1.v0 select,
    TRef.nullary main_call2.cst_0 (constant S_ .f32 0x3F867D5F#32),
    TRef.unary main_call2.cst_0 main_call2.v1 (broadcastInDim S100000x16 ![] bcast_S_S100000x16),
    TRef.binary main_call2.v1 main_call2.call0.call1.v0 main_call2.v2 mulf,
    StableHlo.unary main_arg8 main_v73 ((extractStridedSlice S1x16x32 ![1, 0, 0] · slices_S8x16x32_S1x16x32_1_0_0) : (⟨S8x16x32, .f32⟩ : BufTy).Contents (Elt F) → (⟨S1x16x32, .f32⟩ : BufTy).Contents (Elt F)),
    StableHlo.reshape main_v73 main_v74 rfl shapeCasts_S1x16x32_S16x32,
    StableHlo.binary main_v72 main_v74 main_v75 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v76 ((extractStridedSlice S1x32 ![1, 0] · slices_S8x32_S1x32_1_0) : (⟨S8x32, .f32⟩ : BufTy).Contents (Elt F) → (⟨S1x32, .f32⟩ : BufTy).Contents (Elt F)),
    StableHlo.reshape main_v76 main_v77 rfl shapeCasts_S1x32_S32,
    StableHlo.unary main_v77 main_v78 (broadcastInDim S1x32 ![1] bcast_S32_S1x32_1 : (⟨S32, .f32⟩ : BufTy).Contents (Elt F) → (⟨S1x32, .f32⟩ : BufTy).Contents (Elt F)),
    StableHlo.unary main_v78 main_v79 (broadcastInDim S100000x32 ![0, 1] bcast_S1x32_S100000x32_0_1 : (⟨S1x32, .f32⟩ : BufTy).Contents (Elt F) → (⟨S100000x32, .f32⟩ : BufTy).Contents (Elt F)),
    StableHlo.binary main_v75 main_v79 main_v80 (addf : (⟨S100000x32, .f32⟩ : BufTy).Contents (Elt F) → (⟨S100000x32, .f32⟩ : BufTy).Contents (Elt F) → (⟨S100000x32, .f32⟩ : BufTy).Contents (Elt F)),
    StableHlo.binary main_v80 main_v52 main_v81 (addf : (⟨S100000x32, .f32⟩ : BufTy).Contents (Elt F) → (⟨S100000x32, .f32⟩ : BufTy).Contents (Elt F) → (⟨S100000x32, .f32⟩ : BufTy).Contents (Elt F)) ]

/-- Middle layer 3: the neighbour sums of the previous features, the perceptron over block 2 of the stacked weights, and the residual sum. (50 operations, in program order.) -/
abbrev ops3 : List (HloOp τ sig (Elt F)) :=
  [ StableHlo.nullary main_c_7 (constantI S_ 32 0#32),
    StableHlo.unary main_c_7 main_v82 (broadcastInDim S1600000 ![] bcast_S_S1600000 : (⟨S_, .i32⟩ : BufTy).Contents (Elt F) → (⟨S1600000, .i32⟩ : BufTy).Contents (Elt F)),
    StableHlo.binary main_v1 main_v82 main_v83 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v84 (broadcastInDim S1600000 ![] bcast_S_S1600000 : (⟨S_, .i32⟩ : BufTy).Contents (Elt F) → (⟨S1600000, .i32⟩ : BufTy).Contents (Elt F)),
    StableHlo.binary main_v1 main_v84 main_v85 (addi : (⟨S1600000, .i32⟩ : BufTy).Contents (Elt F) → (⟨S1600000, .i32⟩ : BufTy).Contents (Elt F) → (⟨S1600000, .i32⟩ : BufTy).Contents (Elt F)),
    StableHlo.ternary main_v83 main_v85 main_v1 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v86 main_v87 (broadcastInDim S1600000x1 ![0] bcast_S1600000_S1600000x1_0 : (⟨S1600000, .i32⟩ : BufTy).Contents (Elt F) → (⟨S1600000x1, .i32⟩ : BufTy).Contents (Elt F)),
    StableHlo.binary main_v81 main_v87 main_v88 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_9 (constant S_ .f32 0x00000000#32),
    StableHlo.unary main_cst_9 main_v89 (broadcastInDim S100000x32 ![] bcast_S_S100000x32 : (⟨S_, .f32⟩ : BufTy).Contents (Elt F) → (⟨S100000x32, .f32⟩ : BufTy).Contents (Elt F)),
    StableHlo.unary main_v3 main_v90 (broadcastInDim S1600000x1 ![0] bcast_S1600000_S1600000x1_0 : (⟨S1600000, .i32⟩ : BufTy).Contents (Elt F) → (⟨S1600000x1, .i32⟩ : BufTy).Contents (Elt F)),
    StableHlo.ternary main_v89 main_v90 main_v88 main_v91 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v81 main_v91 main_v92 (addf : (⟨S100000x32, .f32⟩ : BufTy).Contents (Elt F) → (⟨S100000x32, .f32⟩ : BufTy).Contents (Elt F) → (⟨S100000x32, .f32⟩ : BufTy).Contents (Elt F)),
    StableHlo.unary main_arg6 main_v93 ((extractStridedSlice S1x32x16 ![2, 0, 0] · slices_S8x32x16_S1x32x16_2_0_0) : (⟨S8x32x16, .f32⟩ : BufTy).Contents (Elt F) → (⟨S1x32x16, .f32⟩ : BufTy).Contents (Elt F)),
    StableHlo.reshape main_v93 main_v94 rfl shapeCasts_S1x32x16_S32x16,
    StableHlo.binary main_v92 main_v94 main_v95 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg7 main_v96 ((extractStridedSlice S1x16 ![2, 0] · slices_S8x16_S1x16_2_0) : (⟨S8x16, .f32⟩ : BufTy).Contents (Elt F) → (⟨S1x16, .f32⟩ : BufTy).Contents (Elt F)),
    StableHlo.reshape main_v96 main_v97 rfl shapeCasts_S1x16_S16,
    StableHlo.unary main_v97 main_v98 (broadcastInDim S1x16 ![1] bcast_S16_S1x16_1 : (⟨S16, .f32⟩ : BufTy).Contents (Elt F) → (⟨S1x16, .f32⟩ : BufTy).Contents (Elt F)),
    StableHlo.unary main_v98 main_v99 (broadcastInDim S100000x16 ![0, 1] bcast_S1x16_S100000x16_0_1 : (⟨S1x16, .f32⟩ : BufTy).Contents (Elt F) → (⟨S100000x16, .f32⟩ : BufTy).Contents (Elt F)),
    StableHlo.binary main_v95 main_v99 main_v100 (addf : (⟨S100000x16, .f32⟩ : BufTy).Contents (Elt F) → (⟨S100000x16, .f32⟩ : BufTy).Contents (Elt F) → (⟨S100000x16, .f32⟩ : BufTy).Contents (Elt F)),
    TRef.nullary main_call3.cst (constant S_ .f32 0x3FD62D7D#32),
    TRef.nullary main_call3.call0.cst (constant S_ .f32 0x00000000#32),
    TRef.unary main_call3.call0.cst main_call3.call0.v0 (broadcastInDim S100000x16 ![] bcast_S_S100000x16),
    TRef.binary (.of main_v100) main_call3.call0.v0 main_call3.call0.v1 (cmpf .ogt),
    TRef.nullary main_call3.call0.cst_0 (constant S_ .f32 0x00000000#32),
    TRef.unary main_call3.call0.cst_0 main_call3.call0.v2 (broadcastInDim S100000x16 ![] bcast_S_S100000x16),
    TRef.binary (.of main_v100) main_call3.call0.v2 main_call3.call0.v3 (cmpf .ogt),
    TRef.nullary main_call3.call0.cst_1 (constant S_ .f32 0x00000000#32),
    TRef.unary main_call3.call0.cst_1 main_call3.call0.call0.v0 id,
    TRef.unary main_call3.call0.call0.v0 main_call3.call0.call0.v1 (broadcastInDim S100000x16 ![] bcast_S_S100000x16),
    TRef.ternary main_call3.call0.v3 main_call3.call0.call0.v1 (.of main_v100) main_call3.call0.call0.v2 select,
    TRef.unary main_call3.call0.call0.v2 main_call3.call0.v5 Host.expm1,
    TRef.unary main_call3.cst main_call3.call0.v6 id,
    TRef.unary main_call3.call0.v6 main_call3.call0.v7 (broadcastInDim S100000x16 ![] bcast_S_S100000x16),
    TRef.binary main_call3.call0.v7 main_call3.call0.v5 main_call3.call0.v8 mulf,
    TRef.ternary main_call3.call0.v1 (.of main_v100) main_call3.call0.v8 main_call3.call0.call1.v0 select,
    TRef.nullary main_call3.cst_0 (constant S_ .f32 0x3F867D5F#32),
    TRef.unary main_call3.cst_0 main_call3.v1 (broadcastInDim S100000x16 ![] bcast_S_S100000x16),
    TRef.binary main_call3.v1 main_call3.call0.call1.v0 main_call3.v2 mulf,
    StableHlo.unary main_arg8 main_v102 ((extractStridedSlice S1x16x32 ![2, 0, 0] · slices_S8x16x32_S1x16x32_2_0_0) : (⟨S8x16x32, .f32⟩ : BufTy).Contents (Elt F) → (⟨S1x16x32, .f32⟩ : BufTy).Contents (Elt F)),
    StableHlo.reshape main_v102 main_v103 rfl shapeCasts_S1x16x32_S16x32,
    StableHlo.binary main_v101 main_v103 main_v104 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v105 ((extractStridedSlice S1x32 ![2, 0] · slices_S8x32_S1x32_2_0) : (⟨S8x32, .f32⟩ : BufTy).Contents (Elt F) → (⟨S1x32, .f32⟩ : BufTy).Contents (Elt F)),
    StableHlo.reshape main_v105 main_v106 rfl shapeCasts_S1x32_S32,
    StableHlo.unary main_v106 main_v107 (broadcastInDim S1x32 ![1] bcast_S32_S1x32_1 : (⟨S32, .f32⟩ : BufTy).Contents (Elt F) → (⟨S1x32, .f32⟩ : BufTy).Contents (Elt F)),
    StableHlo.unary main_v107 main_v108 (broadcastInDim S100000x32 ![0, 1] bcast_S1x32_S100000x32_0_1 : (⟨S1x32, .f32⟩ : BufTy).Contents (Elt F) → (⟨S100000x32, .f32⟩ : BufTy).Contents (Elt F)),
    StableHlo.binary main_v104 main_v108 main_v109 (addf : (⟨S100000x32, .f32⟩ : BufTy).Contents (Elt F) → (⟨S100000x32, .f32⟩ : BufTy).Contents (Elt F) → (⟨S100000x32, .f32⟩ : BufTy).Contents (Elt F)),
    StableHlo.binary main_v109 main_v81 main_v110 (addf : (⟨S100000x32, .f32⟩ : BufTy).Contents (Elt F) → (⟨S100000x32, .f32⟩ : BufTy).Contents (Elt F) → (⟨S100000x32, .f32⟩ : BufTy).Contents (Elt F)) ]

/-- Middle layer 4: the neighbour sums of the previous features, the perceptron over block 3 of the stacked weights, and the residual sum. (50 operations, in program order.) -/
abbrev ops4 : List (HloOp τ sig (Elt F)) :=
  [ StableHlo.nullary main_c_10 (constantI S_ 32 0#32),
    StableHlo.unary main_c_10 main_v111 (broadcastInDim S1600000 ![] bcast_S_S1600000 : (⟨S_, .i32⟩ : BufTy).Contents (Elt F) → (⟨S1600000, .i32⟩ : BufTy).Contents (Elt F)),
    StableHlo.binary main_v1 main_v111 main_v112 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v113 (broadcastInDim S1600000 ![] bcast_S_S1600000 : (⟨S_, .i32⟩ : BufTy).Contents (Elt F) → (⟨S1600000, .i32⟩ : BufTy).Contents (Elt F)),
    StableHlo.binary main_v1 main_v113 main_v114 (addi : (⟨S1600000, .i32⟩ : BufTy).Contents (Elt F) → (⟨S1600000, .i32⟩ : BufTy).Contents (Elt F) → (⟨S1600000, .i32⟩ : BufTy).Contents (Elt F)),
    StableHlo.ternary main_v112 main_v114 main_v1 main_v115 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v115 main_v116 (broadcastInDim S1600000x1 ![0] bcast_S1600000_S1600000x1_0 : (⟨S1600000, .i32⟩ : BufTy).Contents (Elt F) → (⟨S1600000x1, .i32⟩ : BufTy).Contents (Elt F)),
    StableHlo.binary main_v110 main_v116 main_v117 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_12 (constant S_ .f32 0x00000000#32),
    StableHlo.unary main_cst_12 main_v118 (broadcastInDim S100000x32 ![] bcast_S_S100000x32 : (⟨S_, .f32⟩ : BufTy).Contents (Elt F) → (⟨S100000x32, .f32⟩ : BufTy).Contents (Elt F)),
    StableHlo.unary main_v3 main_v119 (broadcastInDim S1600000x1 ![0] bcast_S1600000_S1600000x1_0 : (⟨S1600000, .i32⟩ : BufTy).Contents (Elt F) → (⟨S1600000x1, .i32⟩ : BufTy).Contents (Elt F)),
    StableHlo.ternary main_v118 main_v119 main_v117 main_v120 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v110 main_v120 main_v121 (addf : (⟨S100000x32, .f32⟩ : BufTy).Contents (Elt F) → (⟨S100000x32, .f32⟩ : BufTy).Contents (Elt F) → (⟨S100000x32, .f32⟩ : BufTy).Contents (Elt F)),
    StableHlo.unary main_arg6 main_v122 ((extractStridedSlice S1x32x16 ![3, 0, 0] · slices_S8x32x16_S1x32x16_3_0_0) : (⟨S8x32x16, .f32⟩ : BufTy).Contents (Elt F) → (⟨S1x32x16, .f32⟩ : BufTy).Contents (Elt F)),
    StableHlo.reshape main_v122 main_v123 rfl shapeCasts_S1x32x16_S32x16,
    StableHlo.binary main_v121 main_v123 main_v124 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg7 main_v125 ((extractStridedSlice S1x16 ![3, 0] · slices_S8x16_S1x16_3_0) : (⟨S8x16, .f32⟩ : BufTy).Contents (Elt F) → (⟨S1x16, .f32⟩ : BufTy).Contents (Elt F)),
    StableHlo.reshape main_v125 main_v126 rfl shapeCasts_S1x16_S16,
    StableHlo.unary main_v126 main_v127 (broadcastInDim S1x16 ![1] bcast_S16_S1x16_1 : (⟨S16, .f32⟩ : BufTy).Contents (Elt F) → (⟨S1x16, .f32⟩ : BufTy).Contents (Elt F)),
    StableHlo.unary main_v127 main_v128 (broadcastInDim S100000x16 ![0, 1] bcast_S1x16_S100000x16_0_1 : (⟨S1x16, .f32⟩ : BufTy).Contents (Elt F) → (⟨S100000x16, .f32⟩ : BufTy).Contents (Elt F)),
    StableHlo.binary main_v124 main_v128 main_v129 (addf : (⟨S100000x16, .f32⟩ : BufTy).Contents (Elt F) → (⟨S100000x16, .f32⟩ : BufTy).Contents (Elt F) → (⟨S100000x16, .f32⟩ : BufTy).Contents (Elt F)),
    TRef.nullary main_call4.cst (constant S_ .f32 0x3FD62D7D#32),
    TRef.nullary main_call4.call0.cst (constant S_ .f32 0x00000000#32),
    TRef.unary main_call4.call0.cst main_call4.call0.v0 (broadcastInDim S100000x16 ![] bcast_S_S100000x16),
    TRef.binary (.of main_v129) main_call4.call0.v0 main_call4.call0.v1 (cmpf .ogt),
    TRef.nullary main_call4.call0.cst_0 (constant S_ .f32 0x00000000#32),
    TRef.unary main_call4.call0.cst_0 main_call4.call0.v2 (broadcastInDim S100000x16 ![] bcast_S_S100000x16),
    TRef.binary (.of main_v129) main_call4.call0.v2 main_call4.call0.v3 (cmpf .ogt),
    TRef.nullary main_call4.call0.cst_1 (constant S_ .f32 0x00000000#32),
    TRef.unary main_call4.call0.cst_1 main_call4.call0.call0.v0 id,
    TRef.unary main_call4.call0.call0.v0 main_call4.call0.call0.v1 (broadcastInDim S100000x16 ![] bcast_S_S100000x16),
    TRef.ternary main_call4.call0.v3 main_call4.call0.call0.v1 (.of main_v129) main_call4.call0.call0.v2 select,
    TRef.unary main_call4.call0.call0.v2 main_call4.call0.v5 Host.expm1,
    TRef.unary main_call4.cst main_call4.call0.v6 id,
    TRef.unary main_call4.call0.v6 main_call4.call0.v7 (broadcastInDim S100000x16 ![] bcast_S_S100000x16),
    TRef.binary main_call4.call0.v7 main_call4.call0.v5 main_call4.call0.v8 mulf,
    TRef.ternary main_call4.call0.v1 (.of main_v129) main_call4.call0.v8 main_call4.call0.call1.v0 select,
    TRef.nullary main_call4.cst_0 (constant S_ .f32 0x3F867D5F#32),
    TRef.unary main_call4.cst_0 main_call4.v1 (broadcastInDim S100000x16 ![] bcast_S_S100000x16),
    TRef.binary main_call4.v1 main_call4.call0.call1.v0 main_call4.v2 mulf,
    StableHlo.unary main_arg8 main_v131 ((extractStridedSlice S1x16x32 ![3, 0, 0] · slices_S8x16x32_S1x16x32_3_0_0) : (⟨S8x16x32, .f32⟩ : BufTy).Contents (Elt F) → (⟨S1x16x32, .f32⟩ : BufTy).Contents (Elt F)),
    StableHlo.reshape main_v131 main_v132 rfl shapeCasts_S1x16x32_S16x32,
    StableHlo.binary main_v130 main_v132 main_v133 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v134 ((extractStridedSlice S1x32 ![3, 0] · slices_S8x32_S1x32_3_0) : (⟨S8x32, .f32⟩ : BufTy).Contents (Elt F) → (⟨S1x32, .f32⟩ : BufTy).Contents (Elt F)),
    StableHlo.reshape main_v134 main_v135 rfl shapeCasts_S1x32_S32,
    StableHlo.unary main_v135 main_v136 (broadcastInDim S1x32 ![1] bcast_S32_S1x32_1 : (⟨S32, .f32⟩ : BufTy).Contents (Elt F) → (⟨S1x32, .f32⟩ : BufTy).Contents (Elt F)),
    StableHlo.unary main_v136 main_v137 (broadcastInDim S100000x32 ![0, 1] bcast_S1x32_S100000x32_0_1 : (⟨S1x32, .f32⟩ : BufTy).Contents (Elt F) → (⟨S100000x32, .f32⟩ : BufTy).Contents (Elt F)),
    StableHlo.binary main_v133 main_v137 main_v138 (addf : (⟨S100000x32, .f32⟩ : BufTy).Contents (Elt F) → (⟨S100000x32, .f32⟩ : BufTy).Contents (Elt F) → (⟨S100000x32, .f32⟩ : BufTy).Contents (Elt F)),
    StableHlo.binary main_v138 main_v110 main_v139 (addf : (⟨S100000x32, .f32⟩ : BufTy).Contents (Elt F) → (⟨S100000x32, .f32⟩ : BufTy).Contents (Elt F) → (⟨S100000x32, .f32⟩ : BufTy).Contents (Elt F)) ]

/-- Middle layer 5: the neighbour sums of the previous features, the perceptron over block 4 of the stacked weights, and the residual sum. (50 operations, in program order.) -/
abbrev ops5 : List (HloOp τ sig (Elt F)) :=
  [ StableHlo.nullary main_c_13 (constantI S_ 32 0#32),
    StableHlo.unary main_c_13 main_v140 (broadcastInDim S1600000 ![] bcast_S_S1600000 : (⟨S_, .i32⟩ : BufTy).Contents (Elt F) → (⟨S1600000, .i32⟩ : BufTy).Contents (Elt F)),
    StableHlo.binary main_v1 main_v140 main_v141 (cmpi .slt : (⟨S1600000, .i32⟩ : BufTy).Contents (Elt F) → (⟨S1600000, .i32⟩ : BufTy).Contents (Elt F) → (⟨S1600000, .i1⟩ : BufTy).Contents (Elt F)),
    StableHlo.nullary main_c_14 (constantI S_ 32 100000#32),
    StableHlo.unary main_c_14 main_v142 (broadcastInDim S1600000 ![] bcast_S_S1600000 : (⟨S_, .i32⟩ : BufTy).Contents (Elt F) → (⟨S1600000, .i32⟩ : BufTy).Contents (Elt F)),
    StableHlo.binary main_v1 main_v142 main_v143 (addi : (⟨S1600000, .i32⟩ : BufTy).Contents (Elt F) → (⟨S1600000, .i32⟩ : BufTy).Contents (Elt F) → (⟨S1600000, .i32⟩ : BufTy).Contents (Elt F)),
    StableHlo.ternary main_v141 main_v143 main_v1 main_v144 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v144 main_v145 (broadcastInDim S1600000x1 ![0] bcast_S1600000_S1600000x1_0 : (⟨S1600000, .i32⟩ : BufTy).Contents (Elt F) → (⟨S1600000x1, .i32⟩ : BufTy).Contents (Elt F)),
    StableHlo.binary main_v139 main_v145 main_v146 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_15 (constant S_ .f32 0x00000000#32),
    StableHlo.unary main_cst_15 main_v147 (broadcastInDim S100000x32 ![] bcast_S_S100000x32 : (⟨S_, .f32⟩ : BufTy).Contents (Elt F) → (⟨S100000x32, .f32⟩ : BufTy).Contents (Elt F)),
    StableHlo.unary main_v3 main_v148 (broadcastInDim S1600000x1 ![0] bcast_S1600000_S1600000x1_0 : (⟨S1600000, .i32⟩ : BufTy).Contents (Elt F) → (⟨S1600000x1, .i32⟩ : BufTy).Contents (Elt F)),
    StableHlo.ternary main_v147 main_v148 main_v146 main_v149 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v139 main_v149 main_v150 (addf : (⟨S100000x32, .f32⟩ : BufTy).Contents (Elt F) → (⟨S100000x32, .f32⟩ : BufTy).Contents (Elt F) → (⟨S100000x32, .f32⟩ : BufTy).Contents (Elt F)),
    StableHlo.unary main_arg6 main_v151 ((extractStridedSlice S1x32x16 ![4, 0, 0] · slices_S8x32x16_S1x32x16_4_0_0) : (⟨S8x32x16, .f32⟩ : BufTy).Contents (Elt F) → (⟨S1x32x16, .f32⟩ : BufTy).Contents (Elt F)),
    StableHlo.reshape main_v151 main_v152 rfl shapeCasts_S1x32x16_S32x16,
    StableHlo.binary main_v150 main_v152 main_v153 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg7 main_v154 ((extractStridedSlice S1x16 ![4, 0] · slices_S8x16_S1x16_4_0) : (⟨S8x16, .f32⟩ : BufTy).Contents (Elt F) → (⟨S1x16, .f32⟩ : BufTy).Contents (Elt F)),
    StableHlo.reshape main_v154 main_v155 rfl shapeCasts_S1x16_S16,
    StableHlo.unary main_v155 main_v156 (broadcastInDim S1x16 ![1] bcast_S16_S1x16_1 : (⟨S16, .f32⟩ : BufTy).Contents (Elt F) → (⟨S1x16, .f32⟩ : BufTy).Contents (Elt F)),
    StableHlo.unary main_v156 main_v157 (broadcastInDim S100000x16 ![0, 1] bcast_S1x16_S100000x16_0_1 : (⟨S1x16, .f32⟩ : BufTy).Contents (Elt F) → (⟨S100000x16, .f32⟩ : BufTy).Contents (Elt F)),
    StableHlo.binary main_v153 main_v157 main_v158 (addf : (⟨S100000x16, .f32⟩ : BufTy).Contents (Elt F) → (⟨S100000x16, .f32⟩ : BufTy).Contents (Elt F) → (⟨S100000x16, .f32⟩ : BufTy).Contents (Elt F)),
    TRef.nullary main_call5.cst (constant S_ .f32 0x3FD62D7D#32),
    TRef.nullary main_call5.call0.cst (constant S_ .f32 0x00000000#32),
    TRef.unary main_call5.call0.cst main_call5.call0.v0 (broadcastInDim S100000x16 ![] bcast_S_S100000x16),
    TRef.binary (.of main_v158) main_call5.call0.v0 main_call5.call0.v1 (cmpf .ogt),
    TRef.nullary main_call5.call0.cst_0 (constant S_ .f32 0x00000000#32),
    TRef.unary main_call5.call0.cst_0 main_call5.call0.v2 (broadcastInDim S100000x16 ![] bcast_S_S100000x16),
    TRef.binary (.of main_v158) main_call5.call0.v2 main_call5.call0.v3 (cmpf .ogt),
    TRef.nullary main_call5.call0.cst_1 (constant S_ .f32 0x00000000#32),
    TRef.unary main_call5.call0.cst_1 main_call5.call0.call0.v0 id,
    TRef.unary main_call5.call0.call0.v0 main_call5.call0.call0.v1 (broadcastInDim S100000x16 ![] bcast_S_S100000x16),
    TRef.ternary main_call5.call0.v3 main_call5.call0.call0.v1 (.of main_v158) main_call5.call0.call0.v2 select,
    TRef.unary main_call5.call0.call0.v2 main_call5.call0.v5 Host.expm1,
    TRef.unary main_call5.cst main_call5.call0.v6 id,
    TRef.unary main_call5.call0.v6 main_call5.call0.v7 (broadcastInDim S100000x16 ![] bcast_S_S100000x16),
    TRef.binary main_call5.call0.v7 main_call5.call0.v5 main_call5.call0.v8 mulf,
    TRef.ternary main_call5.call0.v1 (.of main_v158) main_call5.call0.v8 main_call5.call0.call1.v0 select,
    TRef.nullary main_call5.cst_0 (constant S_ .f32 0x3F867D5F#32),
    TRef.unary main_call5.cst_0 main_call5.v1 (broadcastInDim S100000x16 ![] bcast_S_S100000x16),
    TRef.binary main_call5.v1 main_call5.call0.call1.v0 main_call5.v2 mulf,
    StableHlo.unary main_arg8 main_v160 ((extractStridedSlice S1x16x32 ![4, 0, 0] · slices_S8x16x32_S1x16x32_4_0_0) : (⟨S8x16x32, .f32⟩ : BufTy).Contents (Elt F) → (⟨S1x16x32, .f32⟩ : BufTy).Contents (Elt F)),
    StableHlo.reshape main_v160 main_v161 rfl shapeCasts_S1x16x32_S16x32,
    StableHlo.binary main_v159 main_v161 main_v162 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v163 ((extractStridedSlice S1x32 ![4, 0] · slices_S8x32_S1x32_4_0) : (⟨S8x32, .f32⟩ : BufTy).Contents (Elt F) → (⟨S1x32, .f32⟩ : BufTy).Contents (Elt F)),
    StableHlo.reshape main_v163 main_v164 rfl shapeCasts_S1x32_S32,
    StableHlo.unary main_v164 main_v165 (broadcastInDim S1x32 ![1] bcast_S32_S1x32_1 : (⟨S32, .f32⟩ : BufTy).Contents (Elt F) → (⟨S1x32, .f32⟩ : BufTy).Contents (Elt F)),
    StableHlo.unary main_v165 main_v166 (broadcastInDim S100000x32 ![0, 1] bcast_S1x32_S100000x32_0_1 : (⟨S1x32, .f32⟩ : BufTy).Contents (Elt F) → (⟨S100000x32, .f32⟩ : BufTy).Contents (Elt F)),
    StableHlo.binary main_v162 main_v166 main_v167 (addf : (⟨S100000x32, .f32⟩ : BufTy).Contents (Elt F) → (⟨S100000x32, .f32⟩ : BufTy).Contents (Elt F) → (⟨S100000x32, .f32⟩ : BufTy).Contents (Elt F)),
    StableHlo.binary main_v167 main_v139 main_v168 (addf : (⟨S100000x32, .f32⟩ : BufTy).Contents (Elt F) → (⟨S100000x32, .f32⟩ : BufTy).Contents (Elt F) → (⟨S100000x32, .f32⟩ : BufTy).Contents (Elt F)) ]

/-- Middle layer 6: the neighbour sums of the previous features, the perceptron over block 5 of the stacked weights, and the residual sum. (50 operations, in program order.) -/
abbrev ops6 : List (HloOp τ sig (Elt F)) :=
  [ StableHlo.nullary main_c_16 (constantI S_ 32 0#32),
    StableHlo.unary main_c_16 main_v169 (broadcastInDim S1600000 ![] bcast_S_S1600000 : (⟨S_, .i32⟩ : BufTy).Contents (Elt F) → (⟨S1600000, .i32⟩ : BufTy).Contents (Elt F)),
    StableHlo.binary main_v1 main_v169 main_v170 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v171 (broadcastInDim S1600000 ![] bcast_S_S1600000 : (⟨S_, .i32⟩ : BufTy).Contents (Elt F) → (⟨S1600000, .i32⟩ : BufTy).Contents (Elt F)),
    StableHlo.binary main_v1 main_v171 main_v172 (addi : (⟨S1600000, .i32⟩ : BufTy).Contents (Elt F) → (⟨S1600000, .i32⟩ : BufTy).Contents (Elt F) → (⟨S1600000, .i32⟩ : BufTy).Contents (Elt F)),
    StableHlo.ternary main_v170 main_v172 main_v1 main_v173 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v173 main_v174 (broadcastInDim S1600000x1 ![0] bcast_S1600000_S1600000x1_0 : (⟨S1600000, .i32⟩ : BufTy).Contents (Elt F) → (⟨S1600000x1, .i32⟩ : BufTy).Contents (Elt F)),
    StableHlo.binary main_v168 main_v174 main_v175 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_18 (constant S_ .f32 0x00000000#32),
    StableHlo.unary main_cst_18 main_v176 (broadcastInDim S100000x32 ![] bcast_S_S100000x32 : (⟨S_, .f32⟩ : BufTy).Contents (Elt F) → (⟨S100000x32, .f32⟩ : BufTy).Contents (Elt F)),
    StableHlo.unary main_v3 main_v177 (broadcastInDim S1600000x1 ![0] bcast_S1600000_S1600000x1_0 : (⟨S1600000, .i32⟩ : BufTy).Contents (Elt F) → (⟨S1600000x1, .i32⟩ : BufTy).Contents (Elt F)),
    StableHlo.ternary main_v176 main_v177 main_v175 main_v178 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v168 main_v178 main_v179 (addf : (⟨S100000x32, .f32⟩ : BufTy).Contents (Elt F) → (⟨S100000x32, .f32⟩ : BufTy).Contents (Elt F) → (⟨S100000x32, .f32⟩ : BufTy).Contents (Elt F)),
    StableHlo.unary main_arg6 main_v180 ((extractStridedSlice S1x32x16 ![5, 0, 0] · slices_S8x32x16_S1x32x16_5_0_0) : (⟨S8x32x16, .f32⟩ : BufTy).Contents (Elt F) → (⟨S1x32x16, .f32⟩ : BufTy).Contents (Elt F)),
    StableHlo.reshape main_v180 main_v181 rfl shapeCasts_S1x32x16_S32x16,
    StableHlo.binary main_v179 main_v181 main_v182 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg7 main_v183 ((extractStridedSlice S1x16 ![5, 0] · slices_S8x16_S1x16_5_0) : (⟨S8x16, .f32⟩ : BufTy).Contents (Elt F) → (⟨S1x16, .f32⟩ : BufTy).Contents (Elt F)),
    StableHlo.reshape main_v183 main_v184 rfl shapeCasts_S1x16_S16,
    StableHlo.unary main_v184 main_v185 (broadcastInDim S1x16 ![1] bcast_S16_S1x16_1 : (⟨S16, .f32⟩ : BufTy).Contents (Elt F) → (⟨S1x16, .f32⟩ : BufTy).Contents (Elt F)),
    StableHlo.unary main_v185 main_v186 (broadcastInDim S100000x16 ![0, 1] bcast_S1x16_S100000x16_0_1 : (⟨S1x16, .f32⟩ : BufTy).Contents (Elt F) → (⟨S100000x16, .f32⟩ : BufTy).Contents (Elt F)),
    StableHlo.binary main_v182 main_v186 main_v187 (addf : (⟨S100000x16, .f32⟩ : BufTy).Contents (Elt F) → (⟨S100000x16, .f32⟩ : BufTy).Contents (Elt F) → (⟨S100000x16, .f32⟩ : BufTy).Contents (Elt F)),
    TRef.nullary main_call6.cst (constant S_ .f32 0x3FD62D7D#32),
    TRef.nullary main_call6.call0.cst (constant S_ .f32 0x00000000#32),
    TRef.unary main_call6.call0.cst main_call6.call0.v0 (broadcastInDim S100000x16 ![] bcast_S_S100000x16),
    TRef.binary (.of main_v187) main_call6.call0.v0 main_call6.call0.v1 (cmpf .ogt),
    TRef.nullary main_call6.call0.cst_0 (constant S_ .f32 0x00000000#32),
    TRef.unary main_call6.call0.cst_0 main_call6.call0.v2 (broadcastInDim S100000x16 ![] bcast_S_S100000x16),
    TRef.binary (.of main_v187) main_call6.call0.v2 main_call6.call0.v3 (cmpf .ogt),
    TRef.nullary main_call6.call0.cst_1 (constant S_ .f32 0x00000000#32),
    TRef.unary main_call6.call0.cst_1 main_call6.call0.call0.v0 id,
    TRef.unary main_call6.call0.call0.v0 main_call6.call0.call0.v1 (broadcastInDim S100000x16 ![] bcast_S_S100000x16),
    TRef.ternary main_call6.call0.v3 main_call6.call0.call0.v1 (.of main_v187) main_call6.call0.call0.v2 select,
    TRef.unary main_call6.call0.call0.v2 main_call6.call0.v5 Host.expm1,
    TRef.unary main_call6.cst main_call6.call0.v6 id,
    TRef.unary main_call6.call0.v6 main_call6.call0.v7 (broadcastInDim S100000x16 ![] bcast_S_S100000x16),
    TRef.binary main_call6.call0.v7 main_call6.call0.v5 main_call6.call0.v8 mulf,
    TRef.ternary main_call6.call0.v1 (.of main_v187) main_call6.call0.v8 main_call6.call0.call1.v0 select,
    TRef.nullary main_call6.cst_0 (constant S_ .f32 0x3F867D5F#32),
    TRef.unary main_call6.cst_0 main_call6.v1 (broadcastInDim S100000x16 ![] bcast_S_S100000x16),
    TRef.binary main_call6.v1 main_call6.call0.call1.v0 main_call6.v2 mulf,
    StableHlo.unary main_arg8 main_v189 ((extractStridedSlice S1x16x32 ![5, 0, 0] · slices_S8x16x32_S1x16x32_5_0_0) : (⟨S8x16x32, .f32⟩ : BufTy).Contents (Elt F) → (⟨S1x16x32, .f32⟩ : BufTy).Contents (Elt F)),
    StableHlo.reshape main_v189 main_v190 rfl shapeCasts_S1x16x32_S16x32,
    StableHlo.binary main_v188 main_v190 main_v191 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v192 ((extractStridedSlice S1x32 ![5, 0] · slices_S8x32_S1x32_5_0) : (⟨S8x32, .f32⟩ : BufTy).Contents (Elt F) → (⟨S1x32, .f32⟩ : BufTy).Contents (Elt F)),
    StableHlo.reshape main_v192 main_v193 rfl shapeCasts_S1x32_S32,
    StableHlo.unary main_v193 main_v194 (broadcastInDim S1x32 ![1] bcast_S32_S1x32_1 : (⟨S32, .f32⟩ : BufTy).Contents (Elt F) → (⟨S1x32, .f32⟩ : BufTy).Contents (Elt F)),
    StableHlo.unary main_v194 main_v195 (broadcastInDim S100000x32 ![0, 1] bcast_S1x32_S100000x32_0_1 : (⟨S1x32, .f32⟩ : BufTy).Contents (Elt F) → (⟨S100000x32, .f32⟩ : BufTy).Contents (Elt F)),
    StableHlo.binary main_v191 main_v195 main_v196 (addf : (⟨S100000x32, .f32⟩ : BufTy).Contents (Elt F) → (⟨S100000x32, .f32⟩ : BufTy).Contents (Elt F) → (⟨S100000x32, .f32⟩ : BufTy).Contents (Elt F)),
    StableHlo.binary main_v196 main_v168 main_v197 (addf : (⟨S100000x32, .f32⟩ : BufTy).Contents (Elt F) → (⟨S100000x32, .f32⟩ : BufTy).Contents (Elt F) → (⟨S100000x32, .f32⟩ : BufTy).Contents (Elt F)) ]

/-- Middle layer 7: the neighbour sums of the previous features, the perceptron over block 6 of the stacked weights, and the residual sum. (50 operations, in program order.) -/
abbrev ops7 : List (HloOp τ sig (Elt F)) :=
  [ StableHlo.nullary main_c_19 (constantI S_ 32 0#32),
    StableHlo.unary main_c_19 main_v198 (broadcastInDim S1600000 ![] bcast_S_S1600000 : (⟨S_, .i32⟩ : BufTy).Contents (Elt F) → (⟨S1600000, .i32⟩ : BufTy).Contents (Elt F)),
    StableHlo.binary main_v1 main_v198 main_v199 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v200 (broadcastInDim S1600000 ![] bcast_S_S1600000 : (⟨S_, .i32⟩ : BufTy).Contents (Elt F) → (⟨S1600000, .i32⟩ : BufTy).Contents (Elt F)),
    StableHlo.binary main_v1 main_v200 main_v201 (addi : (⟨S1600000, .i32⟩ : BufTy).Contents (Elt F) → (⟨S1600000, .i32⟩ : BufTy).Contents (Elt F) → (⟨S1600000, .i32⟩ : BufTy).Contents (Elt F)),
    StableHlo.ternary main_v199 main_v201 main_v1 main_v202 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v202 main_v203 (broadcastInDim S1600000x1 ![0] bcast_S1600000_S1600000x1_0 : (⟨S1600000, .i32⟩ : BufTy).Contents (Elt F) → (⟨S1600000x1, .i32⟩ : BufTy).Contents (Elt F)),
    StableHlo.binary main_v197 main_v203 main_v204 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_21 (constant S_ .f32 0x00000000#32),
    StableHlo.unary main_cst_21 main_v205 (broadcastInDim S100000x32 ![] bcast_S_S100000x32 : (⟨S_, .f32⟩ : BufTy).Contents (Elt F) → (⟨S100000x32, .f32⟩ : BufTy).Contents (Elt F)),
    StableHlo.unary main_v3 main_v206 (broadcastInDim S1600000x1 ![0] bcast_S1600000_S1600000x1_0 : (⟨S1600000, .i32⟩ : BufTy).Contents (Elt F) → (⟨S1600000x1, .i32⟩ : BufTy).Contents (Elt F)),
    StableHlo.ternary main_v205 main_v206 main_v204 main_v207 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v197 main_v207 main_v208 (addf : (⟨S100000x32, .f32⟩ : BufTy).Contents (Elt F) → (⟨S100000x32, .f32⟩ : BufTy).Contents (Elt F) → (⟨S100000x32, .f32⟩ : BufTy).Contents (Elt F)),
    StableHlo.unary main_arg6 main_v209 ((extractStridedSlice S1x32x16 ![6, 0, 0] · slices_S8x32x16_S1x32x16_6_0_0) : (⟨S8x32x16, .f32⟩ : BufTy).Contents (Elt F) → (⟨S1x32x16, .f32⟩ : BufTy).Contents (Elt F)),
    StableHlo.reshape main_v209 main_v210 rfl shapeCasts_S1x32x16_S32x16,
    StableHlo.binary main_v208 main_v210 main_v211 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg7 main_v212 ((extractStridedSlice S1x16 ![6, 0] · slices_S8x16_S1x16_6_0) : (⟨S8x16, .f32⟩ : BufTy).Contents (Elt F) → (⟨S1x16, .f32⟩ : BufTy).Contents (Elt F)),
    StableHlo.reshape main_v212 main_v213 rfl shapeCasts_S1x16_S16,
    StableHlo.unary main_v213 main_v214 (broadcastInDim S1x16 ![1] bcast_S16_S1x16_1 : (⟨S16, .f32⟩ : BufTy).Contents (Elt F) → (⟨S1x16, .f32⟩ : BufTy).Contents (Elt F)),
    StableHlo.unary main_v214 main_v215 (broadcastInDim S100000x16 ![0, 1] bcast_S1x16_S100000x16_0_1 : (⟨S1x16, .f32⟩ : BufTy).Contents (Elt F) → (⟨S100000x16, .f32⟩ : BufTy).Contents (Elt F)),
    StableHlo.binary main_v211 main_v215 main_v216 (addf : (⟨S100000x16, .f32⟩ : BufTy).Contents (Elt F) → (⟨S100000x16, .f32⟩ : BufTy).Contents (Elt F) → (⟨S100000x16, .f32⟩ : BufTy).Contents (Elt F)),
    TRef.nullary main_call7.cst (constant S_ .f32 0x3FD62D7D#32),
    TRef.nullary main_call7.call0.cst (constant S_ .f32 0x00000000#32),
    TRef.unary main_call7.call0.cst main_call7.call0.v0 (broadcastInDim S100000x16 ![] bcast_S_S100000x16),
    TRef.binary (.of main_v216) main_call7.call0.v0 main_call7.call0.v1 (cmpf .ogt),
    TRef.nullary main_call7.call0.cst_0 (constant S_ .f32 0x00000000#32),
    TRef.unary main_call7.call0.cst_0 main_call7.call0.v2 (broadcastInDim S100000x16 ![] bcast_S_S100000x16),
    TRef.binary (.of main_v216) main_call7.call0.v2 main_call7.call0.v3 (cmpf .ogt),
    TRef.nullary main_call7.call0.cst_1 (constant S_ .f32 0x00000000#32),
    TRef.unary main_call7.call0.cst_1 main_call7.call0.call0.v0 id,
    TRef.unary main_call7.call0.call0.v0 main_call7.call0.call0.v1 (broadcastInDim S100000x16 ![] bcast_S_S100000x16),
    TRef.ternary main_call7.call0.v3 main_call7.call0.call0.v1 (.of main_v216) main_call7.call0.call0.v2 select,
    TRef.unary main_call7.call0.call0.v2 main_call7.call0.v5 Host.expm1,
    TRef.unary main_call7.cst main_call7.call0.v6 id,
    TRef.unary main_call7.call0.v6 main_call7.call0.v7 (broadcastInDim S100000x16 ![] bcast_S_S100000x16),
    TRef.binary main_call7.call0.v7 main_call7.call0.v5 main_call7.call0.v8 mulf,
    TRef.ternary main_call7.call0.v1 (.of main_v216) main_call7.call0.v8 main_call7.call0.call1.v0 select,
    TRef.nullary main_call7.cst_0 (constant S_ .f32 0x3F867D5F#32),
    TRef.unary main_call7.cst_0 main_call7.v1 (broadcastInDim S100000x16 ![] bcast_S_S100000x16),
    TRef.binary main_call7.v1 main_call7.call0.call1.v0 main_call7.v2 mulf,
    StableHlo.unary main_arg8 main_v218 ((extractStridedSlice S1x16x32 ![6, 0, 0] · slices_S8x16x32_S1x16x32_6_0_0) : (⟨S8x16x32, .f32⟩ : BufTy).Contents (Elt F) → (⟨S1x16x32, .f32⟩ : BufTy).Contents (Elt F)),
    StableHlo.reshape main_v218 main_v219 rfl shapeCasts_S1x16x32_S16x32,
    StableHlo.binary main_v217 main_v219 main_v220 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v221 ((extractStridedSlice S1x32 ![6, 0] · slices_S8x32_S1x32_6_0) : (⟨S8x32, .f32⟩ : BufTy).Contents (Elt F) → (⟨S1x32, .f32⟩ : BufTy).Contents (Elt F)),
    StableHlo.reshape main_v221 main_v222 rfl shapeCasts_S1x32_S32,
    StableHlo.unary main_v222 main_v223 (broadcastInDim S1x32 ![1] bcast_S32_S1x32_1 : (⟨S32, .f32⟩ : BufTy).Contents (Elt F) → (⟨S1x32, .f32⟩ : BufTy).Contents (Elt F)),
    StableHlo.unary main_v223 main_v224 (broadcastInDim S100000x32 ![0, 1] bcast_S1x32_S100000x32_0_1 : (⟨S1x32, .f32⟩ : BufTy).Contents (Elt F) → (⟨S100000x32, .f32⟩ : BufTy).Contents (Elt F)),
    StableHlo.binary main_v220 main_v224 main_v225 (addf : (⟨S100000x32, .f32⟩ : BufTy).Contents (Elt F) → (⟨S100000x32, .f32⟩ : BufTy).Contents (Elt F) → (⟨S100000x32, .f32⟩ : BufTy).Contents (Elt F)),
    StableHlo.binary main_v225 main_v197 main_v226 (addf : (⟨S100000x32, .f32⟩ : BufTy).Contents (Elt F) → (⟨S100000x32, .f32⟩ : BufTy).Contents (Elt F) → (⟨S100000x32, .f32⟩ : BufTy).Contents (Elt F)) ]

/-- Middle layer 8: the neighbour sums of the previous features, the perceptron over block 7 of the stacked weights, and the residual sum. (50 operations, in program order.) -/
abbrev ops8 : List (HloOp τ sig (Elt F)) :=
  [ StableHlo.nullary main_c_22 (constantI S_ 32 0#32),
    StableHlo.unary main_c_22 main_v227 (broadcastInDim S1600000 ![] bcast_S_S1600000 : (⟨S_, .i32⟩ : BufTy).Contents (Elt F) → (⟨S1600000, .i32⟩ : BufTy).Contents (Elt F)),
    StableHlo.binary main_v1 main_v227 main_v228 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v229 (broadcastInDim S1600000 ![] bcast_S_S1600000 : (⟨S_, .i32⟩ : BufTy).Contents (Elt F) → (⟨S1600000, .i32⟩ : BufTy).Contents (Elt F)),
    StableHlo.binary main_v1 main_v229 main_v230 (addi : (⟨S1600000, .i32⟩ : BufTy).Contents (Elt F) → (⟨S1600000, .i32⟩ : BufTy).Contents (Elt F) → (⟨S1600000, .i32⟩ : BufTy).Contents (Elt F)),
    StableHlo.ternary main_v228 main_v230 main_v1 main_v231 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v231 main_v232 (broadcastInDim S1600000x1 ![0] bcast_S1600000_S1600000x1_0 : (⟨S1600000, .i32⟩ : BufTy).Contents (Elt F) → (⟨S1600000x1, .i32⟩ : BufTy).Contents (Elt F)),
    StableHlo.binary main_v226 main_v232 main_v233 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_24 (constant S_ .f32 0x00000000#32),
    StableHlo.unary main_cst_24 main_v234 (broadcastInDim S100000x32 ![] bcast_S_S100000x32 : (⟨S_, .f32⟩ : BufTy).Contents (Elt F) → (⟨S100000x32, .f32⟩ : BufTy).Contents (Elt F)),
    StableHlo.unary main_v3 main_v235 (broadcastInDim S1600000x1 ![0] bcast_S1600000_S1600000x1_0 : (⟨S1600000, .i32⟩ : BufTy).Contents (Elt F) → (⟨S1600000x1, .i32⟩ : BufTy).Contents (Elt F)),
    StableHlo.ternary main_v234 main_v235 main_v233 main_v236 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v226 main_v236 main_v237 (addf : (⟨S100000x32, .f32⟩ : BufTy).Contents (Elt F) → (⟨S100000x32, .f32⟩ : BufTy).Contents (Elt F) → (⟨S100000x32, .f32⟩ : BufTy).Contents (Elt F)),
    StableHlo.unary main_arg6 main_v238 ((extractStridedSlice S1x32x16 ![7, 0, 0] · slices_S8x32x16_S1x32x16_7_0_0) : (⟨S8x32x16, .f32⟩ : BufTy).Contents (Elt F) → (⟨S1x32x16, .f32⟩ : BufTy).Contents (Elt F)),
    StableHlo.reshape main_v238 main_v239 rfl shapeCasts_S1x32x16_S32x16,
    StableHlo.binary main_v237 main_v239 main_v240 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg7 main_v241 ((extractStridedSlice S1x16 ![7, 0] · slices_S8x16_S1x16_7_0) : (⟨S8x16, .f32⟩ : BufTy).Contents (Elt F) → (⟨S1x16, .f32⟩ : BufTy).Contents (Elt F)),
    StableHlo.reshape main_v241 main_v242 rfl shapeCasts_S1x16_S16,
    StableHlo.unary main_v242 main_v243 (broadcastInDim S1x16 ![1] bcast_S16_S1x16_1 : (⟨S16, .f32⟩ : BufTy).Contents (Elt F) → (⟨S1x16, .f32⟩ : BufTy).Contents (Elt F)),
    StableHlo.unary main_v243 main_v244 (broadcastInDim S100000x16 ![0, 1] bcast_S1x16_S100000x16_0_1 : (⟨S1x16, .f32⟩ : BufTy).Contents (Elt F) → (⟨S100000x16, .f32⟩ : BufTy).Contents (Elt F)),
    StableHlo.binary main_v240 main_v244 main_v245 (addf : (⟨S100000x16, .f32⟩ : BufTy).Contents (Elt F) → (⟨S100000x16, .f32⟩ : BufTy).Contents (Elt F) → (⟨S100000x16, .f32⟩ : BufTy).Contents (Elt F)),
    TRef.nullary main_call8.cst (constant S_ .f32 0x3FD62D7D#32),
    TRef.nullary main_call8.call0.cst (constant S_ .f32 0x00000000#32),
    TRef.unary main_call8.call0.cst main_call8.call0.v0 (broadcastInDim S100000x16 ![] bcast_S_S100000x16),
    TRef.binary (.of main_v245) main_call8.call0.v0 main_call8.call0.v1 (cmpf .ogt),
    TRef.nullary main_call8.call0.cst_0 (constant S_ .f32 0x00000000#32),
    TRef.unary main_call8.call0.cst_0 main_call8.call0.v2 (broadcastInDim S100000x16 ![] bcast_S_S100000x16),
    TRef.binary (.of main_v245) main_call8.call0.v2 main_call8.call0.v3 (cmpf .ogt),
    TRef.nullary main_call8.call0.cst_1 (constant S_ .f32 0x00000000#32),
    TRef.unary main_call8.call0.cst_1 main_call8.call0.call0.v0 id,
    TRef.unary main_call8.call0.call0.v0 main_call8.call0.call0.v1 (broadcastInDim S100000x16 ![] bcast_S_S100000x16),
    TRef.ternary main_call8.call0.v3 main_call8.call0.call0.v1 (.of main_v245) main_call8.call0.call0.v2 select,
    TRef.unary main_call8.call0.call0.v2 main_call8.call0.v5 Host.expm1,
    TRef.unary main_call8.cst main_call8.call0.v6 id,
    TRef.unary main_call8.call0.v6 main_call8.call0.v7 (broadcastInDim S100000x16 ![] bcast_S_S100000x16),
    TRef.binary main_call8.call0.v7 main_call8.call0.v5 main_call8.call0.v8 mulf,
    TRef.ternary main_call8.call0.v1 (.of main_v245) main_call8.call0.v8 main_call8.call0.call1.v0 select,
    TRef.nullary main_call8.cst_0 (constant S_ .f32 0x3F867D5F#32),
    TRef.unary main_call8.cst_0 main_call8.v1 (broadcastInDim S100000x16 ![] bcast_S_S100000x16),
    TRef.binary main_call8.v1 main_call8.call0.call1.v0 main_call8.v2 mulf,
    StableHlo.unary main_arg8 main_v247 ((extractStridedSlice S1x16x32 ![7, 0, 0] · slices_S8x16x32_S1x16x32_7_0_0) : (⟨S8x16x32, .f32⟩ : BufTy).Contents (Elt F) → (⟨S1x16x32, .f32⟩ : BufTy).Contents (Elt F)),
    StableHlo.reshape main_v247 main_v248 rfl shapeCasts_S1x16x32_S16x32,
    StableHlo.binary main_v246 main_v248 main_v249 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v250 ((extractStridedSlice S1x32 ![7, 0] · slices_S8x32_S1x32_7_0) : (⟨S8x32, .f32⟩ : BufTy).Contents (Elt F) → (⟨S1x32, .f32⟩ : BufTy).Contents (Elt F)),
    StableHlo.reshape main_v250 main_v251 rfl shapeCasts_S1x32_S32,
    StableHlo.unary main_v251 main_v252 (broadcastInDim S1x32 ![1] bcast_S32_S1x32_1 : (⟨S32, .f32⟩ : BufTy).Contents (Elt F) → (⟨S1x32, .f32⟩ : BufTy).Contents (Elt F)),
    StableHlo.unary main_v252 main_v253 (broadcastInDim S100000x32 ![0, 1] bcast_S1x32_S100000x32_0_1 : (⟨S1x32, .f32⟩ : BufTy).Contents (Elt F) → (⟨S100000x32, .f32⟩ : BufTy).Contents (Elt F)),
    StableHlo.binary main_v249 main_v253 main_v254 (addf : (⟨S100000x32, .f32⟩ : BufTy).Contents (Elt F) → (⟨S100000x32, .f32⟩ : BufTy).Contents (Elt F) → (⟨S100000x32, .f32⟩ : BufTy).Contents (Elt F)),
    StableHlo.binary main_v254 main_v226 main_v255 (addf : (⟨S100000x32, .f32⟩ : BufTy).Contents (Elt F) → (⟨S100000x32, .f32⟩ : BufTy).Contents (Elt F) → (⟨S100000x32, .f32⟩ : BufTy).Contents (Elt F)) ]

/-- The last layer: the neighbour sums of the final features and the product with the 32 × 1 matrix. (15 operations, in program order.) -/
abbrev ops9 : List (HloOp τ sig (Elt F)) :=
  [ StableHlo.nullary main_c_25 (constantI S_ 32 0#32),
    StableHlo.unary main_c_25 main_v256 (broadcastInDim S1600000 ![] bcast_S_S1600000 : (⟨S_, .i32⟩ : BufTy).Contents (Elt F) → (⟨S1600000, .i32⟩ : BufTy).Contents (Elt F)),
    StableHlo.binary main_v1 main_v256 main_v257 (cmpi .slt : (⟨S1600000, .i32⟩ : BufTy).Contents (Elt F) → (⟨S1600000, .i32⟩ : BufTy).Contents (Elt F) → (⟨S1600000, .i1⟩ : BufTy).Contents (Elt F)),
    StableHlo.nullary main_c_26 (constantI S_ 32 100000#32),
    StableHlo.unary main_c_26 main_v258 (broadcastInDim S1600000 ![] bcast_S_S1600000 : (⟨S_, .i32⟩ : BufTy).Contents (Elt F) → (⟨S1600000, .i32⟩ : BufTy).Contents (Elt F)),
    StableHlo.binary main_v1 main_v258 main_v259 (addi : (⟨S1600000, .i32⟩ : BufTy).Contents (Elt F) → (⟨S1600000, .i32⟩ : BufTy).Contents (Elt F) → (⟨S1600000, .i32⟩ : BufTy).Contents (Elt F)),
    StableHlo.ternary main_v257 main_v259 main_v1 main_v260 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v260 main_v261 (broadcastInDim S1600000x1 ![0] bcast_S1600000_S1600000x1_0 : (⟨S1600000, .i32⟩ : BufTy).Contents (Elt F) → (⟨S1600000x1, .i32⟩ : BufTy).Contents (Elt F)),
    StableHlo.binary main_v255 main_v261 main_v262 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_27 (constant S_ .f32 0x00000000#32),
    StableHlo.unary main_cst_27 main_v263 (broadcastInDim S100000x32 ![] bcast_S_S100000x32 : (⟨S_, .f32⟩ : BufTy).Contents (Elt F) → (⟨S100000x32, .f32⟩ : BufTy).Contents (Elt F)),
    StableHlo.unary main_v3 main_v264 (broadcastInDim S1600000x1 ![0] bcast_S1600000_S1600000x1_0 : (⟨S1600000, .i32⟩ : BufTy).Contents (Elt F) → (⟨S1600000x1, .i32⟩ : BufTy).Contents (Elt F)),
    StableHlo.ternary main_v263 main_v264 main_v262 main_v265 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v255 main_v265 main_v266 (addf : (⟨S100000x32, .f32⟩ : BufTy).Contents (Elt F) → (⟨S100000x32, .f32⟩ : BufTy).Contents (Elt F) → (⟨S100000x32, .f32⟩ : BufTy).Contents (Elt F)),
    StableHlo.binary main_v266 main_arg10 main_v267 ((fun l r => Host.dotGeneral dot_S100000x32_S32x1_S100000x1_1_0_0_1_n_n none l r) : (⟨S100000x32, .f32⟩ : BufTy).Contents (Elt F) → (⟨S32x1, .f32⟩ : BufTy).Contents (Elt F) → (⟨S100000x1, .f32⟩ : BufTy).Contents (Elt F)) ]

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., binary_bufs_sub .., unary_bufs_sub .., unary_bufs_sub .., binary_bufs_sub ..⟩
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops6_sub : (ops6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops7_sub : (ops7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops8_sub : (ops8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩
theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops9_sub : (ops9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub ..⟩
theorem ops9_fresh : (ops9 : List (HloOp τ sig (Elt F))).Forall fun op => op.fresh = ∅ :=
  ⟨rfl, rfl, rfl, rfl, rfl, rfl, rfl, rfl, rfl, rfl, rfl, rfl, rfl, rfl, rfl⟩

end Cert.ReferenceIdeal.RefRun

end
-- ==== Proof.RefRun.lean ====
/-
  The reference program's run.  The program is a straight line of host operations (the activation functions'
  bodies executed at their calls), so from any memory with zero counters every weakly fair execution terminates
  and leaves each buffer at the fold of the operations' results over the launch contents.  The line is the ten
  layers' lists one after the other.

  The program's text is cut into five windows by statement count; each window is shown to be the straight line of
  its own operations (the calls unfolded, sequencing reassociated), the five lines are joined, and the joined list
  is the ten layers' lists appended (the same operations in the same order).
-/
import proofs.«175125_j35716948034103_1_alg».proof.Proof.RefRun.Ops

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts]
variable {F : FTy → Type} [FloatOps F]

/-- The operations of statements 1 … 60 of the program (a cut by count; the layers' lists above are the same operations cut by layer). -/
abbrev win0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x1_S1600000x1_S1600000x1_1_0_n_n_0_1_11 x i) : (⟨S100000x1, .f32⟩ : BufTy).Contents (Elt F) → (⟨S1600000x1, .i32⟩ : BufTy).Contents (Elt F) → (⟨S1600000x1, .f32⟩ : BufTy).Contents (Elt F)),
    StableHlo.nullary main_cst (constant S_ .f32 0x00000000#32),
    StableHlo.unary main_cst main_v11 (broadcastInDim S100000x1 ![] bcast_S_S100000x1 : (⟨S_, .f32⟩ : BufTy).Contents (Elt F) → (⟨S100000x1, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.binary main_arg0 main_v13 main_v14 (addf : (⟨S100000x1, .f32⟩ : BufTy).Contents (Elt F) → (⟨S100000x1, .f32⟩ : BufTy).Contents (Elt F) → (⟨S100000x1, .f32⟩ : BufTy).Contents (Elt F)),
    StableHlo.binary main_v14 main_arg2 main_v15 ((fun l r => Host.dotGeneral dot_S100000x1_S1x16_S100000x16_1_0_0_1_n_n none l r) : (⟨S100000x1, .f32⟩ : BufTy).Contents (Elt F) → (⟨S1x16, .f32⟩ : BufTy).Contents (Elt F) → (⟨S100000x16, .f32⟩ : BufTy).Contents (Elt F)),
    StableHlo.unary main_arg3 main_v16 (broadcastInDim S1x16 ![1] bcast_S16_S1x16_1 : (⟨S16, .f32⟩ : BufTy).Contents (Elt F) → (⟨S1x16, .f32⟩ : BufTy).Contents (Elt F)),
    StableHlo.unary main_v16 main_v17 (broadcastInDim S100000x16 ![0, 1] bcast_S1x16_S100000x16_0_1 : (⟨S1x16, .f32⟩ : BufTy).Contents (Elt F) → (⟨S100000x16, .f32⟩ : BufTy).Contents (Elt F)),
    StableHlo.binary main_v15 main_v17 main_v18 (addf : (⟨S100000x16, .f32⟩ : BufTy).Contents (Elt F) → (⟨S100000x16, .f32⟩ : BufTy).Contents (Elt F) → (⟨S100000x16, .f32⟩ : BufTy).Contents (Elt F)),
    TRef.nullary main_call0.cst (constant S_ .f32 0x3FD62D7D#32),
    TRef.nullary main_call0.call0.cst (constant S_ .f32 0x00000000#32),
    TRef.unary main_call0.call0.cst main_call0.call0.v0 (broadcastInDim S100000x16 ![] bcast_S_S100000x16),
    TRef.binary (.of main_v18) main_call0.call0.v0 main_call0.call0.v1 (cmpf .ogt),
    TRef.nullary main_call0.call0.cst_0 (constant S_ .f32 0x00000000#32),
    TRef.unary main_call0.call0.cst_0 main_call0.call0.v2 (broadcastInDim S100000x16 ![] bcast_S_S100000x16),
    TRef.binary (.of main_v18) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S100000x16 ![] bcast_S_S100000x16),
    TRef.ternary main_call0.call0.v3 main_call0.call0.call0.v1 (.of main_v18) main_call0.call0.call0.v2 select,
    TRef.unary main_call0.call0.call0.v2 main_call0.call0.v5 Host.expm1,
    TRef.unary main_call0.cst main_call0.call0.v6 id,
    TRef.unary main_call0.call0.v6 main_call0.call0.v7 (broadcastInDim S100000x16 ![] bcast_S_S100000x16),
    TRef.binary main_call0.call0.v7 main_call0.call0.v5 main_call0.call0.v8 mulf,
    TRef.ternary main_call0.call0.v1 (.of main_v18) main_call0.call0.v8 main_call0.call0.call1.v0 select,
    TRef.nullary main_call0.cst_0 (constant S_ .f32 0x3F867D5F#32),
    TRef.unary main_call0.cst_0 main_call0.v1 (broadcastInDim S100000x16 ![] bcast_S_S100000x16),
    TRef.binary main_call0.v1 main_call0.call0.call1.v0 main_call0.v2 mulf,
    StableHlo.binary main_v19 main_arg4 main_v20 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg5 main_v21 (broadcastInDim S1x32 ![1] bcast_S32_S1x32_1 : (⟨S32, .f32⟩ : BufTy).Contents (Elt F) → (⟨S1x32, .f32⟩ : BufTy).Contents (Elt F)),
    StableHlo.unary main_v21 main_v22 (broadcastInDim S100000x32 ![0, 1] bcast_S1x32_S100000x32_0_1 : (⟨S1x32, .f32⟩ : BufTy).Contents (Elt F) → (⟨S100000x32, .f32⟩ : BufTy).Contents (Elt F)),
    StableHlo.binary main_v20 main_v22 main_v23 (addf : (⟨S100000x32, .f32⟩ : BufTy).Contents (Elt F) → (⟨S100000x32, .f32⟩ : BufTy).Contents (Elt F) → (⟨S100000x32, .f32⟩ : BufTy).Contents (Elt F)),
    StableHlo.nullary main_c_1 (constantI S_ 32 0#32),
    StableHlo.unary main_c_1 main_v24 (broadcastInDim S1600000 ![] bcast_S_S1600000 : (⟨S_, .i32⟩ : BufTy).Contents (Elt F) → (⟨S1600000, .i32⟩ : BufTy).Contents (Elt F)),
    StableHlo.binary main_v1 main_v24 main_v25 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v26 (broadcastInDim S1600000 ![] bcast_S_S1600000 : (⟨S_, .i32⟩ : BufTy).Contents (Elt F) → (⟨S1600000, .i32⟩ : BufTy).Contents (Elt F)),
    StableHlo.binary main_v1 main_v26 main_v27 (addi : (⟨S1600000, .i32⟩ : BufTy).Contents (Elt F) → (⟨S1600000, .i32⟩ : BufTy).Contents (Elt F) → (⟨S1600000, .i32⟩ : BufTy).Contents (Elt F)),
    StableHlo.ternary main_v25 main_v27 main_v1 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v28 main_v29 (broadcastInDim S1600000x1 ![0] bcast_S1600000_S1600000x1_0 : (⟨S1600000, .i32⟩ : BufTy).Contents (Elt F) → (⟨S1600000x1, .i32⟩ : BufTy).Contents (Elt F)),
    StableHlo.binary main_v23 main_v29 main_v30 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_3 (constant S_ .f32 0x00000000#32),
    StableHlo.unary main_cst_3 main_v31 (broadcastInDim S100000x32 ![] bcast_S_S100000x32 : (⟨S_, .f32⟩ : BufTy).Contents (Elt F) → (⟨S100000x32, .f32⟩ : BufTy).Contents (Elt F)),
    StableHlo.unary main_v3 main_v32 (broadcastInDim S1600000x1 ![0] bcast_S1600000_S1600000x1_0 : (⟨S1600000, .i32⟩ : BufTy).Contents (Elt F) → (⟨S1600000x1, .i32⟩ : BufTy).Contents (Elt F)),
    StableHlo.ternary main_v31 main_v32 main_v30 main_v33 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v23 main_v33 main_v34 (addf : (⟨S100000x32, .f32⟩ : BufTy).Contents (Elt F) → (⟨S100000x32, .f32⟩ : BufTy).Contents (Elt F) → (⟨S100000x32, .f32⟩ : BufTy).Contents (Elt F)),
    StableHlo.unary main_arg6 main_v35 ((extractStridedSlice S1x32x16 ![0, 0, 0] · slices_S8x32x16_S1x32x16_0_0_0) : (⟨S8x32x16, .f32⟩ : BufTy).Contents (Elt F) → (⟨S1x32x16, .f32⟩ : BufTy).Contents (Elt F)),
    StableHlo.reshape main_v35 main_v36 rfl shapeCasts_S1x32x16_S32x16,
    StableHlo.binary main_v34 main_v36 main_v37 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg7 main_v38 ((extractStridedSlice S1x16 ![0, 0] · slices_S8x16_S1x16_0_0) : (⟨S8x16, .f32⟩ : BufTy).Contents (Elt F) → (⟨S1x16, .f32⟩ : BufTy).Contents (Elt F)),
    StableHlo.reshape main_v38 main_v39 rfl shapeCasts_S1x16_S16,
    StableHlo.unary main_v39 main_v40 (broadcastInDim S1x16 ![1] bcast_S16_S1x16_1 : (⟨S16, .f32⟩ : BufTy).Contents (Elt F) → (⟨S1x16, .f32⟩ : BufTy).Contents (Elt F)),
    StableHlo.unary main_v40 main_v41 (broadcastInDim S100000x16 ![0, 1] bcast_S1x16_S100000x16_0_1 : (⟨S1x16, .f32⟩ : BufTy).Contents (Elt F) → (⟨S100000x16, .f32⟩ : BufTy).Contents (Elt F)),
    StableHlo.binary main_v37 main_v41 main_v42 (addf : (⟨S100000x16, .f32⟩ : BufTy).Contents (Elt F) → (⟨S100000x16, .f32⟩ : BufTy).Contents (Elt F) → (⟨S100000x16, .f32⟩ : BufTy).Contents (Elt F)),
    TRef.nullary main_call1.cst (constant S_ .f32 0x3FD62D7D#32),
    TRef.nullary main_call1.call0.cst (constant S_ .f32 0x00000000#32),
    TRef.unary main_call1.call0.cst main_call1.call0.v0 (broadcastInDim S100000x16 ![] bcast_S_S100000x16),
    TRef.binary (.of main_v42) main_call1.call0.v0 main_call1.call0.v1 (cmpf .ogt),
    TRef.nullary main_call1.call0.cst_0 (constant S_ .f32 0x00000000#32),
    TRef.unary main_call1.call0.cst_0 main_call1.call0.v2 (broadcastInDim S100000x16 ![] bcast_S_S100000x16),
    TRef.binary (.of main_v42) main_call1.call0.v2 main_call1.call0.v3 (cmpf .ogt),
    TRef.nullary main_call1.call0.cst_1 (constant S_ .f32 0x00000000#32),
    TRef.unary main_call1.call0.cst_1 main_call1.call0.call0.v0 id,
    TRef.unary main_call1.call0.call0.v0 main_call1.call0.call0.v1 (broadcastInDim S100000x16 ![] bcast_S_S100000x16),
    TRef.ternary main_call1.call0.v3 main_call1.call0.call0.v1 (.of main_v42) main_call1.call0.call0.v2 select,
    TRef.unary main_call1.call0.call0.v2 main_call1.call0.v5 Host.expm1,
    TRef.unary main_call1.cst main_call1.call0.v6 id,
    TRef.unary main_call1.call0.v6 main_call1.call0.v7 (broadcastInDim S100000x16 ![] bcast_S_S100000x16),
    TRef.binary main_call1.call0.v7 main_call1.call0.v5 main_call1.call0.v8 mulf,
    TRef.ternary main_call1.call0.v1 (.of main_v42) main_call1.call0.v8 main_call1.call0.call1.v0 select,
    TRef.nullary main_call1.cst_0 (constant S_ .f32 0x3F867D5F#32),
    TRef.unary main_call1.cst_0 main_call1.v1 (broadcastInDim S100000x16 ![] bcast_S_S100000x16),
    TRef.binary main_call1.v1 main_call1.call0.call1.v0 main_call1.v2 mulf,
    StableHlo.unary main_arg8 main_v44 ((extractStridedSlice S1x16x32 ![0, 0, 0] · slices_S8x16x32_S1x16x32_0_0_0) : (⟨S8x16x32, .f32⟩ : BufTy).Contents (Elt F) → (⟨S1x16x32, .f32⟩ : BufTy).Contents (Elt F)),
    StableHlo.reshape main_v44 main_v45 rfl shapeCasts_S1x16x32_S16x32,
    StableHlo.binary main_v43 main_v45 main_v46 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v47 ((extractStridedSlice S1x32 ![0, 0] · slices_S8x32_S1x32_0_0) : (⟨S8x32, .f32⟩ : BufTy).Contents (Elt F) → (⟨S1x32, .f32⟩ : BufTy).Contents (Elt F)),
    StableHlo.reshape main_v47 main_v48 rfl shapeCasts_S1x32_S32,
    StableHlo.unary main_v48 main_v49 (broadcastInDim S1x32 ![1] bcast_S32_S1x32_1 : (⟨S32, .f32⟩ : BufTy).Contents (Elt F) → (⟨S1x32, .f32⟩ : BufTy).Contents (Elt F)),
    StableHlo.unary main_v49 main_v50 (broadcastInDim S100000x32 ![0, 1] bcast_S1x32_S100000x32_0_1 : (⟨S1x32, .f32⟩ : BufTy).Contents (Elt F) → (⟨S100000x32, .f32⟩ : BufTy).Contents (Elt F)),
    StableHlo.binary main_v46 main_v50 main_v51 (addf : (⟨S100000x32, .f32⟩ : BufTy).Contents (Elt F) → (⟨S100000x32, .f32⟩ : BufTy).Contents (Elt F) → (⟨S100000x32, .f32⟩ : BufTy).Contents (Elt F)),
    StableHlo.binary main_v51 main_v23 main_v52 (addf : (⟨S100000x32, .f32⟩ : BufTy).Contents (Elt F) → (⟨S100000x32, .f32⟩ : BufTy).Contents (Elt F) → (⟨S100000x32, .f32⟩ : BufTy).Contents (Elt F)),
    StableHlo.nullary main_c_4 (constantI S_ 32 0#32) ]

/-- The operations of statements 61 … 120 of the program (a cut by count; the layers' lists above are the same operations cut by layer). -/
abbrev win1 : List (HloOp τ sig (Elt F)) :=
  [ StableHlo.unary main_c_4 main_v53 (broadcastInDim S1600000 ![] bcast_S_S1600000 : (⟨S_, .i32⟩ : BufTy).Contents (Elt F) → (⟨S1600000, .i32⟩ : BufTy).Contents (Elt F)),
    StableHlo.binary main_v1 main_v53 main_v54 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v55 (broadcastInDim S1600000 ![] bcast_S_S1600000 : (⟨S_, .i32⟩ : BufTy).Contents (Elt F) → (⟨S1600000, .i32⟩ : BufTy).Contents (Elt F)),
    StableHlo.binary main_v1 main_v55 main_v56 (addi : (⟨S1600000, .i32⟩ : BufTy).Contents (Elt F) → (⟨S1600000, .i32⟩ : BufTy).Contents (Elt F) → (⟨S1600000, .i32⟩ : BufTy).Contents (Elt F)),
    StableHlo.ternary main_v54 main_v56 main_v1 main_v57 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v57 main_v58 (broadcastInDim S1600000x1 ![0] bcast_S1600000_S1600000x1_0 : (⟨S1600000, .i32⟩ : BufTy).Contents (Elt F) → (⟨S1600000x1, .i32⟩ : BufTy).Contents (Elt F)),
    StableHlo.binary main_v52 main_v58 main_v59 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_6 (constant S_ .f32 0x00000000#32),
    StableHlo.unary main_cst_6 main_v60 (broadcastInDim S100000x32 ![] bcast_S_S100000x32 : (⟨S_, .f32⟩ : BufTy).Contents (Elt F) → (⟨S100000x32, .f32⟩ : BufTy).Contents (Elt F)),
    StableHlo.unary main_v3 main_v61 (broadcastInDim S1600000x1 ![0] bcast_S1600000_S1600000x1_0 : (⟨S1600000, .i32⟩ : BufTy).Contents (Elt F) → (⟨S1600000x1, .i32⟩ : BufTy).Contents (Elt F)),
    StableHlo.ternary main_v60 main_v61 main_v59 main_v62 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v52 main_v62 main_v63 (addf : (⟨S100000x32, .f32⟩ : BufTy).Contents (Elt F) → (⟨S100000x32, .f32⟩ : BufTy).Contents (Elt F) → (⟨S100000x32, .f32⟩ : BufTy).Contents (Elt F)),
    StableHlo.unary main_arg6 main_v64 ((extractStridedSlice S1x32x16 ![1, 0, 0] · slices_S8x32x16_S1x32x16_1_0_0) : (⟨S8x32x16, .f32⟩ : BufTy).Contents (Elt F) → (⟨S1x32x16, .f32⟩ : BufTy).Contents (Elt F)),
    StableHlo.reshape main_v64 main_v65 rfl shapeCasts_S1x32x16_S32x16,
    StableHlo.binary main_v63 main_v65 main_v66 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg7 main_v67 ((extractStridedSlice S1x16 ![1, 0] · slices_S8x16_S1x16_1_0) : (⟨S8x16, .f32⟩ : BufTy).Contents (Elt F) → (⟨S1x16, .f32⟩ : BufTy).Contents (Elt F)),
    StableHlo.reshape main_v67 main_v68 rfl shapeCasts_S1x16_S16,
    StableHlo.unary main_v68 main_v69 (broadcastInDim S1x16 ![1] bcast_S16_S1x16_1 : (⟨S16, .f32⟩ : BufTy).Contents (Elt F) → (⟨S1x16, .f32⟩ : BufTy).Contents (Elt F)),
    StableHlo.unary main_v69 main_v70 (broadcastInDim S100000x16 ![0, 1] bcast_S1x16_S100000x16_0_1 : (⟨S1x16, .f32⟩ : BufTy).Contents (Elt F) → (⟨S100000x16, .f32⟩ : BufTy).Contents (Elt F)),
    StableHlo.binary main_v66 main_v70 main_v71 (addf : (⟨S100000x16, .f32⟩ : BufTy).Contents (Elt F) → (⟨S100000x16, .f32⟩ : BufTy).Contents (Elt F) → (⟨S100000x16, .f32⟩ : BufTy).Contents (Elt F)),
    TRef.nullary main_call2.cst (constant S_ .f32 0x3FD62D7D#32),
    TRef.nullary main_call2.call0.cst (constant S_ .f32 0x00000000#32),
    TRef.unary main_call2.call0.cst main_call2.call0.v0 (broadcastInDim S100000x16 ![] bcast_S_S100000x16),
    TRef.binary (.of main_v71) main_call2.call0.v0 main_call2.call0.v1 (cmpf .ogt),
    TRef.nullary main_call2.call0.cst_0 (constant S_ .f32 0x00000000#32),
    TRef.unary main_call2.call0.cst_0 main_call2.call0.v2 (broadcastInDim S100000x16 ![] bcast_S_S100000x16),
    TRef.binary (.of main_v71) main_call2.call0.v2 main_call2.call0.v3 (cmpf .ogt),
    TRef.nullary main_call2.call0.cst_1 (constant S_ .f32 0x00000000#32),
    TRef.unary main_call2.call0.cst_1 main_call2.call0.call0.v0 id,
    TRef.unary main_call2.call0.call0.v0 main_call2.call0.call0.v1 (broadcastInDim S100000x16 ![] bcast_S_S100000x16),
    TRef.ternary main_call2.call0.v3 main_call2.call0.call0.v1 (.of main_v71) main_call2.call0.call0.v2 select,
    TRef.unary main_call2.call0.call0.v2 main_call2.call0.v5 Host.expm1,
    TRef.unary main_call2.cst main_call2.call0.v6 id,
    TRef.unary main_call2.call0.v6 main_call2.call0.v7 (broadcastInDim S100000x16 ![] bcast_S_S100000x16),
    TRef.binary main_call2.call0.v7 main_call2.call0.v5 main_call2.call0.v8 mulf,
    TRef.ternary main_call2.call0.v1 (.of main_v71) main_call2.call0.v8 main_call2.call0.call1.v0 select,
    TRef.nullary main_call2.cst_0 (constant S_ .f32 0x3F867D5F#32),
    TRef.unary main_call2.cst_0 main_call2.v1 (broadcastInDim S100000x16 ![] bcast_S_S100000x16),
    TRef.binary main_call2.v1 main_call2.call0.call1.v0 main_call2.v2 mulf,
    StableHlo.unary main_arg8 main_v73 ((extractStridedSlice S1x16x32 ![1, 0, 0] · slices_S8x16x32_S1x16x32_1_0_0) : (⟨S8x16x32, .f32⟩ : BufTy).Contents (Elt F) → (⟨S1x16x32, .f32⟩ : BufTy).Contents (Elt F)),
    StableHlo.reshape main_v73 main_v74 rfl shapeCasts_S1x16x32_S16x32,
    StableHlo.binary main_v72 main_v74 main_v75 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v76 ((extractStridedSlice S1x32 ![1, 0] · slices_S8x32_S1x32_1_0) : (⟨S8x32, .f32⟩ : BufTy).Contents (Elt F) → (⟨S1x32, .f32⟩ : BufTy).Contents (Elt F)),
    StableHlo.reshape main_v76 main_v77 rfl shapeCasts_S1x32_S32,
    StableHlo.unary main_v77 main_v78 (broadcastInDim S1x32 ![1] bcast_S32_S1x32_1 : (⟨S32, .f32⟩ : BufTy).Contents (Elt F) → (⟨S1x32, .f32⟩ : BufTy).Contents (Elt F)),
    StableHlo.unary main_v78 main_v79 (broadcastInDim S100000x32 ![0, 1] bcast_S1x32_S100000x32_0_1 : (⟨S1x32, .f32⟩ : BufTy).Contents (Elt F) → (⟨S100000x32, .f32⟩ : BufTy).Contents (Elt F)),
    StableHlo.binary main_v75 main_v79 main_v80 (addf : (⟨S100000x32, .f32⟩ : BufTy).Contents (Elt F) → (⟨S100000x32, .f32⟩ : BufTy).Contents (Elt F) → (⟨S100000x32, .f32⟩ : BufTy).Contents (Elt F)),
    StableHlo.binary main_v80 main_v52 main_v81 (addf : (⟨S100000x32, .f32⟩ : BufTy).Contents (Elt F) → (⟨S100000x32, .f32⟩ : BufTy).Contents (Elt F) → (⟨S100000x32, .f32⟩ : BufTy).Contents (Elt F)),
    StableHlo.nullary main_c_7 (constantI S_ 32 0#32),
    StableHlo.unary main_c_7 main_v82 (broadcastInDim S1600000 ![] bcast_S_S1600000 : (⟨S_, .i32⟩ : BufTy).Contents (Elt F) → (⟨S1600000, .i32⟩ : BufTy).Contents (Elt F)),
    StableHlo.binary main_v1 main_v82 main_v83 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v84 (broadcastInDim S1600000 ![] bcast_S_S1600000 : (⟨S_, .i32⟩ : BufTy).Contents (Elt F) → (⟨S1600000, .i32⟩ : BufTy).Contents (Elt F)),
    StableHlo.binary main_v1 main_v84 main_v85 (addi : (⟨S1600000, .i32⟩ : BufTy).Contents (Elt F) → (⟨S1600000, .i32⟩ : BufTy).Contents (Elt F) → (⟨S1600000, .i32⟩ : BufTy).Contents (Elt F)),
    StableHlo.ternary main_v83 main_v85 main_v1 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v86 main_v87 (broadcastInDim S1600000x1 ![0] bcast_S1600000_S1600000x1_0 : (⟨S1600000, .i32⟩ : BufTy).Contents (Elt F) → (⟨S1600000x1, .i32⟩ : BufTy).Contents (Elt F)),
    StableHlo.binary main_v81 main_v87 main_v88 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_9 (constant S_ .f32 0x00000000#32),
    StableHlo.unary main_cst_9 main_v89 (broadcastInDim S100000x32 ![] bcast_S_S100000x32 : (⟨S_, .f32⟩ : BufTy).Contents (Elt F) → (⟨S100000x32, .f32⟩ : BufTy).Contents (Elt F)),
    StableHlo.unary main_v3 main_v90 (broadcastInDim S1600000x1 ![0] bcast_S1600000_S1600000x1_0 : (⟨S1600000, .i32⟩ : BufTy).Contents (Elt F) → (⟨S1600000x1, .i32⟩ : BufTy).Contents (Elt F)),
    StableHlo.ternary main_v89 main_v90 main_v88 main_v91 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v81 main_v91 main_v92 (addf : (⟨S100000x32, .f32⟩ : BufTy).Contents (Elt F) → (⟨S100000x32, .f32⟩ : BufTy).Contents (Elt F) → (⟨S100000x32, .f32⟩ : BufTy).Contents (Elt F)),
    StableHlo.unary main_arg6 main_v93 ((extractStridedSlice S1x32x16 ![2, 0, 0] · slices_S8x32x16_S1x32x16_2_0_0) : (⟨S8x32x16, .f32⟩ : BufTy).Contents (Elt F) → (⟨S1x32x16, .f32⟩ : BufTy).Contents (Elt F)),
    StableHlo.reshape main_v93 main_v94 rfl shapeCasts_S1x32x16_S32x16,
    StableHlo.binary main_v92 main_v94 main_v95 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg7 main_v96 ((extractStridedSlice S1x16 ![2, 0] · slices_S8x16_S1x16_2_0) : (⟨S8x16, .f32⟩ : BufTy).Contents (Elt F) → (⟨S1x16, .f32⟩ : BufTy).Contents (Elt F)),
    StableHlo.reshape main_v96 main_v97 rfl shapeCasts_S1x16_S16,
    StableHlo.unary main_v97 main_v98 (broadcastInDim S1x16 ![1] bcast_S16_S1x16_1 : (⟨S16, .f32⟩ : BufTy).Contents (Elt F) → (⟨S1x16, .f32⟩ : BufTy).Contents (Elt F)),
    StableHlo.unary main_v98 main_v99 (broadcastInDim S100000x16 ![0, 1] bcast_S1x16_S100000x16_0_1 : (⟨S1x16, .f32⟩ : BufTy).Contents (Elt F) → (⟨S100000x16, .f32⟩ : BufTy).Contents (Elt F)),
    StableHlo.binary main_v95 main_v99 main_v100 (addf : (⟨S100000x16, .f32⟩ : BufTy).Contents (Elt F) → (⟨S100000x16, .f32⟩ : BufTy).Contents (Elt F) → (⟨S100000x16, .f32⟩ : BufTy).Contents (Elt F)),
    TRef.nullary main_call3.cst (constant S_ .f32 0x3FD62D7D#32),
    TRef.nullary main_call3.call0.cst (constant S_ .f32 0x00000000#32),
    TRef.unary main_call3.call0.cst main_call3.call0.v0 (broadcastInDim S100000x16 ![] bcast_S_S100000x16),
    TRef.binary (.of main_v100) main_call3.call0.v0 main_call3.call0.v1 (cmpf .ogt),
    TRef.nullary main_call3.call0.cst_0 (constant S_ .f32 0x00000000#32),
    TRef.unary main_call3.call0.cst_0 main_call3.call0.v2 (broadcastInDim S100000x16 ![] bcast_S_S100000x16),
    TRef.binary (.of main_v100) main_call3.call0.v2 main_call3.call0.v3 (cmpf .ogt),
    TRef.nullary main_call3.call0.cst_1 (constant S_ .f32 0x00000000#32),
    TRef.unary main_call3.call0.cst_1 main_call3.call0.call0.v0 id,
    TRef.unary main_call3.call0.call0.v0 main_call3.call0.call0.v1 (broadcastInDim S100000x16 ![] bcast_S_S100000x16),
    TRef.ternary main_call3.call0.v3 main_call3.call0.call0.v1 (.of main_v100) main_call3.call0.call0.v2 select,
    TRef.unary main_call3.call0.call0.v2 main_call3.call0.v5 Host.expm1,
    TRef.unary main_call3.cst main_call3.call0.v6 id,
    TRef.unary main_call3.call0.v6 main_call3.call0.v7 (broadcastInDim S100000x16 ![] bcast_S_S100000x16),
    TRef.binary main_call3.call0.v7 main_call3.call0.v5 main_call3.call0.v8 mulf,
    TRef.ternary main_call3.call0.v1 (.of main_v100) main_call3.call0.v8 main_call3.call0.call1.v0 select,
    TRef.nullary main_call3.cst_0 (constant S_ .f32 0x3F867D5F#32),
    TRef.unary main_call3.cst_0 main_call3.v1 (broadcastInDim S100000x16 ![] bcast_S_S100000x16),
    TRef.binary main_call3.v1 main_call3.call0.call1.v0 main_call3.v2 mulf,
    StableHlo.unary main_arg8 main_v102 ((extractStridedSlice S1x16x32 ![2, 0, 0] · slices_S8x16x32_S1x16x32_2_0_0) : (⟨S8x16x32, .f32⟩ : BufTy).Contents (Elt F) → (⟨S1x16x32, .f32⟩ : BufTy).Contents (Elt F)),
    StableHlo.reshape main_v102 main_v103 rfl shapeCasts_S1x16x32_S16x32,
    StableHlo.binary main_v101 main_v103 main_v104 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v105 ((extractStridedSlice S1x32 ![2, 0] · slices_S8x32_S1x32_2_0) : (⟨S8x32, .f32⟩ : BufTy).Contents (Elt F) → (⟨S1x32, .f32⟩ : BufTy).Contents (Elt F)),
    StableHlo.reshape main_v105 main_v106 rfl shapeCasts_S1x32_S32,
    StableHlo.unary main_v106 main_v107 (broadcastInDim S1x32 ![1] bcast_S32_S1x32_1 : (⟨S32, .f32⟩ : BufTy).Contents (Elt F) → (⟨S1x32, .f32⟩ : BufTy).Contents (Elt F)) ]

/-- The operations of statements 121 … 180 of the program (a cut by count; the layers' lists above are the same operations cut by layer). -/
abbrev win2 : List (HloOp τ sig (Elt F)) :=
  [ StableHlo.unary main_v107 main_v108 (broadcastInDim S100000x32 ![0, 1] bcast_S1x32_S100000x32_0_1 : (⟨S1x32, .f32⟩ : BufTy).Contents (Elt F) → (⟨S100000x32, .f32⟩ : BufTy).Contents (Elt F)),
    StableHlo.binary main_v104 main_v108 main_v109 (addf : (⟨S100000x32, .f32⟩ : BufTy).Contents (Elt F) → (⟨S100000x32, .f32⟩ : BufTy).Contents (Elt F) → (⟨S100000x32, .f32⟩ : BufTy).Contents (Elt F)),
    StableHlo.binary main_v109 main_v81 main_v110 (addf : (⟨S100000x32, .f32⟩ : BufTy).Contents (Elt F) → (⟨S100000x32, .f32⟩ : BufTy).Contents (Elt F) → (⟨S100000x32, .f32⟩ : BufTy).Contents (Elt F)),
    StableHlo.nullary main_c_10 (constantI S_ 32 0#32),
    StableHlo.unary main_c_10 main_v111 (broadcastInDim S1600000 ![] bcast_S_S1600000 : (⟨S_, .i32⟩ : BufTy).Contents (Elt F) → (⟨S1600000, .i32⟩ : BufTy).Contents (Elt F)),
    StableHlo.binary main_v1 main_v111 main_v112 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v113 (broadcastInDim S1600000 ![] bcast_S_S1600000 : (⟨S_, .i32⟩ : BufTy).Contents (Elt F) → (⟨S1600000, .i32⟩ : BufTy).Contents (Elt F)),
    StableHlo.binary main_v1 main_v113 main_v114 (addi : (⟨S1600000, .i32⟩ : BufTy).Contents (Elt F) → (⟨S1600000, .i32⟩ : BufTy).Contents (Elt F) → (⟨S1600000, .i32⟩ : BufTy).Contents (Elt F)),
    StableHlo.ternary main_v112 main_v114 main_v1 main_v115 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v115 main_v116 (broadcastInDim S1600000x1 ![0] bcast_S1600000_S1600000x1_0 : (⟨S1600000, .i32⟩ : BufTy).Contents (Elt F) → (⟨S1600000x1, .i32⟩ : BufTy).Contents (Elt F)),
    StableHlo.binary main_v110 main_v116 main_v117 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_12 (constant S_ .f32 0x00000000#32),
    StableHlo.unary main_cst_12 main_v118 (broadcastInDim S100000x32 ![] bcast_S_S100000x32 : (⟨S_, .f32⟩ : BufTy).Contents (Elt F) → (⟨S100000x32, .f32⟩ : BufTy).Contents (Elt F)),
    StableHlo.unary main_v3 main_v119 (broadcastInDim S1600000x1 ![0] bcast_S1600000_S1600000x1_0 : (⟨S1600000, .i32⟩ : BufTy).Contents (Elt F) → (⟨S1600000x1, .i32⟩ : BufTy).Contents (Elt F)),
    StableHlo.ternary main_v118 main_v119 main_v117 main_v120 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v110 main_v120 main_v121 (addf : (⟨S100000x32, .f32⟩ : BufTy).Contents (Elt F) → (⟨S100000x32, .f32⟩ : BufTy).Contents (Elt F) → (⟨S100000x32, .f32⟩ : BufTy).Contents (Elt F)),
    StableHlo.unary main_arg6 main_v122 ((extractStridedSlice S1x32x16 ![3, 0, 0] · slices_S8x32x16_S1x32x16_3_0_0) : (⟨S8x32x16, .f32⟩ : BufTy).Contents (Elt F) → (⟨S1x32x16, .f32⟩ : BufTy).Contents (Elt F)),
    StableHlo.reshape main_v122 main_v123 rfl shapeCasts_S1x32x16_S32x16,
    StableHlo.binary main_v121 main_v123 main_v124 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg7 main_v125 ((extractStridedSlice S1x16 ![3, 0] · slices_S8x16_S1x16_3_0) : (⟨S8x16, .f32⟩ : BufTy).Contents (Elt F) → (⟨S1x16, .f32⟩ : BufTy).Contents (Elt F)),
    StableHlo.reshape main_v125 main_v126 rfl shapeCasts_S1x16_S16,
    StableHlo.unary main_v126 main_v127 (broadcastInDim S1x16 ![1] bcast_S16_S1x16_1 : (⟨S16, .f32⟩ : BufTy).Contents (Elt F) → (⟨S1x16, .f32⟩ : BufTy).Contents (Elt F)),
    StableHlo.unary main_v127 main_v128 (broadcastInDim S100000x16 ![0, 1] bcast_S1x16_S100000x16_0_1 : (⟨S1x16, .f32⟩ : BufTy).Contents (Elt F) → (⟨S100000x16, .f32⟩ : BufTy).Contents (Elt F)),
    StableHlo.binary main_v124 main_v128 main_v129 (addf : (⟨S100000x16, .f32⟩ : BufTy).Contents (Elt F) → (⟨S100000x16, .f32⟩ : BufTy).Contents (Elt F) → (⟨S100000x16, .f32⟩ : BufTy).Contents (Elt F)),
    TRef.nullary main_call4.cst (constant S_ .f32 0x3FD62D7D#32),
    TRef.nullary main_call4.call0.cst (constant S_ .f32 0x00000000#32),
    TRef.unary main_call4.call0.cst main_call4.call0.v0 (broadcastInDim S100000x16 ![] bcast_S_S100000x16),
    TRef.binary (.of main_v129) main_call4.call0.v0 main_call4.call0.v1 (cmpf .ogt),
    TRef.nullary main_call4.call0.cst_0 (constant S_ .f32 0x00000000#32),
    TRef.unary main_call4.call0.cst_0 main_call4.call0.v2 (broadcastInDim S100000x16 ![] bcast_S_S100000x16),
    TRef.binary (.of main_v129) main_call4.call0.v2 main_call4.call0.v3 (cmpf .ogt),
    TRef.nullary main_call4.call0.cst_1 (constant S_ .f32 0x00000000#32),
    TRef.unary main_call4.call0.cst_1 main_call4.call0.call0.v0 id,
    TRef.unary main_call4.call0.call0.v0 main_call4.call0.call0.v1 (broadcastInDim S100000x16 ![] bcast_S_S100000x16),
    TRef.ternary main_call4.call0.v3 main_call4.call0.call0.v1 (.of main_v129) main_call4.call0.call0.v2 select,
    TRef.unary main_call4.call0.call0.v2 main_call4.call0.v5 Host.expm1,
    TRef.unary main_call4.cst main_call4.call0.v6 id,
    TRef.unary main_call4.call0.v6 main_call4.call0.v7 (broadcastInDim S100000x16 ![] bcast_S_S100000x16),
    TRef.binary main_call4.call0.v7 main_call4.call0.v5 main_call4.call0.v8 mulf,
    TRef.ternary main_call4.call0.v1 (.of main_v129) main_call4.call0.v8 main_call4.call0.call1.v0 select,
    TRef.nullary main_call4.cst_0 (constant S_ .f32 0x3F867D5F#32),
    TRef.unary main_call4.cst_0 main_call4.v1 (broadcastInDim S100000x16 ![] bcast_S_S100000x16),
    TRef.binary main_call4.v1 main_call4.call0.call1.v0 main_call4.v2 mulf,
    StableHlo.unary main_arg8 main_v131 ((extractStridedSlice S1x16x32 ![3, 0, 0] · slices_S8x16x32_S1x16x32_3_0_0) : (⟨S8x16x32, .f32⟩ : BufTy).Contents (Elt F) → (⟨S1x16x32, .f32⟩ : BufTy).Contents (Elt F)),
    StableHlo.reshape main_v131 main_v132 rfl shapeCasts_S1x16x32_S16x32,
    StableHlo.binary main_v130 main_v132 main_v133 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v134 ((extractStridedSlice S1x32 ![3, 0] · slices_S8x32_S1x32_3_0) : (⟨S8x32, .f32⟩ : BufTy).Contents (Elt F) → (⟨S1x32, .f32⟩ : BufTy).Contents (Elt F)),
    StableHlo.reshape main_v134 main_v135 rfl shapeCasts_S1x32_S32,
    StableHlo.unary main_v135 main_v136 (broadcastInDim S1x32 ![1] bcast_S32_S1x32_1 : (⟨S32, .f32⟩ : BufTy).Contents (Elt F) → (⟨S1x32, .f32⟩ : BufTy).Contents (Elt F)),
    StableHlo.unary main_v136 main_v137 (broadcastInDim S100000x32 ![0, 1] bcast_S1x32_S100000x32_0_1 : (⟨S1x32, .f32⟩ : BufTy).Contents (Elt F) → (⟨S100000x32, .f32⟩ : BufTy).Contents (Elt F)),
    StableHlo.binary main_v133 main_v137 main_v138 (addf : (⟨S100000x32, .f32⟩ : BufTy).Contents (Elt F) → (⟨S100000x32, .f32⟩ : BufTy).Contents (Elt F) → (⟨S100000x32, .f32⟩ : BufTy).Contents (Elt F)),
    StableHlo.binary main_v138 main_v110 main_v139 (addf : (⟨S100000x32, .f32⟩ : BufTy).Contents (Elt F) → (⟨S100000x32, .f32⟩ : BufTy).Contents (Elt F) → (⟨S100000x32, .f32⟩ : BufTy).Contents (Elt F)),
    StableHlo.nullary main_c_13 (constantI S_ 32 0#32),
    StableHlo.unary main_c_13 main_v140 (broadcastInDim S1600000 ![] bcast_S_S1600000 : (⟨S_, .i32⟩ : BufTy).Contents (Elt F) → (⟨S1600000, .i32⟩ : BufTy).Contents (Elt F)),
    StableHlo.binary main_v1 main_v140 main_v141 (cmpi .slt : (⟨S1600000, .i32⟩ : BufTy).Contents (Elt F) → (⟨S1600000, .i32⟩ : BufTy).Contents (Elt F) → (⟨S1600000, .i1⟩ : BufTy).Contents (Elt F)),
    StableHlo.nullary main_c_14 (constantI S_ 32 100000#32),
    StableHlo.unary main_c_14 main_v142 (broadcastInDim S1600000 ![] bcast_S_S1600000 : (⟨S_, .i32⟩ : BufTy).Contents (Elt F) → (⟨S1600000, .i32⟩ : BufTy).Contents (Elt F)),
    StableHlo.binary main_v1 main_v142 main_v143 (addi : (⟨S1600000, .i32⟩ : BufTy).Contents (Elt F) → (⟨S1600000, .i32⟩ : BufTy).Contents (Elt F) → (⟨S1600000, .i32⟩ : BufTy).Contents (Elt F)),
    StableHlo.ternary main_v141 main_v143 main_v1 main_v144 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v144 main_v145 (broadcastInDim S1600000x1 ![0] bcast_S1600000_S1600000x1_0 : (⟨S1600000, .i32⟩ : BufTy).Contents (Elt F) → (⟨S1600000x1, .i32⟩ : BufTy).Contents (Elt F)),
    StableHlo.binary main_v139 main_v145 main_v146 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_15 (constant S_ .f32 0x00000000#32),
    StableHlo.unary main_cst_15 main_v147 (broadcastInDim S100000x32 ![] bcast_S_S100000x32 : (⟨S_, .f32⟩ : BufTy).Contents (Elt F) → (⟨S100000x32, .f32⟩ : BufTy).Contents (Elt F)),
    StableHlo.unary main_v3 main_v148 (broadcastInDim S1600000x1 ![0] bcast_S1600000_S1600000x1_0 : (⟨S1600000, .i32⟩ : BufTy).Contents (Elt F) → (⟨S1600000x1, .i32⟩ : BufTy).Contents (Elt F)),
    StableHlo.ternary main_v147 main_v148 main_v146 main_v149 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v139 main_v149 main_v150 (addf : (⟨S100000x32, .f32⟩ : BufTy).Contents (Elt F) → (⟨S100000x32, .f32⟩ : BufTy).Contents (Elt F) → (⟨S100000x32, .f32⟩ : BufTy).Contents (Elt F)),
    StableHlo.unary main_arg6 main_v151 ((extractStridedSlice S1x32x16 ![4, 0, 0] · slices_S8x32x16_S1x32x16_4_0_0) : (⟨S8x32x16, .f32⟩ : BufTy).Contents (Elt F) → (⟨S1x32x16, .f32⟩ : BufTy).Contents (Elt F)),
    StableHlo.reshape main_v151 main_v152 rfl shapeCasts_S1x32x16_S32x16,
    StableHlo.binary main_v150 main_v152 main_v153 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg7 main_v154 ((extractStridedSlice S1x16 ![4, 0] · slices_S8x16_S1x16_4_0) : (⟨S8x16, .f32⟩ : BufTy).Contents (Elt F) → (⟨S1x16, .f32⟩ : BufTy).Contents (Elt F)),
    StableHlo.reshape main_v154 main_v155 rfl shapeCasts_S1x16_S16,
    StableHlo.unary main_v155 main_v156 (broadcastInDim S1x16 ![1] bcast_S16_S1x16_1 : (⟨S16, .f32⟩ : BufTy).Contents (Elt F) → (⟨S1x16, .f32⟩ : BufTy).Contents (Elt F)),
    StableHlo.unary main_v156 main_v157 (broadcastInDim S100000x16 ![0, 1] bcast_S1x16_S100000x16_0_1 : (⟨S1x16, .f32⟩ : BufTy).Contents (Elt F) → (⟨S100000x16, .f32⟩ : BufTy).Contents (Elt F)),
    StableHlo.binary main_v153 main_v157 main_v158 (addf : (⟨S100000x16, .f32⟩ : BufTy).Contents (Elt F) → (⟨S100000x16, .f32⟩ : BufTy).Contents (Elt F) → (⟨S100000x16, .f32⟩ : BufTy).Contents (Elt F)),
    TRef.nullary main_call5.cst (constant S_ .f32 0x3FD62D7D#32),
    TRef.nullary main_call5.call0.cst (constant S_ .f32 0x00000000#32),
    TRef.unary main_call5.call0.cst main_call5.call0.v0 (broadcastInDim S100000x16 ![] bcast_S_S100000x16),
    TRef.binary (.of main_v158) main_call5.call0.v0 main_call5.call0.v1 (cmpf .ogt),
    TRef.nullary main_call5.call0.cst_0 (constant S_ .f32 0x00000000#32),
    TRef.unary main_call5.call0.cst_0 main_call5.call0.v2 (broadcastInDim S100000x16 ![] bcast_S_S100000x16),
    TRef.binary (.of main_v158) main_call5.call0.v2 main_call5.call0.v3 (cmpf .ogt),
    TRef.nullary main_call5.call0.cst_1 (constant S_ .f32 0x00000000#32),
    TRef.unary main_call5.call0.cst_1 main_call5.call0.call0.v0 id,
    TRef.unary main_call5.call0.call0.v0 main_call5.call0.call0.v1 (broadcastInDim S100000x16 ![] bcast_S_S100000x16),
    TRef.ternary main_call5.call0.v3 main_call5.call0.call0.v1 (.of main_v158) main_call5.call0.call0.v2 select,
    TRef.unary main_call5.call0.call0.v2 main_call5.call0.v5 Host.expm1,
    TRef.unary main_call5.cst main_call5.call0.v6 id,
    TRef.unary main_call5.call0.v6 main_call5.call0.v7 (broadcastInDim S100000x16 ![] bcast_S_S100000x16),
    TRef.binary main_call5.call0.v7 main_call5.call0.v5 main_call5.call0.v8 mulf,
    TRef.ternary main_call5.call0.v1 (.of main_v158) main_call5.call0.v8 main_call5.call0.call1.v0 select,
    TRef.nullary main_call5.cst_0 (constant S_ .f32 0x3F867D5F#32),
    TRef.unary main_call5.cst_0 main_call5.v1 (broadcastInDim S100000x16 ![] bcast_S_S100000x16),
    TRef.binary main_call5.v1 main_call5.call0.call1.v0 main_call5.v2 mulf,
    StableHlo.unary main_arg8 main_v160 ((extractStridedSlice S1x16x32 ![4, 0, 0] · slices_S8x16x32_S1x16x32_4_0_0) : (⟨S8x16x32, .f32⟩ : BufTy).Contents (Elt F) → (⟨S1x16x32, .f32⟩ : BufTy).Contents (Elt F)),
    StableHlo.reshape main_v160 main_v161 rfl shapeCasts_S1x16x32_S16x32 ]

/-- The operations of statements 181 … 240 of the program (a cut by count; the layers' lists above are the same operations cut by layer). -/
abbrev win3 : List (HloOp τ sig (Elt F)) :=
  [ StableHlo.binary main_v159 main_v161 main_v162 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v163 ((extractStridedSlice S1x32 ![4, 0] · slices_S8x32_S1x32_4_0) : (⟨S8x32, .f32⟩ : BufTy).Contents (Elt F) → (⟨S1x32, .f32⟩ : BufTy).Contents (Elt F)),
    StableHlo.reshape main_v163 main_v164 rfl shapeCasts_S1x32_S32,
    StableHlo.unary main_v164 main_v165 (broadcastInDim S1x32 ![1] bcast_S32_S1x32_1 : (⟨S32, .f32⟩ : BufTy).Contents (Elt F) → (⟨S1x32, .f32⟩ : BufTy).Contents (Elt F)),
    StableHlo.unary main_v165 main_v166 (broadcastInDim S100000x32 ![0, 1] bcast_S1x32_S100000x32_0_1 : (⟨S1x32, .f32⟩ : BufTy).Contents (Elt F) → (⟨S100000x32, .f32⟩ : BufTy).Contents (Elt F)),
    StableHlo.binary main_v162 main_v166 main_v167 (addf : (⟨S100000x32, .f32⟩ : BufTy).Contents (Elt F) → (⟨S100000x32, .f32⟩ : BufTy).Contents (Elt F) → (⟨S100000x32, .f32⟩ : BufTy).Contents (Elt F)),
    StableHlo.binary main_v167 main_v139 main_v168 (addf : (⟨S100000x32, .f32⟩ : BufTy).Contents (Elt F) → (⟨S100000x32, .f32⟩ : BufTy).Contents (Elt F) → (⟨S100000x32, .f32⟩ : BufTy).Contents (Elt F)),
    StableHlo.nullary main_c_16 (constantI S_ 32 0#32),
    StableHlo.unary main_c_16 main_v169 (broadcastInDim S1600000 ![] bcast_S_S1600000 : (⟨S_, .i32⟩ : BufTy).Contents (Elt F) → (⟨S1600000, .i32⟩ : BufTy).Contents (Elt F)),
    StableHlo.binary main_v1 main_v169 main_v170 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v171 (broadcastInDim S1600000 ![] bcast_S_S1600000 : (⟨S_, .i32⟩ : BufTy).Contents (Elt F) → (⟨S1600000, .i32⟩ : BufTy).Contents (Elt F)),
    StableHlo.binary main_v1 main_v171 main_v172 (addi : (⟨S1600000, .i32⟩ : BufTy).Contents (Elt F) → (⟨S1600000, .i32⟩ : BufTy).Contents (Elt F) → (⟨S1600000, .i32⟩ : BufTy).Contents (Elt F)),
    StableHlo.ternary main_v170 main_v172 main_v1 main_v173 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v173 main_v174 (broadcastInDim S1600000x1 ![0] bcast_S1600000_S1600000x1_0 : (⟨S1600000, .i32⟩ : BufTy).Contents (Elt F) → (⟨S1600000x1, .i32⟩ : BufTy).Contents (Elt F)),
    StableHlo.binary main_v168 main_v174 main_v175 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_18 (constant S_ .f32 0x00000000#32),
    StableHlo.unary main_cst_18 main_v176 (broadcastInDim S100000x32 ![] bcast_S_S100000x32 : (⟨S_, .f32⟩ : BufTy).Contents (Elt F) → (⟨S100000x32, .f32⟩ : BufTy).Contents (Elt F)),
    StableHlo.unary main_v3 main_v177 (broadcastInDim S1600000x1 ![0] bcast_S1600000_S1600000x1_0 : (⟨S1600000, .i32⟩ : BufTy).Contents (Elt F) → (⟨S1600000x1, .i32⟩ : BufTy).Contents (Elt F)),
    StableHlo.ternary main_v176 main_v177 main_v175 main_v178 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v168 main_v178 main_v179 (addf : (⟨S100000x32, .f32⟩ : BufTy).Contents (Elt F) → (⟨S100000x32, .f32⟩ : BufTy).Contents (Elt F) → (⟨S100000x32, .f32⟩ : BufTy).Contents (Elt F)),
    StableHlo.unary main_arg6 main_v180 ((extractStridedSlice S1x32x16 ![5, 0, 0] · slices_S8x32x16_S1x32x16_5_0_0) : (⟨S8x32x16, .f32⟩ : BufTy).Contents (Elt F) → (⟨S1x32x16, .f32⟩ : BufTy).Contents (Elt F)),
    StableHlo.reshape main_v180 main_v181 rfl shapeCasts_S1x32x16_S32x16,
    StableHlo.binary main_v179 main_v181 main_v182 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg7 main_v183 ((extractStridedSlice S1x16 ![5, 0] · slices_S8x16_S1x16_5_0) : (⟨S8x16, .f32⟩ : BufTy).Contents (Elt F) → (⟨S1x16, .f32⟩ : BufTy).Contents (Elt F)),
    StableHlo.reshape main_v183 main_v184 rfl shapeCasts_S1x16_S16,
    StableHlo.unary main_v184 main_v185 (broadcastInDim S1x16 ![1] bcast_S16_S1x16_1 : (⟨S16, .f32⟩ : BufTy).Contents (Elt F) → (⟨S1x16, .f32⟩ : BufTy).Contents (Elt F)),
    StableHlo.unary main_v185 main_v186 (broadcastInDim S100000x16 ![0, 1] bcast_S1x16_S100000x16_0_1 : (⟨S1x16, .f32⟩ : BufTy).Contents (Elt F) → (⟨S100000x16, .f32⟩ : BufTy).Contents (Elt F)),
    StableHlo.binary main_v182 main_v186 main_v187 (addf : (⟨S100000x16, .f32⟩ : BufTy).Contents (Elt F) → (⟨S100000x16, .f32⟩ : BufTy).Contents (Elt F) → (⟨S100000x16, .f32⟩ : BufTy).Contents (Elt F)),
    TRef.nullary main_call6.cst (constant S_ .f32 0x3FD62D7D#32),
    TRef.nullary main_call6.call0.cst (constant S_ .f32 0x00000000#32),
    TRef.unary main_call6.call0.cst main_call6.call0.v0 (broadcastInDim S100000x16 ![] bcast_S_S100000x16),
    TRef.binary (.of main_v187) main_call6.call0.v0 main_call6.call0.v1 (cmpf .ogt),
    TRef.nullary main_call6.call0.cst_0 (constant S_ .f32 0x00000000#32),
    TRef.unary main_call6.call0.cst_0 main_call6.call0.v2 (broadcastInDim S100000x16 ![] bcast_S_S100000x16),
    TRef.binary (.of main_v187) main_call6.call0.v2 main_call6.call0.v3 (cmpf .ogt),
    TRef.nullary main_call6.call0.cst_1 (constant S_ .f32 0x00000000#32),
    TRef.unary main_call6.call0.cst_1 main_call6.call0.call0.v0 id,
    TRef.unary main_call6.call0.call0.v0 main_call6.call0.call0.v1 (broadcastInDim S100000x16 ![] bcast_S_S100000x16),
    TRef.ternary main_call6.call0.v3 main_call6.call0.call0.v1 (.of main_v187) main_call6.call0.call0.v2 select,
    TRef.unary main_call6.call0.call0.v2 main_call6.call0.v5 Host.expm1,
    TRef.unary main_call6.cst main_call6.call0.v6 id,
    TRef.unary main_call6.call0.v6 main_call6.call0.v7 (broadcastInDim S100000x16 ![] bcast_S_S100000x16),
    TRef.binary main_call6.call0.v7 main_call6.call0.v5 main_call6.call0.v8 mulf,
    TRef.ternary main_call6.call0.v1 (.of main_v187) main_call6.call0.v8 main_call6.call0.call1.v0 select,
    TRef.nullary main_call6.cst_0 (constant S_ .f32 0x3F867D5F#32),
    TRef.unary main_call6.cst_0 main_call6.v1 (broadcastInDim S100000x16 ![] bcast_S_S100000x16),
    TRef.binary main_call6.v1 main_call6.call0.call1.v0 main_call6.v2 mulf,
    StableHlo.unary main_arg8 main_v189 ((extractStridedSlice S1x16x32 ![5, 0, 0] · slices_S8x16x32_S1x16x32_5_0_0) : (⟨S8x16x32, .f32⟩ : BufTy).Contents (Elt F) → (⟨S1x16x32, .f32⟩ : BufTy).Contents (Elt F)),
    StableHlo.reshape main_v189 main_v190 rfl shapeCasts_S1x16x32_S16x32,
    StableHlo.binary main_v188 main_v190 main_v191 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v192 ((extractStridedSlice S1x32 ![5, 0] · slices_S8x32_S1x32_5_0) : (⟨S8x32, .f32⟩ : BufTy).Contents (Elt F) → (⟨S1x32, .f32⟩ : BufTy).Contents (Elt F)),
    StableHlo.reshape main_v192 main_v193 rfl shapeCasts_S1x32_S32,
    StableHlo.unary main_v193 main_v194 (broadcastInDim S1x32 ![1] bcast_S32_S1x32_1 : (⟨S32, .f32⟩ : BufTy).Contents (Elt F) → (⟨S1x32, .f32⟩ : BufTy).Contents (Elt F)),
    StableHlo.unary main_v194 main_v195 (broadcastInDim S100000x32 ![0, 1] bcast_S1x32_S100000x32_0_1 : (⟨S1x32, .f32⟩ : BufTy).Contents (Elt F) → (⟨S100000x32, .f32⟩ : BufTy).Contents (Elt F)),
    StableHlo.binary main_v191 main_v195 main_v196 (addf : (⟨S100000x32, .f32⟩ : BufTy).Contents (Elt F) → (⟨S100000x32, .f32⟩ : BufTy).Contents (Elt F) → (⟨S100000x32, .f32⟩ : BufTy).Contents (Elt F)),
    StableHlo.binary main_v196 main_v168 main_v197 (addf : (⟨S100000x32, .f32⟩ : BufTy).Contents (Elt F) → (⟨S100000x32, .f32⟩ : BufTy).Contents (Elt F) → (⟨S100000x32, .f32⟩ : BufTy).Contents (Elt F)),
    StableHlo.nullary main_c_19 (constantI S_ 32 0#32),
    StableHlo.unary main_c_19 main_v198 (broadcastInDim S1600000 ![] bcast_S_S1600000 : (⟨S_, .i32⟩ : BufTy).Contents (Elt F) → (⟨S1600000, .i32⟩ : BufTy).Contents (Elt F)),
    StableHlo.binary main_v1 main_v198 main_v199 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v200 (broadcastInDim S1600000 ![] bcast_S_S1600000 : (⟨S_, .i32⟩ : BufTy).Contents (Elt F) → (⟨S1600000, .i32⟩ : BufTy).Contents (Elt F)),
    StableHlo.binary main_v1 main_v200 main_v201 (addi : (⟨S1600000, .i32⟩ : BufTy).Contents (Elt F) → (⟨S1600000, .i32⟩ : BufTy).Contents (Elt F) → (⟨S1600000, .i32⟩ : BufTy).Contents (Elt F)),
    StableHlo.ternary main_v199 main_v201 main_v1 main_v202 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v202 main_v203 (broadcastInDim S1600000x1 ![0] bcast_S1600000_S1600000x1_0 : (⟨S1600000, .i32⟩ : BufTy).Contents (Elt F) → (⟨S1600000x1, .i32⟩ : BufTy).Contents (Elt F)),
    StableHlo.binary main_v197 main_v203 main_v204 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_21 (constant S_ .f32 0x00000000#32),
    StableHlo.unary main_cst_21 main_v205 (broadcastInDim S100000x32 ![] bcast_S_S100000x32 : (⟨S_, .f32⟩ : BufTy).Contents (Elt F) → (⟨S100000x32, .f32⟩ : BufTy).Contents (Elt F)),
    StableHlo.unary main_v3 main_v206 (broadcastInDim S1600000x1 ![0] bcast_S1600000_S1600000x1_0 : (⟨S1600000, .i32⟩ : BufTy).Contents (Elt F) → (⟨S1600000x1, .i32⟩ : BufTy).Contents (Elt F)),
    StableHlo.ternary main_v205 main_v206 main_v204 main_v207 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v197 main_v207 main_v208 (addf : (⟨S100000x32, .f32⟩ : BufTy).Contents (Elt F) → (⟨S100000x32, .f32⟩ : BufTy).Contents (Elt F) → (⟨S100000x32, .f32⟩ : BufTy).Contents (Elt F)),
    StableHlo.unary main_arg6 main_v209 ((extractStridedSlice S1x32x16 ![6, 0, 0] · slices_S8x32x16_S1x32x16_6_0_0) : (⟨S8x32x16, .f32⟩ : BufTy).Contents (Elt F) → (⟨S1x32x16, .f32⟩ : BufTy).Contents (Elt F)),
    StableHlo.reshape main_v209 main_v210 rfl shapeCasts_S1x32x16_S32x16,
    StableHlo.binary main_v208 main_v210 main_v211 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg7 main_v212 ((extractStridedSlice S1x16 ![6, 0] · slices_S8x16_S1x16_6_0) : (⟨S8x16, .f32⟩ : BufTy).Contents (Elt F) → (⟨S1x16, .f32⟩ : BufTy).Contents (Elt F)),
    StableHlo.reshape main_v212 main_v213 rfl shapeCasts_S1x16_S16,
    StableHlo.unary main_v213 main_v214 (broadcastInDim S1x16 ![1] bcast_S16_S1x16_1 : (⟨S16, .f32⟩ : BufTy).Contents (Elt F) → (⟨S1x16, .f32⟩ : BufTy).Contents (Elt F)),
    StableHlo.unary main_v214 main_v215 (broadcastInDim S100000x16 ![0, 1] bcast_S1x16_S100000x16_0_1 : (⟨S1x16, .f32⟩ : BufTy).Contents (Elt F) → (⟨S100000x16, .f32⟩ : BufTy).Contents (Elt F)) ]

/-- The operations of statements 241 … 298 of the program (a cut by count; the layers' lists above are the same operations cut by layer). -/
abbrev win4 : List (HloOp τ sig (Elt F)) :=
  [ StableHlo.binary main_v211 main_v215 main_v216 (addf : (⟨S100000x16, .f32⟩ : BufTy).Contents (Elt F) → (⟨S100000x16, .f32⟩ : BufTy).Contents (Elt F) → (⟨S100000x16, .f32⟩ : BufTy).Contents (Elt F)),
    TRef.nullary main_call7.cst (constant S_ .f32 0x3FD62D7D#32),
    TRef.nullary main_call7.call0.cst (constant S_ .f32 0x00000000#32),
    TRef.unary main_call7.call0.cst main_call7.call0.v0 (broadcastInDim S100000x16 ![] bcast_S_S100000x16),
    TRef.binary (.of main_v216) main_call7.call0.v0 main_call7.call0.v1 (cmpf .ogt),
    TRef.nullary main_call7.call0.cst_0 (constant S_ .f32 0x00000000#32),
    TRef.unary main_call7.call0.cst_0 main_call7.call0.v2 (broadcastInDim S100000x16 ![] bcast_S_S100000x16),
    TRef.binary (.of main_v216) main_call7.call0.v2 main_call7.call0.v3 (cmpf .ogt),
    TRef.nullary main_call7.call0.cst_1 (constant S_ .f32 0x00000000#32),
    TRef.unary main_call7.call0.cst_1 main_call7.call0.call0.v0 id,
    TRef.unary main_call7.call0.call0.v0 main_call7.call0.call0.v1 (broadcastInDim S100000x16 ![] bcast_S_S100000x16),
    TRef.ternary main_call7.call0.v3 main_call7.call0.call0.v1 (.of main_v216) main_call7.call0.call0.v2 select,
    TRef.unary main_call7.call0.call0.v2 main_call7.call0.v5 Host.expm1,
    TRef.unary main_call7.cst main_call7.call0.v6 id,
    TRef.unary main_call7.call0.v6 main_call7.call0.v7 (broadcastInDim S100000x16 ![] bcast_S_S100000x16),
    TRef.binary main_call7.call0.v7 main_call7.call0.v5 main_call7.call0.v8 mulf,
    TRef.ternary main_call7.call0.v1 (.of main_v216) main_call7.call0.v8 main_call7.call0.call1.v0 select,
    TRef.nullary main_call7.cst_0 (constant S_ .f32 0x3F867D5F#32),
    TRef.unary main_call7.cst_0 main_call7.v1 (broadcastInDim S100000x16 ![] bcast_S_S100000x16),
    TRef.binary main_call7.v1 main_call7.call0.call1.v0 main_call7.v2 mulf,
    StableHlo.unary main_arg8 main_v218 ((extractStridedSlice S1x16x32 ![6, 0, 0] · slices_S8x16x32_S1x16x32_6_0_0) : (⟨S8x16x32, .f32⟩ : BufTy).Contents (Elt F) → (⟨S1x16x32, .f32⟩ : BufTy).Contents (Elt F)),
    StableHlo.reshape main_v218 main_v219 rfl shapeCasts_S1x16x32_S16x32,
    StableHlo.binary main_v217 main_v219 main_v220 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v221 ((extractStridedSlice S1x32 ![6, 0] · slices_S8x32_S1x32_6_0) : (⟨S8x32, .f32⟩ : BufTy).Contents (Elt F) → (⟨S1x32, .f32⟩ : BufTy).Contents (Elt F)),
    StableHlo.reshape main_v221 main_v222 rfl shapeCasts_S1x32_S32,
    StableHlo.unary main_v222 main_v223 (broadcastInDim S1x32 ![1] bcast_S32_S1x32_1 : (⟨S32, .f32⟩ : BufTy).Contents (Elt F) → (⟨S1x32, .f32⟩ : BufTy).Contents (Elt F)),
    StableHlo.unary main_v223 main_v224 (broadcastInDim S100000x32 ![0, 1] bcast_S1x32_S100000x32_0_1 : (⟨S1x32, .f32⟩ : BufTy).Contents (Elt F) → (⟨S100000x32, .f32⟩ : BufTy).Contents (Elt F)),
    StableHlo.binary main_v220 main_v224 main_v225 (addf : (⟨S100000x32, .f32⟩ : BufTy).Contents (Elt F) → (⟨S100000x32, .f32⟩ : BufTy).Contents (Elt F) → (⟨S100000x32, .f32⟩ : BufTy).Contents (Elt F)),
    StableHlo.binary main_v225 main_v197 main_v226 (addf : (⟨S100000x32, .f32⟩ : BufTy).Contents (Elt F) → (⟨S100000x32, .f32⟩ : BufTy).Contents (Elt F) → (⟨S100000x32, .f32⟩ : BufTy).Contents (Elt F)),
    StableHlo.nullary main_c_22 (constantI S_ 32 0#32),
    StableHlo.unary main_c_22 main_v227 (broadcastInDim S1600000 ![] bcast_S_S1600000 : (⟨S_, .i32⟩ : BufTy).Contents (Elt F) → (⟨S1600000, .i32⟩ : BufTy).Contents (Elt F)),
    StableHlo.binary main_v1 main_v227 main_v228 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v229 (broadcastInDim S1600000 ![] bcast_S_S1600000 : (⟨S_, .i32⟩ : BufTy).Contents (Elt F) → (⟨S1600000, .i32⟩ : BufTy).Contents (Elt F)),
    StableHlo.binary main_v1 main_v229 main_v230 (addi : (⟨S1600000, .i32⟩ : BufTy).Contents (Elt F) → (⟨S1600000, .i32⟩ : BufTy).Contents (Elt F) → (⟨S1600000, .i32⟩ : BufTy).Contents (Elt F)),
    StableHlo.ternary main_v228 main_v230 main_v1 main_v231 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v231 main_v232 (broadcastInDim S1600000x1 ![0] bcast_S1600000_S1600000x1_0 : (⟨S1600000, .i32⟩ : BufTy).Contents (Elt F) → (⟨S1600000x1, .i32⟩ : BufTy).Contents (Elt F)),
    StableHlo.binary main_v226 main_v232 main_v233 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_24 (constant S_ .f32 0x00000000#32),
    StableHlo.unary main_cst_24 main_v234 (broadcastInDim S100000x32 ![] bcast_S_S100000x32 : (⟨S_, .f32⟩ : BufTy).Contents (Elt F) → (⟨S100000x32, .f32⟩ : BufTy).Contents (Elt F)),
    StableHlo.unary main_v3 main_v235 (broadcastInDim S1600000x1 ![0] bcast_S1600000_S1600000x1_0 : (⟨S1600000, .i32⟩ : BufTy).Contents (Elt F) → (⟨S1600000x1, .i32⟩ : BufTy).Contents (Elt F)),
    StableHlo.ternary main_v234 main_v235 main_v233 main_v236 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v226 main_v236 main_v237 (addf : (⟨S100000x32, .f32⟩ : BufTy).Contents (Elt F) → (⟨S100000x32, .f32⟩ : BufTy).Contents (Elt F) → (⟨S100000x32, .f32⟩ : BufTy).Contents (Elt F)),
    StableHlo.unary main_arg6 main_v238 ((extractStridedSlice S1x32x16 ![7, 0, 0] · slices_S8x32x16_S1x32x16_7_0_0) : (⟨S8x32x16, .f32⟩ : BufTy).Contents (Elt F) → (⟨S1x32x16, .f32⟩ : BufTy).Contents (Elt F)),
    StableHlo.reshape main_v238 main_v239 rfl shapeCasts_S1x32x16_S32x16,
    StableHlo.binary main_v237 main_v239 main_v240 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg7 main_v241 ((extractStridedSlice S1x16 ![7, 0] · slices_S8x16_S1x16_7_0) : (⟨S8x16, .f32⟩ : BufTy).Contents (Elt F) → (⟨S1x16, .f32⟩ : BufTy).Contents (Elt F)),
    StableHlo.reshape main_v241 main_v242 rfl shapeCasts_S1x16_S16,
    StableHlo.unary main_v242 main_v243 (broadcastInDim S1x16 ![1] bcast_S16_S1x16_1 : (⟨S16, .f32⟩ : BufTy).Contents (Elt F) → (⟨S1x16, .f32⟩ : BufTy).Contents (Elt F)),
    StableHlo.unary main_v243 main_v244 (broadcastInDim S100000x16 ![0, 1] bcast_S1x16_S100000x16_0_1 : (⟨S1x16, .f32⟩ : BufTy).Contents (Elt F) → (⟨S100000x16, .f32⟩ : BufTy).Contents (Elt F)),
    StableHlo.binary main_v240 main_v244 main_v245 (addf : (⟨S100000x16, .f32⟩ : BufTy).Contents (Elt F) → (⟨S100000x16, .f32⟩ : BufTy).Contents (Elt F) → (⟨S100000x16, .f32⟩ : BufTy).Contents (Elt F)),
    TRef.nullary main_call8.cst (constant S_ .f32 0x3FD62D7D#32),
    TRef.nullary main_call8.call0.cst (constant S_ .f32 0x00000000#32),
    TRef.unary main_call8.call0.cst main_call8.call0.v0 (broadcastInDim S100000x16 ![] bcast_S_S100000x16),
    TRef.binary (.of main_v245) main_call8.call0.v0 main_call8.call0.v1 (cmpf .ogt),
    TRef.nullary main_call8.call0.cst_0 (constant S_ .f32 0x00000000#32),
    TRef.unary main_call8.call0.cst_0 main_call8.call0.v2 (broadcastInDim S100000x16 ![] bcast_S_S100000x16),
    TRef.binary (.of main_v245) main_call8.call0.v2 main_call8.call0.v3 (cmpf .ogt),
    TRef.nullary main_call8.call0.cst_1 (constant S_ .f32 0x00000000#32),
    TRef.unary main_call8.call0.cst_1 main_call8.call0.call0.v0 id,
    TRef.unary main_call8.call0.call0.v0 main_call8.call0.call0.v1 (broadcastInDim S100000x16 ![] bcast_S_S100000x16),
    TRef.ternary main_call8.call0.v3 main_call8.call0.call0.v1 (.of main_v245) main_call8.call0.call0.v2 select,
    TRef.unary main_call8.call0.call0.v2 main_call8.call0.v5 Host.expm1,
    TRef.unary main_call8.cst main_call8.call0.v6 id,
    TRef.unary main_call8.call0.v6 main_call8.call0.v7 (broadcastInDim S100000x16 ![] bcast_S_S100000x16),
    TRef.binary main_call8.call0.v7 main_call8.call0.v5 main_call8.call0.v8 mulf,
    TRef.ternary main_call8.call0.v1 (.of main_v245) main_call8.call0.v8 main_call8.call0.call1.v0 select,
    TRef.nullary main_call8.cst_0 (constant S_ .f32 0x3F867D5F#32),
    TRef.unary main_call8.cst_0 main_call8.v1 (broadcastInDim S100000x16 ![] bcast_S_S100000x16),
    TRef.binary main_call8.v1 main_call8.call0.call1.v0 main_call8.v2 mulf,
    StableHlo.unary main_arg8 main_v247 ((extractStridedSlice S1x16x32 ![7, 0, 0] · slices_S8x16x32_S1x16x32_7_0_0) : (⟨S8x16x32, .f32⟩ : BufTy).Contents (Elt F) → (⟨S1x16x32, .f32⟩ : BufTy).Contents (Elt F)),
    StableHlo.reshape main_v247 main_v248 rfl shapeCasts_S1x16x32_S16x32,
    StableHlo.binary main_v246 main_v248 main_v249 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg9 main_v250 ((extractStridedSlice S1x32 ![7, 0] · slices_S8x32_S1x32_7_0) : (⟨S8x32, .f32⟩ : BufTy).Contents (Elt F) → (⟨S1x32, .f32⟩ : BufTy).Contents (Elt F)),
    StableHlo.reshape main_v250 main_v251 rfl shapeCasts_S1x32_S32,
    StableHlo.unary main_v251 main_v252 (broadcastInDim S1x32 ![1] bcast_S32_S1x32_1 : (⟨S32, .f32⟩ : BufTy).Contents (Elt F) → (⟨S1x32, .f32⟩ : BufTy).Contents (Elt F)),
    StableHlo.unary main_v252 main_v253 (broadcastInDim S100000x32 ![0, 1] bcast_S1x32_S100000x32_0_1 : (⟨S1x32, .f32⟩ : BufTy).Contents (Elt F) → (⟨S100000x32, .f32⟩ : BufTy).Contents (Elt F)),
    StableHlo.binary main_v249 main_v253 main_v254 (addf : (⟨S100000x32, .f32⟩ : BufTy).Contents (Elt F) → (⟨S100000x32, .f32⟩ : BufTy).Contents (Elt F) → (⟨S100000x32, .f32⟩ : BufTy).Contents (Elt F)),
    StableHlo.binary main_v254 main_v226 main_v255 (addf : (⟨S100000x32, .f32⟩ : BufTy).Contents (Elt F) → (⟨S100000x32, .f32⟩ : BufTy).Contents (Elt F) → (⟨S100000x32, .f32⟩ : BufTy).Contents (Elt F)),
    StableHlo.nullary main_c_25 (constantI S_ 32 0#32),
    StableHlo.unary main_c_25 main_v256 (broadcastInDim S1600000 ![] bcast_S_S1600000 : (⟨S_, .i32⟩ : BufTy).Contents (Elt F) → (⟨S1600000, .i32⟩ : BufTy).Contents (Elt F)),
    StableHlo.binary main_v1 main_v256 main_v257 (cmpi .slt : (⟨S1600000, .i32⟩ : BufTy).Contents (Elt F) → (⟨S1600000, .i32⟩ : BufTy).Contents (Elt F) → (⟨S1600000, .i1⟩ : BufTy).Contents (Elt F)),
    StableHlo.nullary main_c_26 (constantI S_ 32 100000#32),
    StableHlo.unary main_c_26 main_v258 (broadcastInDim S1600000 ![] bcast_S_S1600000 : (⟨S_, .i32⟩ : BufTy).Contents (Elt F) → (⟨S1600000, .i32⟩ : BufTy).Contents (Elt F)),
    StableHlo.binary main_v1 main_v258 main_v259 (addi : (⟨S1600000, .i32⟩ : BufTy).Contents (Elt F) → (⟨S1600000, .i32⟩ : BufTy).Contents (Elt F) → (⟨S1600000, .i32⟩ : BufTy).Contents (Elt F)),
    StableHlo.ternary main_v257 main_v259 main_v1 main_v260 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v260 main_v261 (broadcastInDim S1600000x1 ![0] bcast_S1600000_S1600000x1_0 : (⟨S1600000, .i32⟩ : BufTy).Contents (Elt F) → (⟨S1600000x1, .i32⟩ : BufTy).Contents (Elt F)),
    StableHlo.binary main_v255 main_v261 main_v262 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_27 (constant S_ .f32 0x00000000#32),
    StableHlo.unary main_cst_27 main_v263 (broadcastInDim S100000x32 ![] bcast_S_S100000x32 : (⟨S_, .f32⟩ : BufTy).Contents (Elt F) → (⟨S100000x32, .f32⟩ : BufTy).Contents (Elt F)),
    StableHlo.unary main_v3 main_v264 (broadcastInDim S1600000x1 ![0] bcast_S1600000_S1600000x1_0 : (⟨S1600000, .i32⟩ : BufTy).Contents (Elt F) → (⟨S1600000x1, .i32⟩ : BufTy).Contents (Elt F)),
    StableHlo.ternary main_v263 main_v264 main_v262 main_v265 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v255 main_v265 main_v266 (addf : (⟨S100000x32, .f32⟩ : BufTy).Contents (Elt F) → (⟨S100000x32, .f32⟩ : BufTy).Contents (Elt F) → (⟨S100000x32, .f32⟩ : BufTy).Contents (Elt F)),
    StableHlo.binary main_v266 main_arg10 main_v267 ((fun l r => Host.dotGeneral dot_S100000x32_S32x1_S100000x1_1_0_0_1_n_n none l r) : (⟨S100000x32, .f32⟩ : BufTy).Contents (Elt F) → (⟨S32x1, .f32⟩ : BufTy).Contents (Elt F) → (⟨S100000x1, .f32⟩ : BufTy).Contents (Elt F)) ]

set_option maxRecDepth 4096 in
/-- Window 0 is the straight line of its operations: the functions unfolded at their calls, the records at their
    fields, and sequencing reassociated, both sides are one chain of steps. -/
theorem part0_eq (d : Dev nD) : main_part0 (F := F) d = seq win0 := by
  simp only [main_part0, fn_selu.body, fn_elu.body, fn_where.body, fn_where_0.body, seq, bind_assoc, pure_bind]
  rfl

set_option maxRecDepth 4096 in
/-- Window 1 is the straight line of its operations: the functions unfolded at their calls, the records at their
    fields, and sequencing reassociated, both sides are one chain of steps. -/
theorem part1_eq (d : Dev nD) : main_part1 (F := F) d = seq win1 := by
  simp only [main_part1, fn_selu.body, fn_elu.body, fn_where.body, fn_where_0.body, seq, bind_assoc, pure_bind]
  rfl

set_option maxRecDepth 4096 in
/-- Window 2 is the straight line of its operations: the functions unfolded at their calls, the records at their
    fields, and sequencing reassociated, both sides are one chain of steps. -/
theorem part2_eq (d : Dev nD) : main_part2 (F := F) d = seq win2 := by
  simp only [main_part2, fn_selu.body, fn_elu.body, fn_where.body, fn_where_0.body, seq, bind_assoc, pure_bind]
  rfl

set_option maxRecDepth 4096 in
/-- Window 3 is the straight line of its operations: the functions unfolded at their calls, the records at their
    fields, and sequencing reassociated, both sides are one chain of steps. -/
theorem part3_eq (d : Dev nD) : main_part3 (F := F) d = seq win3 := by
  simp only [main_part3, fn_selu.body, fn_elu.body, fn_where.body, fn_where_0.body, seq, bind_assoc, pure_bind]
  rfl

set_option maxRecDepth 4096 in
/-- Window 4 is the straight line of its operations: the functions unfolded at their calls, the records at their
    fields, and sequencing reassociated, both sides are one chain of steps. -/
theorem part4_eq (d : Dev nD) : main_part4 (F := F) d = seq win4 := by
  simp only [main_part4, fn_selu.body, fn_elu.body, fn_where.body, fn_where_0.body, seq, bind_assoc, pure_bind]

/-- All the operations, layer by layer. -/
abbrev opsAll : List (HloOp τ sig (Elt F)) :=
  ops0 ++ ops1 ++ ops2 ++ ops3 ++ ops4 ++ ops5 ++ ops6 ++ ops7 ++ ops8 ++ ops9

/-- The five windows appended are the ten layers appended: one list of operations, cut two ways. -/
theorem wins_eq : (win0 ++ (win1 ++ (win2 ++ (win3 ++ win4))) : List (HloOp τ sig (Elt F))) = opsAll := by
  simp only [opsAll, List.cons_append, List.nil_append]

/-- The program is the straight line of all its operations. -/
theorem main_eq (d : Dev nD) : main (F := F) d = seq opsAll := by
  rw [← wins_eq, seq_append, seq_append, seq_append, seq_append, ← part0_eq d, ← part1_eq d, ← part2_eq d, ← part3_eq d,
    ← part4_eq d]
  rfl

theorem scopedRefs_eq : (Finset.univ.filter fun b : Ref sig .tc => b.isScoped) = ∅ := by decide
theorem scopedSems_eq : (Finset.univ.filter fun sm : SemLoc sig => sm.isScoped .tc) = ∅ := by decide

/-- A property of every operation of each layer's list is a property of every operation of the whole list. -/
theorem forall_opsAll {p : HloOp τ sig (Elt F) → Prop} (h0 : ops0.Forall p) (h1 : ops1.Forall p) (h2 : ops2.Forall p)
    (h3 : ops3.Forall p) (h4 : ops4.Forall p) (h5 : ops5.Forall p) (h6 : ops6.Forall p) (h7 : ops7.Forall p)
    (h8 : ops8.Forall p) (h9 : ops9.Forall p) : ∀ op ∈ (opsAll : List (HloOp τ sig (Elt F))), p op := by
  intro op hop
  simp only [opsAll, List.mem_append] at hop
  rcases hop with ((((((((hop | hop) | hop) | hop) | hop) | hop) | hop) | hop) | hop) | hop
  · exact List.forall_iff_forall_mem.mp h0 op hop
  · exact List.forall_iff_forall_mem.mp h1 op hop
  · exact List.forall_iff_forall_mem.mp h2 op hop
  · exact List.forall_iff_forall_mem.mp h3 op hop
  · exact List.forall_iff_forall_mem.mp h4 op hop
  · exact List.forall_iff_forall_mem.mp h5 op hop
  · exact List.forall_iff_forall_mem.mp h6 op hop
  · exact List.forall_iff_forall_mem.mp h7 op hop
  · exact List.forall_iff_forall_mem.mp h8 op hop
  · exact List.forall_iff_forall_mem.mp h9 op hop

/-- On every device, for any float values, from any memory with zero counters: every weakly fair execution of the
    program terminates, and every final state has each buffer at the fold of the ten layers' operations over the
    launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b)
        = StableHlo.after (ops0 ++ ops1 ++ ops2 ++ ops3 ++ ops4 ++ ops5 ++ ops6 ++ ops7 ++ ops8 ++ ops9)
            (StableHlo.launchContents m d) (Proc.devRef .tc b) :=
  run_seq scopedRefs_eq scopedSems_eq defs main (fun _ => opsAll) main_eq
    (fun _ => List.forall_iff_forall_mem.mpr (forall_opsAll ops0_sub ops1_sub ops2_sub ops3_sub ops4_sub ops5_sub ops6_sub
      ops7_sub ops8_sub ops9_sub)) m ρ
    (fun _ => forall_opsAll ops0_fresh ops1_fresh ops2_fresh ops3_fresh ops4_fresh ops5_fresh ops6_fresh ops7_fresh
      ops8_fresh ops9_fresh)

end Cert.ReferenceIdeal.RefRun

end
-- ==== Proof.RefChain.C0.lean ====
/-
  What the first layer's operations leave, from any contents R of the buffers: the first layer's features as the
  named layer term of the arguments' contents, the source and destination vectors of the edges, and every argument
  as it was (each operation writes a buffer of its own, never an argument's).  Each by reading the fold of the
  operations' results at the buffer: an operation's own result buffer holds its function of its operands' contents,
  any other buffer what it held.
-/
import proofs.«175125_j35716948034103_1_alg».proof.Proof.RefRun.Ops

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo Cert.ReferenceIdeal.RefRun

variable [Cert.ReferenceIdeal.Facts]
variable {F : FTy → Type} [FloatOps F]

set_option maxRecDepth 8192 in
/-- The first layer's features. -/
theorem chunk0 (R : Valuation τ sig (Elt F)) :
    after ops0 R (Proc.devRef .tc main_v23)
      = Layers.dense0 (R (Proc.devRef .tc main_arg0))
          (Layers.agg1 (R (Proc.devRef .tc main_arg0)) (Layers.srcR (R (Proc.devRef .tc main_arg1))) (Layers.dstR (R (Proc.devRef .tc main_arg1))))
          (R (Proc.devRef .tc main_arg2)) (R (Proc.devRef .tc main_arg3)) (R (Proc.devRef .tc main_arg4)) (R (Proc.devRef .tc main_arg5)) := by
  unfold ops0
  after_results_simp
  rfl

/-- The source node of every edge. -/
theorem chunk0_v1 (R : Valuation τ sig (Elt F)) : after ops0 R (Proc.devRef .tc main_v1) = Layers.srcR (R (Proc.devRef .tc main_arg1)) := by
  unfold ops0
  after_results_simp
  rfl

/-- The destination node of every edge. -/
theorem chunk0_v3 (R : Valuation τ sig (Elt F)) : after ops0 R (Proc.devRef .tc main_v3) = Layers.dstR (R (Proc.devRef .tc main_arg1)) := by
  unfold ops0
  after_results_simp
  rfl

theorem chunk0_arg0 (R : Valuation τ sig (Elt F)) : after ops0 R (Proc.devRef .tc main_arg0) = R (Proc.devRef .tc main_arg0) := by
  unfold ops0
  after_results_simp

theorem chunk0_arg1 (R : Valuation τ sig (Elt F)) : after ops0 R (Proc.devRef .tc main_arg1) = R (Proc.devRef .tc main_arg1) := by
  unfold ops0
  after_results_simp

theorem chunk0_arg2 (R : Valuation τ sig (Elt F)) : after ops0 R (Proc.devRef .tc main_arg2) = R (Proc.devRef .tc main_arg2) := by
  unfold ops0
  after_results_simp

theorem chunk0_arg3 (R : Valuation τ sig (Elt F)) : after ops0 R (Proc.devRef .tc main_arg3) = R (Proc.devRef .tc main_arg3) := by
  unfold ops0
  after_results_simp

theorem chunk0_arg4 (R : Valuation τ sig (Elt F)) : after ops0 R (Proc.devRef .tc main_arg4) = R (Proc.devRef .tc main_arg4) := by
  unfold ops0
  after_results_simp

theorem chunk0_arg5 (R : Valuation τ sig (Elt F)) : after ops0 R (Proc.devRef .tc main_arg5) = R (Proc.devRef .tc main_arg5) := by
  unfold ops0
  after_results_simp

theorem chunk0_arg6 (R : Valuation τ sig (Elt F)) : after ops0 R (Proc.devRef .tc main_arg6) = R (Proc.devRef .tc main_arg6) := by
  unfold ops0
  after_results_simp

theorem chunk0_arg7 (R : Valuation τ sig (Elt F)) : after ops0 R (Proc.devRef .tc main_arg7) = R (Proc.devRef .tc main_arg7) := by
  unfold ops0
  after_results_simp

theorem chunk0_arg8 (R : Valuation τ sig (Elt F)) : after ops0 R (Proc.devRef .tc main_arg8) = R (Proc.devRef .tc main_arg8) := by
  unfold ops0
  after_results_simp

theorem chunk0_arg9 (R : Valuation τ sig (Elt F)) : after ops0 R (Proc.devRef .tc main_arg9) = R (Proc.devRef .tc main_arg9) := by
  unfold ops0
  after_results_simp

theorem chunk0_arg10 (R : Valuation τ sig (Elt F)) : after ops0 R (Proc.devRef .tc main_arg10) = R (Proc.devRef .tc main_arg10) := by
  unfold ops0
  after_results_simp

end Cert.ReferenceIdeal.RefChain

end
-- ==== Proof.RefChain.C1.lean ====
/-
  What middle layer 1's operations leave, from any contents R of the buffers: the layer's features as the middle
  layer's term of the previous features, the edge vectors and block 0 of the stacked weights; the edge vectors and
  every argument as they were.
-/
import proofs.«175125_j35716948034103_1_alg».proof.Proof.RefRun.Ops

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo Cert.ReferenceIdeal.RefRun

variable [Cert.ReferenceIdeal.Facts]
variable {F : FTy → Type} [FloatOps F]

set_option maxRecDepth 8192 in
/-- The layer's features. -/
theorem chunk1 (R : Valuation τ sig (Elt F)) :
    after ops1 R (Proc.devRef .tc main_v52)
      = Layers.denseMid (R (Proc.devRef .tc main_v23)) (Layers.agg32 (R (Proc.devRef .tc main_v23)) (R (Proc.devRef .tc main_v1)) (R (Proc.devRef .tc main_v3)))
          (Layers.w1s (R (Proc.devRef .tc main_arg6)) 0) (Layers.b1s (R (Proc.devRef .tc main_arg7)) 0)
          (Layers.w2s (R (Proc.devRef .tc main_arg8)) 0) (Layers.b2s (R (Proc.devRef .tc main_arg9)) 0) := by
  unfold ops1
  after_results_simp
  rfl

theorem chunk1_v1 (R : Valuation τ sig (Elt F)) : after ops1 R (Proc.devRef .tc main_v1) = R (Proc.devRef .tc main_v1) := by
  unfold ops1
  after_results_simp

theorem chunk1_v3 (R : Valuation τ sig (Elt F)) : after ops1 R (Proc.devRef .tc main_v3) = R (Proc.devRef .tc main_v3) := by
  unfold ops1
  after_results_simp

theorem chunk1_arg0 (R : Valuation τ sig (Elt F)) : after ops1 R (Proc.devRef .tc main_arg0) = R (Proc.devRef .tc main_arg0) := by
  unfold ops1
  after_results_simp

theorem chunk1_arg1 (R : Valuation τ sig (Elt F)) : after ops1 R (Proc.devRef .tc main_arg1) = R (Proc.devRef .tc main_arg1) := by
  unfold ops1
  after_results_simp

theorem chunk1_arg2 (R : Valuation τ sig (Elt F)) : after ops1 R (Proc.devRef .tc main_arg2) = R (Proc.devRef .tc main_arg2) := by
  unfold ops1
  after_results_simp

theorem chunk1_arg3 (R : Valuation τ sig (Elt F)) : after ops1 R (Proc.devRef .tc main_arg3) = R (Proc.devRef .tc main_arg3) := by
  unfold ops1
  after_results_simp

theorem chunk1_arg4 (R : Valuation τ sig (Elt F)) : after ops1 R (Proc.devRef .tc main_arg4) = R (Proc.devRef .tc main_arg4) := by
  unfold ops1
  after_results_simp

theorem chunk1_arg5 (R : Valuation τ sig (Elt F)) : after ops1 R (Proc.devRef .tc main_arg5) = R (Proc.devRef .tc main_arg5) := by
  unfold ops1
  after_results_simp

theorem chunk1_arg6 (R : Valuation τ sig (Elt F)) : after ops1 R (Proc.devRef .tc main_arg6) = R (Proc.devRef .tc main_arg6) := by
  unfold ops1
  after_results_simp

theorem chunk1_arg7 (R : Valuation τ sig (Elt F)) : after ops1 R (Proc.devRef .tc main_arg7) = R (Proc.devRef .tc main_arg7) := by
  unfold ops1
  after_results_simp

theorem chunk1_arg8 (R : Valuation τ sig (Elt F)) : after ops1 R (Proc.devRef .tc main_arg8) = R (Proc.devRef .tc main_arg8) := by
  unfold ops1
  after_results_simp

theorem chunk1_arg9 (R : Valuation τ sig (Elt F)) : after ops1 R (Proc.devRef .tc main_arg9) = R (Proc.devRef .tc main_arg9) := by
  unfold ops1
  after_results_simp

theorem chunk1_arg10 (R : Valuation τ sig (Elt F)) : after ops1 R (Proc.devRef .tc main_arg10) = R (Proc.devRef .tc main_arg10) := by
  unfold ops1
  after_results_simp

end Cert.ReferenceIdeal.RefChain

end
-- ==== Proof.RefChain.C2.lean ====
/-
  What middle layer 2's operations leave, from any contents R of the buffers: the layer's features as the middle
  layer's term of the previous features, the edge vectors and block 1 of the stacked weights; the edge vectors and
  every argument as they were.
-/
import proofs.«175125_j35716948034103_1_alg».proof.Proof.RefRun.Ops

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo Cert.ReferenceIdeal.RefRun

variable [Cert.ReferenceIdeal.Facts]
variable {F : FTy → Type} [FloatOps F]

set_option maxRecDepth 8192 in
/-- The layer's features. -/
theorem chunk2 (R : Valuation τ sig (Elt F)) :
    after ops2 R (Proc.devRef .tc main_v81)
      = Layers.denseMid (R (Proc.devRef .tc main_v52)) (Layers.agg32 (R (Proc.devRef .tc main_v52)) (R (Proc.devRef .tc main_v1)) (R (Proc.devRef .tc main_v3)))
          (Layers.w1s (R (Proc.devRef .tc main_arg6)) 1) (Layers.b1s (R (Proc.devRef .tc main_arg7)) 1)
          (Layers.w2s (R (Proc.devRef .tc main_arg8)) 1) (Layers.b2s (R (Proc.devRef .tc main_arg9)) 1) := by
  unfold ops2
  after_results_simp
  rfl

theorem chunk2_v1 (R : Valuation τ sig (Elt F)) : after ops2 R (Proc.devRef .tc main_v1) = R (Proc.devRef .tc main_v1) := by
  unfold ops2
  after_results_simp

theorem chunk2_v3 (R : Valuation τ sig (Elt F)) : after ops2 R (Proc.devRef .tc main_v3) = R (Proc.devRef .tc main_v3) := by
  unfold ops2
  after_results_simp

theorem chunk2_arg0 (R : Valuation τ sig (Elt F)) : after ops2 R (Proc.devRef .tc main_arg0) = R (Proc.devRef .tc main_arg0) := by
  unfold ops2
  after_results_simp

theorem chunk2_arg1 (R : Valuation τ sig (Elt F)) : after ops2 R (Proc.devRef .tc main_arg1) = R (Proc.devRef .tc main_arg1) := by
  unfold ops2
  after_results_simp

theorem chunk2_arg2 (R : Valuation τ sig (Elt F)) : after ops2 R (Proc.devRef .tc main_arg2) = R (Proc.devRef .tc main_arg2) := by
  unfold ops2
  after_results_simp

theorem chunk2_arg3 (R : Valuation τ sig (Elt F)) : after ops2 R (Proc.devRef .tc main_arg3) = R (Proc.devRef .tc main_arg3) := by
  unfold ops2
  after_results_simp

theorem chunk2_arg4 (R : Valuation τ sig (Elt F)) : after ops2 R (Proc.devRef .tc main_arg4) = R (Proc.devRef .tc main_arg4) := by
  unfold ops2
  after_results_simp

theorem chunk2_arg5 (R : Valuation τ sig (Elt F)) : after ops2 R (Proc.devRef .tc main_arg5) = R (Proc.devRef .tc main_arg5) := by
  unfold ops2
  after_results_simp

theorem chunk2_arg6 (R : Valuation τ sig (Elt F)) : after ops2 R (Proc.devRef .tc main_arg6) = R (Proc.devRef .tc main_arg6) := by
  unfold ops2
  after_results_simp

theorem chunk2_arg7 (R : Valuation τ sig (Elt F)) : after ops2 R (Proc.devRef .tc main_arg7) = R (Proc.devRef .tc main_arg7) := by
  unfold ops2
  after_results_simp

theorem chunk2_arg8 (R : Valuation τ sig (Elt F)) : after ops2 R (Proc.devRef .tc main_arg8) = R (Proc.devRef .tc main_arg8) := by
  unfold ops2
  after_results_simp

theorem chunk2_arg9 (R : Valuation τ sig (Elt F)) : after ops2 R (Proc.devRef .tc main_arg9) = R (Proc.devRef .tc main_arg9) := by
  unfold ops2
  after_results_simp

theorem chunk2_arg10 (R : Valuation τ sig (Elt F)) : after ops2 R (Proc.devRef .tc main_arg10) = R (Proc.devRef .tc main_arg10) := by
  unfold ops2
  after_results_simp

end Cert.ReferenceIdeal.RefChain

end
-- ==== Proof.RefChain.C3.lean ====
/-
  What middle layer 3's operations leave, from any contents R of the buffers: the layer's features as the middle
  layer's term of the previous features, the edge vectors and block 2 of the stacked weights; the edge vectors and
  every argument as they were.
-/
import proofs.«175125_j35716948034103_1_alg».proof.Proof.RefRun.Ops

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo Cert.ReferenceIdeal.RefRun

variable [Cert.ReferenceIdeal.Facts]
variable {F : FTy → Type} [FloatOps F]

set_option maxRecDepth 8192 in
/-- The layer's features. -/
theorem chunk3 (R : Valuation τ sig (Elt F)) :
    after ops3 R (Proc.devRef .tc main_v110)
      = Layers.denseMid (R (Proc.devRef .tc main_v81)) (Layers.agg32 (R (Proc.devRef .tc main_v81)) (R (Proc.devRef .tc main_v1)) (R (Proc.devRef .tc main_v3)))
          (Layers.w1s (R (Proc.devRef .tc main_arg6)) 2) (Layers.b1s (R (Proc.devRef .tc main_arg7)) 2)
          (Layers.w2s (R (Proc.devRef .tc main_arg8)) 2) (Layers.b2s (R (Proc.devRef .tc main_arg9)) 2) := by
  unfold ops3
  after_results_simp
  rfl

theorem chunk3_v1 (R : Valuation τ sig (Elt F)) : after ops3 R (Proc.devRef .tc main_v1) = R (Proc.devRef .tc main_v1) := by
  unfold ops3
  after_results_simp

theorem chunk3_v3 (R : Valuation τ sig (Elt F)) : after ops3 R (Proc.devRef .tc main_v3) = R (Proc.devRef .tc main_v3) := by
  unfold ops3
  after_results_simp

theorem chunk3_arg0 (R : Valuation τ sig (Elt F)) : after ops3 R (Proc.devRef .tc main_arg0) = R (Proc.devRef .tc main_arg0) := by
  unfold ops3
  after_results_simp

theorem chunk3_arg1 (R : Valuation τ sig (Elt F)) : after ops3 R (Proc.devRef .tc main_arg1) = R (Proc.devRef .tc main_arg1) := by
  unfold ops3
  after_results_simp

theorem chunk3_arg2 (R : Valuation τ sig (Elt F)) : after ops3 R (Proc.devRef .tc main_arg2) = R (Proc.devRef .tc main_arg2) := by
  unfold ops3
  after_results_simp

theorem chunk3_arg3 (R : Valuation τ sig (Elt F)) : after ops3 R (Proc.devRef .tc main_arg3) = R (Proc.devRef .tc main_arg3) := by
  unfold ops3
  after_results_simp

theorem chunk3_arg4 (R : Valuation τ sig (Elt F)) : after ops3 R (Proc.devRef .tc main_arg4) = R (Proc.devRef .tc main_arg4) := by
  unfold ops3
  after_results_simp

theorem chunk3_arg5 (R : Valuation τ sig (Elt F)) : after ops3 R (Proc.devRef .tc main_arg5) = R (Proc.devRef .tc main_arg5) := by
  unfold ops3
  after_results_simp

theorem chunk3_arg6 (R : Valuation τ sig (Elt F)) : after ops3 R (Proc.devRef .tc main_arg6) = R (Proc.devRef .tc main_arg6) := by
  unfold ops3
  after_results_simp

theorem chunk3_arg7 (R : Valuation τ sig (Elt F)) : after ops3 R (Proc.devRef .tc main_arg7) = R (Proc.devRef .tc main_arg7) := by
  unfold ops3
  after_results_simp

theorem chunk3_arg8 (R : Valuation τ sig (Elt F)) : after ops3 R (Proc.devRef .tc main_arg8) = R (Proc.devRef .tc main_arg8) := by
  unfold ops3
  after_results_simp

theorem chunk3_arg9 (R : Valuation τ sig (Elt F)) : after ops3 R (Proc.devRef .tc main_arg9) = R (Proc.devRef .tc main_arg9) := by
  unfold ops3
  after_results_simp

theorem chunk3_arg10 (R : Valuation τ sig (Elt F)) : after ops3 R (Proc.devRef .tc main_arg10) = R (Proc.devRef .tc main_arg10) := by
  unfold ops3
  after_results_simp

end Cert.ReferenceIdeal.RefChain

end
-- ==== Proof.RefChain.C4.lean ====
/-
  What middle layer 4's operations leave, from any contents R of the buffers: the layer's features as the middle
  layer's term of the previous features, the edge vectors and block 3 of the stacked weights; the edge vectors and
  every argument as they were.
-/
import proofs.«175125_j35716948034103_1_alg».proof.Proof.RefRun.Ops

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo Cert.ReferenceIdeal.RefRun

variable [Cert.ReferenceIdeal.Facts]
variable {F : FTy → Type} [FloatOps F]

set_option maxRecDepth 8192 in
/-- The layer's features. -/
theorem chunk4 (R : Valuation τ sig (Elt F)) :
    after ops4 R (Proc.devRef .tc main_v139)
      = Layers.denseMid (R (Proc.devRef .tc main_v110)) (Layers.agg32 (R (Proc.devRef .tc main_v110)) (R (Proc.devRef .tc main_v1)) (R (Proc.devRef .tc main_v3)))
          (Layers.w1s (R (Proc.devRef .tc main_arg6)) 3) (Layers.b1s (R (Proc.devRef .tc main_arg7)) 3)
          (Layers.w2s (R (Proc.devRef .tc main_arg8)) 3) (Layers.b2s (R (Proc.devRef .tc main_arg9)) 3) := by
  unfold ops4
  after_results_simp
  rfl

theorem chunk4_v1 (R : Valuation τ sig (Elt F)) : after ops4 R (Proc.devRef .tc main_v1) = R (Proc.devRef .tc main_v1) := by
  unfold ops4
  after_results_simp

theorem chunk4_v3 (R : Valuation τ sig (Elt F)) : after ops4 R (Proc.devRef .tc main_v3) = R (Proc.devRef .tc main_v3) := by
  unfold ops4
  after_results_simp

theorem chunk4_arg0 (R : Valuation τ sig (Elt F)) : after ops4 R (Proc.devRef .tc main_arg0) = R (Proc.devRef .tc main_arg0) := by
  unfold ops4
  after_results_simp

theorem chunk4_arg1 (R : Valuation τ sig (Elt F)) : after ops4 R (Proc.devRef .tc main_arg1) = R (Proc.devRef .tc main_arg1) := by
  unfold ops4
  after_results_simp

theorem chunk4_arg2 (R : Valuation τ sig (Elt F)) : after ops4 R (Proc.devRef .tc main_arg2) = R (Proc.devRef .tc main_arg2) := by
  unfold ops4
  after_results_simp

theorem chunk4_arg3 (R : Valuation τ sig (Elt F)) : after ops4 R (Proc.devRef .tc main_arg3) = R (Proc.devRef .tc main_arg3) := by
  unfold ops4
  after_results_simp

theorem chunk4_arg4 (R : Valuation τ sig (Elt F)) : after ops4 R (Proc.devRef .tc main_arg4) = R (Proc.devRef .tc main_arg4) := by
  unfold ops4
  after_results_simp

theorem chunk4_arg5 (R : Valuation τ sig (Elt F)) : after ops4 R (Proc.devRef .tc main_arg5) = R (Proc.devRef .tc main_arg5) := by
  unfold ops4
  after_results_simp

theorem chunk4_arg6 (R : Valuation τ sig (Elt F)) : after ops4 R (Proc.devRef .tc main_arg6) = R (Proc.devRef .tc main_arg6) := by
  unfold ops4
  after_results_simp

theorem chunk4_arg7 (R : Valuation τ sig (Elt F)) : after ops4 R (Proc.devRef .tc main_arg7) = R (Proc.devRef .tc main_arg7) := by
  unfold ops4
  after_results_simp

theorem chunk4_arg8 (R : Valuation τ sig (Elt F)) : after ops4 R (Proc.devRef .tc main_arg8) = R (Proc.devRef .tc main_arg8) := by
  unfold ops4
  after_results_simp

theorem chunk4_arg9 (R : Valuation τ sig (Elt F)) : after ops4 R (Proc.devRef .tc main_arg9) = R (Proc.devRef .tc main_arg9) := by
  unfold ops4
  after_results_simp

theorem chunk4_arg10 (R : Valuation τ sig (Elt F)) : after ops4 R (Proc.devRef .tc main_arg10) = R (Proc.devRef .tc main_arg10) := by
  unfold ops4
  after_results_simp

end Cert.ReferenceIdeal.RefChain

end
-- ==== Proof.RefChain.C5.lean ====
/-
  What middle layer 5's operations leave, from any contents R of the buffers: the layer's features as the middle
  layer's term of the previous features, the edge vectors and block 4 of the stacked weights; the edge vectors and
  every argument as they were.
-/
import proofs.«175125_j35716948034103_1_alg».proof.Proof.RefRun.Ops

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo Cert.ReferenceIdeal.RefRun

variable [Cert.ReferenceIdeal.Facts]
variable {F : FTy → Type} [FloatOps F]

set_option maxRecDepth 8192 in
/-- The layer's features. -/
theorem chunk5 (R : Valuation τ sig (Elt F)) :
    after ops5 R (Proc.devRef .tc main_v168)
      = Layers.denseMid (R (Proc.devRef .tc main_v139)) (Layers.agg32 (R (Proc.devRef .tc main_v139)) (R (Proc.devRef .tc main_v1)) (R (Proc.devRef .tc main_v3)))
          (Layers.w1s (R (Proc.devRef .tc main_arg6)) 4) (Layers.b1s (R (Proc.devRef .tc main_arg7)) 4)
          (Layers.w2s (R (Proc.devRef .tc main_arg8)) 4) (Layers.b2s (R (Proc.devRef .tc main_arg9)) 4) := by
  unfold ops5
  after_results_simp
  rfl

theorem chunk5_v1 (R : Valuation τ sig (Elt F)) : after ops5 R (Proc.devRef .tc main_v1) = R (Proc.devRef .tc main_v1) := by
  unfold ops5
  after_results_simp

theorem chunk5_v3 (R : Valuation τ sig (Elt F)) : after ops5 R (Proc.devRef .tc main_v3) = R (Proc.devRef .tc main_v3) := by
  unfold ops5
  after_results_simp

theorem chunk5_arg0 (R : Valuation τ sig (Elt F)) : after ops5 R (Proc.devRef .tc main_arg0) = R (Proc.devRef .tc main_arg0) := by
  unfold ops5
  after_results_simp

theorem chunk5_arg1 (R : Valuation τ sig (Elt F)) : after ops5 R (Proc.devRef .tc main_arg1) = R (Proc.devRef .tc main_arg1) := by
  unfold ops5
  after_results_simp

theorem chunk5_arg2 (R : Valuation τ sig (Elt F)) : after ops5 R (Proc.devRef .tc main_arg2) = R (Proc.devRef .tc main_arg2) := by
  unfold ops5
  after_results_simp

theorem chunk5_arg3 (R : Valuation τ sig (Elt F)) : after ops5 R (Proc.devRef .tc main_arg3) = R (Proc.devRef .tc main_arg3) := by
  unfold ops5
  after_results_simp

theorem chunk5_arg4 (R : Valuation τ sig (Elt F)) : after ops5 R (Proc.devRef .tc main_arg4) = R (Proc.devRef .tc main_arg4) := by
  unfold ops5
  after_results_simp

theorem chunk5_arg5 (R : Valuation τ sig (Elt F)) : after ops5 R (Proc.devRef .tc main_arg5) = R (Proc.devRef .tc main_arg5) := by
  unfold ops5
  after_results_simp

theorem chunk5_arg6 (R : Valuation τ sig (Elt F)) : after ops5 R (Proc.devRef .tc main_arg6) = R (Proc.devRef .tc main_arg6) := by
  unfold ops5
  after_results_simp

theorem chunk5_arg7 (R : Valuation τ sig (Elt F)) : after ops5 R (Proc.devRef .tc main_arg7) = R (Proc.devRef .tc main_arg7) := by
  unfold ops5
  after_results_simp

theorem chunk5_arg8 (R : Valuation τ sig (Elt F)) : after ops5 R (Proc.devRef .tc main_arg8) = R (Proc.devRef .tc main_arg8) := by
  unfold ops5
  after_results_simp

theorem chunk5_arg9 (R : Valuation τ sig (Elt F)) : after ops5 R (Proc.devRef .tc main_arg9) = R (Proc.devRef .tc main_arg9) := by
  unfold ops5
  after_results_simp

theorem chunk5_arg10 (R : Valuation τ sig (Elt F)) : after ops5 R (Proc.devRef .tc main_arg10) = R (Proc.devRef .tc main_arg10) := by
  unfold ops5
  after_results_simp

end Cert.ReferenceIdeal.RefChain

end
-- ==== Proof.RefChain.C6.lean ====
/-
  What middle layer 6's operations leave, from any contents R of the buffers: the layer's features as the middle
  layer's term of the previous features, the edge vectors and block 5 of the stacked weights; the edge vectors and
  every argument as they were.
-/
import proofs.«175125_j35716948034103_1_alg».proof.Proof.RefRun.Ops

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo Cert.ReferenceIdeal.RefRun

variable [Cert.ReferenceIdeal.Facts]
variable {F : FTy → Type} [FloatOps F]

set_option maxRecDepth 8192 in
/-- The layer's features. -/
theorem chunk6 (R : Valuation τ sig (Elt F)) :
    after ops6 R (Proc.devRef .tc main_v197)
      = Layers.denseMid (R (Proc.devRef .tc main_v168)) (Layers.agg32 (R (Proc.devRef .tc main_v168)) (R (Proc.devRef .tc main_v1)) (R (Proc.devRef .tc main_v3)))
          (Layers.w1s (R (Proc.devRef .tc main_arg6)) 5) (Layers.b1s (R (Proc.devRef .tc main_arg7)) 5)
          (Layers.w2s (R (Proc.devRef .tc main_arg8)) 5) (Layers.b2s (R (Proc.devRef .tc main_arg9)) 5) := by
  unfold ops6
  after_results_simp
  rfl

theorem chunk6_v1 (R : Valuation τ sig (Elt F)) : after ops6 R (Proc.devRef .tc main_v1) = R (Proc.devRef .tc main_v1) := by
  unfold ops6
  after_results_simp

theorem chunk6_v3 (R : Valuation τ sig (Elt F)) : after ops6 R (Proc.devRef .tc main_v3) = R (Proc.devRef .tc main_v3) := by
  unfold ops6
  after_results_simp

theorem chunk6_arg0 (R : Valuation τ sig (Elt F)) : after ops6 R (Proc.devRef .tc main_arg0) = R (Proc.devRef .tc main_arg0) := by
  unfold ops6
  after_results_simp

theorem chunk6_arg1 (R : Valuation τ sig (Elt F)) : after ops6 R (Proc.devRef .tc main_arg1) = R (Proc.devRef .tc main_arg1) := by
  unfold ops6
  after_results_simp

theorem chunk6_arg2 (R : Valuation τ sig (Elt F)) : after ops6 R (Proc.devRef .tc main_arg2) = R (Proc.devRef .tc main_arg2) := by
  unfold ops6
  after_results_simp

theorem chunk6_arg3 (R : Valuation τ sig (Elt F)) : after ops6 R (Proc.devRef .tc main_arg3) = R (Proc.devRef .tc main_arg3) := by
  unfold ops6
  after_results_simp

theorem chunk6_arg4 (R : Valuation τ sig (Elt F)) : after ops6 R (Proc.devRef .tc main_arg4) = R (Proc.devRef .tc main_arg4) := by
  unfold ops6
  after_results_simp

theorem chunk6_arg5 (R : Valuation τ sig (Elt F)) : after ops6 R (Proc.devRef .tc main_arg5) = R (Proc.devRef .tc main_arg5) := by
  unfold ops6
  after_results_simp

theorem chunk6_arg6 (R : Valuation τ sig (Elt F)) : after ops6 R (Proc.devRef .tc main_arg6) = R (Proc.devRef .tc main_arg6) := by
  unfold ops6
  after_results_simp

theorem chunk6_arg7 (R : Valuation τ sig (Elt F)) : after ops6 R (Proc.devRef .tc main_arg7) = R (Proc.devRef .tc main_arg7) := by
  unfold ops6
  after_results_simp

theorem chunk6_arg8 (R : Valuation τ sig (Elt F)) : after ops6 R (Proc.devRef .tc main_arg8) = R (Proc.devRef .tc main_arg8) := by
  unfold ops6
  after_results_simp

theorem chunk6_arg9 (R : Valuation τ sig (Elt F)) : after ops6 R (Proc.devRef .tc main_arg9) = R (Proc.devRef .tc main_arg9) := by
  unfold ops6
  after_results_simp

theorem chunk6_arg10 (R : Valuation τ sig (Elt F)) : after ops6 R (Proc.devRef .tc main_arg10) = R (Proc.devRef .tc main_arg10) := by
  unfold ops6
  after_results_simp

end Cert.ReferenceIdeal.RefChain

end
-- ==== Proof.RefChain.C7.lean ====
/-
  What middle layer 7's operations leave, from any contents R of the buffers: the layer's features as the middle
  layer's term of the previous features, the edge vectors and block 6 of the stacked weights; the edge vectors and
  every argument as they were.
-/
import proofs.«175125_j35716948034103_1_alg».proof.Proof.RefRun.Ops

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo Cert.ReferenceIdeal.RefRun

variable [Cert.ReferenceIdeal.Facts]
variable {F : FTy → Type} [FloatOps F]

set_option maxRecDepth 8192 in
/-- The layer's features. -/
theorem chunk7 (R : Valuation τ sig (Elt F)) :
    after ops7 R (Proc.devRef .tc main_v226)
      = Layers.denseMid (R (Proc.devRef .tc main_v197)) (Layers.agg32 (R (Proc.devRef .tc main_v197)) (R (Proc.devRef .tc main_v1)) (R (Proc.devRef .tc main_v3)))
          (Layers.w1s (R (Proc.devRef .tc main_arg6)) 6) (Layers.b1s (R (Proc.devRef .tc main_arg7)) 6)
          (Layers.w2s (R (Proc.devRef .tc main_arg8)) 6) (Layers.b2s (R (Proc.devRef .tc main_arg9)) 6) := by
  unfold ops7
  after_results_simp
  rfl

theorem chunk7_v1 (R : Valuation τ sig (Elt F)) : after ops7 R (Proc.devRef .tc main_v1) = R (Proc.devRef .tc main_v1) := by
  unfold ops7
  after_results_simp

theorem chunk7_v3 (R : Valuation τ sig (Elt F)) : after ops7 R (Proc.devRef .tc main_v3) = R (Proc.devRef .tc main_v3) := by
  unfold ops7
  after_results_simp

theorem chunk7_arg0 (R : Valuation τ sig (Elt F)) : after ops7 R (Proc.devRef .tc main_arg0) = R (Proc.devRef .tc main_arg0) := by
  unfold ops7
  after_results_simp

theorem chunk7_arg1 (R : Valuation τ sig (Elt F)) : after ops7 R (Proc.devRef .tc main_arg1) = R (Proc.devRef .tc main_arg1) := by
  unfold ops7
  after_results_simp

theorem chunk7_arg2 (R : Valuation τ sig (Elt F)) : after ops7 R (Proc.devRef .tc main_arg2) = R (Proc.devRef .tc main_arg2) := by
  unfold ops7
  after_results_simp

theorem chunk7_arg3 (R : Valuation τ sig (Elt F)) : after ops7 R (Proc.devRef .tc main_arg3) = R (Proc.devRef .tc main_arg3) := by
  unfold ops7
  after_results_simp

theorem chunk7_arg4 (R : Valuation τ sig (Elt F)) : after ops7 R (Proc.devRef .tc main_arg4) = R (Proc.devRef .tc main_arg4) := by
  unfold ops7
  after_results_simp

theorem chunk7_arg5 (R : Valuation τ sig (Elt F)) : after ops7 R (Proc.devRef .tc main_arg5) = R (Proc.devRef .tc main_arg5) := by
  unfold ops7
  after_results_simp

theorem chunk7_arg6 (R : Valuation τ sig (Elt F)) : after ops7 R (Proc.devRef .tc main_arg6) = R (Proc.devRef .tc main_arg6) := by
  unfold ops7
  after_results_simp

theorem chunk7_arg7 (R : Valuation τ sig (Elt F)) : after ops7 R (Proc.devRef .tc main_arg7) = R (Proc.devRef .tc main_arg7) := by
  unfold ops7
  after_results_simp

theorem chunk7_arg8 (R : Valuation τ sig (Elt F)) : after ops7 R (Proc.devRef .tc main_arg8) = R (Proc.devRef .tc main_arg8) := by
  unfold ops7
  after_results_simp

theorem chunk7_arg9 (R : Valuation τ sig (Elt F)) : after ops7 R (Proc.devRef .tc main_arg9) = R (Proc.devRef .tc main_arg9) := by
  unfold ops7
  after_results_simp

theorem chunk7_arg10 (R : Valuation τ sig (Elt F)) : after ops7 R (Proc.devRef .tc main_arg10) = R (Proc.devRef .tc main_arg10) := by
  unfold ops7
  after_results_simp

end Cert.ReferenceIdeal.RefChain

end
-- ==== Proof.RefChain.C8.lean ====
/-
  What middle layer 8's operations leave, from any contents R of the buffers: the layer's features as the middle
  layer's term of the previous features, the edge vectors and block 7 of the stacked weights; the edge vectors and
  every argument as they were.
-/
import proofs.«175125_j35716948034103_1_alg».proof.Proof.RefRun.Ops

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo Cert.ReferenceIdeal.RefRun

variable [Cert.ReferenceIdeal.Facts]
variable {F : FTy → Type} [FloatOps F]

set_option maxRecDepth 8192 in
/-- The layer's features. -/
theorem chunk8 (R : Valuation τ sig (Elt F)) :
    after ops8 R (Proc.devRef .tc main_v255)
      = Layers.denseMid (R (Proc.devRef .tc main_v226)) (Layers.agg32 (R (Proc.devRef .tc main_v226)) (R (Proc.devRef .tc main_v1)) (R (Proc.devRef .tc main_v3)))
          (Layers.w1s (R (Proc.devRef .tc main_arg6)) 7) (Layers.b1s (R (Proc.devRef .tc main_arg7)) 7)
          (Layers.w2s (R (Proc.devRef .tc main_arg8)) 7) (Layers.b2s (R (Proc.devRef .tc main_arg9)) 7) := by
  unfold ops8
  after_results_simp
  rfl

theorem chunk8_v1 (R : Valuation τ sig (Elt F)) : after ops8 R (Proc.devRef .tc main_v1) = R (Proc.devRef .tc main_v1) := by
  unfold ops8
  after_results_simp

theorem chunk8_v3 (R : Valuation τ sig (Elt F)) : after ops8 R (Proc.devRef .tc main_v3) = R (Proc.devRef .tc main_v3) := by
  unfold ops8
  after_results_simp

theorem chunk8_arg0 (R : Valuation τ sig (Elt F)) : after ops8 R (Proc.devRef .tc main_arg0) = R (Proc.devRef .tc main_arg0) := by
  unfold ops8
  after_results_simp

theorem chunk8_arg1 (R : Valuation τ sig (Elt F)) : after ops8 R (Proc.devRef .tc main_arg1) = R (Proc.devRef .tc main_arg1) := by
  unfold ops8
  after_results_simp

theorem chunk8_arg2 (R : Valuation τ sig (Elt F)) : after ops8 R (Proc.devRef .tc main_arg2) = R (Proc.devRef .tc main_arg2) := by
  unfold ops8
  after_results_simp

theorem chunk8_arg3 (R : Valuation τ sig (Elt F)) : after ops8 R (Proc.devRef .tc main_arg3) = R (Proc.devRef .tc main_arg3) := by
  unfold ops8
  after_results_simp

theorem chunk8_arg4 (R : Valuation τ sig (Elt F)) : after ops8 R (Proc.devRef .tc main_arg4) = R (Proc.devRef .tc main_arg4) := by
  unfold ops8
  after_results_simp

theorem chunk8_arg5 (R : Valuation τ sig (Elt F)) : after ops8 R (Proc.devRef .tc main_arg5) = R (Proc.devRef .tc main_arg5) := by
  unfold ops8
  after_results_simp

theorem chunk8_arg6 (R : Valuation τ sig (Elt F)) : after ops8 R (Proc.devRef .tc main_arg6) = R (Proc.devRef .tc main_arg6) := by
  unfold ops8
  after_results_simp

theorem chunk8_arg7 (R : Valuation τ sig (Elt F)) : after ops8 R (Proc.devRef .tc main_arg7) = R (Proc.devRef .tc main_arg7) := by
  unfold ops8
  after_results_simp

theorem chunk8_arg8 (R : Valuation τ sig (Elt F)) : after ops8 R (Proc.devRef .tc main_arg8) = R (Proc.devRef .tc main_arg8) := by
  unfold ops8
  after_results_simp

theorem chunk8_arg9 (R : Valuation τ sig (Elt F)) : after ops8 R (Proc.devRef .tc main_arg9) = R (Proc.devRef .tc main_arg9) := by
  unfold ops8
  after_results_simp

theorem chunk8_arg10 (R : Valuation τ sig (Elt F)) : after ops8 R (Proc.devRef .tc main_arg10) = R (Proc.devRef .tc main_arg10) := by
  unfold ops8
  after_results_simp

end Cert.ReferenceIdeal.RefChain

end
-- ==== Proof.RefChain.C9.lean ====
/-
  What the last layer's operations leave, from any contents R of the buffers: the result as the last layer's term
  of the final features, the edge vectors and the last weight matrix; every argument as it was.
-/
import proofs.«175125_j35716948034103_1_alg».proof.Proof.RefRun.Ops

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo Cert.ReferenceIdeal.RefRun

variable [Cert.ReferenceIdeal.Facts]
variable {F : FTy → Type} [FloatOps F]

/-- The result. -/
theorem chunk9 (R : Valuation τ sig (Elt F)) :
    after ops9 R (Proc.devRef .tc main_v267)
      = Layers.denseFin (R (Proc.devRef .tc main_v255)) (Layers.agg32 (R (Proc.devRef .tc main_v255)) (R (Proc.devRef .tc main_v1)) (R (Proc.devRef .tc main_v3)))
          (R (Proc.devRef .tc main_arg10)) := by
  unfold ops9
  after_results_simp
  rfl

theorem chunk9_v1 (R : Valuation τ sig (Elt F)) : after ops9 R (Proc.devRef .tc main_v1) = R (Proc.devRef .tc main_v1) := by
  unfold ops9
  after_results_simp

theorem chunk9_v3 (R : Valuation τ sig (Elt F)) : after ops9 R (Proc.devRef .tc main_v3) = R (Proc.devRef .tc main_v3) := by
  unfold ops9
  after_results_simp

theorem chunk9_arg0 (R : Valuation τ sig (Elt F)) : after ops9 R (Proc.devRef .tc main_arg0) = R (Proc.devRef .tc main_arg0) := by
  unfold ops9
  after_results_simp

theorem chunk9_arg1 (R : Valuation τ sig (Elt F)) : after ops9 R (Proc.devRef .tc main_arg1) = R (Proc.devRef .tc main_arg1) := by
  unfold ops9
  after_results_simp

theorem chunk9_arg2 (R : Valuation τ sig (Elt F)) : after ops9 R (Proc.devRef .tc main_arg2) = R (Proc.devRef .tc main_arg2) := by
  unfold ops9
  after_results_simp

theorem chunk9_arg3 (R : Valuation τ sig (Elt F)) : after ops9 R (Proc.devRef .tc main_arg3) = R (Proc.devRef .tc main_arg3) := by
  unfold ops9
  after_results_simp

theorem chunk9_arg4 (R : Valuation τ sig (Elt F)) : after ops9 R (Proc.devRef .tc main_arg4) = R (Proc.devRef .tc main_arg4) := by
  unfold ops9
  after_results_simp

theorem chunk9_arg5 (R : Valuation τ sig (Elt F)) : after ops9 R (Proc.devRef .tc main_arg5) = R (Proc.devRef .tc main_arg5) := by
  unfold ops9
  after_results_simp

theorem chunk9_arg6 (R : Valuation τ sig (Elt F)) : after ops9 R (Proc.devRef .tc main_arg6) = R (Proc.devRef .tc main_arg6) := by
  unfold ops9
  after_results_simp

theorem chunk9_arg7 (R : Valuation τ sig (Elt F)) : after ops9 R (Proc.devRef .tc main_arg7) = R (Proc.devRef .tc main_arg7) := by
  unfold ops9
  after_results_simp

theorem chunk9_arg8 (R : Valuation τ sig (Elt F)) : after ops9 R (Proc.devRef .tc main_arg8) = R (Proc.devRef .tc main_arg8) := by
  unfold ops9
  after_results_simp

theorem chunk9_arg9 (R : Valuation τ sig (Elt F)) : after ops9 R (Proc.devRef .tc main_arg9) = R (Proc.devRef .tc main_arg9) := by
  unfold ops9
  after_results_simp

theorem chunk9_arg10 (R : Valuation τ sig (Elt F)) : after ops9 R (Proc.devRef .tc main_arg10) = R (Proc.devRef .tc main_arg10) := by
  unfold ops9
  after_results_simp

end Cert.ReferenceIdeal.RefChain

end
-- ==== Proof.RefChain.lean ====
/-
  The reference program's result as the nested layer terms.

  The run leaves every buffer at the fold of the ten layers' operation lists over the launch contents.  The fold over
  an appended list is the fold over its second part of the fold over its first, so the contents after the whole
  program are reached layer by layer.  Through all ten layers three things are kept: every argument buffer holds its
  launch contents (no operation writes an argument), and the two edge vectors, once the first layer has written
  them, hold the source and destination rows of the edge array.  On top of that each layer's last buffer holds the
  layer's term of the previous layer's last buffer: the first layer's features, then the eight middle layers one
  inside the other, then the last layer — which is the reference's result as a function of its eleven arguments.
-/
import proofs.«175125_j35716948034103_1_alg».proof.Proof.RefRun
import proofs.«175125_j35716948034103_1_alg».proof.Proof.RefChain.C0
import proofs.«175125_j35716948034103_1_alg».proof.Proof.RefChain.C1
import proofs.«175125_j35716948034103_1_alg».proof.Proof.RefChain.C2
import proofs.«175125_j35716948034103_1_alg».proof.Proof.RefChain.C3
import proofs.«175125_j35716948034103_1_alg».proof.Proof.RefChain.C4
import proofs.«175125_j35716948034103_1_alg».proof.Proof.RefChain.C5
import proofs.«175125_j35716948034103_1_alg».proof.Proof.RefChain.C6
import proofs.«175125_j35716948034103_1_alg».proof.Proof.RefChain.C7
import proofs.«175125_j35716948034103_1_alg».proof.Proof.RefChain.C8
import proofs.«175125_j35716948034103_1_alg».proof.Proof.RefChain.C9
import Idealize.ShloMosaic.Lib.Pipeline.Frame
import Idealize.ShloMosaic.PureOps.Ideal

noncomputable section

namespace Cert.ReferenceIdeal.RefChain

open Cert.ReferenceIdeal Cert.ReferenceIdeal.Facts₀ Cert.ReferenceIdeal.Facts Idealize.ShloMosaic Idealize.ShloMosaic.TcCoe Idealize.SL.Sem Idealize.ShloMosaic.StableHlo Cert.ReferenceIdeal.RefRun

variable [Cert.ReferenceIdeal.Facts]
variable {F : FTy → Type} [FloatOps F]

/-- What every layer keeps, between contents V at the launch and contents S later: the arguments as launched, the
    edge vectors the source and destination rows of the edge array. -/
structure Keeps (V S : Valuation τ sig (Elt F)) : Prop where
  a0 : S (Proc.devRef .tc main_arg0) = V (Proc.devRef .tc main_arg0)
  a1 : S (Proc.devRef .tc main_arg1) = V (Proc.devRef .tc main_arg1)
  a2 : S (Proc.devRef .tc main_arg2) = V (Proc.devRef .tc main_arg2)
  a3 : S (Proc.devRef .tc main_arg3) = V (Proc.devRef .tc main_arg3)
  a4 : S (Proc.devRef .tc main_arg4) = V (Proc.devRef .tc main_arg4)
  a5 : S (Proc.devRef .tc main_arg5) = V (Proc.devRef .tc main_arg5)
  a6 : S (Proc.devRef .tc main_arg6) = V (Proc.devRef .tc main_arg6)
  a7 : S (Proc.devRef .tc main_arg7) = V (Proc.devRef .tc main_arg7)
  a8 : S (Proc.devRef .tc main_arg8) = V (Proc.devRef .tc main_arg8)
  a9 : S (Proc.devRef .tc main_arg9) = V (Proc.devRef .tc main_arg9)
  a10 : S (Proc.devRef .tc main_arg10) = V (Proc.devRef .tc main_arg10)
  v1 : S (Proc.devRef .tc main_v1) = Layers.srcR (V (Proc.devRef .tc main_arg1))
  v3 : S (Proc.devRef .tc main_v3) = Layers.dstR (V (Proc.devRef .tc main_arg1))

/-- After the first layer. -/
theorem keeps0 (V : Valuation τ sig (Elt F)) : Keeps V (after ops0 V) :=
  ⟨chunk0_arg0 V, chunk0_arg1 V, chunk0_arg2 V, chunk0_arg3 V, chunk0_arg4 V, chunk0_arg5 V, chunk0_arg6 V, chunk0_arg7 V, chunk0_arg8 V, chunk0_arg9 V, chunk0_arg10 V, chunk0_v1 V, chunk0_v3 V⟩

/-- Layer 1 keeps what was kept. -/
theorem keeps1 (V S : Valuation τ sig (Elt F)) (h : Keeps V S) : Keeps V (after ops1 S) :=
  ⟨(chunk1_arg0 S).trans h.a0, (chunk1_arg1 S).trans h.a1, (chunk1_arg2 S).trans h.a2, (chunk1_arg3 S).trans h.a3, (chunk1_arg4 S).trans h.a4, (chunk1_arg5 S).trans h.a5, (chunk1_arg6 S).trans h.a6, (chunk1_arg7 S).trans h.a7, (chunk1_arg8 S).trans h.a8, (chunk1_arg9 S).trans h.a9, (chunk1_arg10 S).trans h.a10,
    (chunk1_v1 S).trans h.v1, (chunk1_v3 S).trans h.v3⟩

/-- Layer 2 keeps what was kept. -/
theorem keeps2 (V S : Valuation τ sig (Elt F)) (h : Keeps V S) : Keeps V (after ops2 S) :=
  ⟨(chunk2_arg0 S).trans h.a0, (chunk2_arg1 S).trans h.a1, (chunk2_arg2 S).trans h.a2, (chunk2_arg3 S).trans h.a3, (chunk2_arg4 S).trans h.a4, (chunk2_arg5 S).trans h.a5, (chunk2_arg6 S).trans h.a6, (chunk2_arg7 S).trans h.a7, (chunk2_arg8 S).trans h.a8, (chunk2_arg9 S).trans h.a9, (chunk2_arg10 S).trans h.a10,
    (chunk2_v1 S).trans h.v1, (chunk2_v3 S).trans h.v3⟩

/-- Layer 3 keeps what was kept. -/
theorem keeps3 (V S : Valuation τ sig (Elt F)) (h : Keeps V S) : Keeps V (after ops3 S) :=
  ⟨(chunk3_arg0 S).trans h.a0, (chunk3_arg1 S).trans h.a1, (chunk3_arg2 S).trans h.a2, (chunk3_arg3 S).trans h.a3, (chunk3_arg4 S).trans h.a4, (chunk3_arg5 S).trans h.a5, (chunk3_arg6 S).trans h.a6, (chunk3_arg7 S).trans h.a7, (chunk3_arg8 S).trans h.a8, (chunk3_arg9 S).trans h.a9, (chunk3_arg10 S).trans h.a10,
    (chunk3_v1 S).trans h.v1, (chunk3_v3 S).trans h.v3⟩

/-- Layer 4 keeps what was kept. -/
theorem keeps4 (V S : Valuation τ sig (Elt F)) (h : Keeps V S) : Keeps V (after ops4 S) :=
  ⟨(chunk4_arg0 S).trans h.a0, (chunk4_arg1 S).trans h.a1, (chunk4_arg2 S).trans h.a2, (chunk4_arg3 S).trans h.a3, (chunk4_arg4 S).trans h.a4, (chunk4_arg5 S).trans h.a5, (chunk4_arg6 S).trans h.a6, (chunk4_arg7 S).trans h.a7, (chunk4_arg8 S).trans h.a8, (chunk4_arg9 S).trans h.a9, (chunk4_arg10 S).trans h.a10,
    (chunk4_v1 S).trans h.v1, (chunk4_v3 S).trans h.v3⟩

/-- Layer 5 keeps what was kept. -/
theorem keeps5 (V S : Valuation τ sig (Elt F)) (h : Keeps V S) : Keeps V (after ops5 S) :=
  ⟨(chunk5_arg0 S).trans h.a0, (chunk5_arg1 S).trans h.a1, (chunk5_arg2 S).trans h.a2, (chunk5_arg3 S).trans h.a3, (chunk5_arg4 S).trans h.a4, (chunk5_arg5 S).trans h.a5, (chunk5_arg6 S).trans h.a6, (chunk5_arg7 S).trans h.a7, (chunk5_arg8 S).trans h.a8, (chunk5_arg9 S).trans h.a9, (chunk5_arg10 S).trans h.a10,
    (chunk5_v1 S).trans h.v1, (chunk5_v3 S).trans h.v3⟩

/-- Layer 6 keeps what was kept. -/
theorem keeps6 (V S : Valuation τ sig (Elt F)) (h : Keeps V S) : Keeps V (after ops6 S) :=
  ⟨(chunk6_arg0 S).trans h.a0, (chunk6_arg1 S).trans h.a1, (chunk6_arg2 S).trans h.a2, (chunk6_arg3 S).trans h.a3, (chunk6_arg4 S).trans h.a4, (chunk6_arg5 S).trans h.a5, (chunk6_arg6 S).trans h.a6, (chunk6_arg7 S).trans h.a7, (chunk6_arg8 S).trans h.a8, (chunk6_arg9 S).trans h.a9, (chunk6_arg10 S).trans h.a10,
    (chunk6_v1 S).trans h.v1, (chunk6_v3 S).trans h.v3⟩

/-- Layer 7 keeps what was kept. -/
theorem keeps7 (V S : Valuation τ sig (Elt F)) (h : Keeps V S) : Keeps V (after ops7 S) :=
  ⟨(chunk7_arg0 S).trans h.a0, (chunk7_arg1 S).trans h.a1, (chunk7_arg2 S).trans h.a2, (chunk7_arg3 S).trans h.a3, (chunk7_arg4 S).trans h.a4, (chunk7_arg5 S).trans h.a5, (chunk7_arg6 S).trans h.a6, (chunk7_arg7 S).trans h.a7, (chunk7_arg8 S).trans h.a8, (chunk7_arg9 S).trans h.a9, (chunk7_arg10 S).trans h.a10,
    (chunk7_v1 S).trans h.v1, (chunk7_v3 S).trans h.v3⟩

/-- Layer 8 keeps what was kept. -/
theorem keeps8 (V S : Valuation τ sig (Elt F)) (h : Keeps V S) : Keeps V (after ops8 S) :=
  ⟨(chunk8_arg0 S).trans h.a0, (chunk8_arg1 S).trans h.a1, (chunk8_arg2 S).trans h.a2, (chunk8_arg3 S).trans h.a3, (chunk8_arg4 S).trans h.a4, (chunk8_arg5 S).trans h.a5, (chunk8_arg6 S).trans h.a6, (chunk8_arg7 S).trans h.a7, (chunk8_arg8 S).trans h.a8, (chunk8_arg9 S).trans h.a9, (chunk8_arg10 S).trans h.a10,
    (chunk8_v1 S).trans h.v1, (chunk8_v3 S).trans h.v3⟩

/-- Layer 9 keeps what was kept. -/
theorem keeps9 (V S : Valuation τ sig (Elt F)) (h : Keeps V S) : Keeps V (after ops9 S) :=
  ⟨(chunk9_arg0 S).trans h.a0, (chunk9_arg1 S).trans h.a1, (chunk9_arg2 S).trans h.a2, (chunk9_arg3 S).trans h.a3, (chunk9_arg4 S).trans h.a4, (chunk9_arg5 S).trans h.a5, (chunk9_arg6 S).trans h.a6, (chunk9_arg7 S).trans h.a7, (chunk9_arg8 S).trans h.a8, (chunk9_arg9 S).trans h.a9, (chunk9_arg10 S).trans h.a10,
    (chunk9_v1 S).trans h.v1, (chunk9_v3 S).trans h.v3⟩

/-- Middle layer 1 over features h is the layer term of h. -/
theorem feat1 (V S : Valuation τ sig (Elt F)) (hk : Keeps V S) (h : FVec F S100000x32 .f32)
    (hp : S (Proc.devRef .tc main_v23) = h) :
    after ops1 S (Proc.devRef .tc main_v52)
      = Layers.layer (V (Proc.devRef .tc main_arg1)) (V (Proc.devRef .tc main_arg6)) (V (Proc.devRef .tc main_arg7)) (V (Proc.devRef .tc main_arg8)) (V (Proc.devRef .tc main_arg9)) 0 h := by
  rw [chunk1 S, hp, hk.v1, hk.v3, hk.a6, hk.a7, hk.a8, hk.a9]
  rfl

/-- Middle layer 2 over features h is the layer term of h. -/
theorem feat2 (V S : Valuation τ sig (Elt F)) (hk : Keeps V S) (h : FVec F S100000x32 .f32)
    (hp : S (Proc.devRef .tc main_v52) = h) :
    after ops2 S (Proc.devRef .tc main_v81)
      = Layers.layer (V (Proc.devRef .tc main_arg1)) (V (Proc.devRef .tc main_arg6)) (V (Proc.devRef .tc main_arg7)) (V (Proc.devRef .tc main_arg8)) (V (Proc.devRef .tc main_arg9)) 1 h := by
  rw [chunk2 S, hp, hk.v1, hk.v3, hk.a6, hk.a7, hk.a8, hk.a9]
  rfl

/-- Middle layer 3 over features h is the layer term of h. -/
theorem feat3 (V S : Valuation τ sig (Elt F)) (hk : Keeps V S) (h : FVec F S100000x32 .f32)
    (hp : S (Proc.devRef .tc main_v81) = h) :
    after ops3 S (Proc.devRef .tc main_v110)
      = Layers.layer (V (Proc.devRef .tc main_arg1)) (V (Proc.devRef .tc main_arg6)) (V (Proc.devRef .tc main_arg7)) (V (Proc.devRef .tc main_arg8)) (V (Proc.devRef .tc main_arg9)) 2 h := by
  rw [chunk3 S, hp, hk.v1, hk.v3, hk.a6, hk.a7, hk.a8, hk.a9]
  rfl

/-- Middle layer 4 over features h is the layer term of h. -/
theorem feat4 (V S : Valuation τ sig (Elt F)) (hk : Keeps V S) (h : FVec F S100000x32 .f32)
    (hp : S (Proc.devRef .tc main_v110) = h) :
    after ops4 S (Proc.devRef .tc main_v139)
      = Layers.layer (V (Proc.devRef .tc main_arg1)) (V (Proc.devRef .tc main_arg6)) (V (Proc.devRef .tc main_arg7)) (V (Proc.devRef .tc main_arg8)) (V (Proc.devRef .tc main_arg9)) 3 h := by
  rw [chunk4 S, hp, hk.v1, hk.v3, hk.a6, hk.a7, hk.a8, hk.a9]
  rfl

/-- Middle layer 5 over features h is the layer term of h. -/
theorem feat5 (V S : Valuation τ sig (Elt F)) (hk : Keeps V S) (h : FVec F S100000x32 .f32)
    (hp : S (Proc.devRef .tc main_v139) = h) :
    after ops5 S (Proc.devRef .tc main_v168)
      = Layers.layer (V (Proc.devRef .tc main_arg1)) (V (Proc.devRef .tc main_arg6)) (V (Proc.devRef .tc main_arg7)) (V (Proc.devRef .tc main_arg8)) (V (Proc.devRef .tc main_arg9)) 4 h := by
  rw [chunk5 S, hp, hk.v1, hk.v3, hk.a6, hk.a7, hk.a8, hk.a9]
  rfl

/-- Middle layer 6 over features h is the layer term of h. -/
theorem feat6 (V S : Valuation τ sig (Elt F)) (hk : Keeps V S) (h : FVec F S100000x32 .f32)
    (hp : S (Proc.devRef .tc main_v168) = h) :
    after ops6 S (Proc.devRef .tc main_v197)
      = Layers.layer (V (Proc.devRef .tc main_arg1)) (V (Proc.devRef .tc main_arg6)) (V (Proc.devRef .tc main_arg7)) (V (Proc.devRef .tc main_arg8)) (V (Proc.devRef .tc main_arg9)) 5 h := by
  rw [chunk6 S, hp, hk.v1, hk.v3, hk.a6, hk.a7, hk.a8, hk.a9]
  rfl

/-- Middle layer 7 over features h is the layer term of h. -/
theorem feat7 (V S : Valuation τ sig (Elt F)) (hk : Keeps V S) (h : FVec F S100000x32 .f32)
    (hp : S (Proc.devRef .tc main_v197) = h) :
    after ops7 S (Proc.devRef .tc main_v226)
      = Layers.layer (V (Proc.devRef .tc main_arg1)) (V (Proc.devRef .tc main_arg6)) (V (Proc.devRef .tc main_arg7)) (V (Proc.devRef .tc main_arg8)) (V (Proc.devRef .tc main_arg9)) 6 h := by
  rw [chunk7 S, hp, hk.v1, hk.v3, hk.a6, hk.a7, hk.a8, hk.a9]
  rfl

/-- Middle layer 8 over features h is the layer term of h. -/
theorem feat8 (V S : Valuation τ sig (Elt F)) (hk : Keeps V S) (h : FVec F S100000x32 .f32)
    (hp : S (Proc.devRef .tc main_v226) = h) :
    after ops8 S (Proc.devRef .tc main_v255)
      = Layers.layer (V (Proc.devRef .tc main_arg1)) (V (Proc.devRef .tc main_arg6)) (V (Proc.devRef .tc main_arg7)) (V (Proc.devRef .tc main_arg8)) (V (Proc.devRef .tc main_arg9)) 7 h := by
  rw [chunk8 S, hp, hk.v1, hk.v3, hk.a6, hk.a7, hk.a8, hk.a9]
  rfl

/-- The last layer over the final features h. -/
theorem feat9 (V S : Valuation τ sig (Elt F)) (hk : Keeps V S) (h : FVec F S100000x32 .f32)
    (hp : S (Proc.devRef .tc main_v255) = h) :
    after ops9 S (Proc.devRef .tc main_v267)
      = Layers.denseFin h (Layers.agg32 h (Layers.srcR (V (Proc.devRef .tc main_arg1))) (Layers.dstR (V (Proc.devRef .tc main_arg1)))) (V (Proc.devRef .tc main_arg10)) := by
  rw [chunk9 S, hp, hk.v1, hk.v3, hk.a10]

/-- The fold of all ten lists from contents V: the result buffer holds the reference's term of the arguments'
    contents, and everything of `Keeps` holds at the end. -/
theorem chain (V : Valuation τ sig (Elt F)) :
    after (ops0 ++ ops1 ++ ops2 ++ ops3 ++ ops4 ++ ops5 ++ ops6 ++ ops7 ++ ops8 ++ ops9) V (Proc.devRef .tc main_v267)
        = Layers.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
      ∧ Keeps V (after (ops0 ++ ops1 ++ ops2 ++ ops3 ++ ops4 ++ ops5 ++ ops6 ++ ops7 ++ ops8 ++ ops9) V) := by
  simp only [after_append]
  have k0 := keeps0 V
  have f0 := chunk0 V
  have k1 := keeps1 V _ k0
  have f1 := feat1 V _ k0 _ f0
  have k2 := keeps2 V _ k1
  have f2 := feat2 V _ k1 _ f1
  have k3 := keeps3 V _ k2
  have f3 := feat3 V _ k2 _ f2
  have k4 := keeps4 V _ k3
  have f4 := feat4 V _ k3 _ f3
  have k5 := keeps5 V _ k4
  have f5 := feat5 V _ k4 _ f4
  have k6 := keeps6 V _ k5
  have f6 := feat6 V _ k5 _ f5
  have k7 := keeps7 V _ k6
  have f7 := feat7 V _ k6 _ f6
  have k8 := keeps8 V _ k7
  have f8 := feat8 V _ k7 _ f7
  have k9 := keeps9 V _ k8
  have f9 := feat9 V _ k8 _ f8
  exact ⟨f9, k9⟩

/-- On every device, from any memory with zero counters: every weakly fair execution of the reference terminates
    with the result buffer at the reference's term of the arguments' launch contents and every argument unchanged. -/
theorem value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v267)
          = Layers.refOut (F := Ideal) (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      have hc := chain (launchContents m c)
      ⟨(h c main_v267).trans hc.1, (h c main_arg0).trans hc.2.a0,
        (h c main_arg1).trans hc.2.a1,
        (h c main_arg2).trans hc.2.a2,
        (h c main_arg3).trans hc.2.a3,
        (h c main_arg4).trans hc.2.a4,
        (h c main_arg5).trans hc.2.a5,
        (h c main_arg6).trans hc.2.a6,
        (h c main_arg7).trans hc.2.a7,
        (h c main_arg8).trans hc.2.a8,
        (h c main_arg9).trans hc.2.a9,
        (h c main_arg10).trans hc.2.a10⟩)
    (RefRun.run (F := Ideal) m ρ)

end Cert.ReferenceIdeal.RefChain

end
-- ==== Proof.LibHostDot.lean ====
/-
  A host matrix product read at one entry.

  The host's `dot_general` of an M × K matrix with a K × N matrix — left contracting axis 1, right contracting axis 0, no
  batch axis: the plain product l · r — is at the ideal values the sum over the contraction coordinate k of
  l (i, k) · r (k, j): entry (i, j) is the dot product of row i of the left operand with column j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.HostDot

open Idealize.ShloMosaic Idealize.ShloMosaic.ValueIdx

/-- Entry (i, j) of an M × K by K × N host `dot_general` contracting the left operand's columns with the right
    operand's rows, at the ideal values: the dot product of the left operand's row i with the right operand's column j. -/
theorem dotGeneral_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    Host.dotGeneral D prec l r (ix2 i j) = ∑ k : Fin K, l (ix2 i k) * r (ix2 k j) := by
  obtain ⟨lc, rc, ln, rn, lb, rb, wf⟩ := D
  dsimp only at hlc hrc hln hrn hlb hrb
  subst hlc hrc hln hrn hlb hrb
  refine (Ideal.dotGeneral_apply _ prec .single l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.HostDot

end
-- ==== Proof.LibHostAffine.lean ====
/-
  Host (StableHLO) operations read at an index, at exact real arithmetic, for arrays of any extents:
  * a scalar constant broadcast to any shape;
  * a bias vector broadcast first to a [1, N] row (dims [1]) and then down M rows (dims [0, 1]);
  * x @ wᵀ + b: a dot_general of an [M, K] array with the transpose of an [N, K] array (contracting [1] × [0]) plus that
    broadcast bias, at (r, n), is Σ_k x(r,k)·w(n,k) + b(n);
  * the host's sum along axis 1 of an [a, b] array from an initial scalar, at row r, is the initial value plus Σ_d x(r,d).
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«175125_j35716948034103_1_alg».proof.Proof.LibHostDot

open scoped BigOperators

noncomputable section

namespace Idealize.ShloMosaic.HostAffine

open Idealize.ShloMosaic Idealize.ShloMosaic.ValueIdx

/-- A scalar constant broadcast to any shape reads, everywhere, as the constant. -/
theorem bcast_const {t : Shape} (dims : Fin 0 → Fin t.rank) (h : (⟨0, ![]⟩ : Shape).BroadcastsInDim t dims) (b : BitVec 32) (j : t.Idx) :
    broadcastInDim t dims h (constant (F := Ideal) ⟨0, ![]⟩ .f32 b) j = Ideal.ofBits .f32 b :=
  (broadcastInDim_apply dims h _ j ix0 (fun a => a.elim0)).trans rfl

/-- A bias vector laid as a row (dims [1]) and repeated down M rows (dims [0, 1]) reads b(n) at (r, n). -/
theorem bias_bcast {M N : ℕ} (b : (⟨1, ![N]⟩ : Shape).Idx → EReal)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (n : Fin N) :
    broadcastInDim ⟨2, ![M, N]⟩ ![0, 1] h2 (broadcastInDim ⟨2, ![1, N]⟩ ![1] h1 b) (ix2 r n) = b (ix1 n) := by
  refine (broadcastInDim_apply _ h2 _ (ix2 r n) (ix2 (0 : Fin 1) n) (fun a => ?_)).trans
    (broadcastInDim_apply _ h1 b (ix2 (0 : Fin 1) n) (ix1 n) (fun a => ?_))
  · match a with
    | ⟨0, _⟩ => rfl
    | ⟨1, _⟩ =>
      show n.val = if N = 1 then 0 else n.val
      split_ifs with hN
      · have := n.isLt; omega
      · rfl
  · match a with
    | ⟨0, _⟩ =>
      show n.val = if N = 1 then 0 else n.val
      split_ifs with hN
      · have := n.isLt; omega
      · rfl

/-- x @ wᵀ + b on the host, at (r, n): Σ_k x(r,k)·w(n,k) + b(n). -/
theorem affine_apply {M K N : ℕ} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (X : FVec Ideal ⟨2, ![M, K]⟩ .f32) (w : FVec Ideal ⟨2, ![N, K]⟩ .f32)
    (ht : (⟨2, ![N, K]⟩ : Shape).Transposes [1, 0] ⟨2, ![K, N]⟩) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (n : Fin N) :
    addf (Host.dotGeneral D none X (transpose ⟨2, ![K, N]⟩ [1, 0] w ht))
        (broadcastInDim ⟨2, ![M, N]⟩ ![0, 1] h2 (broadcastInDim ⟨2, ![1, N]⟩ ![1] h1 b)) (ix2 r n)
      = (∑ k : Fin K, X (ix2 r k) * w (ix2 n k)) + b (ix1 n) := by
  show _ + _ = _
  rw [HostDot.dotGeneral_apply D hlc hrc hln hrn hlb hrb, bias_bcast]
  congr 1
  exact Finset.sum_congr rfl fun k _ => congrArg (_ * ·) (transpose_ix2_apply w ht k n)

/-- The host's sum along axis 1 of an [a, b] array from an initial value, at row r. -/
theorem rowsum_apply {a b : ℕ} (x : FVec Ideal ⟨2, ![a, b]⟩ .f32) (init : (⟨0, ![]⟩ : Shape).Idx → EReal)
    (h' : (⟨2, ![a, b]⟩ : Shape).ReducesTo [1] ⟨1, ![a]⟩) (hu : 0 < (⟨0, ![]⟩ : Shape).numel) (r : Fin a) :
    Host.reduceAdd x init h' hu (ix1 r) = init (Shape.Idx.first hu) + ∑ d : Fin b, x (ix2 r d) := by
  have h : (⟨2, ![a, b]⟩ : Shape).Reduces [1] ⟨1, ![a]⟩ := let ⟨e, f⟩ := h'; ⟨e, Nat.one_pos, f⟩
  refine (Ideal.hostReduceAdd_single h' h x _ (ix1 r)).trans ?_
  refine congrArg (_ + ·) (Finset.sum_congr rfl fun d _ => congrArg x (funext fun ax => Fin.ext ?_))
  match ax with
  | ⟨0, _⟩ => rfl
  | ⟨1, _⟩ => rfl

end Idealize.ShloMosaic.HostAffine

end
-- ==== Proof.RefSelu.lean ====
/-
  The reference's scaled exponential linear unit read at an index.

  The reference spells selu(x) as λ · select(x > 0, x, α · expm1(select(x > 0, 0, x))): the inner choice keeps the
  argument of the exponential at 0 where the outer choice takes x itself.  On the extended reals expm1 y = eʸ − 1,
  and the float word 0x3F800000 is the number 1, so where x > 0 both spellings give λ · x, and elsewhere both give
  λ · α · (eˣ − 1): the reference's selu is the specification's selu at every entry.
-/
import proofs.«175125_j35716948034103_1_alg».proof.Proof.RefDefs
import proofs.«175125_j35716948034103_1_alg».proof.Proof.Spec
import proofs.«175125_j35716948034103_1_alg».proof.Proof.LibHostAffine

noncomputable section

open scoped BigOperators

namespace Cert.ReferenceIdeal.RefLayers

open Cert.ReferenceIdeal Cert.ReferenceIdeal.Facts₀ Cert.ReferenceIdeal.Facts Idealize.ShloMosaic
  Idealize.ShloMosaic.ValueIdx

variable [Cert.ReferenceIdeal.Facts]

omit [Cert.ReferenceIdeal.Facts] in
/-- The float word 0x3F800000 is the number one. -/
theorem ofBits_one_f32 : Ideal.ofBits .f32 0x3F800000#32 = (1 : EReal) := by
  simp [Ideal.ofBits, Ideal.ieee, -EReal.coe_mul]; norm_num

/-- A scalar constant repeated over the hidden layer's shape reads as the constant. -/
theorem splat16_apply (b : BitVec 32) (i : S100000x16.Idx) :
    Layers.splat16 (F := Ideal) (constant S_ .f32 b) i = Ideal.ofBits .f32 b :=
  HostAffine.bcast_const _ bcast_S_S100000x16 b i

/-- The reference's selu at an entry is the specification's selu of that entry. -/
theorem seluR_apply (x : FVec Ideal S100000x16 .f32) (i : S100000x16.Idx) :
    Layers.seluR (F := Ideal) x i = Gin.selu (x i) := by
  unfold Layers.seluR Gin.selu
  show Layers.splat16 (F := Ideal) (constant S_ .f32 0x3F867D5F#32) i *
      Scalar.select (Ideal.cmp .ogt (x i) (Layers.splat16 (F := Ideal) (constant S_ .f32 0x00000000#32) i)) (x i)
        (Layers.splat16 (F := Ideal) (constant S_ .f32 0x3FD62D7D#32) i *
          (Ideal.exp (Scalar.select (Ideal.cmp .ogt (x i) (Layers.splat16 (F := Ideal) (constant S_ .f32 0x00000000#32) i))
            (Layers.splat16 (F := Ideal) (constant S_ .f32 0x00000000#32) i) (x i)) - 1)) = _
  rw [splat16_apply, splat16_apply, splat16_apply]
  by_cases hb : Ideal.cmp .ogt (x i) (Ideal.ofBits .f32 0x00000000#32) = 1#1
  · rw [hb, select_one, select_one]
  · rw [eq_zero_of_ne_one hb, select_zero, select_zero, select_zero, ofBits_one_f32]

end Cert.ReferenceIdeal.RefLayers

end
-- ==== Proof.RefLayers.lean ====
/-
  The reference's layers read at an index.

  Each whole-array layer of the reference is, entry by entry, the specification's formula.  A product of an
  M × K matrix with a K × N matrix read at (r, j) is Σ_k l(r,k) · r(k,j); a bias vector laid as a row and repeated
  down the rows reads b(j) at (r, j); a sum of arrays reads as the sum of the entries; and the reference's selu is
  the specification's at every entry.  So the hidden layer at (r, k) is selu(Σ_c (h(r,c) + a(r,c)) · w1(c,k) + b1(k)),
  the perceptron's output at (r, j) is Σ_k hidden(r,k) · w2(k,j) + b2(j) (plus h(r,j) in a middle layer), and the last
  layer at (r, j) is Σ_c (h(r,c) + a(r,c)) · w(c,j).
-/
import proofs.«175125_j35716948034103_1_alg».proof.Proof.RefSelu

noncomputable section

open scoped BigOperators

namespace Cert.ReferenceIdeal.RefLayers

open Cert.ReferenceIdeal Cert.ReferenceIdeal.Facts₀ Cert.ReferenceIdeal.Facts Idealize.ShloMosaic
  Idealize.ShloMosaic.ValueIdx

variable [Cert.ReferenceIdeal.Facts]

/-- The hidden layer of a perceptron over C input features, at (r, k): selu of the affine form. -/
theorem hidden_apply {C : ℕ} (D : DotDims ⟨2, ![100000, C]⟩ ⟨2, ![C, 16]⟩ ⟨2, ![100000, 16]⟩)
    (hlc : D.lhsContracting = [1]) (hrc : D.rhsContracting = [0]) (hln : D.lhsNonContracting = [0])
    (hrn : D.rhsNonContracting = [1]) (hlb : D.lhsBatch = []) (hrb : D.rhsBatch = [])
    (h a : FVec Ideal ⟨2, ![100000, C]⟩ .f32) (w1 : FVec Ideal ⟨2, ![C, 16]⟩ .f32) (b1 : FVec Ideal S16 .f32)
    (r : Fin 100000) (k : Fin 16) :
    Layers.seluR (F := Ideal) (addf (Host.dotGeneral D none (addf h a) w1) (Layers.bias16 b1)) (ix2 r k)
      = Gin.hid h a w1 (fun k => b1 (ix1 k)) r k := by
  refine (seluR_apply _ (ix2 r k)).trans (congrArg Gin.selu ?_)
  show Host.dotGeneral D none (addf h a) w1 (ix2 r k) + Layers.bias16 b1 (ix2 r k) = _
  refine congrArg₂ (· + ·) ?_ ?_
  · exact HostDot.dotGeneral_apply D hlc hrc hln hrn hlb hrb none (addf h a) w1 r k
  · exact HostAffine.bias_bcast b1 bcast_S16_S1x16_1 bcast_S1x16_S100000x16_0_1 r k

/-- The perceptron's second product plus its bias, at (r, j). -/
theorem out_apply (x : FVec Ideal S100000x16 .f32) (w2 : FVec Ideal S16x32 .f32) (b2 : FVec Ideal S32 .f32)
    (r : Fin 100000) (j : Fin 32) :
    addf (Host.dotGeneral dot_S100000x16_S16x32_S100000x32_1_0_0_1_n_n none x w2) (Layers.bias32 b2) (ix2 r j)
      = (∑ k : Fin 16, x (ix2 r k) * w2 (ix2 k j)) + b2 (ix1 j) := by
  show Host.dotGeneral dot_S100000x16_S16x32_S100000x32_1_0_0_1_n_n none x w2 (ix2 r j) + Layers.bias32 b2 (ix2 r j) = _
  refine congrArg₂ (· + ·) ?_ ?_
  · exact HostDot.dotGeneral_apply dot_S100000x16_S16x32_S100000x32_1_0_0_1_n_n rfl rfl rfl rfl rfl rfl none x w2 r j
  · exact HostAffine.bias_bcast b2 bcast_S32_S1x32_1 bcast_S1x32_S100000x32_0_1 r j

/-- The first layer is the specification's first layer. -/
theorem dense0_eq (h a : FVec Ideal S100000x1 .f32) (w1 : FVec Ideal S1x16 .f32) (b1 : FVec Ideal S16 .f32)
    (w2 : FVec Ideal S16x32 .f32) (b2 : FVec Ideal S32 .f32) :
    Layers.dense0 (F := Ideal) h a w1 b1 w2 b2 = Gin.mlp0 h a w1 (fun k => b1 (ix1 k)) w2 (fun j => b2 (ix1 j)) := by
  funext i
  obtain ⟨r, j, rfl⟩ : ∃ (r : Fin 100000) (j : Fin 32), i = ix2 r j := ⟨i 0, i 1, eq_ix2 i⟩
  unfold Layers.dense0
  refine (out_apply _ w2 b2 r j).trans ?_
  show _ = (∑ k : Fin 16, Gin.hid h a w1 (fun k => b1 (ix1 k)) r k * w2 (ix2 k j)) + b2 (ix1 j)
  refine congrArg (· + b2 (ix1 j)) (Finset.sum_congr rfl fun k _ => congrArg (· * w2 (ix2 k j)) ?_)
  exact hidden_apply dot_S100000x1_S1x16_S100000x16_1_0_0_1_n_n rfl rfl rfl rfl rfl rfl h a w1 b1 r k

/-- A middle layer is the specification's middle layer. -/
theorem denseMid_eq (h a : FVec Ideal S100000x32 .f32) (w1 : FVec Ideal S32x16 .f32) (b1 : FVec Ideal S16 .f32)
    (w2 : FVec Ideal S16x32 .f32) (b2 : FVec Ideal S32 .f32) :
    Layers.denseMid (F := Ideal) h a w1 b1 w2 b2 = Gin.mlpMid h a w1 (fun k => b1 (ix1 k)) w2 (fun j => b2 (ix1 j)) := by
  funext i
  obtain ⟨r, j, rfl⟩ : ∃ (r : Fin 100000) (j : Fin 32), i = ix2 r j := ⟨i 0, i 1, eq_ix2 i⟩
  unfold Layers.denseMid
  show addf (Host.dotGeneral dot_S100000x16_S16x32_S100000x32_1_0_0_1_n_n none _ w2) (Layers.bias32 b2) (ix2 r j) + h (ix2 r j)
      = ((∑ k : Fin 16, Gin.hid h a w1 (fun k => b1 (ix1 k)) r k * w2 (ix2 k j)) + b2 (ix1 j)) + h (ix2 r j)
  refine congrArg (· + h (ix2 r j)) ((out_apply _ w2 b2 r j).trans ?_)
  refine congrArg (· + b2 (ix1 j)) (Finset.sum_congr rfl fun k _ => congrArg (· * w2 (ix2 k j)) ?_)
  exact hidden_apply dot_S100000x32_S32x16_S100000x16_1_0_0_1_n_n rfl rfl rfl rfl rfl rfl h a w1 b1 r k

/-- The last layer is the specification's last layer. -/
theorem denseFin_eq (h a : FVec Ideal S100000x32 .f32) (w : FVec Ideal S32x1 .f32) :
    Layers.denseFin (F := Ideal) h a w = Gin.fin h a w := by
  funext i
  obtain ⟨r, j, rfl⟩ : ∃ (r : Fin 100000) (j : Fin 1), i = ix2 r j := ⟨i 0, i 1, eq_ix2 i⟩
  unfold Layers.denseFin
  exact HostDot.dotGeneral_apply dot_S100000x32_S32x1_S100000x1_1_0_0_1_n_n rfl rfl rfl rfl rfl rfl none (addf h a) w r j

/-! ## A vector laid as a row by a reshape -/

omit [Cert.ReferenceIdeal.Facts] in
/-- A vector of 16 reshaped to a 1 × 16 row reads, at (0, k), the vector at k. -/
theorem row_of_vec16 (b : FVec Ideal S16 .f32) (h : S16.ShapeCasts S1x16) (k : Fin 16) :
    shapeCast S1x16 b h (ix2 (0 : Fin 1) k) = b (ix1 k) :=
  shapeCast_a_1a_apply b h 0 k

omit [Cert.ReferenceIdeal.Facts] in
/-- A vector of 32 reshaped to a 1 × 32 row reads, at (0, j), the vector at j. -/
theorem row_of_vec32 (b : FVec Ideal S32 .f32) (h : S32.ShapeCasts S1x32) (j : Fin 32) :
    shapeCast S1x32 b h (ix2 (0 : Fin 1) j) = b (ix1 j) :=
  shapeCast_a_1a_apply b h 0 j

end Cert.ReferenceIdeal.RefLayers

end
-- ==== Proof.Bridge.lean ====
/-
  The reference's result is the kernel program's result, as whole-array terms.

  Both programs form the edge endpoints, the neighbour sums and the blocks of the stacked weights by the same host
  operations on the same arrays, so those terms are equal outright.  A bias vector laid as a one-row matrix and read
  along the row is the vector itself.  Each of the reference's layers is the specification's layer of the same
  arguments, so layer by layer the reference's features are the kernel program's features, and the last product of the
  one is the last product of the other.
-/
import proofs.«175125_j35716948034103_1_alg».proof.Proof.RefLayers
import proofs.«175125_j35716948034103_1_alg».proof.Proof.KDefs

noncomputable section

namespace Cert.Bridge

open Idealize.ShloMosaic Idealize.ShloMosaic.ValueIdx

variable [Cert.KernelIdeal.Facts] [Cert.ReferenceIdeal.Facts]

/-! ## The host operations both programs share -/

/-- The sources of the edges are the same vector in both programs. -/
theorem srcR_eq (ei : IVec Cert.ReferenceIdeal.S2x1600000 32) :
    Cert.KernelIdeal.Layers.srcR ei = Cert.ReferenceIdeal.Layers.srcR ei := rfl

/-- The destinations of the edges are the same vector in both programs. -/
theorem dstR_eq (ei : IVec Cert.ReferenceIdeal.S2x1600000 32) :
    Cert.KernelIdeal.Layers.dstR ei = Cert.ReferenceIdeal.Layers.dstR ei := rfl

/-- The neighbour sums of one-feature rows are the same array in both programs. -/
theorem agg1_eq (h : FVec Ideal Cert.ReferenceIdeal.S100000x1 .f32) (src dst : IVec Cert.ReferenceIdeal.S1600000 32) :
    Cert.KernelIdeal.Layers.agg1 (F := Ideal) h src dst = Cert.ReferenceIdeal.Layers.agg1 (F := Ideal) h src dst := rfl

/-- The neighbour sums of thirty-two-feature rows are the same array in both programs. -/
theorem agg32_eq (h : FVec Ideal Cert.ReferenceIdeal.S100000x32 .f32) (src dst : IVec Cert.ReferenceIdeal.S1600000 32) :
    Cert.KernelIdeal.Layers.agg32 (F := Ideal) h src dst = Cert.ReferenceIdeal.Layers.agg32 (F := Ideal) h src dst := rfl

/-- Block k of the stacked first weights is the same matrix in both programs. -/
theorem w1s_eq (W : FVec Ideal Cert.ReferenceIdeal.S8x32x16 .f32) (k : Fin 8) :
    Cert.KernelIdeal.Layers.w1s (F := Ideal) W k = Cert.ReferenceIdeal.Layers.w1s (F := Ideal) W k := by
  fin_cases k <;> rfl

/-- Row k of the stacked first biases is the same vector in both programs. -/
theorem b1s_eq (W : FVec Ideal Cert.ReferenceIdeal.S8x16 .f32) (k : Fin 8) :
    Cert.KernelIdeal.Layers.b1s (F := Ideal) W k = Cert.ReferenceIdeal.Layers.b1s (F := Ideal) W k := by
  fin_cases k <;> rfl

/-- Block k of the stacked second weights is the same matrix in both programs. -/
theorem w2s_eq (W : FVec Ideal Cert.ReferenceIdeal.S8x16x32 .f32) (k : Fin 8) :
    Cert.KernelIdeal.Layers.w2s (F := Ideal) W k = Cert.ReferenceIdeal.Layers.w2s (F := Ideal) W k := by
  fin_cases k <;> rfl

/-- Row k of the stacked second biases is the same vector in both programs. -/
theorem b2s_eq (W : FVec Ideal Cert.ReferenceIdeal.S8x32 .f32) (k : Fin 8) :
    Cert.KernelIdeal.Layers.b2s (F := Ideal) W k = Cert.ReferenceIdeal.Layers.b2s (F := Ideal) W k := by
  fin_cases k <;> rfl

/-- A vector of 16 laid as a one-row matrix and read along the row is the vector. -/
theorem row16_eq (b : FVec Ideal Cert.ReferenceIdeal.S16 .f32) :
    Cert.KernelIdeal.Layers.row16 (F := Ideal) b = fun k => b (ix1 k) :=
  funext fun k => Cert.ReferenceIdeal.RefLayers.row_of_vec16 b _ k

/-- A vector of 32 laid as a one-row matrix and read along the row is the vector. -/
theorem row32_eq (b : FVec Ideal Cert.ReferenceIdeal.S32 .f32) :
    Cert.KernelIdeal.Layers.row32 (F := Ideal) b = fun j => b (ix1 j) :=
  funext fun j => Cert.ReferenceIdeal.RefLayers.row_of_vec32 b _ j

/-! ## Layer by layer -/

/-- The reference's first layer is the kernel program's first layer. -/
theorem first_eq (x : FVec Ideal Cert.ReferenceIdeal.S100000x1 .f32) (ei : IVec Cert.ReferenceIdeal.S2x1600000 32)
    (w10 : FVec Ideal Cert.ReferenceIdeal.S1x16 .f32) (b10 : FVec Ideal Cert.ReferenceIdeal.S16 .f32)
    (w20 : FVec Ideal Cert.ReferenceIdeal.S16x32 .f32) (b20 : FVec Ideal Cert.ReferenceIdeal.S32 .f32) :
    Cert.ReferenceIdeal.Layers.dense0 (F := Ideal) x
        (Cert.ReferenceIdeal.Layers.agg1 x (Cert.ReferenceIdeal.Layers.srcR ei) (Cert.ReferenceIdeal.Layers.dstR ei)) w10 b10 w20 b20
      = Gin.mlp0 x (Cert.KernelIdeal.Layers.agg1 x (Cert.KernelIdeal.Layers.srcR ei) (Cert.KernelIdeal.Layers.dstR ei)) w10
          (Cert.KernelIdeal.Layers.row16 b10) w20 (Cert.KernelIdeal.Layers.row32 b20) := by
  rw [Cert.ReferenceIdeal.RefLayers.dense0_eq, srcR_eq, dstR_eq, agg1_eq, row16_eq, row32_eq]

/-- The reference's middle layer k is the kernel program's middle layer k. -/
theorem layer_eq (ei : IVec Cert.ReferenceIdeal.S2x1600000 32) (W1 : FVec Ideal Cert.ReferenceIdeal.S8x32x16 .f32)
    (B1 : FVec Ideal Cert.ReferenceIdeal.S8x16 .f32) (W2 : FVec Ideal Cert.ReferenceIdeal.S8x16x32 .f32)
    (B2 : FVec Ideal Cert.ReferenceIdeal.S8x32 .f32) (k : Fin 8) (h : FVec Ideal Cert.ReferenceIdeal.S100000x32 .f32) :
    Cert.ReferenceIdeal.Layers.layer (F := Ideal) ei W1 B1 W2 B2 k h = Cert.KernelIdeal.Layers.layerG ei W1 B1 W2 B2 k h := by
  unfold Cert.ReferenceIdeal.Layers.layer Cert.KernelIdeal.Layers.layerG
  rw [Cert.ReferenceIdeal.RefLayers.denseMid_eq, srcR_eq, dstR_eq, agg32_eq, w1s_eq, b1s_eq, w2s_eq, b2s_eq, row16_eq,
    row32_eq]

/-- The reference's features after the nine layers are the kernel program's. -/
theorem feats_eq (x : FVec Ideal Cert.ReferenceIdeal.S100000x1 .f32) (ei : IVec Cert.ReferenceIdeal.S2x1600000 32)
    (w10 : FVec Ideal Cert.ReferenceIdeal.S1x16 .f32) (b10 : FVec Ideal Cert.ReferenceIdeal.S16 .f32)
    (w20 : FVec Ideal Cert.ReferenceIdeal.S16x32 .f32) (b20 : FVec Ideal Cert.ReferenceIdeal.S32 .f32)
    (W1 : FVec Ideal Cert.ReferenceIdeal.S8x32x16 .f32) (B1 : FVec Ideal Cert.ReferenceIdeal.S8x16 .f32)
    (W2 : FVec Ideal Cert.ReferenceIdeal.S8x16x32 .f32) (B2 : FVec Ideal Cert.ReferenceIdeal.S8x32 .f32) :
    Cert.ReferenceIdeal.Layers.feats (F := Ideal) x ei w10 b10 w20 b20 W1 B1 W2 B2
      = Cert.KernelIdeal.Layers.featsG x ei w10 b10 w20 b20 W1 B1 W2 B2 := by
  unfold Cert.ReferenceIdeal.Layers.feats Cert.KernelIdeal.Layers.featsG
  rw [first_eq]
  simp only [layer_eq]

/-- The reference's result is the kernel program's result. -/
theorem refOut_eq_kOut (x : FVec Ideal Cert.ReferenceIdeal.S100000x1 .f32) (ei : IVec Cert.ReferenceIdeal.S2x1600000 32)
    (w10 : FVec Ideal Cert.ReferenceIdeal.S1x16 .f32) (b10 : FVec Ideal Cert.ReferenceIdeal.S16 .f32)
    (w20 : FVec Ideal Cert.ReferenceIdeal.S16x32 .f32) (b20 : FVec Ideal Cert.ReferenceIdeal.S32 .f32)
    (W1 : FVec Ideal Cert.ReferenceIdeal.S8x32x16 .f32) (B1 : FVec Ideal Cert.ReferenceIdeal.S8x16 .f32)
    (W2 : FVec Ideal Cert.ReferenceIdeal.S8x16x32 .f32) (B2 : FVec Ideal Cert.ReferenceIdeal.S8x32 .f32)
    (wl : FVec Ideal Cert.ReferenceIdeal.S32x1 .f32) :
    Cert.ReferenceIdeal.Layers.refOut (F := Ideal) x ei w10 b10 w20 b20 W1 B1 W2 B2 wl
      = Cert.KernelIdeal.Layers.kOut x ei w10 b10 w20 b20 W1 B1 W2 B2 wl := by
  unfold Cert.ReferenceIdeal.Layers.refOut Cert.KernelIdeal.Layers.kOut
  rw [Cert.ReferenceIdeal.RefLayers.denseFin_eq, feats_eq, srcR_eq, dstR_eq, agg32_eq]

end Cert.Bridge

end
-- ==== Proof.lean ====
/-
  The proof of the certificate's claim.

  The kernel program and the reference both compute a ten-layer graph network on the extended reals: a first
  perceptron layer on one feature, eight residual perceptron layers on thirty-two features, and a last plain product,
  each fed with the previous features and their neighbour sums.  The kernel program's run ends with its result at the
  composition of the specification's ten layers of its eleven arguments; the reference's run ends with its result at the
  reference's own ten layers of its arguments; layer by layer the reference's terms are the specification's, read at
  an index, so from memories that agree on the arguments the two results are one array.  Each run also leaves the
  arguments as launched, which is each program's frame; the idealization rewrote nothing, so what it preserves is
  trivially preserved.
-/
import proofs.«175125_j35716948034103_1_alg».proof.Defs
import proofs.«175125_j35716948034103_1_alg».proof.Proof.Gen.Kernel
import proofs.«175125_j35716948034103_1_alg».proof.Proof.Gen.Kernel.Skeleton
import proofs.«175125_j35716948034103_1_alg».proof.Proof.Gen.Kernel.Launch
import proofs.«175125_j35716948034103_1_alg».proof.Proof.Gen.Kernel.Points
import proofs.«175125_j35716948034103_1_alg».proof.Proof.Gen.Kernel.Frame
import proofs.«175125_j35716948034103_1_alg».proof.Proof.Gen.KernelIdeal
import proofs.«175125_j35716948034103_1_alg».proof.Proof.Gen.KernelIdeal.Skeleton
import proofs.«175125_j35716948034103_1_alg».proof.Proof.Gen.KernelIdeal.Launch
import proofs.«175125_j35716948034103_1_alg».proof.Proof.Gen.KernelIdeal.Points
import proofs.«175125_j35716948034103_1_alg».proof.Proof.Gen.KernelIdeal.Frame
import proofs.«175125_j35716948034103_1_alg».proof.Proof.Gen.ReferenceIdeal
import proofs.«175125_j35716948034103_1_alg».proof.Proof.Gen.Pre_finite_inputs
import Idealize.ShloMosaic.Adequacy
import Idealize.ShloMosaic.Init
import proofs.«175125_j35716948034103_1_alg».proof.Proof.KValue
import proofs.«175125_j35716948034103_1_alg».proof.Proof.RefChain
import proofs.«175125_j35716948034103_1_alg».proof.Proof.Bridge

noncomputable section

namespace Cert.Proof

open Idealize.ShloMosaic Idealize.ShloMosaic.TcCoe Idealize.SL.Sem

/-- The kernel program runs and leaves its arguments as launched. -/
theorem frame_k : Cert.frame_Kernel := fun m ρ _ => Cert.Kernel.Gen.frame m ρ

/-- The kernel program at the ideal values runs and leaves its arguments as launched. -/
theorem frame_ki : Cert.frame_KernelIdeal := fun m ρ _ => Cert.KernelIdeal.Gen.frame m ρ

/-- The reference at the ideal values runs and leaves its arguments as launched: its run with the result named,
    the result forgotten. -/
theorem frame_ri : Cert.frame_ReferenceIdeal := fun m ρ _ =>
  (θ_run Cert.ReferenceIdeal.defs _ _).mono (fun _ h c => (h c).2) (Cert.ReferenceIdeal.RefChain.value m ρ)

/-- At the ideal values, from memories that agree on the eleven arguments, the kernel program ends with its result at
    the composition of the specification's ten layers of its arguments, the reference with its result at its own
    ten layers of the same arguments, and the two compositions are one array. -/
theorem algebraic : Cert.algebraic_KernelIdeal_ReferenceIdeal := by
  intro m ρ m' ρ' _ hagree
  refine ⟨fun c => Cert.KernelIdeal.Layers.kOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.Value.value m ρ, ?_⟩
  refine (θ_run Cert.ReferenceIdeal.defs _ _).mono (fun _ h c => ⟨(h c).1.trans ?_, (h c).2⟩)
    (Cert.ReferenceIdeal.RefChain.value m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]
  exact Cert.Bridge.refOut_eq_kOut _ _ _ _ _ _ _ _ _ _ _

/-- Everything the certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
